-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v84)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v84) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S10922x4096 : Shape := ⟨2, ![10922, 4096]⟩
abbrev S4096x10922 : Shape := ⟨2, ![4096, 10922]⟩
abbrev S10922 : Shape := ⟨1, ![10922]⟩
abbrev S4096 : Shape := ⟨1, ![4096]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S10922x4096 : S_.BroadcastsInDim S10922x4096 (![] : Fin 0 → Fin S10922x4096.rank)
  reducesTo_S10922x4096_S_d0_1 : S10922x4096.ReducesTo [0, 1] S_
  bcast_S_S4096x10922 : S_.BroadcastsInDim S4096x10922 (![] : Fin 0 → Fin S4096x10922.rank)
  reducesTo_S4096x10922_S_d0_1 : S4096x10922.ReducesTo [0, 1] S_
  bcast_S_S10922 : S_.BroadcastsInDim S10922 (![] : Fin 0 → Fin S10922.rank)
  reducesTo_S10922_S_d0 : S10922.ReducesTo [0] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : FVec F S10922 .f32) (main_arg5 : FVec F S10922 .f32) (main_arg6 : FVec F S4096 .f32) (main_v13 : IVec S_ 1) (main_v16 : IVec S4096x10922 1) : IVec S_ 1 :=
  let main_c_5 : IVec S_ 1 := constantI S_ 1 1#1
  let main_v17 : IVec S_ 1 := (fun x v => Host.reduce IntOp.andi x v reducesTo_S4096x10922_S_d0_1 h_S_) main_v16 main_c_5
  let main_v18 : IVec S_ 1 := andi main_v13 main_v17
  let main_v19 : FVec F S10922 .f32 := Host.absf main_arg4
  let main_cst_6 : FVec F S_ .f32 := constant S_ .f32 0x7F800000#32
  let main_v20 : FVec F S10922 .f32 := broadcastInDim S10922 ![] bcast_S_S10922 main_cst_6
  let main_v21 : IVec S10922 1 := cmpf .olt main_v19 main_v20
  let main_c_7 : IVec S_ 1 := constantI S_ 1 1#1
  let main_v22 : IVec S_ 1 := (fun x v => Host.reduce IntOp.andi x v reducesTo_S10922_S_d0 h_S_) main_v21 main_c_7
  let main_v23 : IVec S_ 1 := andi main_v18 main_v22
  let main_v24 : FVec F S10922 .f32 := Host.absf main_arg5
  let main_cst_8 : FVec F S_ .f32 := constant S_ .f32 0x7F800000#32
  let main_v25 : FVec F S10922 .f32 := broadcastInDim S10922 ![] bcast_S_S10922 main_cst_8
  let main_v26 : IVec S10922 1 := cmpf .olt main_v24 main_v25
  let main_c_9 : IVec S_ 1 := constantI S_ 1 1#1
  let main_v27 : IVec S_ 1 := (fun x v => Host.reduce IntOp.andi x v reducesTo_S10922_S_d0 h_S_) main_v26 main_c_9
  let main_v28 : IVec S_ 1 := andi main_v23 main_v27
  let main_v29 : FVec F S4096 .f32 := Host.absf main_arg6
  let main_cst_10 : FVec F S_ .f32 := constant S_ .f32 0x7F800000#32
  let main_v30 : FVec F S4096 .f32 := broadcastInDim S4096 ![] bcast_S_S4096 main_cst_10
  let main_v31 : IVec S4096 1 := cmpf .olt main_v29 main_v30
  let main_c_11 : IVec S_ 1 := constantI S_ 1 1#1
  let main_v32 : IVec S_ 1 := (fun x v => Host.reduce IntOp.andi x v reducesTo_S4096_S_d0 h_S_) main_v31 main_c_11
  let main_v33 : IVec S_ 1 := andi main_v28 main_v32
  main_v33

def fn {F : FTy → Type} [FloatOps F] (main_arg0 : FVec F S4096x4096 .f32) (main_arg1 : FVec F S10922x4096 .f32) (main_arg2 : FVec F S10922x4096 .f32) (main_arg3 : FVec F S4096x10922 .f32) (main_arg4 : FVec F S10922 .f32) (main_arg5 : FVec F S10922 .f32) (main_arg6 : FVec F S4096 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S10922x4096 .f32 := Host.absf main_arg1
  let main_cst_0 : FVec F S_ .f32 := constant S_ .f32 0x7F800000#32
  let main_v5 : FVec F S10922x4096 .f32 := broadcastInDim S10922x4096 ![] bcast_S_S10922x4096 main_cst_0
  let main_v6 : IVec S10922x4096 1 := cmpf .olt main_v4 main_v5
  let main_c_1 : IVec S_ 1 := constantI S_ 1 1#1
  let main_v7 : IVec S_ 1 := (fun x v => Host.reduce IntOp.andi x v reducesTo_S10922x4096_S_d0_1 h_S_) main_v6 main_c_1
  let main_v8 : IVec S_ 1 := andi main_v3 main_v7
  let main_v9 : FVec F S10922x4096 .f32 := Host.absf main_arg2
  let main_cst_2 : FVec F S_ .f32 := constant S_ .f32 0x7F800000#32
  let main_v10 : FVec F S10922x4096 .f32 := broadcastInDim S10922x4096 ![] bcast_S_S10922x4096 main_cst_2
  let main_v11 : IVec S10922x4096 1 := cmpf .olt main_v9 main_v10
  let main_c_3 : IVec S_ 1 := constantI S_ 1 1#1
  let main_v12 : IVec S_ 1 := (fun x v => Host.reduce IntOp.andi x v reducesTo_S10922x4096_S_d0_1 h_S_) main_v11 main_c_3
  let main_v13 : IVec S_ 1 := andi main_v8 main_v12
  let main_v14 : FVec F S4096x10922 .f32 := Host.absf main_arg3
  let main_cst_4 : FVec F S_ .f32 := constant S_ .f32 0x7F800000#32
  let main_v15 : FVec F S4096x10922 .f32 := broadcastInDim S4096x10922 ![] bcast_S_S4096x10922 main_cst_4
  let main_v16 : IVec S4096x10922 1 := cmpf .olt main_v14 main_v15
  fn_part1 (F := F) main_arg4 main_arg5 main_arg6 main_v13 main_v16
-- ==== Kernel.lean ====
abbrev S4096x4096 : Shape := ⟨2, ![4096, 4096]⟩
abbrev S10922x4096 : Shape := ⟨2, ![10922, 4096]⟩
abbrev S4096x10922 : Shape := ⟨2, ![4096, 10922]⟩
abbrev S10922 : Shape := ⟨1, ![10922]⟩
abbrev S4096 : Shape := ⟨1, ![4096]⟩
abbrev S_ : Shape := ⟨0, ![]⟩
abbrev S11264x4096 : Shape := ⟨2, ![11264, 4096]⟩
abbrev S4096x11264 : Shape := ⟨2, ![4096, 11264]⟩
abbrev S11264 : Shape := ⟨1, ![11264]⟩
abbrev S1024x1024 : Shape := ⟨2, ![1024, 1024]⟩
abbrev S1024 : Shape := ⟨1, ![1024]⟩
abbrev S1x1024 : Shape := ⟨2, ![1, 1024]⟩

abbrev nBuf : Space → Nat
  | .hbm => 180
  | .vmem => 27
  | .smem => 0
  | _ => 0

abbrev hbmTy0_0 (i : Nat) : BufTy := match i % 128 with
  | 0 => ⟨S4096x4096, .f32⟩
  | 1 => ⟨S10922x4096, .f32⟩
  | 2 => ⟨S10922x4096, .f32⟩
  | 3 => ⟨S4096x10922, .f32⟩
  | 4 => ⟨S10922, .f32⟩
  | 5 => ⟨S10922, .f32⟩
  | 6 => ⟨S4096, .f32⟩
  | 7 => ⟨S_, .i32⟩
  | 8 => ⟨S_, .f32⟩
  | 9 => ⟨S11264x4096, .f32⟩
  | 10 => ⟨S_, .i32⟩
  | 11 => ⟨S_, .f32⟩
  | 12 => ⟨S11264x4096, .f32⟩
  | 13 => ⟨S_, .i32⟩
  | 14 => ⟨S_, .f32⟩
  | 15 => ⟨S4096x11264, .f32⟩
  | 16 => ⟨S_, .i32⟩
  | 17 => ⟨S_, .f32⟩
  | 18 => ⟨S11264, .f32⟩
  | 19 => ⟨S_, .i32⟩
  | 20 => ⟨S_, .f32⟩
  | 21 => ⟨S11264, .f32⟩
  | 22 => ⟨S4096x4096, .f32⟩
  | 23 => ⟨S_, .f32⟩
  | 24 => ⟨S_, .f32⟩
  | 25 => ⟨S_, .f32⟩
  | 26 => ⟨S_, .f32⟩
  | 27 => ⟨S_, .f32⟩
  | 28 => ⟨S_, .f32⟩
  | 29 => ⟨S4096x4096, .f32⟩
  | 30 => ⟨S4096x4096, .f32⟩
  | 31 => ⟨S4096x4096, .f32⟩
  | 32 => ⟨S_, .f32⟩
  | 33 => ⟨S_, .f32⟩
  | 34 => ⟨S_, .f32⟩
  | 35 => ⟨S4096x4096, .f32⟩
  | 36 => ⟨S4096x4096, .f32⟩
  | 37 => ⟨S_, .f32⟩
  | 38 => ⟨S4096x4096, .f32⟩
  | 39 => ⟨S4096x4096, .f32⟩
  | 40 => ⟨S4096x4096, .f32⟩
  | 41 => ⟨S4096x4096, .f32⟩
  | 42 => ⟨S11264x4096, .f32⟩
  | 43 => ⟨S_, .f32⟩
  | 44 => ⟨S_, .f32⟩
  | 45 => ⟨S_, .f32⟩
  | 46 => ⟨S_, .f32⟩
  | 47 => ⟨S_, .f32⟩
  | 48 => ⟨S_, .f32⟩
  | 49 => ⟨S11264x4096, .f32⟩
  | 50 => ⟨S11264x4096, .f32⟩
  | 51 => ⟨S11264x4096, .f32⟩
  | 52 => ⟨S_, .f32⟩
  | 53 => ⟨S_, .f32⟩
  | 54 => ⟨S_, .f32⟩
  | 55 => ⟨S11264x4096, .f32⟩
  | 56 => ⟨S11264x4096, .f32⟩
  | 57 => ⟨S_, .f32⟩
  | 58 => ⟨S11264x4096, .f32⟩
  | 59 => ⟨S11264x4096, .f32⟩
  | 60 => ⟨S11264x4096, .f32⟩
  | 61 => ⟨S11264x4096, .f32⟩
  | 62 => ⟨S11264x4096, .f32⟩
  | 63 => ⟨S_, .f32⟩
  | 64 => ⟨S_, .f32⟩
  | 65 => ⟨S_, .f32⟩
  | 66 => ⟨S_, .f32⟩
  | 67 => ⟨S_, .f32⟩
  | 68 => ⟨S_, .f32⟩
  | 69 => ⟨S11264x4096, .f32⟩
  | 70 => ⟨S11264x4096, .f32⟩
  | 71 => ⟨S11264x4096, .f32⟩
  | 72 => ⟨S_, .f32⟩
  | 73 => ⟨S_, .f32⟩
  | 74 => ⟨S_, .f32⟩
  | 75 => ⟨S11264x4096, .f32⟩
  | 76 => ⟨S11264x4096, .f32⟩
  | 77 => ⟨S_, .f32⟩
  | 78 => ⟨S11264x4096, .f32⟩
  | 79 => ⟨S11264x4096, .f32⟩
  | 80 => ⟨S11264x4096, .f32⟩
  | 81 => ⟨S11264x4096, .f32⟩
  | 82 => ⟨S4096x11264, .f32⟩
  | 83 => ⟨S_, .f32⟩
  | 84 => ⟨S_, .f32⟩
  | 85 => ⟨S_, .f32⟩
  | 86 => ⟨S_, .f32⟩
  | 87 => ⟨S_, .f32⟩
  | 88 => ⟨S_, .f32⟩
  | 89 => ⟨S4096x11264, .f32⟩
  | 90 => ⟨S4096x11264, .f32⟩
  | 91 => ⟨S4096x11264, .f32⟩
  | 92 => ⟨S_, .f32⟩
  | 93 => ⟨S_, .f32⟩
  | 94 => ⟨S_, .f32⟩
  | 95 => ⟨S4096x11264, .f32⟩
  | 96 => ⟨S4096x11264, .f32⟩
  | 97 => ⟨S_, .f32⟩
  | 98 => ⟨S4096x11264, .f32⟩
  | 99 => ⟨S4096x11264, .f32⟩
  | 100 => ⟨S4096x11264, .f32⟩
  | 101 => ⟨S4096x11264, .f32⟩
  | 102 => ⟨S4096x4096, .bf16⟩
  | 103 => ⟨S11264x4096, .bf16⟩
  | 104 => ⟨S11264x4096, .bf16⟩
  | 105 => ⟨S4096x11264, .f32⟩
  | 106 => ⟨S4096x11264, .f32⟩
  | 107 => ⟨S4096x11264, .f32⟩
  | 108 => ⟨S_, .f32⟩
  | 109 => ⟨S_, .f32⟩
  | 110 => ⟨S_, .f32⟩
  | 111 => ⟨S_, .f32⟩
  | 112 => ⟨S_, .f32⟩
  | 113 => ⟨S_, .f32⟩
  | 114 => ⟨S4096x11264, .f32⟩
  | 115 => ⟨S4096x11264, .f32⟩
  | 116 => ⟨S4096x11264, .f32⟩
  | 117 => ⟨S_, .f32⟩
  | 118 => ⟨S_, .f32⟩
  | 119 => ⟨S_, .f32⟩
  | 120 => ⟨S4096x11264, .f32⟩
  | 121 => ⟨S4096x11264, .f32⟩
  | 122 => ⟨S_, .f32⟩
  | 123 => ⟨S4096x11264, .f32⟩
  | 124 => ⟨S4096x11264, .f32⟩
  | 125 => ⟨S4096x11264, .f32⟩
  | 126 => ⟨S4096x11264, .f32⟩
  | 127 => ⟨S4096x11264, .f32⟩
  | _ => ⟨S4096x4096, .f32⟩

abbrev hbmTy0_1 (i : Nat) : BufTy := match i % 128 with
  | 0 => ⟨S_, .f32⟩
  | 1 => ⟨S_, .f32⟩
  | 2 => ⟨S_, .f32⟩
  | 3 => ⟨S_, .f32⟩
  | 4 => ⟨S_, .f32⟩
  | 5 => ⟨S_, .f32⟩
  | 6 => ⟨S4096x11264, .f32⟩
  | 7 => ⟨S4096x11264, .f32⟩
  | 8 => ⟨S4096x11264, .f32⟩
  | 9 => ⟨S_, .f32⟩
  | 10 => ⟨S_, .f32⟩
  | 11 => ⟨S_, .f32⟩
  | 12 => ⟨S4096x11264, .f32⟩
  | 13 => ⟨S4096x11264, .f32⟩
  | 14 => ⟨S_, .f32⟩
  | 15 => ⟨S4096x11264, .f32⟩
  | 16 => ⟨S4096x11264, .f32⟩
  | 17 => ⟨S4096x11264, .f32⟩
  | 18 => ⟨S4096x11264, .f32⟩
  | 19 => ⟨S4096x11264, .f32⟩
  | 20 => ⟨S4096x11264, .f32⟩
  | 21 => ⟨S_, .f32⟩
  | 22 => ⟨S4096x11264, .f32⟩
  | 23 => ⟨S4096x11264, .f32⟩
  | 24 => ⟨S_, .f32⟩
  | 25 => ⟨S4096x11264, .f32⟩
  | 26 => ⟨S4096x11264, .f32⟩
  | 27 => ⟨S4096x11264, .f32⟩
  | 28 => ⟨S4096x11264, .f32⟩
  | 29 => ⟨S4096x11264, .f32⟩
  | 30 => ⟨S_, .f32⟩
  | 31 => ⟨S_, .f32⟩
  | 32 => ⟨S_, .f32⟩
  | 33 => ⟨S_, .f32⟩
  | 34 => ⟨S_, .f32⟩
  | 35 => ⟨S_, .f32⟩
  | 36 => ⟨S4096x11264, .f32⟩
  | 37 => ⟨S4096x11264, .f32⟩
  | 38 => ⟨S4096x11264, .f32⟩
  | 39 => ⟨S_, .f32⟩
  | 40 => ⟨S_, .f32⟩
  | 41 => ⟨S_, .f32⟩
  | 42 => ⟨S4096x11264, .f32⟩
  | 43 => ⟨S4096x11264, .f32⟩
  | 44 => ⟨S_, .f32⟩
  | 45 => ⟨S4096x11264, .f32⟩
  | 46 => ⟨S4096x11264, .f32⟩
  | 47 => ⟨S4096x11264, .f32⟩
  | 48 => ⟨S4096x11264, .f32⟩
  | 49 => ⟨S4096x11264, .bf16⟩
  | 50 => ⟨S4096x11264, .bf16⟩
  | 51 => ⟨S4096x4096, .f32⟩
  | _ => ⟨S4096x4096, .f32⟩

abbrev hbmTy (i : Nat) : BufTy := match i / 128 with
  | 0 => hbmTy0_0 i
  | 1 => hbmTy0_1 i
  | _ => ⟨S4096x4096, .f32⟩

abbrev bufTy : (tb : Table) → Fin (tcTables nBuf tb) → BufTy
  | .hbm, ⟨i, _⟩ => hbmTy i
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024, .f32⟩
  | .local _ .vmem, ⟨5, _⟩ => ⟨S1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024, .f32⟩
  | .local _ .vmem, ⟨14, _⟩ => ⟨S1024, .f32⟩
  | .local _ .vmem, ⟨15, _⟩ => ⟨S1024x1024, .f32⟩
  | .local _ .vmem, ⟨16, _⟩ => ⟨S1024x1024, .f32⟩
  | .local _ .vmem, ⟨17, _⟩ => ⟨S1024x1024, .f32⟩
  | .local _ .vmem, ⟨18, _⟩ => ⟨S1024x1024, .bf16⟩
  | .local _ .vmem, ⟨19, _⟩ => ⟨S1024x1024, .bf16⟩
  | .local _ .vmem, ⟨20, _⟩ => ⟨S1024x1024, .bf16⟩
  | .local _ .vmem, ⟨21, _⟩ => ⟨S1024x1024, .bf16⟩
  | .local _ .vmem, ⟨22, _⟩ => ⟨S1024, .f32⟩
  | .local _ .vmem, ⟨23, _⟩ => ⟨S1024, .f32⟩
  | .local _ .vmem, ⟨24, _⟩ => ⟨S1024x1024, .f32⟩
  | .local _ .vmem, ⟨25, _⟩ => ⟨S1024x1024, .f32⟩
  | .local _ .vmem, ⟨26, _⟩ => ⟨S1024x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_call0_v0 : Ref sig .tc := ⟨.hbm, 8, rfl⟩
abbrev main_v0 : Ref sig .tc := ⟨.hbm, 9, rfl⟩
abbrev main_c_0 : Ref sig .tc := ⟨.hbm, 10, rfl⟩
abbrev main_call1_v0 : Ref sig .tc := ⟨.hbm, 11, rfl⟩
abbrev main_v1 : Ref sig .tc := ⟨.hbm, 12, rfl⟩
abbrev main_c_1 : Ref sig .tc := ⟨.hbm, 13, rfl⟩
abbrev main_call2_v0 : Ref sig .tc := ⟨.hbm, 14, rfl⟩
abbrev main_v2 : Ref sig .tc := ⟨.hbm, 15, rfl⟩
abbrev main_c_2 : Ref sig .tc := ⟨.hbm, 16, rfl⟩
abbrev main_call3_v0 : Ref sig .tc := ⟨.hbm, 17, rfl⟩
abbrev main_v3 : Ref sig .tc := ⟨.hbm, 18, rfl⟩
abbrev main_c_3 : Ref sig .tc := ⟨.hbm, 19, rfl⟩
abbrev main_call4_v0 : Ref sig .tc := ⟨.hbm, 20, rfl⟩
abbrev main_v4 : Ref sig .tc := ⟨.hbm, 21, rfl⟩
abbrev main_v5 : Ref sig .tc := ⟨.hbm, 22, rfl⟩
abbrev main_cst : Ref sig .tc := ⟨.hbm, 23, rfl⟩
abbrev main_v6 : Ref sig .tc := ⟨.hbm, 24, rfl⟩
abbrev main_cst_4 : Ref sig .tc := ⟨.hbm, 25, rfl⟩
abbrev main_v7 : Ref sig .tc := ⟨.hbm, 26, rfl⟩
abbrev main_cst_5 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_cst_6 : Ref sig .tc := ⟨.hbm, 32, rfl⟩
abbrev main_cst_7 : Ref sig .tc := ⟨.hbm, 33, rfl⟩
abbrev main_call6_v0 : Ref sig .tc := ⟨.hbm, 34, rfl⟩
abbrev main_call6_v1 : Ref sig .tc := ⟨.hbm, 35, rfl⟩
abbrev main_call6_v2 : Ref sig .tc := ⟨.hbm, 36, rfl⟩
abbrev main_call6_v3 : Ref sig .tc := ⟨.hbm, 37, rfl⟩
abbrev main_call6_v4 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_cst_8 : Ref sig .tc := ⟨.hbm, 43, rfl⟩
abbrev main_v16 : Ref sig .tc := ⟨.hbm, 44, rfl⟩
abbrev main_cst_9 : Ref sig .tc := ⟨.hbm, 45, rfl⟩
abbrev main_v17 : Ref sig .tc := ⟨.hbm, 46, rfl⟩
abbrev main_cst_10 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_cst_11 : Ref sig .tc := ⟨.hbm, 52, rfl⟩
abbrev main_cst_12 : Ref sig .tc := ⟨.hbm, 53, rfl⟩
abbrev main_call8_v0 : Ref sig .tc := ⟨.hbm, 54, rfl⟩
abbrev main_call8_v1 : Ref sig .tc := ⟨.hbm, 55, rfl⟩
abbrev main_call8_v2 : Ref sig .tc := ⟨.hbm, 56, rfl⟩
abbrev main_call8_v3 : Ref sig .tc := ⟨.hbm, 57, rfl⟩
abbrev main_call8_v4 : Ref sig .tc := ⟨.hbm, 58, rfl⟩
abbrev main_v22 : Ref sig .tc := ⟨.hbm, 59, rfl⟩
abbrev main_v23 : Ref sig .tc := ⟨.hbm, 60, rfl⟩
abbrev main_v24 : Ref sig .tc := ⟨.hbm, 61, rfl⟩
abbrev main_v25 : Ref sig .tc := ⟨.hbm, 62, rfl⟩
abbrev main_cst_13 : Ref sig .tc := ⟨.hbm, 63, rfl⟩
abbrev main_v26 : Ref sig .tc := ⟨.hbm, 64, rfl⟩
abbrev main_cst_14 : Ref sig .tc := ⟨.hbm, 65, rfl⟩
abbrev main_v27 : Ref sig .tc := ⟨.hbm, 66, rfl⟩
abbrev main_cst_15 : Ref sig .tc := ⟨.hbm, 67, rfl⟩
abbrev main_v28 : Ref sig .tc := ⟨.hbm, 68, rfl⟩
abbrev main_v29 : Ref sig .tc := ⟨.hbm, 69, rfl⟩
abbrev main_v30 : Ref sig .tc := ⟨.hbm, 70, rfl⟩
abbrev main_v31 : Ref sig .tc := ⟨.hbm, 71, rfl⟩
abbrev main_cst_16 : Ref sig .tc := ⟨.hbm, 72, rfl⟩
abbrev main_cst_17 : Ref sig .tc := ⟨.hbm, 73, rfl⟩
abbrev main_call10_v0 : Ref sig .tc := ⟨.hbm, 74, rfl⟩
abbrev main_call10_v1 : Ref sig .tc := ⟨.hbm, 75, rfl⟩
abbrev main_call10_v2 : Ref sig .tc := ⟨.hbm, 76, rfl⟩
abbrev main_call10_v3 : Ref sig .tc := ⟨.hbm, 77, rfl⟩
abbrev main_call10_v4 : Ref sig .tc := ⟨.hbm, 78, rfl⟩
abbrev main_v32 : Ref sig .tc := ⟨.hbm, 79, rfl⟩
abbrev main_v33 : Ref sig .tc := ⟨.hbm, 80, rfl⟩
abbrev main_v34 : Ref sig .tc := ⟨.hbm, 81, rfl⟩
abbrev main_v35 : Ref sig .tc := ⟨.hbm, 82, rfl⟩
abbrev main_cst_18 : Ref sig .tc := ⟨.hbm, 83, rfl⟩
abbrev main_v36 : Ref sig .tc := ⟨.hbm, 84, rfl⟩
abbrev main_cst_19 : Ref sig .tc := ⟨.hbm, 85, rfl⟩
abbrev main_v37 : Ref sig .tc := ⟨.hbm, 86, rfl⟩
abbrev main_cst_20 : Ref sig .tc := ⟨.hbm, 87, rfl⟩
abbrev main_v38 : Ref sig .tc := ⟨.hbm, 88, rfl⟩
abbrev main_v39 : Ref sig .tc := ⟨.hbm, 89, rfl⟩
abbrev main_v40 : Ref sig .tc := ⟨.hbm, 90, rfl⟩
abbrev main_v41 : Ref sig .tc := ⟨.hbm, 91, rfl⟩
abbrev main_cst_21 : Ref sig .tc := ⟨.hbm, 92, rfl⟩
abbrev main_cst_22 : Ref sig .tc := ⟨.hbm, 93, rfl⟩
abbrev main_call12_v0 : Ref sig .tc := ⟨.hbm, 94, rfl⟩
abbrev main_call12_v1 : Ref sig .tc := ⟨.hbm, 95, rfl⟩
abbrev main_call12_v2 : Ref sig .tc := ⟨.hbm, 96, rfl⟩
abbrev main_call12_v3 : Ref sig .tc := ⟨.hbm, 97, rfl⟩
abbrev main_call12_v4 : Ref sig .tc := ⟨.hbm, 98, rfl⟩
abbrev main_v42 : Ref sig .tc := ⟨.hbm, 99, rfl⟩
abbrev main_v43 : Ref sig .tc := ⟨.hbm, 100, rfl⟩
abbrev main_v44 : Ref sig .tc := ⟨.hbm, 101, rfl⟩
abbrev main_v45 : Ref sig .tc := ⟨.hbm, 102, rfl⟩
abbrev main_v46 : Ref sig .tc := ⟨.hbm, 103, rfl⟩
abbrev main_v47 : Ref sig .tc := ⟨.hbm, 104, rfl⟩
abbrev main_v48 : Ref sig .tc := ⟨.hbm, 105, rfl⟩
abbrev main_v49 : Ref sig .tc := ⟨.hbm, 106, rfl⟩
abbrev main_v50 : Ref sig .tc := ⟨.hbm, 107, rfl⟩
abbrev main_cst_23 : Ref sig .tc := ⟨.hbm, 108, rfl⟩
abbrev main_v51 : Ref sig .tc := ⟨.hbm, 109, rfl⟩
abbrev main_cst_24 : Ref sig .tc := ⟨.hbm, 110, rfl⟩
abbrev main_v52 : Ref sig .tc := ⟨.hbm, 111, rfl⟩
abbrev main_cst_25 : Ref sig .tc := ⟨.hbm, 112, rfl⟩
abbrev main_v53 : Ref sig .tc := ⟨.hbm, 113, rfl⟩
abbrev main_v54 : Ref sig .tc := ⟨.hbm, 114, rfl⟩
abbrev main_v55 : Ref sig .tc := ⟨.hbm, 115, rfl⟩
abbrev main_v56 : Ref sig .tc := ⟨.hbm, 116, rfl⟩
abbrev main_cst_26 : Ref sig .tc := ⟨.hbm, 117, rfl⟩
abbrev main_cst_27 : Ref sig .tc := ⟨.hbm, 118, rfl⟩
abbrev main_call14_v0 : Ref sig .tc := ⟨.hbm, 119, rfl⟩
abbrev main_call14_v1 : Ref sig .tc := ⟨.hbm, 120, rfl⟩
abbrev main_call14_v2 : Ref sig .tc := ⟨.hbm, 121, rfl⟩
abbrev main_call14_v3 : Ref sig .tc := ⟨.hbm, 122, rfl⟩
abbrev main_call14_v4 : Ref sig .tc := ⟨.hbm, 123, rfl⟩
abbrev main_v57 : Ref sig .tc := ⟨.hbm, 124, rfl⟩
abbrev main_v58 : Ref sig .tc := ⟨.hbm, 125, rfl⟩
abbrev main_v59 : Ref sig .tc := ⟨.hbm, 126, rfl⟩
abbrev main_v60 : Ref sig .tc := ⟨.hbm, 127, rfl⟩
abbrev main_cst_28 : Ref sig .tc := ⟨.hbm, 128, rfl⟩
abbrev main_v61 : Ref sig .tc := ⟨.hbm, 129, rfl⟩
abbrev main_cst_29 : Ref sig .tc := ⟨.hbm, 130, rfl⟩
abbrev main_v62 : Ref sig .tc := ⟨.hbm, 131, rfl⟩
abbrev main_cst_30 : Ref sig .tc := ⟨.hbm, 132, rfl⟩
abbrev main_v63 : Ref sig .tc := ⟨.hbm, 133, rfl⟩
abbrev main_v64 : Ref sig .tc := ⟨.hbm, 134, rfl⟩
abbrev main_v65 : Ref sig .tc := ⟨.hbm, 135, rfl⟩
abbrev main_v66 : Ref sig .tc := ⟨.hbm, 136, rfl⟩
abbrev main_cst_31 : Ref sig .tc := ⟨.hbm, 137, rfl⟩
abbrev main_cst_32 : Ref sig .tc := ⟨.hbm, 138, rfl⟩
abbrev main_call16_v0 : Ref sig .tc := ⟨.hbm, 139, rfl⟩
abbrev main_call16_v1 : Ref sig .tc := ⟨.hbm, 140, rfl⟩
abbrev main_call16_v2 : Ref sig .tc := ⟨.hbm, 141, rfl⟩
abbrev main_call16_v3 : Ref sig .tc := ⟨.hbm, 142, rfl⟩
abbrev main_call16_v4 : Ref sig .tc := ⟨.hbm, 143, rfl⟩
abbrev main_v67 : Ref sig .tc := ⟨.hbm, 144, rfl⟩
abbrev main_v68 : Ref sig .tc := ⟨.hbm, 145, rfl⟩
abbrev main_v69 : Ref sig .tc := ⟨.hbm, 146, rfl⟩
abbrev main_call17_v0 : Ref sig .tc := ⟨.hbm, 147, rfl⟩
abbrev main_call17_v1 : Ref sig .tc := ⟨.hbm, 148, rfl⟩
abbrev main_call17_cst : Ref sig .tc := ⟨.hbm, 149, rfl⟩
abbrev main_call17_v2 : Ref sig .tc := ⟨.hbm, 150, rfl⟩
abbrev main_call17_v3 : Ref sig .tc := ⟨.hbm, 151, rfl⟩
abbrev main_call17_cst_0 : Ref sig .tc := ⟨.hbm, 152, rfl⟩
abbrev main_call17_v4 : Ref sig .tc := ⟨.hbm, 153, rfl⟩
abbrev main_call17_v5 : Ref sig .tc := ⟨.hbm, 154, rfl⟩
abbrev main_v70 : Ref sig .tc := ⟨.hbm, 155, rfl⟩
abbrev main_v71 : Ref sig .tc := ⟨.hbm, 156, rfl⟩
abbrev main_v72 : Ref sig .tc := ⟨.hbm, 157, rfl⟩
abbrev main_cst_33 : Ref sig .tc := ⟨.hbm, 158, rfl⟩
abbrev main_v73 : Ref sig .tc := ⟨.hbm, 159, rfl⟩
abbrev main_cst_34 : Ref sig .tc := ⟨.hbm, 160, rfl⟩
abbrev main_v74 : Ref sig .tc := ⟨.hbm, 161, rfl⟩
abbrev main_cst_35 : Ref sig .tc := ⟨.hbm, 162, rfl⟩
abbrev main_v75 : Ref sig .tc := ⟨.hbm, 163, rfl⟩
abbrev main_v76 : Ref sig .tc := ⟨.hbm, 164, rfl⟩
abbrev main_v77 : Ref sig .tc := ⟨.hbm, 165, rfl⟩
abbrev main_v78 : Ref sig .tc := ⟨.hbm, 166, rfl⟩
abbrev main_cst_36 : Ref sig .tc := ⟨.hbm, 167, rfl⟩
abbrev main_cst_37 : Ref sig .tc := ⟨.hbm, 168, rfl⟩
abbrev main_call19_v0 : Ref sig .tc := ⟨.hbm, 169, rfl⟩
abbrev main_call19_v1 : Ref sig .tc := ⟨.hbm, 170, rfl⟩
abbrev main_call19_v2 : Ref sig .tc := ⟨.hbm, 171, rfl⟩
abbrev main_call19_v3 : Ref sig .tc := ⟨.hbm, 172, rfl⟩
abbrev main_call19_v4 : Ref sig .tc := ⟨.hbm, 173, rfl⟩
abbrev main_v79 : Ref sig .tc := ⟨.hbm, 174, rfl⟩
abbrev main_v80 : Ref sig .tc := ⟨.hbm, 175, rfl⟩
abbrev main_v81 : Ref sig .tc := ⟨.hbm, 176, rfl⟩
abbrev main_v82 : Ref sig .tc := ⟨.hbm, 177, rfl⟩
abbrev main_v83 : Ref sig .tc := ⟨.hbm, 178, rfl⟩
abbrev main_v84 : Ref sig .tc := ⟨.hbm, 179, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_scratch0 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg2_1 : Ref sig .tc := ⟨.vmem, 23, rfl⟩
abbrev cc2_stg3_0 : Ref sig .tc := ⟨.vmem, 24, rfl⟩
abbrev cc2_stg3_1 : Ref sig .tc := ⟨.vmem, 25, rfl⟩
abbrev cc2_scratch0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc2_sem3_0 : DmaSem sig := 22
abbrev cc2_sem3_1 : DmaSem sig := 23

abbrev nD : Nat := 1
abbrev τ : Topo := Topo.v7x

variable {F : FTy → Type} [FloatOps F]

abbrev grid0 : Pipeline.Grid := ⟨3, ![4, 11, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev grid1 : Pipeline.Grid := ⟨3, ![4, 11, 4], ![false, false, false]⟩

def k1_cond2 (i : grid1.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, false]

abbrev stage1_3 : Fin 2 → Memref sig .tc .vmem S1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

abbrev grid2 : Pipeline.Grid := ⟨3, ![4, 4, 11], ![false, false, false]⟩

def k2_cond2 (i : grid2.Coords) : BitVec 1 :=
  let arg2 : BitVec 32 := BitVec.ofNat 32 (i 2).val
  let c10_i32 : BitVec 32 := 10#32
  let v13 : BitVec 1 := Scalar.cmpi .eq arg2 c10_i32
  let v14 : BitVec 32 := Scalar.extui v13
  let c0_i32_8 : BitVec 32 := 0#32
  let v15 : BitVec 1 := Scalar.cmpi .ne v14 c0_i32_8
  v15

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc2_transform_2 (i : grid2.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat]

def cc2_transform_3 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S1024x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S1024x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true, false]

abbrev stage2_3 : Fin 2 → Memref sig .tc .vmem S1024x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true, false]

class Facts₀ : Prop where
  pads_S10922x4096_S11264x4096_03420_000 : S10922x4096.Pads (![0, 0] : Fin 2 → Nat) ![342, 0] ![0, 0] S11264x4096
  h_S_ : 0 < S_.numel
  pads_S4096x10922_S4096x11264_000_03420 : S4096x10922.Pads (![0, 0] : Fin 2 → Nat) ![0, 342] ![0, 0] S4096x11264
  pads_S10922_S11264_03420 : S10922.Pads (![0] : Fin 1 → Nat) ![342] ![0] S11264
  reducesTo_S4096x4096_S_d0_1 : S4096x4096.ReducesTo [0, 1] S_
  bcast_S_S4096x4096 : S_.BroadcastsInDim S4096x4096 (![] : Fin 0 → Fin S4096x4096.rank)
  reducesTo_S11264x4096_S_d0_1 : S11264x4096.ReducesTo [0, 1] S_
  bcast_S_S11264x4096 : S_.BroadcastsInDim S11264x4096 (![] : Fin 0 → Fin S11264x4096.rank)
  reducesTo_S4096x11264_S_d0_1 : S4096x11264.ReducesTo [0, 1] S_
  bcast_S_S4096x11264 : S_.BroadcastsInDim S4096x11264 (![] : Fin 0 → Fin S4096x11264.rank)
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024_S1024_0 : ∀ a, (![0] : Fin 1 → Nat) a + S1024.size a ≤ S1024.size a
  h_S1024 : 0 < S1024.numel
  shapeCasts_S1024_S1024 : S1024.ShapeCasts S1024
  shapeCasts_S1024_S1x1024 : S1024.ShapeCasts S1x1024
  broadcasts_S1x1024_S1024x1024 : S1x1024.Broadcasts S1024x1024
  dot_S1024x1024_S1024x1024_S1024x1024_1_1_0_0_n_n_wf : DotDims.WF S1024x1024 S1024x1024 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x4096.size a
  hwx0_0 : ∀ i : grid0.Coords, EltTy.bits .bf16 = 32 ∨ (Rect.block (s := S4096x4096) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S11264x4096.size a
  hwx0_1 : ∀ i : grid0.Coords, EltTy.bits .bf16 = 32 ∨ (Rect.block (s := S11264x4096) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S11264.size a
  hwx0_2 : ∀ i : grid0.Coords, EltTy.bits .f32 = 32 ∨ (Rect.block (s := S11264) S1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S4096x11264.size a
  hwx0_3 : ∀ i : grid0.Coords, EltTy.bits .f32 = 32 ∨ (Rect.block (s := S4096x11264) S1024x1024.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S4096x4096.size a
  hwx1_0 : ∀ i : grid1.Coords, EltTy.bits .bf16 = 32 ∨ (Rect.block (s := S4096x4096) S1024x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S11264x4096.size a
  hwx1_1 : ∀ i : grid1.Coords, EltTy.bits .bf16 = 32 ∨ (Rect.block (s := S11264x4096) S1024x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024.size a ≤ S11264.size a
  hwx1_2 : ∀ i : grid1.Coords, EltTy.bits .f32 = 32 ∨ (Rect.block (s := S11264) S1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S4096x11264.size a
  hwx1_3 : ∀ i : grid1.Coords, EltTy.bits .f32 = 32 ∨ (Rect.block (s := S4096x11264) S1024x1024.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x1024.size a ≤ S4096x11264.size a
  hwx2_0 : ∀ i : grid2.Coords, EltTy.bits .bf16 = 32 ∨ (Rect.block (s := S4096x11264) S1024x1024.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S4096x11264.size a
  hwx2_1 : ∀ i : grid2.Coords, EltTy.bits .bf16 = 32 ∨ (Rect.block (s := S4096x11264) S1024x1024.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024.size a ≤ S4096.size a
  hwx2_2 : ∀ i : grid2.Coords, EltTy.bits .f32 = 32 ∨ (Rect.block (s := S4096) S1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x1024.size a ≤ S4096x4096.size a
  hwx2_3 : ∀ i : grid2.Coords, EltTy.bits .f32 = 32 ∨ (Rect.block (s := S4096x4096) S1024x1024.size (cc2_transform_3 i) (hinb2_3 i)).WholeWords (EltTy.packing .f32)

variable [Facts₀]

def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_v45) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v46) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v48) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v45) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v47) S1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4) S1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v49) S1024x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

abbrev win2_0 : Pipeline.Window sig grid2 :=
  Pipeline.Window.ofSpec (Memref.whole main_v82) S1024x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v83) S1024x1024.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg6) S1024.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v84) S1024x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev idle2 : Fin 4 → grid2.Coords → Bool := fun | 0 => fun _ => false | 1 => fun _ => false | 2 => fun _ => false | 3 => fun i => !(k2_cond2 i == 1#1) | ⟨_ + 4, h⟩ => absurd h (Nat.not_lt.2 (Nat.le_add_left _ _))

class Facts : Prop extends Facts₀ where

variable [Facts]
-- ==== ReferenceIdeal.lean ====
abbrev S4096x4096 : Shape := ⟨2, ![4096, 4096]⟩
abbrev S10922x4096 : Shape := ⟨2, ![10922, 4096]⟩
abbrev S4096x10922 : Shape := ⟨2, ![4096, 10922]⟩
abbrev S10922 : Shape := ⟨1, ![10922]⟩
abbrev S4096 : Shape := ⟨1, ![4096]⟩
abbrev S_ : Shape := ⟨0, ![]⟩
abbrev S1x10922 : Shape := ⟨2, ![1, 10922]⟩
abbrev S1x4096 : Shape := ⟨2, ![1, 4096]⟩

abbrev nBuf : Space → Nat
  | .hbm => 169
  | .vmem => 0
  | .smem => 0
  | _ => 0

abbrev hbmTy0_0 (i : Nat) : BufTy := match i % 128 with
  | 0 => ⟨S4096x4096, .f32⟩
  | 1 => ⟨S10922x4096, .f32⟩
  | 2 => ⟨S10922x4096, .f32⟩
  | 3 => ⟨S4096x10922, .f32⟩
  | 4 => ⟨S10922, .f32⟩
  | 5 => ⟨S10922, .f32⟩
  | 6 => ⟨S4096, .f32⟩
  | 7 => ⟨S4096x4096, .f32⟩
  | 8 => ⟨S_, .f32⟩
  | 9 => ⟨S_, .f32⟩
  | 10 => ⟨S_, .f32⟩
  | 11 => ⟨S_, .f32⟩
  | 12 => ⟨S_, .f32⟩
  | 13 => ⟨S_, .f32⟩
  | 14 => ⟨S4096x4096, .f32⟩
  | 15 => ⟨S4096x4096, .f32⟩
  | 16 => ⟨S4096x4096, .f32⟩
  | 17 => ⟨S_, .f32⟩
  | 18 => ⟨S_, .f32⟩
  | 19 => ⟨S_, .f32⟩
  | 20 => ⟨S4096x4096, .f32⟩
  | 21 => ⟨S4096x4096, .f32⟩
  | 22 => ⟨S_, .f32⟩
  | 23 => ⟨S4096x4096, .f32⟩
  | 24 => ⟨S4096x4096, .f32⟩
  | 25 => ⟨S4096x4096, .f32⟩
  | 26 => ⟨S4096x4096, .f32⟩
  | 27 => ⟨S10922x4096, .f32⟩
  | 28 => ⟨S_, .f32⟩
  | 29 => ⟨S_, .f32⟩
  | 30 => ⟨S_, .f32⟩
  | 31 => ⟨S_, .f32⟩
  | 32 => ⟨S_, .f32⟩
  | 33 => ⟨S_, .f32⟩
  | 34 => ⟨S10922x4096, .f32⟩
  | 35 => ⟨S10922x4096, .f32⟩
  | 36 => ⟨S10922x4096, .f32⟩
  | 37 => ⟨S_, .f32⟩
  | 38 => ⟨S_, .f32⟩
  | 39 => ⟨S_, .f32⟩
  | 40 => ⟨S10922x4096, .f32⟩
  | 41 => ⟨S10922x4096, .f32⟩
  | 42 => ⟨S_, .f32⟩
  | 43 => ⟨S10922x4096, .f32⟩
  | 44 => ⟨S10922x4096, .f32⟩
  | 45 => ⟨S10922x4096, .f32⟩
  | 46 => ⟨S10922x4096, .f32⟩
  | 47 => ⟨S4096x10922, .f32⟩
  | 48 => ⟨S1x10922, .f32⟩
  | 49 => ⟨S4096x10922, .f32⟩
  | 50 => ⟨S4096x10922, .f32⟩
  | 51 => ⟨S4096x10922, .f32⟩
  | 52 => ⟨S_, .f32⟩
  | 53 => ⟨S_, .f32⟩
  | 54 => ⟨S_, .f32⟩
  | 55 => ⟨S_, .f32⟩
  | 56 => ⟨S_, .f32⟩
  | 57 => ⟨S_, .f32⟩
  | 58 => ⟨S4096x10922, .f32⟩
  | 59 => ⟨S4096x10922, .f32⟩
  | 60 => ⟨S4096x10922, .f32⟩
  | 61 => ⟨S_, .f32⟩
  | 62 => ⟨S_, .f32⟩
  | 63 => ⟨S_, .f32⟩
  | 64 => ⟨S4096x10922, .f32⟩
  | 65 => ⟨S4096x10922, .f32⟩
  | 66 => ⟨S_, .f32⟩
  | 67 => ⟨S4096x10922, .f32⟩
  | 68 => ⟨S4096x10922, .f32⟩
  | 69 => ⟨S4096x10922, .f32⟩
  | 70 => ⟨S4096x10922, .f32⟩
  | 71 => ⟨S10922x4096, .f32⟩
  | 72 => ⟨S_, .f32⟩
  | 73 => ⟨S_, .f32⟩
  | 74 => ⟨S_, .f32⟩
  | 75 => ⟨S_, .f32⟩
  | 76 => ⟨S_, .f32⟩
  | 77 => ⟨S_, .f32⟩
  | 78 => ⟨S10922x4096, .f32⟩
  | 79 => ⟨S10922x4096, .f32⟩
  | 80 => ⟨S10922x4096, .f32⟩
  | 81 => ⟨S_, .f32⟩
  | 82 => ⟨S_, .f32⟩
  | 83 => ⟨S_, .f32⟩
  | 84 => ⟨S10922x4096, .f32⟩
  | 85 => ⟨S10922x4096, .f32⟩
  | 86 => ⟨S_, .f32⟩
  | 87 => ⟨S10922x4096, .f32⟩
  | 88 => ⟨S10922x4096, .f32⟩
  | 89 => ⟨S10922x4096, .f32⟩
  | 90 => ⟨S10922x4096, .f32⟩
  | 91 => ⟨S4096x10922, .f32⟩
  | 92 => ⟨S1x10922, .f32⟩
  | 93 => ⟨S4096x10922, .f32⟩
  | 94 => ⟨S4096x10922, .f32⟩
  | 95 => ⟨S4096x10922, .f32⟩
  | 96 => ⟨S_, .f32⟩
  | 97 => ⟨S_, .f32⟩
  | 98 => ⟨S_, .f32⟩
  | 99 => ⟨S_, .f32⟩
  | 100 => ⟨S_, .f32⟩
  | 101 => ⟨S_, .f32⟩
  | 102 => ⟨S4096x10922, .f32⟩
  | 103 => ⟨S4096x10922, .f32⟩
  | 104 => ⟨S4096x10922, .f32⟩
  | 105 => ⟨S_, .f32⟩
  | 106 => ⟨S_, .f32⟩
  | 107 => ⟨S_, .f32⟩
  | 108 => ⟨S4096x10922, .f32⟩
  | 109 => ⟨S4096x10922, .f32⟩
  | 110 => ⟨S_, .f32⟩
  | 111 => ⟨S4096x10922, .f32⟩
  | 112 => ⟨S4096x10922, .f32⟩
  | 113 => ⟨S4096x10922, .f32⟩
  | 114 => ⟨S4096x10922, .f32⟩
  | 115 => ⟨S4096x10922, .f32⟩
  | 116 => ⟨S4096x10922, .f32⟩
  | 117 => ⟨S_, .f32⟩
  | 118 => ⟨S4096x10922, .f32⟩
  | 119 => ⟨S4096x10922, .f32⟩
  | 120 => ⟨S_, .f32⟩
  | 121 => ⟨S4096x10922, .f32⟩
  | 122 => ⟨S4096x10922, .f32⟩
  | 123 => ⟨S4096x10922, .f32⟩
  | 124 => ⟨S4096x10922, .f32⟩
  | 125 => ⟨S4096x10922, .f32⟩
  | 126 => ⟨S_, .f32⟩
  | 127 => ⟨S_, .f32⟩
  | _ => ⟨S4096x4096, .f32⟩

abbrev hbmTy0_1 (i : Nat) : BufTy := match i % 128 with
  | 0 => ⟨S_, .f32⟩
  | 1 => ⟨S_, .f32⟩
  | 2 => ⟨S_, .f32⟩
  | 3 => ⟨S_, .f32⟩
  | 4 => ⟨S4096x10922, .f32⟩
  | 5 => ⟨S4096x10922, .f32⟩
  | 6 => ⟨S4096x10922, .f32⟩
  | 7 => ⟨S_, .f32⟩
  | 8 => ⟨S_, .f32⟩
  | 9 => ⟨S_, .f32⟩
  | 10 => ⟨S4096x10922, .f32⟩
  | 11 => ⟨S4096x10922, .f32⟩
  | 12 => ⟨S_, .f32⟩
  | 13 => ⟨S4096x10922, .f32⟩
  | 14 => ⟨S4096x10922, .f32⟩
  | 15 => ⟨S4096x10922, .f32⟩
  | 16 => ⟨S4096x10922, .f32⟩
  | 17 => ⟨S4096x10922, .f32⟩
  | 18 => ⟨S_, .f32⟩
  | 19 => ⟨S_, .f32⟩
  | 20 => ⟨S_, .f32⟩
  | 21 => ⟨S_, .f32⟩
  | 22 => ⟨S_, .f32⟩
  | 23 => ⟨S_, .f32⟩
  | 24 => ⟨S4096x10922, .f32⟩
  | 25 => ⟨S4096x10922, .f32⟩
  | 26 => ⟨S4096x10922, .f32⟩
  | 27 => ⟨S_, .f32⟩
  | 28 => ⟨S_, .f32⟩
  | 29 => ⟨S_, .f32⟩
  | 30 => ⟨S4096x10922, .f32⟩
  | 31 => ⟨S4096x10922, .f32⟩
  | 32 => ⟨S_, .f32⟩
  | 33 => ⟨S4096x10922, .f32⟩
  | 34 => ⟨S4096x10922, .f32⟩
  | 35 => ⟨S4096x10922, .f32⟩
  | 36 => ⟨S4096x10922, .f32⟩
  | 37 => ⟨S4096x4096, .f32⟩
  | 38 => ⟨S1x4096, .f32⟩
  | 39 => ⟨S4096x4096, .f32⟩
  | 40 => ⟨S4096x4096, .f32⟩
  | _ => ⟨S4096x4096, .f32⟩

abbrev hbmTy (i : Nat) : BufTy := match i / 128 with
  | 0 => hbmTy0_0 i
  | 1 => hbmTy0_1 i
  | _ => ⟨S4096x4096, .f32⟩

abbrev bufTy : (tb : Table) → Fin (tcTables nBuf tb) → BufTy
  | .hbm, ⟨i, _⟩ => hbmTy i
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_cst_1 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_cst_3 : Ref sig .tc := ⟨.hbm, 18, rfl⟩
abbrev main_call1_v0 : Ref sig .tc := ⟨.hbm, 19, rfl⟩
abbrev main_call1_v1 : Ref sig .tc := ⟨.hbm, 20, rfl⟩
abbrev main_call1_v2 : Ref sig .tc := ⟨.hbm, 21, rfl⟩
abbrev main_call1_v3 : Ref sig .tc := ⟨.hbm, 22, rfl⟩
abbrev main_call1_v4 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst_4 : Ref sig .tc := ⟨.hbm, 28, rfl⟩
abbrev main_v11 : Ref sig .tc := ⟨.hbm, 29, rfl⟩
abbrev main_cst_5 : Ref sig .tc := ⟨.hbm, 30, rfl⟩
abbrev main_v12 : Ref sig .tc := ⟨.hbm, 31, rfl⟩
abbrev main_cst_6 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_cst_7 : Ref sig .tc := ⟨.hbm, 37, rfl⟩
abbrev main_cst_8 : Ref sig .tc := ⟨.hbm, 38, rfl⟩
abbrev main_call3_v0 : Ref sig .tc := ⟨.hbm, 39, rfl⟩
abbrev main_call3_v1 : Ref sig .tc := ⟨.hbm, 40, rfl⟩
abbrev main_call3_v2 : Ref sig .tc := ⟨.hbm, 41, rfl⟩
abbrev main_call3_v3 : Ref sig .tc := ⟨.hbm, 42, rfl⟩
abbrev main_call3_v4 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_cst_9 : Ref sig .tc := ⟨.hbm, 52, rfl⟩
abbrev main_v25 : Ref sig .tc := ⟨.hbm, 53, rfl⟩
abbrev main_cst_10 : Ref sig .tc := ⟨.hbm, 54, rfl⟩
abbrev main_v26 : Ref sig .tc := ⟨.hbm, 55, rfl⟩
abbrev main_cst_11 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_cst_12 : Ref sig .tc := ⟨.hbm, 61, rfl⟩
abbrev main_cst_13 : Ref sig .tc := ⟨.hbm, 62, rfl⟩
abbrev main_call5_v0 : Ref sig .tc := ⟨.hbm, 63, rfl⟩
abbrev main_call5_v1 : Ref sig .tc := ⟨.hbm, 64, rfl⟩
abbrev main_call5_v2 : Ref sig .tc := ⟨.hbm, 65, rfl⟩
abbrev main_call5_v3 : Ref sig .tc := ⟨.hbm, 66, rfl⟩
abbrev main_call5_v4 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_cst_14 : Ref sig .tc := ⟨.hbm, 72, rfl⟩
abbrev main_v35 : Ref sig .tc := ⟨.hbm, 73, rfl⟩
abbrev main_cst_15 : Ref sig .tc := ⟨.hbm, 74, rfl⟩
abbrev main_v36 : Ref sig .tc := ⟨.hbm, 75, rfl⟩
abbrev main_cst_16 : Ref sig .tc := ⟨.hbm, 76, rfl⟩
abbrev main_v37 : Ref sig .tc := ⟨.hbm, 77, rfl⟩
abbrev main_v38 : Ref sig .tc := ⟨.hbm, 78, rfl⟩
abbrev main_v39 : Ref sig .tc := ⟨.hbm, 79, rfl⟩
abbrev main_v40 : Ref sig .tc := ⟨.hbm, 80, rfl⟩
abbrev main_cst_17 : Ref sig .tc := ⟨.hbm, 81, rfl⟩
abbrev main_cst_18 : Ref sig .tc := ⟨.hbm, 82, rfl⟩
abbrev main_call7_v0 : Ref sig .tc := ⟨.hbm, 83, rfl⟩
abbrev main_call7_v1 : Ref sig .tc := ⟨.hbm, 84, rfl⟩
abbrev main_call7_v2 : Ref sig .tc := ⟨.hbm, 85, rfl⟩
abbrev main_call7_v3 : Ref sig .tc := ⟨.hbm, 86, rfl⟩
abbrev main_call7_v4 : Ref sig .tc := ⟨.hbm, 87, rfl⟩
abbrev main_v41 : Ref sig .tc := ⟨.hbm, 88, rfl⟩
abbrev main_v42 : Ref sig .tc := ⟨.hbm, 89, rfl⟩
abbrev main_v43 : Ref sig .tc := ⟨.hbm, 90, rfl⟩
abbrev main_v44 : Ref sig .tc := ⟨.hbm, 91, rfl⟩
abbrev main_v45 : Ref sig .tc := ⟨.hbm, 92, rfl⟩
abbrev main_v46 : Ref sig .tc := ⟨.hbm, 93, rfl⟩
abbrev main_v47 : Ref sig .tc := ⟨.hbm, 94, rfl⟩
abbrev main_v48 : Ref sig .tc := ⟨.hbm, 95, rfl⟩
abbrev main_cst_19 : Ref sig .tc := ⟨.hbm, 96, rfl⟩
abbrev main_v49 : Ref sig .tc := ⟨.hbm, 97, rfl⟩
abbrev main_cst_20 : Ref sig .tc := ⟨.hbm, 98, rfl⟩
abbrev main_v50 : Ref sig .tc := ⟨.hbm, 99, rfl⟩
abbrev main_cst_21 : Ref sig .tc := ⟨.hbm, 100, rfl⟩
abbrev main_v51 : Ref sig .tc := ⟨.hbm, 101, rfl⟩
abbrev main_v52 : Ref sig .tc := ⟨.hbm, 102, rfl⟩
abbrev main_v53 : Ref sig .tc := ⟨.hbm, 103, rfl⟩
abbrev main_v54 : Ref sig .tc := ⟨.hbm, 104, rfl⟩
abbrev main_cst_22 : Ref sig .tc := ⟨.hbm, 105, rfl⟩
abbrev main_cst_23 : Ref sig .tc := ⟨.hbm, 106, rfl⟩
abbrev main_call9_v0 : Ref sig .tc := ⟨.hbm, 107, rfl⟩
abbrev main_call9_v1 : Ref sig .tc := ⟨.hbm, 108, rfl⟩
abbrev main_call9_v2 : Ref sig .tc := ⟨.hbm, 109, rfl⟩
abbrev main_call9_v3 : Ref sig .tc := ⟨.hbm, 110, rfl⟩
abbrev main_call9_v4 : Ref sig .tc := ⟨.hbm, 111, rfl⟩
abbrev main_v55 : Ref sig .tc := ⟨.hbm, 112, rfl⟩
abbrev main_v56 : Ref sig .tc := ⟨.hbm, 113, rfl⟩
abbrev main_v57 : Ref sig .tc := ⟨.hbm, 114, rfl⟩
abbrev main_call10_v0 : Ref sig .tc := ⟨.hbm, 115, rfl⟩
abbrev main_call10_v1 : Ref sig .tc := ⟨.hbm, 116, rfl⟩
abbrev main_call10_cst : Ref sig .tc := ⟨.hbm, 117, rfl⟩
abbrev main_call10_v2 : Ref sig .tc := ⟨.hbm, 118, rfl⟩
abbrev main_call10_v3 : Ref sig .tc := ⟨.hbm, 119, rfl⟩
abbrev main_call10_cst_0 : Ref sig .tc := ⟨.hbm, 120, rfl⟩
abbrev main_call10_v4 : Ref sig .tc := ⟨.hbm, 121, rfl⟩
abbrev main_call10_v5 : Ref sig .tc := ⟨.hbm, 122, rfl⟩
abbrev main_v58 : Ref sig .tc := ⟨.hbm, 123, rfl⟩
abbrev main_v59 : Ref sig .tc := ⟨.hbm, 124, rfl⟩
abbrev main_v60 : Ref sig .tc := ⟨.hbm, 125, rfl⟩
abbrev main_cst_24 : Ref sig .tc := ⟨.hbm, 126, rfl⟩
abbrev main_v61 : Ref sig .tc := ⟨.hbm, 127, rfl⟩
abbrev main_cst_25 : Ref sig .tc := ⟨.hbm, 128, rfl⟩
abbrev main_v62 : Ref sig .tc := ⟨.hbm, 129, rfl⟩
abbrev main_cst_26 : Ref sig .tc := ⟨.hbm, 130, rfl⟩
abbrev main_v63 : Ref sig .tc := ⟨.hbm, 131, rfl⟩
abbrev main_v64 : Ref sig .tc := ⟨.hbm, 132, rfl⟩
abbrev main_v65 : Ref sig .tc := ⟨.hbm, 133, rfl⟩
abbrev main_v66 : Ref sig .tc := ⟨.hbm, 134, rfl⟩
abbrev main_cst_27 : Ref sig .tc := ⟨.hbm, 135, rfl⟩
abbrev main_cst_28 : Ref sig .tc := ⟨.hbm, 136, rfl⟩
abbrev main_call12_v0 : Ref sig .tc := ⟨.hbm, 137, rfl⟩
abbrev main_call12_v1 : Ref sig .tc := ⟨.hbm, 138, rfl⟩
abbrev main_call12_v2 : Ref sig .tc := ⟨.hbm, 139, rfl⟩
abbrev main_call12_v3 : Ref sig .tc := ⟨.hbm, 140, rfl⟩
abbrev main_call12_v4 : Ref sig .tc := ⟨.hbm, 141, rfl⟩
abbrev main_v67 : Ref sig .tc := ⟨.hbm, 142, rfl⟩
abbrev main_v68 : Ref sig .tc := ⟨.hbm, 143, rfl⟩
abbrev main_v69 : Ref sig .tc := ⟨.hbm, 144, rfl⟩
abbrev main_v70 : Ref sig .tc := ⟨.hbm, 145, rfl⟩
abbrev main_cst_29 : Ref sig .tc := ⟨.hbm, 146, rfl⟩
abbrev main_v71 : Ref sig .tc := ⟨.hbm, 147, rfl⟩
abbrev main_cst_30 : Ref sig .tc := ⟨.hbm, 148, rfl⟩
abbrev main_v72 : Ref sig .tc := ⟨.hbm, 149, rfl⟩
abbrev main_cst_31 : Ref sig .tc := ⟨.hbm, 150, rfl⟩
abbrev main_v73 : Ref sig .tc := ⟨.hbm, 151, rfl⟩
abbrev main_v74 : Ref sig .tc := ⟨.hbm, 152, rfl⟩
abbrev main_v75 : Ref sig .tc := ⟨.hbm, 153, rfl⟩
abbrev main_v76 : Ref sig .tc := ⟨.hbm, 154, rfl⟩
abbrev main_cst_32 : Ref sig .tc := ⟨.hbm, 155, rfl⟩
abbrev main_cst_33 : Ref sig .tc := ⟨.hbm, 156, rfl⟩
abbrev main_call14_v0 : Ref sig .tc := ⟨.hbm, 157, rfl⟩
abbrev main_call14_v1 : Ref sig .tc := ⟨.hbm, 158, rfl⟩
abbrev main_call14_v2 : Ref sig .tc := ⟨.hbm, 159, rfl⟩
abbrev main_call14_v3 : Ref sig .tc := ⟨.hbm, 160, rfl⟩
abbrev main_call14_v4 : Ref sig .tc := ⟨.hbm, 161, rfl⟩
abbrev main_v77 : Ref sig .tc := ⟨.hbm, 162, rfl⟩
abbrev main_v78 : Ref sig .tc := ⟨.hbm, 163, rfl⟩
abbrev main_v79 : Ref sig .tc := ⟨.hbm, 164, rfl⟩
abbrev main_v80 : Ref sig .tc := ⟨.hbm, 165, rfl⟩
abbrev main_v81 : Ref sig .tc := ⟨.hbm, 166, rfl⟩
abbrev main_v82 : Ref sig .tc := ⟨.hbm, 167, rfl⟩
abbrev main_v83 : Ref sig .tc := ⟨.hbm, 168, rfl⟩

abbrev nD : Nat := 1
abbrev τ : Topo := Topo.v7x

variable {F : FTy → Type} [FloatOps F]

class Facts₀ : Prop where
  reducesTo_S4096x4096_S_d0_1 : S4096x4096.ReducesTo [0, 1] S_
  h_S_ : 0 < S_.numel
  bcast_S_S4096x4096 : S_.BroadcastsInDim S4096x4096 (![] : Fin 0 → Fin S4096x4096.rank)
  reducesTo_S10922x4096_S_d0_1 : S10922x4096.ReducesTo [0, 1] S_
  bcast_S_S10922x4096 : S_.BroadcastsInDim S10922x4096 (![] : Fin 0 → Fin S10922x4096.rank)
  bcast_S10922_S1x10922_1 : S10922.BroadcastsInDim S1x10922 (![1] : Fin 1 → Fin S1x10922.rank)
  bcast_S1x10922_S4096x10922_0_1 : S1x10922.BroadcastsInDim S4096x10922 (![0, 1] : Fin 2 → Fin S4096x10922.rank)
  reducesTo_S4096x10922_S_d0_1 : S4096x10922.ReducesTo [0, 1] S_
  bcast_S_S4096x10922 : S_.BroadcastsInDim S4096x10922 (![] : Fin 0 → Fin S4096x10922.rank)
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  dot_S4096x4096_S10922x4096_S4096x10922_1_1_0_0_n_n_wf : DotDims.WF S4096x4096 S10922x4096 S4096x10922 [1] [1] [0] [0] [] []
  dot_S4096x10922_S4096x10922_S4096x4096_1_1_0_0_n_n_wf : DotDims.WF S4096x10922 S4096x10922 S4096x4096 [1] [1] [0] [0] [] []

variable [Facts₀]

def dot_S4096x4096_S10922x4096_S4096x10922_1_1_0_0_n_n : DotDims S4096x4096 S10922x4096 S4096x10922 where
  lhsContracting := [1]
  rhsContracting := [1]
  lhsNonContracting := [0]
  rhsNonContracting := [0]
  lhsBatch := []
  rhsBatch := []
  wf := dot_S4096x4096_S10922x4096_S4096x10922_1_1_0_0_n_n_wf
def dot_S4096x10922_S4096x10922_S4096x4096_1_1_0_0_n_n : DotDims S4096x10922 S4096x10922 S4096x4096 where
  lhsContracting := [1]
  rhsContracting := [1]
  lhsNonContracting := [0]
  rhsNonContracting := [0]
  lhsBatch := []
  rhsBatch := []
  wf := dot_S4096x10922_S4096x10922_S4096x4096_1_1_0_0_n_n_wf

class Facts : Prop extends Facts₀ where

variable [Facts]
-- ==== Proof.K0Base.lean ====
/-
  Region 0 of the kernel's program: one matrix product with bias, out = x · wᵀ + b, cut into 1024 × 1024 blocks
  and accumulated over the 4 blocks of the contracted axis in a scratch buffer the body keeps between grid points.
  This module fixes what the runs of the body are stated over: the two branch conditions of the body as conditions on
  the grid position (the first step of a contraction zeroes the accumulator, the last adds the bias and stores the
  output block), where the output window is idle (everywhere but at a last step), the staging and scratch buffers
  the body is called with, and the region's invariant before its first point split into the accumulator and the
  scoped buffers of the other regions, which the body never touches.
-/
import proofs.«117267_j43508018708617_1_alg».proof.Proof.Gen.Kernel.Launch
import proofs.«117267_j43508018708617_1_alg».proof.Proof.Gen.Kernel.Skeleton
import proofs.«117267_j43508018708617_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditions on the grid position -/

/-- The body's first `if`: the position along the contracted axis (grid axis 2) is 0. -/
abbrev cond0_0 (i : grid0.Coords) : Prop := (Scalar.cmpi .ne (Scalar.extui (Scalar.cmpi .eq (BitVec.ofNat 32 (i 2).val) 0#32)) 0#32) = 1#1
/-- Axis 2 is the fastest, of extent 4: the condition holds at the points ≡ 0 (mod 4). -/
theorem hcond0_0 : ∀ t : Fin cfg0.N, cond0_0 (grid0.coords t) ↔ t.val % 4 = 0 :=
  (by decide +kernel : ∀ t : Fin grid0.N, cond0_0 (grid0.coords t) ↔ t.val % 4 = 0)

/-- The body's second `if`: the position along the contracted axis is the last, 3. -/
abbrev cond0_1 (i : grid0.Coords) : Prop := k0_cond2 i = 1#1
/-- It holds at the points ≡ 3 (mod 4). -/
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

/-- The three inputs are never idle. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Away from a last step the output window is idle and its block is not written back. -/
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
/-- At a last step it is live. -/
theorem liveAt0_3 : ∀ t : Fin cfg0.N, cond0_1 (grid0.coords t) → cfg0.idle 3 (grid0.coords t) = false := by decide +kernel

/-! ## The buffers the body is called with -/

/-- One staging buffer of the output window, through which its contents are stated. -/
abbrev VO0_3 : View sig .tc .vmem S1024x1024 .f32 := (Memref.whole cc0_stg3_0 : Memref sig .tc .vmem S1024x1024 .f32).view
/-- Each window's current staging buffer at point `t`, as the pipeline passes it to the body, and its wholeness. -/
abbrev ms0_0 (t : Fin cfg0.N) : Memref sig .tc .vmem S1024x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x1024 .f32 := win0_3.stage (cfg0.slots t 3)
abbrev hs0_3 (t : Fin cfg0.N) : (ms0_3 t).IsWhole := hstage0_3 ((cfg0.slots t 3).cast nbuf0_3)
/-- The accumulator: a whole scoped buffer of the kernel's own. -/
abbrev scM0_0 : Memref sig .tc .vmem S1024x1024 .f32 := Memref.whole cc0_scratch0
/-- The accumulator as a view: what it holds is stated through it. -/
abbrev VS0_0 : View sig .tc .vmem S1024x1024 .f32 := scM0_0.view

/-! ## The invariant before the first point -/

/-- The scoped buffers of the other two regions (their staging buffers and accumulators), each whole at some
    contents: region 0 never touches them. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f) ∗ (∃ f : Buf (Elt F) ((c : Thread nD τ).loc cc2_scratch0), ((c : Thread nD τ).loc cc2_scratch0) ↦{fullShare} f))

/-- Before the first point the region holds its accumulator at any contents, the other regions' scoped buffers, and
    the generator register at some state. -/
theorem PhiA0_eq (c : Dev nD) :
    (Pipeline.ΦA spec0 c : sProp 𝕄)
      = iprop(iprop((∃ d, owns (c : Thread nD τ) scM0_0 fullShare d) ∗ rest0 c) ∗ (∃ r, prngReg c r)) := by
  unfold Pipeline.ΦA; rw [scopedRest0_eq]; unfold rest0; simp only [scM0_0, owns_whole]; try rfl

end Cert.Kernel.Fr

end
-- ==== Proof.K0RunA.lean ====
/-
  Region 0, the body's run in one of its three control cases (first, middle or last step of a contraction), on
  whole staging buffers: the inputs' at their contents come back as they were, and each buffer the body stores into
  ends with the stores' pieces written, which the symbolic run of the body finds.
-/
import proofs.«117267_j43508018708617_1_alg».proof.Proof.K0Base

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a FIRST step of a contraction that is not also the last: the accumulator, at any contents, is zeroed and then holds the
    product of the two input blocks; the output buffer is handed back as found. -/
noncomputable def kernelRun0_A (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : cond0_0 i) (hc1 : ¬cond0_1 i)
    (x0 : Vec F S1024x1024 .bf16) (x1 : Vec F S1024x1024 .bf16) (x2 : Vec F S1024 .f32) :
    { LS0 : List (View.Piece (Elt F) S1024x1024 .f32) //
      ∀ (xi3 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc0__linear_kernel i arg3 harg3 arg4 harg4 arg5 harg5 arg6 harg6 arg7 harg7) K } := by
  refine ⟨?_, fun xi3 E K => ?run⟩
  case run =>
    simp only [cc0__linear_kernel_eq_skeleton]; unfold cc0__linear_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.Kernel.Fr

end
-- ==== Proof.K0RunB.lean ====
/-
  Region 0, the body's run in one of its three control cases (first, middle or last step of a contraction), on
  whole staging buffers: the inputs' at their contents come back as they were, and each buffer the body stores into
  ends with the stores' pieces written, which the symbolic run of the body finds.
-/
import proofs.«117267_j43508018708617_1_alg».proof.Proof.K0RunA

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a MIDDLE step: the accumulator, at what the point before left, gains the product of the two input blocks;
    the output buffer is handed back as found. -/
noncomputable def kernelRun0_B (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : ¬cond0_1 i)
    (x0 : Vec F S1024x1024 .bf16) (x1 : Vec F S1024x1024 .bf16) (x2 : Vec F S1024 .f32) (xs0 : Vec F S1024x1024 .f32) :
    { LS0 : List (View.Piece (Elt F) S1024x1024 .f32) //
      ∀ (xi3 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc0__linear_kernel i arg3 harg3 arg4 harg4 arg5 harg5 arg6 harg6 arg7 harg7) K } := by
  refine ⟨?_, fun xi3 E K => ?run⟩
  case run =>
    simp only [cc0__linear_kernel_eq_skeleton]; unfold cc0__linear_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.Kernel.Fr

end
-- ==== Proof.K0RunC.lean ====
/-
  Region 0, the body's run in one of its three control cases (first, middle or last step of a contraction), on
  whole staging buffers: the inputs' at their contents come back as they were, and each buffer the body stores into
  ends with the stores' pieces written, which the symbolic run of the body finds.
-/
import proofs.«117267_j43508018708617_1_alg».proof.Proof.K0RunB

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a LAST step: the accumulator, at what the point before left, gains the product of the two input blocks, and
    the output buffer, at any contents, is stored whole with the accumulator plus the bias row. -/
noncomputable def kernelRun0_C (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : cond0_1 i)
    (x0 : Vec F S1024x1024 .bf16) (x1 : Vec F S1024x1024 .bf16) (x2 : Vec F S1024 .f32) (xs0 : Vec F S1024x1024 .f32) :
    Σ' (L3 : List (View.Piece (Elt F) S1024x1024 .f32)), { LS0 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc0__linear_kernel i arg3 harg3 arg4 harg4 arg5 harg5 arg6 harg6 arg7 harg7) K } := by
  refine ⟨?_, ?_, fun E K => ?run⟩
  case run =>
    simp only [cc0__linear_kernel_eq_skeleton]; unfold cc0__linear_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

end Cert.Kernel.Fr

end
-- ==== Proof.K0Dat.lean ====
/-
  Region 0: what the accumulator and the output's staging buffer hold after each grid point, and the region's proof
  data. The grid runs over (row block, column block, step) with the step fastest; within one (row block, column block)
  the 4 steps zero the accumulator at the first, add one block product x_blk · w_blkᵀ at each, and at the last store
  accumulator + bias into the output's buffer, which only then is written back. The contents are defined by recursion
  on the position (the case the position is in, run on the point's input blocks and on what the point before left in
  the accumulator); the invariant after a point is the accumulator at exactly those contents. From these the body's
  obligation at a generic point follows by the case's run.
-/
import proofs.«117267_j43508018708617_1_alg».proof.Proof.K0RunC

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not (unfetched, the
    block index has not moved), for any proof data whose array is the entry contents and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not (unfetched, the
    block index has not moved), for any proof data whose array is the entry contents and whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not (unfetched, the
    block index has not moved), for any proof data whose array is the entry contents and whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## What each case leaves -/

/-- The first step's one store into the accumulator after the zeroing covers it. -/
theorem scover0_A_0 (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : cond0_0 i) (hc1 : ¬cond0_1 i)
    (x0 : Vec F S1024x1024 .bf16) (x1 : Vec F S1024x1024 .bf16) (x2 : Vec F S1024 .f32) (y : S1024x1024.Idx) :
    ∃ pc ∈ (kernelRun0_A c i arg3 harg3 arg4 harg4 arg5 harg5 arg6 harg6 arg7 harg7 hc0 hc1 x0 x1 x2).1, y ∈ pc.1.set :=
  View.cover_of_tiledL (kernelRun0_A c i arg3 harg3 arg4 harg4 arg5 harg5 arg6 harg6 arg7 harg7 hc0 hc1 x0 x1 x2).1 S1024x1024.size (by sl_kernel_rfl) y

/-- What a first step leaves in the accumulator: its pieces read back. -/
def sout0_A_0 (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : cond0_0 i) (hc1 : ¬cond0_1 i)
    (x0 : Vec F S1024x1024 .bf16) (x1 : Vec F S1024x1024 .bf16) (x2 : Vec F S1024 .f32) : Vec F S1024x1024 .f32 :=
  VS0_0.read (Elt F) (VS0_0.writes (Elt F) VS0_0.junk (kernelRun0_A c i arg3 harg3 arg4 harg4 arg5 harg5 arg6 harg6 arg7 harg7 hc0 hc1 x0 x1 x2).1)

/-- A middle step's store covers the accumulator. -/
theorem scover0_B_0 (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : ¬cond0_1 i)
    (x0 : Vec F S1024x1024 .bf16) (x1 : Vec F S1024x1024 .bf16) (x2 : Vec F S1024 .f32) (xs0 : Vec F S1024x1024 .f32) (y : S1024x1024.Idx) :
    ∃ pc ∈ (kernelRun0_B c i arg3 harg3 arg4 harg4 arg5 harg5 arg6 harg6 arg7 harg7 hc0 hc1 x0 x1 x2 xs0).1, y ∈ pc.1.set :=
  View.cover_of_tiledL (kernelRun0_B c i arg3 harg3 arg4 harg4 arg5 harg5 arg6 harg6 arg7 harg7 hc0 hc1 x0 x1 x2 xs0).1 S1024x1024.size (by sl_kernel_rfl) y

/-- What a middle step leaves in the accumulator. -/
def sout0_B_0 (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : ¬cond0_1 i)
    (x0 : Vec F S1024x1024 .bf16) (x1 : Vec F S1024x1024 .bf16) (x2 : Vec F S1024 .f32) (xs0 : Vec F S1024x1024 .f32) : Vec F S1024x1024 .f32 :=
  VS0_0.read (Elt F) (VS0_0.writes (Elt F) VS0_0.junk (kernelRun0_B c i arg3 harg3 arg4 harg4 arg5 harg5 arg6 harg6 arg7 harg7 hc0 hc1 x0 x1 x2 xs0).1)

/-- A last step's store covers the output's buffer. -/
theorem cover0_C_3 (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : cond0_1 i)
    (x0 : Vec F S1024x1024 .bf16) (x1 : Vec F S1024x1024 .bf16) (x2 : Vec F S1024 .f32) (xs0 : Vec F S1024x1024 .f32) (y : S1024x1024.Idx) :
    ∃ pc ∈ (kernelRun0_C c i arg3 harg3 arg4 harg4 arg5 harg5 arg6 harg6 arg7 harg7 hc0 hc1 x0 x1 x2 xs0).1, y ∈ pc.1.set :=
  View.cover_of_tiledL (kernelRun0_C c i arg3 harg3 arg4 harg4 arg5 harg5 arg6 harg6 arg7 harg7 hc0 hc1 x0 x1 x2 xs0).1 S1024x1024.size (by sl_kernel_rfl) y

/-- What a last step leaves in the output's buffer. -/
def out0_C_3 (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : cond0_1 i)
    (x0 : Vec F S1024x1024 .bf16) (x1 : Vec F S1024x1024 .bf16) (x2 : Vec F S1024 .f32) (xs0 : Vec F S1024x1024 .f32) : Vec F S1024x1024 .f32 :=
  VO0_3.read (Elt F) (VO0_3.writes (Elt F) VO0_3.junk (kernelRun0_C c i arg3 harg3 arg4 harg4 arg5 harg5 arg6 harg6 arg7 harg7 hc0 hc1 x0 x1 x2 xs0).1)

/-- A last step's store covers the accumulator. -/
theorem scover0_C_0 (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : cond0_1 i)
    (x0 : Vec F S1024x1024 .bf16) (x1 : Vec F S1024x1024 .bf16) (x2 : Vec F S1024 .f32) (xs0 : Vec F S1024x1024 .f32) (y : S1024x1024.Idx) :
    ∃ pc ∈ (kernelRun0_C c i arg3 harg3 arg4 harg4 arg5 harg5 arg6 harg6 arg7 harg7 hc0 hc1 x0 x1 x2 xs0).2.1, y ∈ pc.1.set :=
  View.cover_of_tiledL (kernelRun0_C c i arg3 harg3 arg4 harg4 arg5 harg5 arg6 harg6 arg7 harg7 hc0 hc1 x0 x1 x2 xs0).2.1 S1024x1024.size (by sl_kernel_rfl) y

/-- What a last step leaves in the accumulator. -/
def sout0_C_0 (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : cond0_1 i)
    (x0 : Vec F S1024x1024 .bf16) (x1 : Vec F S1024x1024 .bf16) (x2 : Vec F S1024 .f32) (xs0 : Vec F S1024x1024 .f32) : Vec F S1024x1024 .f32 :=
  VS0_0.read (Elt F) (VS0_0.writes (Elt F) VS0_0.junk (kernelRun0_C c i arg3 harg3 arg4 harg4 arg5 harg5 arg6 harg6 arg7 harg7 hc0 hc1 x0 x1 x2 xs0).2.1)

/-- Away from a last step nothing is stored into the output's buffer: a placeholder nothing consults, since there
    the buffer is neither written back nor read at the next point. -/
def idleOut0 : Vec F S1024x1024 .f32 := VO0_3.read (Elt F) VO0_3.junk

/-! ## What the buffers hold after each point -/

/-- THE ACCUMULATION: the output's staging buffer and the accumulator after the body at position `n`. -/
def outsAt0 (c : Dev nD) : (n : ℕ) → n < cfg0.N → Vec F S1024x1024 .f32 × Vec F S1024x1024 .f32
  | 0, hn => (idleOut0, sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩))
  | n + 1, hn =>
    if h0 : (n + 1) % 4 = 0 then
      if h1 : (n + 1) % 4 = 3 then
        False.elim (by omega)
      else
        (idleOut0, sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩))
    else
      if h1 : (n + 1) % 4 = 3 then
        (out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2)
      else
        (idleOut0, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2)

/-- At a first step. -/
theorem outsAt0_A (c : Dev nD) (t : Fin cfg0.N) (h0 : t.val % 4 = 0) (h1 : ¬t.val % 4 = 3) :
    outsAt0 V c t.val t.isLt = (idleOut0, sout0_A_0 c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk0 V c 0 t) (iblk0 V c 1 t) (iblk0 V c 2 t)) := by
  obtain ⟨n, hn⟩ := t
  cases n with
  | zero => exact rfl
  | succ n => exact (dif_pos h0).trans ((dif_neg h1).trans rfl)

/-- At a middle step, over what the point before left in the accumulator. -/
theorem outsAt0_B (c : Dev nD) (t : Fin cfg0.N) (h0 : ¬t.val % 4 = 0) (h1 : ¬t.val % 4 = 3) :
    outsAt0 V c t.val t.isLt = (idleOut0, sout0_B_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a last step, over what the point before left in the accumulator. -/
theorem outsAt0_C (c : Dev nD) (t : Fin cfg0.N) (h0 : ¬t.val % 4 = 0) (h1 : t.val % 4 = 3) :
    outsAt0 V c t.val t.isLt = (out0_C_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2, sout0_C_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant -/

/-- The region's invariant before position `n`: before the first point the accumulator at anything; afterwards at what
    the point before left in it; beside it always the other regions' scoped buffers and the generator register. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ rest0 c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0_0 fullShare ((outsAt0 V c n hn).2) ∗ rest0 c) ∗ (∃ r, prngReg c r)) := rfl

theorem PhiS0_pos (c : Dev nD) (n : ℕ) (h : n ≤ cfg0.N) (hz : n ≠ 0) :
    PhiS0 V c n h = iprop(iprop(owns (c : Thread nD τ) scM0_0 fullShare ((outsAt0 V c (n - 1) (by omega)).2) ∗ rest0 c) ∗ (∃ r, prngReg c r)) := by
  cases n with
  | zero => exact absurd rfl hz
  | succ n => rfl

/-! ## The proof data -/

/-- The pipeline's proof data on core `c`: the arrays as the region finds them; after the body at a point each input's
    buffer at its block and the output's at `outsAt0`; the invariant above; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`: the invariant, the core's dues, and each window's current buffer. -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
/-- The body at any point: the inputs' buffers hold their blocks; the position decides the case; the invariant hands the
    body the accumulator (at anything before the first point, else at what the point before left) and takes it back
    at this point's contents; the other regions' buffers and the generator register ride along; the core owes nothing. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  have hN : t.val < 176 := lt_of_lt_of_eq t.isLt (show cfg0.N = 176 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  by_cases h0 : t.val % 4 = 0
  · by_cases h1 : t.val % 4 = 3
    · exfalso; omega
    · rw [Dat.leavesExact_idle (dat0 V c) 3 t (idleAt0_3 t (fun h => h1 ((hcond0_1 t).mp h))) (noFlush0_3 t (fun h => h1 ((hcond0_1 t).mp h)))]
      rw [outsAt0_A V c t h0 h1]
      unfold sout0_A_0; (try dsimp only)
      by_cases hz : t.val = 0
      · rw [PhiS0_castSucc V c t, PhiS0_zero V c _ _ hz, PhiA0_eq]
        iintro ⟨⟨⟨HS0, Hrest⟩, Hg⟩, Ho, ⟨%d0, H0⟩, ⟨%d1, H1⟩, ⟨%d2, H2⟩, ⟨%d3, H3⟩⟩
        iapply ((kernelRun0_A c (grid0.coords t) _ _ _ _ _ _ _ _ _ _ ((hcond0_0 t).mpr h0) (fun h => h1 ((hcond0_1 t).mp h)) (iblk0 V c 0 t) (iblk0 V c 1 t) (iblk0 V c 2 t)).2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover0_A_0 c _ _ _ _ _ _ _ _ _ _ _ _ _ _ _ _)
            iexact Hrest
          iexact Hg
        isplitl [Ho]; · iexact Ho
        isplitl [H0]; · iexact H0
        isplitl [H1]; · iexact H1
        isplitl [H2]; · iexact H2
        iexists _; iexact H3
      · rw [PhiS0_castSucc V c t, PhiS0_pos V c _ _ hz]
        iintro ⟨⟨⟨HS0, Hrest⟩, Hg⟩, Ho, ⟨%d0, H0⟩, ⟨%d1, H1⟩, ⟨%d2, H2⟩, ⟨%d3, H3⟩⟩
        iapply ((kernelRun0_A c (grid0.coords t) _ _ _ _ _ _ _ _ _ _ ((hcond0_0 t).mpr h0) (fun h => h1 ((hcond0_1 t).mp h)) (iblk0 V c 0 t) (iblk0 V c 1 t) (iblk0 V c 2 t)).2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover0_A_0 c _ _ _ _ _ _ _ _ _ _ _ _ _ _ _ _)
            iexact Hrest
          iexact Hg
        isplitl [Ho]; · iexact Ho
        isplitl [H0]; · iexact H0
        isplitl [H1]; · iexact H1
        isplitl [H2]; · iexact H2
        iexists _; iexact H3
  · by_cases h1 : t.val % 4 = 3
    · rw [show (dat0 V c).leavesExact 3 t = owns (c : Thread nD τ) (ms0_3 t) fullShare ((dat0 V c).after 3 t) from by
        unfold Dat.leavesExact; rw [liveAt0_3 t ((hcond0_1 t).mpr h1)], after0_3]
      rw [outsAt0_C V c t h0 h1]
      unfold out0_C_3 sout0_C_0; (try dsimp only)
      by_cases hz : t.val = 0
      · exfalso; omega
      · rw [PhiS0_castSucc V c t, PhiS0_pos V c _ _ hz]
        iintro ⟨⟨⟨HS0, Hrest⟩, Hg⟩, Ho, ⟨%d0, H0⟩, ⟨%d1, H1⟩, ⟨%d2, H2⟩, ⟨%d3, H3⟩⟩
        iapply ((kernelRun0_C c (grid0.coords t) _ _ _ _ _ _ _ _ _ _ (fun h => h0 ((hcond0_0 t).mp h)) ((hcond0_1 t).mpr h1) (iblk0 V c 0 t) (iblk0 V c 1 t) (iblk0 V c 2 t) _).2.2 Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover0_C_0 c _ _ _ _ _ _ _ _ _ _ _ _ _ _ _ _ _)
            iexact Hrest
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover0_C_3 c _ _ _ _ _ _ _ _ _ _ _ _ _ _ _ _ _)
    · rw [Dat.leavesExact_idle (dat0 V c) 3 t (idleAt0_3 t (fun h => h1 ((hcond0_1 t).mp h))) (noFlush0_3 t (fun h => h1 ((hcond0_1 t).mp h)))]
      rw [outsAt0_B V c t h0 h1]
      unfold sout0_B_0; (try dsimp only)
      by_cases hz : t.val = 0
      · exfalso; omega
      · rw [PhiS0_castSucc V c t, PhiS0_pos V c _ _ hz]
        iintro ⟨⟨⟨HS0, Hrest⟩, Hg⟩, Ho, ⟨%d0, H0⟩, ⟨%d1, H1⟩, ⟨%d2, H2⟩, ⟨%d3, H3⟩⟩
        iapply ((kernelRun0_B c (grid0.coords t) _ _ _ _ _ _ _ _ _ _ (fun h => h0 ((hcond0_0 t).mp h)) (fun h => h1 ((hcond0_1 t).mp h)) (iblk0 V c 0 t) (iblk0 V c 1 t) (iblk0 V c 2 t) _).2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover0_B_0 c _ _ _ _ _ _ _ _ _ _ _ _ _ _ _ _ _)
            iexact Hrest
          iexact Hg
        isplitl [Ho]; · iexact Ho
        isplitl [H0]; · iexact H0
        isplitl [H1]; · iexact H1
        isplitl [H2]; · iexact H2
        iexists _; iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the launch's back: the accumulator's named contents are forgotten. -/
theorem hout0 (c : Dev nD) : (dat0 V c).Φ (Fin.last cfg0.N) ⊢ Pipeline.ΦA spec0 c := by
  have hne : (Fin.last cfg0.N).val ≠ 0 := by rw [Fin.val_last]; have : cfg0.N = 176 := N_0; omega
  rw [show (dat0 V c).Φ (Fin.last cfg0.N) = PhiS0 V c (Fin.last cfg0.N).val (Nat.le_of_lt_succ (Fin.last cfg0.N).isLt) from rfl, PhiS0_pos V c _ _ hne, PhiA0_eq]
  iintro ⟨⟨HS0, Hrest⟩, Hg⟩
  isplitl [HS0 Hrest]
  · isplitl [HS0]
    · iexists _; iexact HS0
    iexact Hrest
  iexact Hg

end Cert.Kernel.Fr

end
-- ==== Proof.K1Base.lean ====
/-
  Region 1 of the kernel's program: one matrix product with bias, out = x · wᵀ + b, cut into 1024 × 1024 blocks
  and accumulated over the 4 blocks of the contracted axis in a scratch buffer the body keeps between grid points.
  This module fixes what the runs of the body are stated over: the two branch conditions of the body as conditions on
  the grid position (the first step of a contraction zeroes the accumulator, the last adds the bias and stores the
  output block), where the output window is idle (everywhere but at a last step), the staging and scratch buffers
  the body is called with, and the region's invariant before its first point split into the accumulator and the
  scoped buffers of the other regions, which the body never touches.
-/
import proofs.«117267_j43508018708617_1_alg».proof.Proof.Gen.Kernel.Launch
import proofs.«117267_j43508018708617_1_alg».proof.Proof.Gen.Kernel.Skeleton
import proofs.«117267_j43508018708617_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditions on the grid position -/

/-- The body's first `if`: the position along the contracted axis (grid axis 2) is 0. -/
abbrev cond1_0 (i : grid1.Coords) : Prop := (Scalar.cmpi .ne (Scalar.extui (Scalar.cmpi .eq (BitVec.ofNat 32 (i 2).val) 0#32)) 0#32) = 1#1
/-- Axis 2 is the fastest, of extent 4: the condition holds at the points ≡ 0 (mod 4). -/
theorem hcond1_0 : ∀ t : Fin cfg1.N, cond1_0 (grid1.coords t) ↔ t.val % 4 = 0 :=
  (by decide +kernel : ∀ t : Fin grid1.N, cond1_0 (grid1.coords t) ↔ t.val % 4 = 0)

/-- The body's second `if`: the position along the contracted axis is the last, 3. -/
abbrev cond1_1 (i : grid1.Coords) : Prop := k1_cond2 i = 1#1
/-- It holds at the points ≡ 3 (mod 4). -/
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

/-- The three inputs are never idle. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Away from a last step the output window is idle and its block is not written back. -/
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
/-- At a last step it is live. -/
theorem liveAt1_3 : ∀ t : Fin cfg1.N, cond1_1 (grid1.coords t) → cfg1.idle 3 (grid1.coords t) = false := by decide +kernel

/-! ## The buffers the body is called with -/

/-- One staging buffer of the output window, through which its contents are stated. -/
abbrev VO1_3 : View sig .tc .vmem S1024x1024 .f32 := (Memref.whole cc1_stg3_0 : Memref sig .tc .vmem S1024x1024 .f32).view
/-- Each window's current staging buffer at point `t`, as the pipeline passes it to the body, and its wholeness. -/
abbrev ms1_0 (t : Fin cfg1.N) : Memref sig .tc .vmem S1024x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x1024 .f32 := win1_3.stage (cfg1.slots t 3)
abbrev hs1_3 (t : Fin cfg1.N) : (ms1_3 t).IsWhole := hstage1_3 ((cfg1.slots t 3).cast nbuf1_3)
/-- The accumulator: a whole scoped buffer of the kernel's own. -/
abbrev scM1_0 : Memref sig .tc .vmem S1024x1024 .f32 := Memref.whole cc1_scratch0
/-- The accumulator as a view: what it holds is stated through it. -/
abbrev VS1_0 : View sig .tc .vmem S1024x1024 .f32 := scM1_0.view

/-! ## The invariant before the first point -/

/-- `∗` is commutative and associative as an equation on these propositions. -/
theorem sepc1 (P Q : sProp 𝕄) : (iprop(P ∗ Q) : sProp 𝕄) = iprop(Q ∗ P) := (Idealize.SL.BI.sep_comm (P := P) (Q := Q)).antisymm Idealize.SL.BI.sep_comm
theorem sepa1 (P Q R : sProp 𝕄) : (iprop((P ∗ Q) ∗ R) : sProp 𝕄) = iprop(P ∗ Q ∗ R) := (Idealize.SL.BI.sep_assoc (P := P) (Q := Q) (R := R)).antisymm Idealize.SL.BI.sep_assoc'

/-- The scoped buffers of the other two regions (their staging buffers and accumulators), each whole at some
    contents, in two parts: region 1 never touches them. -/
def rest1a (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f))
def rest1b (c : Dev nD) : sProp 𝕄 :=
  iprop((∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f) ∗ (∃ f : Buf (Elt F) ((c : Thread nD τ).loc cc2_scratch0), ((c : Thread nD τ).loc cc2_scratch0) ↦{fullShare} f))
def rest1 (c : Dev nD) : sProp 𝕄 := iprop(rest1a c ∗ rest1b c)

/-- Before the first point the region holds its accumulator at any contents, the other regions' scoped buffers, and
    the generator register at some state. -/
theorem PhiA1_eq (c : Dev nD) :
    (Pipeline.ΦA spec1 c : sProp 𝕄)
      = iprop(iprop((∃ d, owns (c : Thread nD τ) scM1_0 fullShare d) ∗ rest1 c) ∗ (∃ r, prngReg c r)) := by
  unfold Pipeline.ΦA; rw [scopedRest1_eq]
  have e : (iprop(∃ d, owns (c : Thread nD τ) scM1_0 fullShare d) : sProp 𝕄)
      = iprop(∃ f : Buf (Elt F) ((c : Thread nD τ).loc cc1_scratch0), ((c : Thread nD τ).loc cc1_scratch0) ↦{fullShare} f) := by
    simp only [scM1_0, owns_whole]; try rfl
  rw [e]; unfold rest1
  rw [← sepa1 _ (rest1a c) (rest1b c), sepc1 _ (rest1a c), sepa1]
  unfold rest1a rest1b; simp only [sepa1]

end Cert.Kernel.Fr

end
-- ==== Proof.K1RunA.lean ====
/-
  Region 1, the body's run in one of its three control cases (first, middle or last step of a contraction), on
  whole staging buffers: the inputs' at their contents come back as they were, and each buffer the body stores into
  ends with the stores' pieces written, which the symbolic run of the body finds.
-/
import proofs.«117267_j43508018708617_1_alg».proof.Proof.K1Base

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a FIRST step of a contraction that is not also the last: the accumulator, at any contents, is zeroed and then holds the
    product of the two input blocks; the output buffer is handed back as found. -/
noncomputable def kernelRun1_A (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : cond1_0 i) (hc1 : ¬cond1_1 i)
    (x0 : Vec F S1024x1024 .bf16) (x1 : Vec F S1024x1024 .bf16) (x2 : Vec F S1024 .f32) :
    { LS0 : List (View.Piece (Elt F) S1024x1024 .f32) //
      ∀ (xi3 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc1__linear_kernel i arg3 harg3 arg4 harg4 arg5 harg5 arg6 harg6 arg7 harg7) K } := by
  refine ⟨?_, fun xi3 E K => ?run⟩
  case run =>
    simp only [cc1__linear_kernel_eq_skeleton]; unfold cc1__linear_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.Kernel.Fr

end
-- ==== Proof.K1RunB.lean ====
/-
  Region 1, the body's run in one of its three control cases (first, middle or last step of a contraction), on
  whole staging buffers: the inputs' at their contents come back as they were, and each buffer the body stores into
  ends with the stores' pieces written, which the symbolic run of the body finds.
-/
import proofs.«117267_j43508018708617_1_alg».proof.Proof.K1RunA

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a MIDDLE step: the accumulator, at what the point before left, gains the product of the two input blocks;
    the output buffer is handed back as found. -/
noncomputable def kernelRun1_B (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : ¬cond1_1 i)
    (x0 : Vec F S1024x1024 .bf16) (x1 : Vec F S1024x1024 .bf16) (x2 : Vec F S1024 .f32) (xs0 : Vec F S1024x1024 .f32) :
    { LS0 : List (View.Piece (Elt F) S1024x1024 .f32) //
      ∀ (xi3 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc1__linear_kernel i arg3 harg3 arg4 harg4 arg5 harg5 arg6 harg6 arg7 harg7) K } := by
  refine ⟨?_, fun xi3 E K => ?run⟩
  case run =>
    simp only [cc1__linear_kernel_eq_skeleton]; unfold cc1__linear_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.Kernel.Fr

end
-- ==== Proof.K1RunC.lean ====
/-
  Region 1, the body's run in one of its three control cases (first, middle or last step of a contraction), on
  whole staging buffers: the inputs' at their contents come back as they were, and each buffer the body stores into
  ends with the stores' pieces written, which the symbolic run of the body finds.
-/
import proofs.«117267_j43508018708617_1_alg».proof.Proof.K1RunB

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a LAST step: the accumulator, at what the point before left, gains the product of the two input blocks, and
    the output buffer, at any contents, is stored whole with the accumulator plus the bias row. -/
noncomputable def kernelRun1_C (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i)
    (x0 : Vec F S1024x1024 .bf16) (x1 : Vec F S1024x1024 .bf16) (x2 : Vec F S1024 .f32) (xs0 : Vec F S1024x1024 .f32) :
    Σ' (L3 : List (View.Piece (Elt F) S1024x1024 .f32)), { LS0 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc1__linear_kernel i arg3 harg3 arg4 harg4 arg5 harg5 arg6 harg6 arg7 harg7) K } := by
  refine ⟨?_, ?_, fun E K => ?run⟩
  case run =>
    simp only [cc1__linear_kernel_eq_skeleton]; unfold cc1__linear_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

end Cert.Kernel.Fr

end
-- ==== Proof.K1Dat.lean ====
/-
  Region 1: what the accumulator and the output's staging buffer hold after each grid point, and the region's proof
  data. The grid runs over (row block, column block, step) with the step fastest; within one (row block, column block)
  the 4 steps zero the accumulator at the first, add one block product x_blk · w_blkᵀ at each, and at the last store
  accumulator + bias into the output's buffer, which only then is written back. The contents are defined by recursion
  on the position (the case the position is in, run on the point's input blocks and on what the point before left in
  the accumulator); the invariant after a point is the accumulator at exactly those contents. From these the body's
  obligation at a generic point follows by the case's run.
-/
import proofs.«117267_j43508018708617_1_alg».proof.Proof.K1RunC

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not (unfetched, the
    block index has not moved), for any proof data whose array is the entry contents and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not (unfetched, the
    block index has not moved), for any proof data whose array is the entry contents and whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not (unfetched, the
    block index has not moved), for any proof data whose array is the entry contents and whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## What each case leaves -/

/-- The first step's one store into the accumulator after the zeroing covers it. -/
theorem scover1_A_0 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : cond1_0 i) (hc1 : ¬cond1_1 i)
    (x0 : Vec F S1024x1024 .bf16) (x1 : Vec F S1024x1024 .bf16) (x2 : Vec F S1024 .f32) (y : S1024x1024.Idx) :
    ∃ pc ∈ (kernelRun1_A c i arg3 harg3 arg4 harg4 arg5 harg5 arg6 harg6 arg7 harg7 hc0 hc1 x0 x1 x2).1, y ∈ pc.1.set :=
  View.cover_of_tiledL (kernelRun1_A c i arg3 harg3 arg4 harg4 arg5 harg5 arg6 harg6 arg7 harg7 hc0 hc1 x0 x1 x2).1 S1024x1024.size (by sl_kernel_rfl) y

/-- What a first step leaves in the accumulator: its pieces read back. -/
def sout1_A_0 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : cond1_0 i) (hc1 : ¬cond1_1 i)
    (x0 : Vec F S1024x1024 .bf16) (x1 : Vec F S1024x1024 .bf16) (x2 : Vec F S1024 .f32) : Vec F S1024x1024 .f32 :=
  VS1_0.read (Elt F) (VS1_0.writes (Elt F) VS1_0.junk (kernelRun1_A c i arg3 harg3 arg4 harg4 arg5 harg5 arg6 harg6 arg7 harg7 hc0 hc1 x0 x1 x2).1)

/-- A middle step's store covers the accumulator. -/
theorem scover1_B_0 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : ¬cond1_1 i)
    (x0 : Vec F S1024x1024 .bf16) (x1 : Vec F S1024x1024 .bf16) (x2 : Vec F S1024 .f32) (xs0 : Vec F S1024x1024 .f32) (y : S1024x1024.Idx) :
    ∃ pc ∈ (kernelRun1_B c i arg3 harg3 arg4 harg4 arg5 harg5 arg6 harg6 arg7 harg7 hc0 hc1 x0 x1 x2 xs0).1, y ∈ pc.1.set :=
  View.cover_of_tiledL (kernelRun1_B c i arg3 harg3 arg4 harg4 arg5 harg5 arg6 harg6 arg7 harg7 hc0 hc1 x0 x1 x2 xs0).1 S1024x1024.size (by sl_kernel_rfl) y

/-- What a middle step leaves in the accumulator. -/
def sout1_B_0 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : ¬cond1_1 i)
    (x0 : Vec F S1024x1024 .bf16) (x1 : Vec F S1024x1024 .bf16) (x2 : Vec F S1024 .f32) (xs0 : Vec F S1024x1024 .f32) : Vec F S1024x1024 .f32 :=
  VS1_0.read (Elt F) (VS1_0.writes (Elt F) VS1_0.junk (kernelRun1_B c i arg3 harg3 arg4 harg4 arg5 harg5 arg6 harg6 arg7 harg7 hc0 hc1 x0 x1 x2 xs0).1)

/-- A last step's store covers the output's buffer. -/
theorem cover1_C_3 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i)
    (x0 : Vec F S1024x1024 .bf16) (x1 : Vec F S1024x1024 .bf16) (x2 : Vec F S1024 .f32) (xs0 : Vec F S1024x1024 .f32) (y : S1024x1024.Idx) :
    ∃ pc ∈ (kernelRun1_C c i arg3 harg3 arg4 harg4 arg5 harg5 arg6 harg6 arg7 harg7 hc0 hc1 x0 x1 x2 xs0).1, y ∈ pc.1.set :=
  View.cover_of_tiledL (kernelRun1_C c i arg3 harg3 arg4 harg4 arg5 harg5 arg6 harg6 arg7 harg7 hc0 hc1 x0 x1 x2 xs0).1 S1024x1024.size (by sl_kernel_rfl) y

/-- What a last step leaves in the output's buffer. -/
def out1_C_3 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i)
    (x0 : Vec F S1024x1024 .bf16) (x1 : Vec F S1024x1024 .bf16) (x2 : Vec F S1024 .f32) (xs0 : Vec F S1024x1024 .f32) : Vec F S1024x1024 .f32 :=
  VO1_3.read (Elt F) (VO1_3.writes (Elt F) VO1_3.junk (kernelRun1_C c i arg3 harg3 arg4 harg4 arg5 harg5 arg6 harg6 arg7 harg7 hc0 hc1 x0 x1 x2 xs0).1)

/-- A last step's store covers the accumulator. -/
theorem scover1_C_0 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i)
    (x0 : Vec F S1024x1024 .bf16) (x1 : Vec F S1024x1024 .bf16) (x2 : Vec F S1024 .f32) (xs0 : Vec F S1024x1024 .f32) (y : S1024x1024.Idx) :
    ∃ pc ∈ (kernelRun1_C c i arg3 harg3 arg4 harg4 arg5 harg5 arg6 harg6 arg7 harg7 hc0 hc1 x0 x1 x2 xs0).2.1, y ∈ pc.1.set :=
  View.cover_of_tiledL (kernelRun1_C c i arg3 harg3 arg4 harg4 arg5 harg5 arg6 harg6 arg7 harg7 hc0 hc1 x0 x1 x2 xs0).2.1 S1024x1024.size (by sl_kernel_rfl) y

/-- What a last step leaves in the accumulator. -/
def sout1_C_0 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i)
    (x0 : Vec F S1024x1024 .bf16) (x1 : Vec F S1024x1024 .bf16) (x2 : Vec F S1024 .f32) (xs0 : Vec F S1024x1024 .f32) : Vec F S1024x1024 .f32 :=
  VS1_0.read (Elt F) (VS1_0.writes (Elt F) VS1_0.junk (kernelRun1_C c i arg3 harg3 arg4 harg4 arg5 harg5 arg6 harg6 arg7 harg7 hc0 hc1 x0 x1 x2 xs0).2.1)

/-- Away from a last step nothing is stored into the output's buffer: a placeholder nothing consults, since there
    the buffer is neither written back nor read at the next point. -/
def idleOut1 : Vec F S1024x1024 .f32 := VO1_3.read (Elt F) VO1_3.junk

/-! ## What the buffers hold after each point -/

/-- THE ACCUMULATION: the output's staging buffer and the accumulator after the body at position `n`. -/
def outsAt1 (c : Dev nD) : (n : ℕ) → n < cfg1.N → Vec F S1024x1024 .f32 × Vec F S1024x1024 .f32
  | 0, hn => (idleOut1, sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 4 = 0 then
      if h1 : (n + 1) % 4 = 3 then
        False.elim (by omega)
      else
        (idleOut1, sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 4 = 3 then
        (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2)
      else
        (idleOut1, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2)

/-- At a first step. -/
theorem outsAt1_A (c : Dev nD) (t : Fin cfg1.N) (h0 : t.val % 4 = 0) (h1 : ¬t.val % 4 = 3) :
    outsAt1 V c t.val t.isLt = (idleOut1, sout1_A_0 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

/-- At a middle step, over what the point before left in the accumulator. -/
theorem outsAt1_B (c : Dev nD) (t : Fin cfg1.N) (h0 : ¬t.val % 4 = 0) (h1 : ¬t.val % 4 = 3) :
    outsAt1 V c t.val t.isLt = (idleOut1, sout1_B_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a last step, over what the point before left in the accumulator. -/
theorem outsAt1_C (c : Dev nD) (t : Fin cfg1.N) (h0 : ¬t.val % 4 = 0) (h1 : t.val % 4 = 3) :
    outsAt1 V c t.val t.isLt = (out1_C_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant -/

/-- The region's invariant before position `n`: before the first point the accumulator at anything; afterwards at what
    the point before left in it; beside it always the other regions' scoped buffers and the generator register. -/
def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2) ∗ rest1 c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1_0 fullShare ((outsAt1 V c n hn).2) ∗ rest1 c) ∗ (∃ r, prngReg c r)) := rfl

theorem PhiS1_pos (c : Dev nD) (n : ℕ) (h : n ≤ cfg1.N) (hz : n ≠ 0) :
    PhiS1 V c n h = iprop(iprop(owns (c : Thread nD τ) scM1_0 fullShare ((outsAt1 V c (n - 1) (by omega)).2) ∗ rest1 c) ∗ (∃ r, prngReg c r)) := by
  cases n with
  | zero => exact absurd rfl hz
  | succ n => rfl

/-! ## The proof data -/

/-- The pipeline's proof data on core `c`: the arrays as the region finds them; after the body at a point each input's
    buffer at its block and the output's at `outsAt1`; the invariant above; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`: the invariant, the core's dues, and each window's current buffer. -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the inputs' buffers hold their blocks; the position decides the case; the invariant hands the
    body the accumulator (at anything before the first point, else at what the point before left) and takes it back
    at this point's contents; the other regions' buffers and the generator register ride along; the core owes nothing. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 176 := lt_of_lt_of_eq t.isLt (show cfg1.N = 176 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  by_cases h0 : t.val % 4 = 0
  · by_cases h1 : t.val % 4 = 3
    · exfalso; omega
    · rw [Dat.leavesExact_idle (dat1 V c) 3 t (idleAt1_3 t (fun h => h1 ((hcond1_1 t).mp h))) (noFlush1_3 t (fun h => h1 ((hcond1_1 t).mp h)))]
      rw [outsAt1_A V c t h0 h1]
      unfold sout1_A_0; (try dsimp only)
      by_cases hz : t.val = 0
      · rw [PhiS1_castSucc V c t, PhiS1_zero V c _ _ hz, PhiA1_eq]
        iintro ⟨⟨⟨HS0, Hrest⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover1_A_0 c _ _ _ _ _ _ _ _ _ _ _ _ _ _ _ _)
            iexact Hrest
          iexact Hg
        isplitl [Ho]; · iexact Ho
        isplitl [H0]; · iexact H0
        isplitl [H1]; · iexact H1
        isplitl [H2]; · iexact H2
        iexists _; iexact H3
      · rw [PhiS1_castSucc V c t, PhiS1_pos V c _ _ hz]
        iintro ⟨⟨⟨HS0, Hrest⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover1_A_0 c _ _ _ _ _ _ _ _ _ _ _ _ _ _ _ _)
            iexact Hrest
          iexact Hg
        isplitl [Ho]; · iexact Ho
        isplitl [H0]; · iexact H0
        isplitl [H1]; · iexact H1
        isplitl [H2]; · iexact H2
        iexists _; iexact H3
  · by_cases h1 : t.val % 4 = 3
    · rw [show (dat1 V c).leavesExact 3 t = owns (c : Thread nD τ) (ms1_3 t) fullShare ((dat1 V c).after 3 t) from by
        unfold Dat.leavesExact; rw [liveAt1_3 t ((hcond1_1 t).mpr h1)], after1_3]
      rw [outsAt1_C V c t h0 h1]
      unfold out1_C_3 sout1_C_0; (try dsimp only)
      by_cases hz : t.val = 0
      · exfalso; omega
      · rw [PhiS1_castSucc V c t, PhiS1_pos V c _ _ hz]
        iintro ⟨⟨⟨HS0, Hrest⟩, Hg⟩, Ho, ⟨%d0, H0⟩, ⟨%d1, H1⟩, ⟨%d2, H2⟩, ⟨%d3, H3⟩⟩
        iapply ((kernelRun1_C c (grid1.coords t) _ _ _ _ _ _ _ _ _ _ (fun h => h0 ((hcond1_0 t).mp h)) ((hcond1_1 t).mpr h1) (iblk1 V c 0 t) (iblk1 V c 1 t) (iblk1 V c 2 t) _).2.2 Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover1_C_0 c _ _ _ _ _ _ _ _ _ _ _ _ _ _ _ _ _)
            iexact Hrest
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover1_C_3 c _ _ _ _ _ _ _ _ _ _ _ _ _ _ _ _ _)
    · rw [Dat.leavesExact_idle (dat1 V c) 3 t (idleAt1_3 t (fun h => h1 ((hcond1_1 t).mp h))) (noFlush1_3 t (fun h => h1 ((hcond1_1 t).mp h)))]
      rw [outsAt1_B V c t h0 h1]
      unfold sout1_B_0; (try dsimp only)
      by_cases hz : t.val = 0
      · exfalso; omega
      · rw [PhiS1_castSucc V c t, PhiS1_pos V c _ _ hz]
        iintro ⟨⟨⟨HS0, Hrest⟩, Hg⟩, Ho, ⟨%d0, H0⟩, ⟨%d1, H1⟩, ⟨%d2, H2⟩, ⟨%d3, H3⟩⟩
        iapply ((kernelRun1_B c (grid1.coords t) _ _ _ _ _ _ _ _ _ _ (fun h => h0 ((hcond1_0 t).mp h)) (fun h => h1 ((hcond1_1 t).mp h)) (iblk1 V c 0 t) (iblk1 V c 1 t) (iblk1 V c 2 t) _).2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover1_B_0 c _ _ _ _ _ _ _ _ _ _ _ _ _ _ _ _ _)
            iexact Hrest
          iexact Hg
        isplitl [Ho]; · iexact Ho
        isplitl [H0]; · iexact H0
        isplitl [H1]; · iexact H1
        isplitl [H2]; · iexact H2
        iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the launch's back: the accumulator's named contents are forgotten. -/
theorem hout1 (c : Dev nD) : (dat1 V c).Φ (Fin.last cfg1.N) ⊢ Pipeline.ΦA spec1 c := by
  have hne : (Fin.last cfg1.N).val ≠ 0 := by rw [Fin.val_last]; have : cfg1.N = 176 := N_1; omega
  rw [show (dat1 V c).Φ (Fin.last cfg1.N) = PhiS1 V c (Fin.last cfg1.N).val (Nat.le_of_lt_succ (Fin.last cfg1.N).isLt) from rfl, PhiS1_pos V c _ _ hne, PhiA1_eq]
  iintro ⟨⟨HS0, Hrest⟩, Hg⟩
  isplitl [HS0 Hrest]
  · isplitl [HS0]
    · iexists _; iexact HS0
    iexact Hrest
  iexact Hg

end Cert.Kernel.Fr

end
-- ==== Proof.K2Base.lean ====
/-
  Region 2 of the kernel's program: one matrix product with bias, out = x · wᵀ + b, cut into 1024 × 1024 blocks
  and accumulated over the 11 blocks of the contracted axis in a scratch buffer the body keeps between grid points.
  This module fixes what the runs of the body are stated over: the two branch conditions of the body as conditions on
  the grid position (the first step of a contraction zeroes the accumulator, the last adds the bias and stores the
  output block), where the output window is idle (everywhere but at a last step), the staging and scratch buffers
  the body is called with, and the region's invariant before its first point split into the accumulator and the
  scoped buffers of the other regions, which the body never touches.
-/
import proofs.«117267_j43508018708617_1_alg».proof.Proof.Gen.Kernel.Launch
import proofs.«117267_j43508018708617_1_alg».proof.Proof.Gen.Kernel.Skeleton
import proofs.«117267_j43508018708617_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditions on the grid position -/

/-- The body's first `if`: the position along the contracted axis (grid axis 2) is 0. -/
abbrev cond2_0 (i : grid2.Coords) : Prop := (Scalar.cmpi .ne (Scalar.extui (Scalar.cmpi .eq (BitVec.ofNat 32 (i 2).val) 0#32)) 0#32) = 1#1
/-- Axis 2 is the fastest, of extent 11: the condition holds at the points ≡ 0 (mod 11). -/
theorem hcond2_0 : ∀ t : Fin cfg2.N, cond2_0 (grid2.coords t) ↔ t.val % 11 = 0 :=
  (by decide +kernel : ∀ t : Fin grid2.N, cond2_0 (grid2.coords t) ↔ t.val % 11 = 0)

/-- The body's second `if`: the position along the contracted axis is the last, 10. -/
abbrev cond2_1 (i : grid2.Coords) : Prop := k2_cond2 i = 1#1
/-- It holds at the points ≡ 10 (mod 11). -/
theorem hcond2_1 : ∀ t : Fin cfg2.N, cond2_1 (grid2.coords t) ↔ t.val % 11 = 10 :=
  (by decide +kernel : ∀ t : Fin grid2.N, cond2_1 (grid2.coords t) ↔ t.val % 11 = 10)

/-! ## Where the windows are idle -/

/-- The three inputs are never idle. -/
theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
/-- Away from a last step the output window is idle and its block is not written back. -/
theorem idleAt2_3 : ∀ t : Fin cfg2.N, ¬cond2_1 (grid2.coords t) → cfg2.idle 3 (grid2.coords t) = true := by decide +kernel
theorem noFlush2_3 : ∀ t : Fin cfg2.N, ¬cond2_1 (grid2.coords t) → (cfg2.win 3).flush t = false := by decide +kernel
/-- At a last step it is live. -/
theorem liveAt2_3 : ∀ t : Fin cfg2.N, cond2_1 (grid2.coords t) → cfg2.idle 3 (grid2.coords t) = false := by decide +kernel

/-! ## The buffers the body is called with -/

/-- One staging buffer of the output window, through which its contents are stated. -/
abbrev VO2_3 : View sig .tc .vmem S1024x1024 .f32 := (Memref.whole cc2_stg3_0 : Memref sig .tc .vmem S1024x1024 .f32).view
/-- Each window's current staging buffer at point `t`, as the pipeline passes it to the body, and its wholeness. -/
abbrev ms2_0 (t : Fin cfg2.N) : Memref sig .tc .vmem S1024x1024 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x1024 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1024 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1024x1024 .f32 := win2_3.stage (cfg2.slots t 3)
abbrev hs2_3 (t : Fin cfg2.N) : (ms2_3 t).IsWhole := hstage2_3 ((cfg2.slots t 3).cast nbuf2_3)
/-- The accumulator: a whole scoped buffer of the kernel's own. -/
abbrev scM2_0 : Memref sig .tc .vmem S1024x1024 .f32 := Memref.whole cc2_scratch0
/-- The accumulator as a view: what it holds is stated through it. -/
abbrev VS2_0 : View sig .tc .vmem S1024x1024 .f32 := scM2_0.view

/-! ## The invariant before the first point -/

/-- `∗` is commutative and associative as an equation on these propositions. -/
theorem sepc2 (P Q : sProp 𝕄) : (iprop(P ∗ Q) : sProp 𝕄) = iprop(Q ∗ P) := (Idealize.SL.BI.sep_comm (P := P) (Q := Q)).antisymm Idealize.SL.BI.sep_comm
theorem sepa2 (P Q R : sProp 𝕄) : (iprop((P ∗ Q) ∗ R) : sProp 𝕄) = iprop(P ∗ Q ∗ R) := (Idealize.SL.BI.sep_assoc (P := P) (Q := Q) (R := R)).antisymm Idealize.SL.BI.sep_assoc'

/-- The scoped buffers of the other two regions (their staging buffers and accumulators), each whole at some
    contents: region 2 never touches them. -/
def rest2 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_scratch0), ((c : Thread nD τ).loc cc1_scratch0) ↦{fullShare} f))

/-- Before the first point the region holds its accumulator at any contents, the other regions' scoped buffers, and
    the generator register at some state. -/
theorem PhiA2_eq (c : Dev nD) :
    (Pipeline.ΦA spec2 c : sProp 𝕄)
      = iprop(iprop((∃ d, owns (c : Thread nD τ) scM2_0 fullShare d) ∗ rest2 c) ∗ (∃ r, prngReg c r)) := by
  unfold Pipeline.ΦA; rw [scopedRest2_eq]
  have e : (iprop(∃ d, owns (c : Thread nD τ) scM2_0 fullShare d) : sProp 𝕄)
      = iprop(∃ f : Buf (Elt F) ((c : Thread nD τ).loc cc2_scratch0), ((c : Thread nD τ).loc cc2_scratch0) ↦{fullShare} f) := by
    simp only [scM2_0, owns_whole]; try rfl
  rw [e, sepc2 _ (rest2 c)]; unfold rest2; simp only [sepa2]

end Cert.Kernel.Fr

end
-- ==== Proof.K2RunA.lean ====
/-
  Region 2, the body's run in one of its three control cases (first, middle or last step of a contraction), on
  whole staging buffers: the inputs' at their contents come back as they were, and each buffer the body stores into
  ends with the stores' pieces written, which the symbolic run of the body finds.
-/
import proofs.«117267_j43508018708617_1_alg».proof.Proof.K2Base

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a FIRST step of a contraction that is not also the last: the accumulator, at any contents, is zeroed and then holds the
    product of the two input blocks; the output buffer is handed back as found. -/
noncomputable def kernelRun2_A (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : cond2_0 i) (hc1 : ¬cond2_1 i)
    (x0 : Vec F S1024x1024 .bf16) (x1 : Vec F S1024x1024 .bf16) (x2 : Vec F S1024 .f32) :
    { LS0 : List (View.Piece (Elt F) S1024x1024 .f32) //
      ∀ (xi3 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc2__linear_kernel i arg3 harg3 arg4 harg4 arg5 harg5 arg6 harg6 arg7 harg7) K } := by
  refine ⟨?_, fun xi3 E K => ?run⟩
  case run =>
    simp only [cc2__linear_kernel_eq_skeleton]; unfold cc2__linear_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.Kernel.Fr

end
-- ==== Proof.K2RunB.lean ====
/-
  Region 2, the body's run in one of its three control cases (first, middle or last step of a contraction), on
  whole staging buffers: the inputs' at their contents come back as they were, and each buffer the body stores into
  ends with the stores' pieces written, which the symbolic run of the body finds.
-/
import proofs.«117267_j43508018708617_1_alg».proof.Proof.K2RunA

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a MIDDLE step: the accumulator, at what the point before left, gains the product of the two input blocks;
    the output buffer is handed back as found. -/
noncomputable def kernelRun2_B (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : ¬cond2_0 i) (hc1 : ¬cond2_1 i)
    (x0 : Vec F S1024x1024 .bf16) (x1 : Vec F S1024x1024 .bf16) (x2 : Vec F S1024 .f32) (xs0 : Vec F S1024x1024 .f32) :
    { LS0 : List (View.Piece (Elt F) S1024x1024 .f32) //
      ∀ (xi3 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc2__linear_kernel i arg3 harg3 arg4 harg4 arg5 harg5 arg6 harg6 arg7 harg7) K } := by
  refine ⟨?_, fun xi3 E K => ?run⟩
  case run =>
    simp only [cc2__linear_kernel_eq_skeleton]; unfold cc2__linear_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.Kernel.Fr

end
-- ==== Proof.K2RunC.lean ====
/-
  Region 2, the body's run in one of its three control cases (first, middle or last step of a contraction), on
  whole staging buffers: the inputs' at their contents come back as they were, and each buffer the body stores into
  ends with the stores' pieces written, which the symbolic run of the body finds.
-/
import proofs.«117267_j43508018708617_1_alg».proof.Proof.K2RunB

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a LAST step: the accumulator, at what the point before left, gains the product of the two input blocks, and
    the output buffer, at any contents, is stored whole with the accumulator plus the bias row. -/
noncomputable def kernelRun2_C (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : ¬cond2_0 i) (hc1 : cond2_1 i)
    (x0 : Vec F S1024x1024 .bf16) (x1 : Vec F S1024x1024 .bf16) (x2 : Vec F S1024 .f32) (xs0 : Vec F S1024x1024 .f32) :
    Σ' (L3 : List (View.Piece (Elt F) S1024x1024 .f32)), { LS0 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc2__linear_kernel i arg3 harg3 arg4 harg4 arg5 harg5 arg6 harg6 arg7 harg7) K } := by
  refine ⟨?_, ?_, fun E K => ?run⟩
  case run =>
    simp only [cc2__linear_kernel_eq_skeleton]; unfold cc2__linear_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

end Cert.Kernel.Fr

end
-- ==== Proof.K2Dat.lean ====
/-
  Region 2: what the accumulator and the output's staging buffer hold after each grid point, and the region's proof
  data. The grid runs over (row block, column block, step) with the step fastest; within one (row block, column block)
  the 11 steps zero the accumulator at the first, add one block product x_blk · w_blkᵀ at each, and at the last store
  accumulator + bias into the output's buffer, which only then is written back. The contents are defined by recursion
  on the position (the case the position is in, run on the point's input blocks and on what the point before left in
  the accumulator); the invariant after a point is the accumulator at exactly those contents. From these the body's
  obligation at a generic point follows by the case's run.
-/
import proofs.«117267_j43508018708617_1_alg».proof.Proof.K2RunC

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not (unfetched, the
    block index has not moved), for any proof data whose array is the entry contents and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not (unfetched, the
    block index has not moved), for any proof data whose array is the entry contents and whose body leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not (unfetched, the
    block index has not moved), for any proof data whose array is the entry contents and whose body leaves the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## What each case leaves -/

/-- The first step's one store into the accumulator after the zeroing covers it. -/
theorem scover2_A_0 (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : cond2_0 i) (hc1 : ¬cond2_1 i)
    (x0 : Vec F S1024x1024 .bf16) (x1 : Vec F S1024x1024 .bf16) (x2 : Vec F S1024 .f32) (y : S1024x1024.Idx) :
    ∃ pc ∈ (kernelRun2_A c i arg3 harg3 arg4 harg4 arg5 harg5 arg6 harg6 arg7 harg7 hc0 hc1 x0 x1 x2).1, y ∈ pc.1.set :=
  View.cover_of_tiledL (kernelRun2_A c i arg3 harg3 arg4 harg4 arg5 harg5 arg6 harg6 arg7 harg7 hc0 hc1 x0 x1 x2).1 S1024x1024.size (by sl_kernel_rfl) y

/-- What a first step leaves in the accumulator: its pieces read back. -/
def sout2_A_0 (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : cond2_0 i) (hc1 : ¬cond2_1 i)
    (x0 : Vec F S1024x1024 .bf16) (x1 : Vec F S1024x1024 .bf16) (x2 : Vec F S1024 .f32) : Vec F S1024x1024 .f32 :=
  VS2_0.read (Elt F) (VS2_0.writes (Elt F) VS2_0.junk (kernelRun2_A c i arg3 harg3 arg4 harg4 arg5 harg5 arg6 harg6 arg7 harg7 hc0 hc1 x0 x1 x2).1)

/-- A middle step's store covers the accumulator. -/
theorem scover2_B_0 (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : ¬cond2_0 i) (hc1 : ¬cond2_1 i)
    (x0 : Vec F S1024x1024 .bf16) (x1 : Vec F S1024x1024 .bf16) (x2 : Vec F S1024 .f32) (xs0 : Vec F S1024x1024 .f32) (y : S1024x1024.Idx) :
    ∃ pc ∈ (kernelRun2_B c i arg3 harg3 arg4 harg4 arg5 harg5 arg6 harg6 arg7 harg7 hc0 hc1 x0 x1 x2 xs0).1, y ∈ pc.1.set :=
  View.cover_of_tiledL (kernelRun2_B c i arg3 harg3 arg4 harg4 arg5 harg5 arg6 harg6 arg7 harg7 hc0 hc1 x0 x1 x2 xs0).1 S1024x1024.size (by sl_kernel_rfl) y

/-- What a middle step leaves in the accumulator. -/
def sout2_B_0 (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : ¬cond2_0 i) (hc1 : ¬cond2_1 i)
    (x0 : Vec F S1024x1024 .bf16) (x1 : Vec F S1024x1024 .bf16) (x2 : Vec F S1024 .f32) (xs0 : Vec F S1024x1024 .f32) : Vec F S1024x1024 .f32 :=
  VS2_0.read (Elt F) (VS2_0.writes (Elt F) VS2_0.junk (kernelRun2_B c i arg3 harg3 arg4 harg4 arg5 harg5 arg6 harg6 arg7 harg7 hc0 hc1 x0 x1 x2 xs0).1)

/-- A last step's store covers the output's buffer. -/
theorem cover2_C_3 (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : ¬cond2_0 i) (hc1 : cond2_1 i)
    (x0 : Vec F S1024x1024 .bf16) (x1 : Vec F S1024x1024 .bf16) (x2 : Vec F S1024 .f32) (xs0 : Vec F S1024x1024 .f32) (y : S1024x1024.Idx) :
    ∃ pc ∈ (kernelRun2_C c i arg3 harg3 arg4 harg4 arg5 harg5 arg6 harg6 arg7 harg7 hc0 hc1 x0 x1 x2 xs0).1, y ∈ pc.1.set :=
  View.cover_of_tiledL (kernelRun2_C c i arg3 harg3 arg4 harg4 arg5 harg5 arg6 harg6 arg7 harg7 hc0 hc1 x0 x1 x2 xs0).1 S1024x1024.size (by sl_kernel_rfl) y

/-- What a last step leaves in the output's buffer. -/
def out2_C_3 (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : ¬cond2_0 i) (hc1 : cond2_1 i)
    (x0 : Vec F S1024x1024 .bf16) (x1 : Vec F S1024x1024 .bf16) (x2 : Vec F S1024 .f32) (xs0 : Vec F S1024x1024 .f32) : Vec F S1024x1024 .f32 :=
  VO2_3.read (Elt F) (VO2_3.writes (Elt F) VO2_3.junk (kernelRun2_C c i arg3 harg3 arg4 harg4 arg5 harg5 arg6 harg6 arg7 harg7 hc0 hc1 x0 x1 x2 xs0).1)

/-- A last step's store covers the accumulator. -/
theorem scover2_C_0 (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : ¬cond2_0 i) (hc1 : cond2_1 i)
    (x0 : Vec F S1024x1024 .bf16) (x1 : Vec F S1024x1024 .bf16) (x2 : Vec F S1024 .f32) (xs0 : Vec F S1024x1024 .f32) (y : S1024x1024.Idx) :
    ∃ pc ∈ (kernelRun2_C c i arg3 harg3 arg4 harg4 arg5 harg5 arg6 harg6 arg7 harg7 hc0 hc1 x0 x1 x2 xs0).2.1, y ∈ pc.1.set :=
  View.cover_of_tiledL (kernelRun2_C c i arg3 harg3 arg4 harg4 arg5 harg5 arg6 harg6 arg7 harg7 hc0 hc1 x0 x1 x2 xs0).2.1 S1024x1024.size (by sl_kernel_rfl) y

/-- What a last step leaves in the accumulator. -/
def sout2_C_0 (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : ¬cond2_0 i) (hc1 : cond2_1 i)
    (x0 : Vec F S1024x1024 .bf16) (x1 : Vec F S1024x1024 .bf16) (x2 : Vec F S1024 .f32) (xs0 : Vec F S1024x1024 .f32) : Vec F S1024x1024 .f32 :=
  VS2_0.read (Elt F) (VS2_0.writes (Elt F) VS2_0.junk (kernelRun2_C c i arg3 harg3 arg4 harg4 arg5 harg5 arg6 harg6 arg7 harg7 hc0 hc1 x0 x1 x2 xs0).2.1)

/-- Away from a last step nothing is stored into the output's buffer: a placeholder nothing consults, since there
    the buffer is neither written back nor read at the next point. -/
def idleOut2 : Vec F S1024x1024 .f32 := VO2_3.read (Elt F) VO2_3.junk

/-! ## What the buffers hold after each point -/

/-- THE ACCUMULATION: the output's staging buffer and the accumulator after the body at position `n`. -/
def outsAt2 (c : Dev nD) : (n : ℕ) → n < cfg2.N → Vec F S1024x1024 .f32 × Vec F S1024x1024 .f32
  | 0, hn => (idleOut2, sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩))
  | n + 1, hn =>
    if h0 : (n + 1) % 11 = 0 then
      if h1 : (n + 1) % 11 = 10 then
        False.elim (by omega)
      else
        (idleOut2, sout2_A_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩))
    else
      if h1 : (n + 1) % 11 = 10 then
        (out2_C_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (outsAt2 c n (Nat.lt_of_succ_lt hn)).2, sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (outsAt2 c n (Nat.lt_of_succ_lt hn)).2)
      else
        (idleOut2, sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (outsAt2 c n (Nat.lt_of_succ_lt hn)).2)

/-- At a first step. -/
theorem outsAt2_A (c : Dev nD) (t : Fin cfg2.N) (h0 : t.val % 11 = 0) (h1 : ¬t.val % 11 = 10) :
    outsAt2 V c t.val t.isLt = (idleOut2, sout2_A_0 c (grid2.coords t) (ms2_0 t) (hs2_0 t) (ms2_1 t) (hs2_1 t) (ms2_2 t) (hs2_2 t) (ms2_3 t) (hs2_3 t) scM2_0 (Memref.isWhole_whole _) ((hcond2_0 t).mpr h0) (fun h => h1 ((hcond2_1 t).mp h)) (iblk2 V c 0 t) (iblk2 V c 1 t) (iblk2 V c 2 t)) := by
  obtain ⟨n, hn⟩ := t
  cases n with
  | zero => exact rfl
  | succ n => exact (dif_pos h0).trans ((dif_neg h1).trans rfl)

/-- At a middle step, over what the point before left in the accumulator. -/
theorem outsAt2_B (c : Dev nD) (t : Fin cfg2.N) (h0 : ¬t.val % 11 = 0) (h1 : ¬t.val % 11 = 10) :
    outsAt2 V c t.val t.isLt = (idleOut2, sout2_B_0 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) (fun h => h1 ((hcond2_1 t).mp h)) (iblk2 V c 0 t) (iblk2 V c 1 t) (iblk2 V c 2 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a last step, over what the point before left in the accumulator. -/
theorem outsAt2_C (c : Dev nD) (t : Fin cfg2.N) (h0 : ¬t.val % 11 = 0) (h1 : t.val % 11 = 10) :
    outsAt2 V c t.val t.isLt = (out2_C_3 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2, sout2_C_0 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant -/

/-- The region's invariant before position `n`: before the first point the accumulator at anything; afterwards at what
    the point before left in it; beside it always the other regions' scoped buffers and the generator register. -/
def PhiS2 (c : Dev nD) : (n : ℕ) → n ≤ cfg2.N → sProp 𝕄
  | 0, _ => Pipeline.ΦA spec2 c
  | n + 1, hn => iprop(iprop(owns (c : Thread nD τ) scM2_0 fullShare ((outsAt2 V c n hn).2) ∗ rest2 c) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(owns (c : Thread nD τ) scM2_0 fullShare ((outsAt2 V c n hn).2) ∗ rest2 c) ∗ (∃ r, prngReg c r)) := rfl

theorem PhiS2_pos (c : Dev nD) (n : ℕ) (h : n ≤ cfg2.N) (hz : n ≠ 0) :
    PhiS2 V c n h = iprop(iprop(owns (c : Thread nD τ) scM2_0 fullShare ((outsAt2 V c (n - 1) (by omega)).2) ∗ rest2 c) ∗ (∃ r, prngReg c r)) := by
  cases n with
  | zero => exact absurd rfl hz
  | succ n => rfl

/-! ## The proof data -/

/-- The pipeline's proof data on core `c`: the arrays as the region finds them; after the body at a point each input's
    buffer at its block and the output's at `outsAt2`; the invariant above; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = (outsAt2 V c t.val t.isLt).1 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point `t`: the invariant, the core's dues, and each window's current buffer. -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

set_option maxHeartbeats 4800000 in
/-- The body at any point: the inputs' buffers hold their blocks; the position decides the case; the invariant hands the
    body the accumulator (at anything before the first point, else at what the point before left) and takes it back
    at this point's contents; the other regions' buffers and the generator register ride along; the core owes nothing. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = PhiS2 V c (t.val + 1) t.isLt from rfl, PhiS2_succ]
  have hN : t.val < 176 := lt_of_lt_of_eq t.isLt (show cfg2.N = 176 from N_2)
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  by_cases h0 : t.val % 11 = 0
  · by_cases h1 : t.val % 11 = 10
    · exfalso; omega
    · rw [Dat.leavesExact_idle (dat2 V c) 3 t (idleAt2_3 t (fun h => h1 ((hcond2_1 t).mp h))) (noFlush2_3 t (fun h => h1 ((hcond2_1 t).mp h)))]
      rw [outsAt2_A V c t h0 h1]
      unfold sout2_A_0; (try dsimp only)
      by_cases hz : t.val = 0
      · rw [PhiS2_castSucc V c t, PhiS2_zero V c _ _ hz, PhiA2_eq]
        iintro ⟨⟨⟨HS0, Hrest⟩, Hg⟩, Ho, ⟨%d0, H0⟩, ⟨%d1, H1⟩, ⟨%d2, H2⟩, ⟨%d3, H3⟩⟩
        iapply ((kernelRun2_A c (grid2.coords t) _ _ _ _ _ _ _ _ _ _ ((hcond2_0 t).mpr h0) (fun h => h1 ((hcond2_1 t).mp h)) (iblk2 V c 0 t) (iblk2 V c 1 t) (iblk2 V c 2 t)).2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover2_A_0 c _ _ _ _ _ _ _ _ _ _ _ _ _ _ _ _)
            iexact Hrest
          iexact Hg
        isplitl [Ho]; · iexact Ho
        isplitl [H0]; · iexact H0
        isplitl [H1]; · iexact H1
        isplitl [H2]; · iexact H2
        iexists _; iexact H3
      · rw [PhiS2_castSucc V c t, PhiS2_pos V c _ _ hz]
        iintro ⟨⟨⟨HS0, Hrest⟩, Hg⟩, Ho, ⟨%d0, H0⟩, ⟨%d1, H1⟩, ⟨%d2, H2⟩, ⟨%d3, H3⟩⟩
        iapply ((kernelRun2_A c (grid2.coords t) _ _ _ _ _ _ _ _ _ _ ((hcond2_0 t).mpr h0) (fun h => h1 ((hcond2_1 t).mp h)) (iblk2 V c 0 t) (iblk2 V c 1 t) (iblk2 V c 2 t)).2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover2_A_0 c _ _ _ _ _ _ _ _ _ _ _ _ _ _ _ _)
            iexact Hrest
          iexact Hg
        isplitl [Ho]; · iexact Ho
        isplitl [H0]; · iexact H0
        isplitl [H1]; · iexact H1
        isplitl [H2]; · iexact H2
        iexists _; iexact H3
  · by_cases h1 : t.val % 11 = 10
    · rw [show (dat2 V c).leavesExact 3 t = owns (c : Thread nD τ) (ms2_3 t) fullShare ((dat2 V c).after 3 t) from by
        unfold Dat.leavesExact; rw [liveAt2_3 t ((hcond2_1 t).mpr h1)], after2_3]
      rw [outsAt2_C V c t h0 h1]
      unfold out2_C_3 sout2_C_0; (try dsimp only)
      by_cases hz : t.val = 0
      · exfalso; omega
      · rw [PhiS2_castSucc V c t, PhiS2_pos V c _ _ hz]
        iintro ⟨⟨⟨HS0, Hrest⟩, Hg⟩, Ho, ⟨%d0, H0⟩, ⟨%d1, H1⟩, ⟨%d2, H2⟩, ⟨%d3, H3⟩⟩
        iapply ((kernelRun2_C c (grid2.coords t) _ _ _ _ _ _ _ _ _ _ (fun h => h0 ((hcond2_0 t).mp h)) ((hcond2_1 t).mpr h1) (iblk2 V c 0 t) (iblk2 V c 1 t) (iblk2 V c 2 t) _).2.2 Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover2_C_0 c _ _ _ _ _ _ _ _ _ _ _ _ _ _ _ _ _)
            iexact Hrest
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover2_C_3 c _ _ _ _ _ _ _ _ _ _ _ _ _ _ _ _ _)
    · rw [Dat.leavesExact_idle (dat2 V c) 3 t (idleAt2_3 t (fun h => h1 ((hcond2_1 t).mp h))) (noFlush2_3 t (fun h => h1 ((hcond2_1 t).mp h)))]
      rw [outsAt2_B V c t h0 h1]
      unfold sout2_B_0; (try dsimp only)
      by_cases hz : t.val = 0
      · exfalso; omega
      · rw [PhiS2_castSucc V c t, PhiS2_pos V c _ _ hz]
        iintro ⟨⟨⟨HS0, Hrest⟩, Hg⟩, Ho, ⟨%d0, H0⟩, ⟨%d1, H1⟩, ⟨%d2, H2⟩, ⟨%d3, H3⟩⟩
        iapply ((kernelRun2_B c (grid2.coords t) _ _ _ _ _ _ _ _ _ _ (fun h => h0 ((hcond2_0 t).mp h)) (fun h => h1 ((hcond2_1 t).mp h)) (iblk2 V c 0 t) (iblk2 V c 1 t) (iblk2 V c 2 t) _).2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover2_B_0 c _ _ _ _ _ _ _ _ _ _ _ _ _ _ _ _ _)
            iexact Hrest
          iexact Hg
        isplitl [Ho]; · iexact Ho
        isplitl [H0]; · iexact H0
        isplitl [H1]; · iexact H1
        isplitl [H2]; · iexact H2
        iexists _; iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After the last point the invariant gives the launch's back: the accumulator's named contents are forgotten. -/
theorem hout2 (c : Dev nD) : (dat2 V c).Φ (Fin.last cfg2.N) ⊢ Pipeline.ΦA spec2 c := by
  have hne : (Fin.last cfg2.N).val ≠ 0 := by rw [Fin.val_last]; have : cfg2.N = 176 := N_2; omega
  rw [show (dat2 V c).Φ (Fin.last cfg2.N) = PhiS2 V c (Fin.last cfg2.N).val (Nat.le_of_lt_succ (Fin.last cfg2.N).isLt) from rfl, PhiS2_pos V c _ _ hne, PhiA2_eq]
  iintro ⟨⟨HS0, Hrest⟩, Hg⟩
  isplitl [HS0 Hrest]
  · isplitl [HS0]
    · iexists _; iexact HS0
    iexact Hrest
  iexact Hg

end Cert.Kernel.Fr

end
-- ==== Proof.KRegs.lean ====
/-
  The three regions as segments of the program's run, and the run itself. Between two items of the program every
  unscoped buffer of a core is held whole at a valuation: the launch contents, then each stretch of host operations
  applied, then, after a region, the region's output array at what its write-backs leave (each output block written
  back once, at the last step of its contraction) and everything else unchanged. The contents the three regions leave
  are defined in program order (each from the valuation the regions before it produce), the regions' records are
  entered from and left at these valuations, and the run ends with EVERY unscoped buffer at the last valuation: the
  arguments as launched, and the result array at what region 2 leaves.
-/
import proofs.«117267_j43508018708617_1_alg».proof.Proof.K0Dat
import proofs.«117267_j43508018708617_1_alg».proof.Proof.K1Dat
import proofs.«117267_j43508018708617_1_alg».proof.Proof.K2Dat
import proofs.«117267_j43508018708617_1_alg».proof.Proof.RegionsKernel
import Idealize.ShloMosaic.Lib.Pipeline.RegionsLoop

set_option maxRecDepth 16384

noncomputable section

namespace Cert.Kernel.Fr

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ)

/-! ## The contents the regions leave, in program order -/

/-- A valuation read at a TensorCore's references. -/
abbrev rd (W : Dev nD → Valuation τ sig (Elt F)) : (c : Dev nD) → (b : Ref sig .tc) → Buf (Elt F) ((c : Thread nD τ).loc b) := fun c b => W c b

/-- After region 0: its arrays at what the pipeline leaves, every other buffer as entered. -/
def W28 (c : Dev nD) : Valuation τ sig (Elt F) :=
  Pipeline.withArrays spec0 c (V27 m c) fun w => (dat0 (rd (V27 m)) c).arrAt w cfg0.N
/-- The regions' contents known after region 0. -/
def outsA : Outs (F := F) := fun _ r c => W28 m c r
/-- After region 1. -/
def W29 (c : Dev nD) : Valuation τ sig (Elt F) :=
  Pipeline.withArrays spec1 c (V28 m (outsA m) c) fun w => (dat1 (rd (V28 m (outsA m))) c).arrAt w cfg1.N
/-- The regions' contents known after region 1. -/
def outsB : Outs (F := F) := fun J r c => match J with
  | 28 => W28 m c r
  | _ => W29 m c r
/-- After region 2. -/
def W45 (c : Dev nD) : Valuation τ sig (Elt F) :=
  Pipeline.withArrays spec2 c (V44 m (outsB m) c) fun w => (dat2 (rd (V44 m (outsB m))) c).arrAt w cfg2.N
/-- The contents all three regions leave. -/
def outsC : Outs (F := F) := fun J r c => match J with
  | 28 => W28 m c r
  | 29 => W29 m c r
  | _ => W45 m c r

/-- The valuations between the items read the regions' contents only at the item that produced them. -/
theorem V28_C : V28 m (outsC m) = V28 m (outsA m) := rfl
theorem V29_C : V29 m (outsC m) = V29 m (outsB m) := rfl
theorem V28_B : V28 m (outsB m) = V28 m (outsA m) := rfl
theorem V44_C : V44 m (outsC m) = V44 m (outsB m) := rfl

/-! ## The proof data family and the thread state -/

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (rd (V27 m)) c
  | ⟨1, _⟩ => fun c => dat1 (rd (V28 m (outsA m))) c
  | ⟨2, _⟩ => fun c => dat2 (rd (V44 m (outsB m))) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, at nothing. -/
abbrev R (c : Dev nD) : sProp 𝕄 := iprop((∃ r, prngReg c r) ∗ ∃ W, owes (c : Thread nD τ) (0 : CellTallies nD τ sig Unit) W)

/-! ## The regions as segments -/

set_option maxHeartbeats 4000000 in
/-- Region 0's arrays at its exit are the next valuation's: the output's array at what the write-backs leave, the
    three inputs' as entered. -/
theorem hF0 (c : Dev nD) (w : Fin cfg0.W) : (pdats m 0 c).arrAt w cfg0.N = rd (V28 m (outsA m)) c (Pipeline.arrRef spec0 w) := by
  fin_cases w
  · exact ((dat0 (rd (V27 m)) c).arrAt_in 0 rfl _).trans ((V28_of m (outsA m) c (Pipeline.arrRef spec0 0) (by decide)).symm)
  · exact ((dat0 (rd (V27 m)) c).arrAt_in 1 rfl _).trans ((V28_of m (outsA m) c (Pipeline.arrRef spec0 1) (by decide)).symm)
  · exact ((dat0 (rd (V27 m)) c).arrAt_in 2 rfl _).trans ((V28_of m (outsA m) c (Pipeline.arrRef spec0 2) (by decide)).symm)
  · show _ = Function.update (V27 m c) main_v48 (W28 m c main_v48) main_v48
    rw [Function.update_self]
    exact (Pipeline.withArrays_arr spec0 launch0.win.arr_inj c (V27 m c) (fun w => (dat0 (rd (V27 m)) c).arrAt w cfg0.N) 3).symm
/-- Every other buffer is as entered. -/
theorem hrest0 (c : Dev nD) : ∀ b, b ∉ Finset.univ.image (Pipeline.arrRef spec0) → rd (V28 m (outsA m)) c b = rd (V27 m) c b :=
  fun b hb => V28_of m (outsA m) c b (by
    intro h
    have hb' : b = main_v48 := by simpa using h
    subst hb'
    exact hb (Finset.mem_image.mpr ⟨3, Finset.mem_univ _, rfl⟩))

/-- The contents region 0 leaves, read at its output buffer, are its output array after the run. -/
theorem Wout0 (c : Dev nD) : W28 m c main_v48 = (dat0 (rd (V27 m)) c).arrAt 3 cfg0.N := by
  unfold W28
  exact Pipeline.withArrays_arr spec0 launch0.win.arr_inj c (V27 m c) (fun w => (dat0 (rd (V27 m)) c).arrAt w cfg0.N) 3

set_option backward.isDefEq.respectTransparency.types false in
/-- REGION 0 over the thread state: entered from every unscoped buffer at the valuation before it, left at the one
    after it; its arrays split out of the unscoped buffers and put back at the exit contents; the generator register
    into the invariant and out; nothing owed; no semaphore of the kernel's own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (rd (V27 m)) c).loose
  hwaits := Pipeline.hwaits_of_owed_zero _ _ _ _ L lv 0 fun _ _ => rfl
  pre c := iprop(StableHlo.held (c : Thread nD τ) (Pipeline.ucRefs τ sig) (V27 m c) ∗ R c)
  post c := iprop(StableHlo.held (c : Thread nD τ) (Pipeline.ucRefs τ sig) (V28 m (outsA m) c) ∗ R c)
  X c := iprop(∃ r, prngReg c r)
  Y c := iprop(∃ r, prngReg c r)
  Z c := Pipeline.unscopedRest (Ix := Unit) (Name := ℕ) (U := UR sig nD τ) (Lvl := ℕ) spec0 c (rd (V27 m) c)
  hentry c := by
    rw [Pipeline.ownSems0_none]
    have hsplit := Pipeline.arrays_of_unscopedBufs (p := 0) (pcfgs (F := F)) adm (pdats m) launch0.win launch0.arr_whole c
      ((pdats m 0 c).share_full fun _ => rfl) (rd (V27 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin0 (rd (V27 m)) c)
    unfold Pipeline.ΦA
    iintro ⟨Hp, -, Hr⟩
    isplitl [Hr]; · iexact Hr
    iexact Hp
  hout c := by
    rw [Pipeline.ownSems0_none]
    refine (hout0 (rd (V27 m)) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (rd (V27 m) c) (rd (V28 m (outsA m)) c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option maxHeartbeats 4000000 in
/-- Region 1's arrays at its exit are the next valuation's: the output's array at what the write-backs leave, the
    three inputs' as entered. -/
theorem hF1 (c : Dev nD) (w : Fin cfg1.W) : (pdats m 1 c).arrAt w cfg1.N = rd (V29 m (outsB m)) c (Pipeline.arrRef spec1 w) := by
  fin_cases w
  · exact ((dat1 (rd (V28 m (outsA m))) c).arrAt_in 0 rfl _).trans ((V29_of m (outsB m) c (Pipeline.arrRef spec1 0) (by decide)).symm)
  · exact ((dat1 (rd (V28 m (outsA m))) c).arrAt_in 1 rfl _).trans ((V29_of m (outsB m) c (Pipeline.arrRef spec1 1) (by decide)).symm)
  · exact ((dat1 (rd (V28 m (outsA m))) c).arrAt_in 2 rfl _).trans ((V29_of m (outsB m) c (Pipeline.arrRef spec1 2) (by decide)).symm)
  · show _ = Function.update (V28 m (outsA m) c) main_v49 (W29 m c main_v49) main_v49
    rw [Function.update_self]
    exact (Pipeline.withArrays_arr spec1 launch1.win.arr_inj c (V28 m (outsA m) c) (fun w => (dat1 (rd (V28 m (outsA m))) c).arrAt w cfg1.N) 3).symm
/-- Every other buffer is as entered. -/
theorem hrest1 (c : Dev nD) : ∀ b, b ∉ Finset.univ.image (Pipeline.arrRef spec1) → rd (V29 m (outsB m)) c b = rd (V28 m (outsA m)) c b :=
  fun b hb => V29_of m (outsB m) c b (by
    intro h
    have hb' : b = main_v49 := by simpa using h
    subst hb'
    exact hb (Finset.mem_image.mpr ⟨3, Finset.mem_univ _, rfl⟩))

/-- The contents region 1 leaves, read at its output buffer, are its output array after the run. -/
theorem Wout1 (c : Dev nD) : W29 m c main_v49 = (dat1 (rd (V28 m (outsA m))) c).arrAt 3 cfg1.N := by
  unfold W29
  exact Pipeline.withArrays_arr spec1 launch1.win.arr_inj c (V28 m (outsA m) c) (fun w => (dat1 (rd (V28 m (outsA m))) c).arrAt w cfg1.N) 3

set_option backward.isDefEq.respectTransparency.types false in
/-- REGION 1 over the thread state: entered from every unscoped buffer at the valuation before it, left at the one
    after it; its arrays split out of the unscoped buffers and put back at the exit contents; the generator register
    into the invariant and out; nothing owed; no semaphore of the kernel's own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (rd (V28 m (outsA m))) c).loose
  hwaits := Pipeline.hwaits_of_owed_zero _ _ _ _ L lv 1 fun _ _ => rfl
  pre c := iprop(StableHlo.held (c : Thread nD τ) (Pipeline.ucRefs τ sig) (V28 m (outsA m) c) ∗ R c)
  post c := iprop(StableHlo.held (c : Thread nD τ) (Pipeline.ucRefs τ sig) (V29 m (outsB m) c) ∗ R c)
  X c := iprop(∃ r, prngReg c r)
  Y c := iprop(∃ r, prngReg c r)
  Z c := Pipeline.unscopedRest (Ix := Unit) (Name := ℕ) (U := UR sig nD τ) (Lvl := ℕ) spec1 c (rd (V28 m (outsA m)) c)
  hentry c := by
    rw [Pipeline.ownSems0_none]
    have hsplit := Pipeline.arrays_of_unscopedBufs (p := 1) (pcfgs (F := F)) adm (pdats m) launch1.win launch1.arr_whole c
      ((pdats m 1 c).share_full fun _ => rfl) (rd (V28 m (outsA m)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin1 (rd (V28 m (outsA m))) c)
    unfold Pipeline.ΦA
    iintro ⟨Hp, -, Hr⟩
    isplitl [Hr]; · iexact Hr
    iexact Hp
  hout c := by
    rw [Pipeline.ownSems0_none]
    refine (hout1 (rd (V28 m (outsA m))) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (rd (V28 m (outsA m)) c) (rd (V29 m (outsB m)) c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option maxHeartbeats 4000000 in
/-- Region 2's arrays at its exit are the next valuation's: the output's array at what the write-backs leave, the
    three inputs' as entered. -/
theorem hF2 (c : Dev nD) (w : Fin cfg2.W) : (pdats m 2 c).arrAt w cfg2.N = rd (V45 m (outsC m)) c (Pipeline.arrRef spec2 w) := by
  fin_cases w
  · exact ((dat2 (rd (V44 m (outsB m))) c).arrAt_in 0 rfl _).trans ((V45_of m (outsC m) c (Pipeline.arrRef spec2 0) (by decide)).symm)
  · exact ((dat2 (rd (V44 m (outsB m))) c).arrAt_in 1 rfl _).trans ((V45_of m (outsC m) c (Pipeline.arrRef spec2 1) (by decide)).symm)
  · exact ((dat2 (rd (V44 m (outsB m))) c).arrAt_in 2 rfl _).trans ((V45_of m (outsC m) c (Pipeline.arrRef spec2 2) (by decide)).symm)
  · show _ = Function.update (V44 m (outsB m) c) main_v84 (W45 m c main_v84) main_v84
    rw [Function.update_self]
    exact (Pipeline.withArrays_arr spec2 launch2.win.arr_inj c (V44 m (outsB m) c) (fun w => (dat2 (rd (V44 m (outsB m))) c).arrAt w cfg2.N) 3).symm
/-- Every other buffer is as entered. -/
theorem hrest2 (c : Dev nD) : ∀ b, b ∉ Finset.univ.image (Pipeline.arrRef spec2) → rd (V45 m (outsC m)) c b = rd (V44 m (outsB m)) c b :=
  fun b hb => V45_of m (outsC m) c b (by
    intro h
    have hb' : b = main_v84 := by simpa using h
    subst hb'
    exact hb (Finset.mem_image.mpr ⟨3, Finset.mem_univ _, rfl⟩))

/-- The contents region 2 leaves, read at its output buffer, are its output array after the run. -/
theorem Wout2 (c : Dev nD) : W45 m c main_v84 = (dat2 (rd (V44 m (outsB m))) c).arrAt 3 cfg2.N := by
  unfold W45
  exact Pipeline.withArrays_arr spec2 launch2.win.arr_inj c (V44 m (outsB m) c) (fun w => (dat2 (rd (V44 m (outsB m))) c).arrAt w cfg2.N) 3

set_option backward.isDefEq.respectTransparency.types false in
/-- REGION 2 over the thread state: entered from every unscoped buffer at the valuation before it, left at the one
    after it; its arrays split out of the unscoped buffers and put back at the exit contents; the generator register
    into the invariant and out; nothing owed; no semaphore of the kernel's own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (rd (V44 m (outsB m))) c).loose
  hwaits := Pipeline.hwaits_of_owed_zero _ _ _ _ L lv 2 fun _ _ => rfl
  pre c := iprop(StableHlo.held (c : Thread nD τ) (Pipeline.ucRefs τ sig) (V44 m (outsB m) c) ∗ R c)
  post c := iprop(StableHlo.held (c : Thread nD τ) (Pipeline.ucRefs τ sig) (V45 m (outsC m) c) ∗ R c)
  X c := iprop(∃ r, prngReg c r)
  Y c := iprop(∃ r, prngReg c r)
  Z c := Pipeline.unscopedRest (Ix := Unit) (Name := ℕ) (U := UR sig nD τ) (Lvl := ℕ) spec2 c (rd (V44 m (outsB m)) c)
  hentry c := by
    rw [Pipeline.ownSems0_none]
    have hsplit := Pipeline.arrays_of_unscopedBufs (p := 2) (pcfgs (F := F)) adm (pdats m) launch2.win launch2.arr_whole c
      ((pdats m 2 c).share_full fun _ => rfl) (rd (V44 m (outsB m)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin2 (rd (V44 m (outsB m))) c)
    unfold Pipeline.ΦA
    iintro ⟨Hp, -, Hr⟩
    isplitl [Hr]; · iexact Hr
    iexact Hp
  hout c := by
    rw [Pipeline.ownSems0_none]
    refine (hout2 (rd (V44 m (outsB m))) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (rd (V44 m (outsB m)) c) (rd (V45 m (outsC m)) c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

set_option backward.isDefEq.respectTransparency.types false in
/-- The run, given the regions' records: as the conditional frame of the program, but ending with every unscoped
    buffer at the last valuation. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 3) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 4 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE3 : ∀ c : Dev nD, E 3 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V27 m c) ∗ E 0 c) ⊢ R0.pre c)
    (hpost0 : ∀ c : Dev nD, R0.post c ⊢ iprop(StableHlo.held (c : Thread nD τ) (Pipeline.ucRefs τ sig) (V28 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V28 m outs c) ∗ E 1 c) ⊢ R1.pre c)
    (hpost1 : ∀ c : Dev nD, R1.post c ⊢ iprop(StableHlo.held (c : Thread nD τ) (Pipeline.ucRefs τ sig) (V29 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V44 m outs c) ∗ E 2 c) ⊢ R2.pre c)
    (hpost2 : ∀ c : Dev nD, R2.post c ⊢ iprop(StableHlo.held (c : Thread nD τ) (Pipeline.ucRefs τ sig) (V45 m outs c) ∗ E 3 c)) :
    θ_run defs (onTc (τ := τ) (main (F := F))) ⟨m, fun _ => 0, ρ⟩ (fun r => ∀ c : Dev nD,
      ∀ b ∈ Pipeline.ucRefs τ sig, r.2.mem ((c : Thread nD τ).1, b) = V45 m outs c b) := by
  refine Pipeline.θ_run_regions_kit_dev (pcfgs (F := F)) adm pdats ι cellOf_inj EP defs₀ 𝒱₀ L lv m ρ main
    (segs m outs 𝒱₀ L lv E ι pdats R0 R1 R2)
    (fun c Q => by
      rewrite [main_chain c, Seg.run_eq_chain,
        show (segs m outs 𝒱₀ L lv E ι pdats R0 R1 R2 c).map Seg.prog = [
          StableHlo.seq hostOps0,
          StableHlo.seq hostOps0_1,
          StableHlo.seq hostOps0_2,
          StableHlo.seq hostOps0_3,
          StableHlo.seq hostOps0_4,
          StableHlo.seq hostOps0_5,
          StableHlo.seq hostOps0_6,
          StableHlo.seq hostOps0_7,
          StableHlo.seq hostOps0_8,
          StableHlo.seq hostOps0_9,
          StableHlo.seq hostOps0_10,
          StableHlo.seq hostOps0_11,
          StableHlo.seq hostOps0_12,
          StableHlo.seq hostOps0_13,
          StableHlo.seq hostOps0_14,
          StableHlo.seq hostOps0_15,
          StableHlo.seq hostOps0_16,
          StableHlo.seq hostOps0_17,
          StableHlo.seq hostOps0_18,
          StableHlo.seq hostOps0_19,
          StableHlo.seq hostOps0_20,
          StableHlo.seq hostOps0_21,
          StableHlo.seq hostOps0_22,
          StableHlo.seq hostOps0_23,
          StableHlo.seq hostOps0_24,
          StableHlo.seq hostOps0_25,
          StableHlo.seq hostOps0_26,
          Prog.lift (.customCall (Pipeline.entry 0) ()),
          Prog.lift (.customCall (Pipeline.entry 1) ()),
          StableHlo.seq hostOps2,
          StableHlo.seq hostOps2_1,
          StableHlo.seq hostOps2_2,
          StableHlo.seq hostOps2_3,
          StableHlo.seq hostOps2_4,
          StableHlo.seq hostOps2_5,
          StableHlo.seq hostOps2_6,
          StableHlo.seq hostOps2_7,
          StableHlo.seq hostOps2_8,
          StableHlo.seq hostOps2_9,
          StableHlo.seq hostOps2_10,
          StableHlo.seq hostOps2_11,
          StableHlo.seq hostOps2_12,
          StableHlo.seq hostOps2_13,
          StableHlo.seq hostOps2_14,
          Prog.lift (.customCall (Pipeline.entry 2) ()) ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V45 m outs c))
    (hch := fun c => ⟨.rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, hpre0 c, (hpost0 c).trans (hpre1 c), hpost1 c, .rfl, .rfl, .rfl, .rfl, .rfl, .rfl, .rfl, .rfl, .rfl, .rfl, .rfl, .rfl, .rfl, .rfl, hpre2 c, (hpost2 c).trans (sep_mono .rfl (hE3 c))⟩)
    (hinit := ?_) (QY := fun c s => ∀ b ∈ Pipeline.ucRefs τ sig, s.mem ((c : Thread nD τ).1, b) = V45 m outs c b)
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: every unscoped buffer read off the last valuation
    unfold StableHlo.held
    iintro ⟨Hh, HSI⟩
    ihave Hr := (pointsTo_read_all (Pipeline.ucRefs τ sig) (fun b => ((c : Thread nD τ).1, b)) (V45 m outs c) s') $$ [Hh HSI]
    · isplitl [Hh] <;> iassumption
    icases Hr with ⟨%h, HSI⟩
    imodintro
    isplitr
    · ipureintro
      exact h
    · iexact HSI

end Cert.Kernel.Fr

end
-- ==== Proof.KFrame.lean ====
/-
  The program's run from the three regions' records, and what it gives: the frame claim (every argument array ends as
  launched: no host operation and no region writes one) and the result buffer's contents at the end, which are what
  region 2's write-backs leave in its output array.
-/
import proofs.«117267_j43508018708617_1_alg».proof.Proof.KRegs

set_option maxRecDepth 16384

noncomputable section

namespace Cert.Kernel.Fr

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- Every weakly fair execution of the program terminates, nothing faulting, with every unscoped buffer of every core at
    the last valuation. -/
theorem run_all : θ_run defs (onTc (τ := τ) (main (F := F))) ⟨m, fun _ => 0, ρ⟩ (fun r => ∀ c : Dev nD,
      ∀ b ∈ Pipeline.ucRefs τ sig, r.2.mem ((c : Thread nD τ).1, b) = V45 m (outsC m) c b) :=
  run_cond m emb₁ () 𝒱₀ L lv (fun _ _ => rfl) ρ (outsC m) (pdats m) (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => R c)
    (hE0 := by
      have hmono : (bigSep Finset.univ fun c : Dev nD => (iprop(unscopedSems0 c ∗ owes (c : Thread nD τ) ((0 : Dev nD → CellTallies nD τ sig Unit) c) ∅
            ∗ Pipeline.launchCred (0 : Dev nD → CellTallies nD τ sig Unit) c ∗ prngReg c (ρ c) ∗ emp) : sProp 𝕄))
          ⊢ (bigSep Finset.univ fun c : Dev nD => (R c : sProp 𝕄)) :=
        bigSep_mono fun c _ => (show (iprop(unscopedSems0 c ∗ owes (c : Thread nD τ) ((0 : Dev nD → CellTallies nD τ sig Unit) c) ∅
            ∗ Pipeline.launchCred (0 : Dev nD → CellTallies nD τ sig Unit) c ∗ prngReg c (ρ c) ∗ emp) : sProp 𝕄) ⊢ R c from by
          iintro ⟨-, HO, -, Hp, -⟩
          isplitl [Hp]; · iexists _; iexact Hp
          iexists ∅; iexact HO)
      iintro ⟨H, -⟩
      imodintro
      iapply hmono
      iexact H)
    (hE3 := fun c => by iintro ⟨-, HO⟩; iexact HO)
    (R0 := reg0 m) (hpre0 := fun c => .rfl) (hpost0 := fun c => .rfl)
    (R1 := reg1 m) (hpre1 := fun c => .rfl) (hpost1 := fun c => .rfl)
    (R2 := reg2 m) (hpre2 := fun c => .rfl) (hpost2 := fun c => .rfl)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_arg0 (by decide))).trans (V45_main_arg0 m (outsC m) c),
     (h c _ (mem_uc main_arg1 (by decide))).trans (V45_main_arg1 m (outsC m) c),
     (h c _ (mem_uc main_arg2 (by decide))).trans (V45_main_arg2 m (outsC m) c),
     (h c _ (mem_uc main_arg3 (by decide))).trans (V45_main_arg3 m (outsC m) c),
     (h c _ (mem_uc main_arg4 (by decide))).trans (V45_main_arg4 m (outsC m) c),
     (h c _ (mem_uc main_arg5 (by decide))).trans (V45_main_arg5 m (outsC m) c),
     (h c _ (mem_uc main_arg6 (by decide))).trans (V45_main_arg6 m (outsC m) c)⟩) (run_all m ρ)

/-- THE RESULT: the result buffer ends at what region 2's write-backs leave in its output array; the arguments as launched. -/
theorem run_result : θ_run defs (onTc (τ := τ) (main (F := F))) ⟨m, fun _ => 0, ρ⟩ (fun r => ∀ c : Dev nD,
      r.2.mem ((c.tc : Thread nD τ).loc main_v84) = (pdats m 2 c).arrAt 3 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_v84 (by decide))).trans (hF2 m c 3).symm,
     (h c _ (mem_uc main_arg0 (by decide))).trans (V45_main_arg0 m (outsC m) c),
     (h c _ (mem_uc main_arg1 (by decide))).trans (V45_main_arg1 m (outsC m) c),
     (h c _ (mem_uc main_arg2 (by decide))).trans (V45_main_arg2 m (outsC m) c),
     (h c _ (mem_uc main_arg3 (by decide))).trans (V45_main_arg3 m (outsC m) c),
     (h c _ (mem_uc main_arg4 (by decide))).trans (V45_main_arg4 m (outsC m) c),
     (h c _ (mem_uc main_arg5 (by decide))).trans (V45_main_arg5 m (outsC m) c),
     (h c _ (mem_uc main_arg6 (by decide))).trans (V45_main_arg6 m (outsC m) c)⟩) (run_all m ρ)

end Cert.Kernel.Fr

end
-- ==== Proof.KI0Base.lean ====
/-
  Region 0 of the kernel's program: one matrix product with bias, out = x · wᵀ + b, cut into 1024 × 1024 blocks
  and accumulated over the 4 blocks of the contracted axis in a scratch buffer the body keeps between grid points.
  This module fixes what the runs of the body are stated over: the two branch conditions of the body as conditions on
  the grid position (the first step of a contraction zeroes the accumulator, the last adds the bias and stores the
  output block), where the output window is idle (everywhere but at a last step), the staging and scratch buffers
  the body is called with, and the region's invariant before its first point split into the accumulator and the
  scoped buffers of the other regions, which the body never touches.
-/
import proofs.«117267_j43508018708617_1_alg».proof.Proof.Gen.KernelIdeal.Launch
import proofs.«117267_j43508018708617_1_alg».proof.Proof.Gen.KernelIdeal.Skeleton
import proofs.«117267_j43508018708617_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditions on the grid position -/

/-- The body's first `if`: the position along the contracted axis (grid axis 2) is 0. -/
abbrev cond0_0 (i : grid0.Coords) : Prop := (Scalar.cmpi .ne (Scalar.extui (Scalar.cmpi .eq (BitVec.ofNat 32 (i 2).val) 0#32)) 0#32) = 1#1
/-- Axis 2 is the fastest, of extent 4: the condition holds at the points ≡ 0 (mod 4). -/
theorem hcond0_0 : ∀ t : Fin cfg0.N, cond0_0 (grid0.coords t) ↔ t.val % 4 = 0 :=
  (by decide +kernel : ∀ t : Fin grid0.N, cond0_0 (grid0.coords t) ↔ t.val % 4 = 0)

/-- The body's second `if`: the position along the contracted axis is the last, 3. -/
abbrev cond0_1 (i : grid0.Coords) : Prop := k0_cond2 i = 1#1
/-- It holds at the points ≡ 3 (mod 4). -/
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

/-- The three inputs are never idle. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Away from a last step the output window is idle and its block is not written back. -/
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
/-- At a last step it is live. -/
theorem liveAt0_3 : ∀ t : Fin cfg0.N, cond0_1 (grid0.coords t) → cfg0.idle 3 (grid0.coords t) = false := by decide +kernel

/-! ## The buffers the body is called with -/

/-- One staging buffer of the output window, through which its contents are stated. -/
abbrev VO0_3 : View sig .tc .vmem S1024x1024 .f32 := (Memref.whole cc0_stg3_0 : Memref sig .tc .vmem S1024x1024 .f32).view
/-- Each window's current staging buffer at point `t`, as the pipeline passes it to the body, and its wholeness. -/
abbrev ms0_0 (t : Fin cfg0.N) : Memref sig .tc .vmem S1024x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x1024 .f32 := win0_3.stage (cfg0.slots t 3)
abbrev hs0_3 (t : Fin cfg0.N) : (ms0_3 t).IsWhole := hstage0_3 ((cfg0.slots t 3).cast nbuf0_3)
/-- The accumulator: a whole scoped buffer of the kernel's own. -/
abbrev scM0_0 : Memref sig .tc .vmem S1024x1024 .f32 := Memref.whole cc0_scratch0
/-- The accumulator as a view: what it holds is stated through it. -/
abbrev VS0_0 : View sig .tc .vmem S1024x1024 .f32 := scM0_0.view

/-! ## The invariant before the first point -/

/-- The scoped buffers of the other two regions (their staging buffers and accumulators), each whole at some
    contents: region 0 never touches them. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f) ∗ (∃ f : Buf (Elt F) ((c : Thread nD τ).loc cc2_scratch0), ((c : Thread nD τ).loc cc2_scratch0) ↦{fullShare} f))

/-- Before the first point the region holds its accumulator at any contents, the other regions' scoped buffers, and
    the generator register at some state. -/
theorem PhiA0_eq (c : Dev nD) :
    (Pipeline.ΦA spec0 c : sProp 𝕄)
      = iprop(iprop((∃ d, owns (c : Thread nD τ) scM0_0 fullShare d) ∗ rest0 c) ∗ (∃ r, prngReg c r)) := by
  unfold Pipeline.ΦA; rw [scopedRest0_eq]; unfold rest0; simp only [scM0_0, owns_whole]; try rfl

end Cert.KernelIdeal.Fr

end
-- ==== Proof.KI0RunA.lean ====
/-
  Region 0, the body's run in one of its three control cases (first, middle or last step of a contraction), on
  whole staging buffers: the inputs' at their contents come back as they were, and each buffer the body stores into
  ends with the stores' pieces written, which the symbolic run of the body finds.
-/
import proofs.«117267_j43508018708617_1_alg».proof.Proof.KI0Base

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a FIRST step of a contraction that is not also the last: the accumulator, at any contents, is zeroed and then holds the
    product of the two input blocks; the output buffer is handed back as found. -/
noncomputable def kernelRun0_A (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : cond0_0 i) (hc1 : ¬cond0_1 i)
    (x0 : Vec F S1024x1024 .bf16) (x1 : Vec F S1024x1024 .bf16) (x2 : Vec F S1024 .f32) :
    { LS0 : List (View.Piece (Elt F) S1024x1024 .f32) //
      ∀ (xi3 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc0__linear_kernel i arg3 harg3 arg4 harg4 arg5 harg5 arg6 harg6 arg7 harg7) K } := by
  refine ⟨?_, fun xi3 E K => ?run⟩
  case run =>
    simp only [cc0__linear_kernel_eq_skeleton]; unfold cc0__linear_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.KernelIdeal.Fr

end
-- ==== Proof.KI0RunB.lean ====
/-
  Region 0, the body's run in one of its three control cases (first, middle or last step of a contraction), on
  whole staging buffers: the inputs' at their contents come back as they were, and each buffer the body stores into
  ends with the stores' pieces written, which the symbolic run of the body finds.
-/
import proofs.«117267_j43508018708617_1_alg».proof.Proof.KI0RunA

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a MIDDLE step: the accumulator, at what the point before left, gains the product of the two input blocks;
    the output buffer is handed back as found. -/
noncomputable def kernelRun0_B (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : ¬cond0_1 i)
    (x0 : Vec F S1024x1024 .bf16) (x1 : Vec F S1024x1024 .bf16) (x2 : Vec F S1024 .f32) (xs0 : Vec F S1024x1024 .f32) :
    { LS0 : List (View.Piece (Elt F) S1024x1024 .f32) //
      ∀ (xi3 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc0__linear_kernel i arg3 harg3 arg4 harg4 arg5 harg5 arg6 harg6 arg7 harg7) K } := by
  refine ⟨?_, fun xi3 E K => ?run⟩
  case run =>
    simp only [cc0__linear_kernel_eq_skeleton]; unfold cc0__linear_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.KernelIdeal.Fr

end
-- ==== Proof.KI0RunC.lean ====
/-
  Region 0, the body's run in one of its three control cases (first, middle or last step of a contraction), on
  whole staging buffers: the inputs' at their contents come back as they were, and each buffer the body stores into
  ends with the stores' pieces written, which the symbolic run of the body finds.
-/
import proofs.«117267_j43508018708617_1_alg».proof.Proof.KI0RunB

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a LAST step: the accumulator, at what the point before left, gains the product of the two input blocks, and
    the output buffer, at any contents, is stored whole with the accumulator plus the bias row. -/
noncomputable def kernelRun0_C (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : cond0_1 i)
    (x0 : Vec F S1024x1024 .bf16) (x1 : Vec F S1024x1024 .bf16) (x2 : Vec F S1024 .f32) (xs0 : Vec F S1024x1024 .f32) :
    Σ' (L3 : List (View.Piece (Elt F) S1024x1024 .f32)), { LS0 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc0__linear_kernel i arg3 harg3 arg4 harg4 arg5 harg5 arg6 harg6 arg7 harg7) K } := by
  refine ⟨?_, ?_, fun E K => ?run⟩
  case run =>
    simp only [cc0__linear_kernel_eq_skeleton]; unfold cc0__linear_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

end Cert.KernelIdeal.Fr

end
-- ==== Proof.KI0Dat.lean ====
/-
  Region 0: what the accumulator and the output's staging buffer hold after each grid point, and the region's proof
  data. The grid runs over (row block, column block, step) with the step fastest; within one (row block, column block)
  the 4 steps zero the accumulator at the first, add one block product x_blk · w_blkᵀ at each, and at the last store
  accumulator + bias into the output's buffer, which only then is written back. The contents are defined by recursion
  on the position (the case the position is in, run on the point's input blocks and on what the point before left in
  the accumulator); the invariant after a point is the accumulator at exactly those contents. From these the body's
  obligation at a generic point follows by the case's run.
-/
import proofs.«117267_j43508018708617_1_alg».proof.Proof.KI0RunC

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not (unfetched, the
    block index has not moved), for any proof data whose array is the entry contents and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not (unfetched, the
    block index has not moved), for any proof data whose array is the entry contents and whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not (unfetched, the
    block index has not moved), for any proof data whose array is the entry contents and whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## What each case leaves -/

/-- The first step's one store into the accumulator after the zeroing covers it. -/
theorem scover0_A_0 (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : cond0_0 i) (hc1 : ¬cond0_1 i)
    (x0 : Vec F S1024x1024 .bf16) (x1 : Vec F S1024x1024 .bf16) (x2 : Vec F S1024 .f32) (y : S1024x1024.Idx) :
    ∃ pc ∈ (kernelRun0_A c i arg3 harg3 arg4 harg4 arg5 harg5 arg6 harg6 arg7 harg7 hc0 hc1 x0 x1 x2).1, y ∈ pc.1.set :=
  View.cover_of_tiledL (kernelRun0_A c i arg3 harg3 arg4 harg4 arg5 harg5 arg6 harg6 arg7 harg7 hc0 hc1 x0 x1 x2).1 S1024x1024.size (by sl_kernel_rfl) y

/-- What a first step leaves in the accumulator: its pieces read back. -/
def sout0_A_0 (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : cond0_0 i) (hc1 : ¬cond0_1 i)
    (x0 : Vec F S1024x1024 .bf16) (x1 : Vec F S1024x1024 .bf16) (x2 : Vec F S1024 .f32) : Vec F S1024x1024 .f32 :=
  VS0_0.read (Elt F) (VS0_0.writes (Elt F) VS0_0.junk (kernelRun0_A c i arg3 harg3 arg4 harg4 arg5 harg5 arg6 harg6 arg7 harg7 hc0 hc1 x0 x1 x2).1)

/-- A middle step's store covers the accumulator. -/
theorem scover0_B_0 (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : ¬cond0_1 i)
    (x0 : Vec F S1024x1024 .bf16) (x1 : Vec F S1024x1024 .bf16) (x2 : Vec F S1024 .f32) (xs0 : Vec F S1024x1024 .f32) (y : S1024x1024.Idx) :
    ∃ pc ∈ (kernelRun0_B c i arg3 harg3 arg4 harg4 arg5 harg5 arg6 harg6 arg7 harg7 hc0 hc1 x0 x1 x2 xs0).1, y ∈ pc.1.set :=
  View.cover_of_tiledL (kernelRun0_B c i arg3 harg3 arg4 harg4 arg5 harg5 arg6 harg6 arg7 harg7 hc0 hc1 x0 x1 x2 xs0).1 S1024x1024.size (by sl_kernel_rfl) y

/-- What a middle step leaves in the accumulator. -/
def sout0_B_0 (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : ¬cond0_1 i)
    (x0 : Vec F S1024x1024 .bf16) (x1 : Vec F S1024x1024 .bf16) (x2 : Vec F S1024 .f32) (xs0 : Vec F S1024x1024 .f32) : Vec F S1024x1024 .f32 :=
  VS0_0.read (Elt F) (VS0_0.writes (Elt F) VS0_0.junk (kernelRun0_B c i arg3 harg3 arg4 harg4 arg5 harg5 arg6 harg6 arg7 harg7 hc0 hc1 x0 x1 x2 xs0).1)

/-- A last step's store covers the output's buffer. -/
theorem cover0_C_3 (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : cond0_1 i)
    (x0 : Vec F S1024x1024 .bf16) (x1 : Vec F S1024x1024 .bf16) (x2 : Vec F S1024 .f32) (xs0 : Vec F S1024x1024 .f32) (y : S1024x1024.Idx) :
    ∃ pc ∈ (kernelRun0_C c i arg3 harg3 arg4 harg4 arg5 harg5 arg6 harg6 arg7 harg7 hc0 hc1 x0 x1 x2 xs0).1, y ∈ pc.1.set :=
  View.cover_of_tiledL (kernelRun0_C c i arg3 harg3 arg4 harg4 arg5 harg5 arg6 harg6 arg7 harg7 hc0 hc1 x0 x1 x2 xs0).1 S1024x1024.size (by sl_kernel_rfl) y

/-- What a last step leaves in the output's buffer. -/
def out0_C_3 (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : cond0_1 i)
    (x0 : Vec F S1024x1024 .bf16) (x1 : Vec F S1024x1024 .bf16) (x2 : Vec F S1024 .f32) (xs0 : Vec F S1024x1024 .f32) : Vec F S1024x1024 .f32 :=
  VO0_3.read (Elt F) (VO0_3.writes (Elt F) VO0_3.junk (kernelRun0_C c i arg3 harg3 arg4 harg4 arg5 harg5 arg6 harg6 arg7 harg7 hc0 hc1 x0 x1 x2 xs0).1)

/-- A last step's store covers the accumulator. -/
theorem scover0_C_0 (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : cond0_1 i)
    (x0 : Vec F S1024x1024 .bf16) (x1 : Vec F S1024x1024 .bf16) (x2 : Vec F S1024 .f32) (xs0 : Vec F S1024x1024 .f32) (y : S1024x1024.Idx) :
    ∃ pc ∈ (kernelRun0_C c i arg3 harg3 arg4 harg4 arg5 harg5 arg6 harg6 arg7 harg7 hc0 hc1 x0 x1 x2 xs0).2.1, y ∈ pc.1.set :=
  View.cover_of_tiledL (kernelRun0_C c i arg3 harg3 arg4 harg4 arg5 harg5 arg6 harg6 arg7 harg7 hc0 hc1 x0 x1 x2 xs0).2.1 S1024x1024.size (by sl_kernel_rfl) y

/-- What a last step leaves in the accumulator. -/
def sout0_C_0 (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : cond0_1 i)
    (x0 : Vec F S1024x1024 .bf16) (x1 : Vec F S1024x1024 .bf16) (x2 : Vec F S1024 .f32) (xs0 : Vec F S1024x1024 .f32) : Vec F S1024x1024 .f32 :=
  VS0_0.read (Elt F) (VS0_0.writes (Elt F) VS0_0.junk (kernelRun0_C c i arg3 harg3 arg4 harg4 arg5 harg5 arg6 harg6 arg7 harg7 hc0 hc1 x0 x1 x2 xs0).2.1)

/-- Away from a last step nothing is stored into the output's buffer: a placeholder nothing consults, since there
    the buffer is neither written back nor read at the next point. -/
def idleOut0 : Vec F S1024x1024 .f32 := VO0_3.read (Elt F) VO0_3.junk

/-! ## What the buffers hold after each point -/

/-- THE ACCUMULATION: the output's staging buffer and the accumulator after the body at position `n`. -/
def outsAt0 (c : Dev nD) : (n : ℕ) → n < cfg0.N → Vec F S1024x1024 .f32 × Vec F S1024x1024 .f32
  | 0, hn => (idleOut0, sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩))
  | n + 1, hn =>
    if h0 : (n + 1) % 4 = 0 then
      if h1 : (n + 1) % 4 = 3 then
        False.elim (by omega)
      else
        (idleOut0, sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩))
    else
      if h1 : (n + 1) % 4 = 3 then
        (out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2)
      else
        (idleOut0, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2)

/-- At a first step. -/
theorem outsAt0_A (c : Dev nD) (t : Fin cfg0.N) (h0 : t.val % 4 = 0) (h1 : ¬t.val % 4 = 3) :
    outsAt0 V c t.val t.isLt = (idleOut0, sout0_A_0 c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk0 V c 0 t) (iblk0 V c 1 t) (iblk0 V c 2 t)) := by
  obtain ⟨n, hn⟩ := t
  cases n with
  | zero => exact rfl
  | succ n => exact (dif_pos h0).trans ((dif_neg h1).trans rfl)

/-- At a middle step, over what the point before left in the accumulator. -/
theorem outsAt0_B (c : Dev nD) (t : Fin cfg0.N) (h0 : ¬t.val % 4 = 0) (h1 : ¬t.val % 4 = 3) :
    outsAt0 V c t.val t.isLt = (idleOut0, sout0_B_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a last step, over what the point before left in the accumulator. -/
theorem outsAt0_C (c : Dev nD) (t : Fin cfg0.N) (h0 : ¬t.val % 4 = 0) (h1 : t.val % 4 = 3) :
    outsAt0 V c t.val t.isLt = (out0_C_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2, sout0_C_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant -/

/-- The region's invariant before position `n`: before the first point the accumulator at anything; afterwards at what
    the point before left in it; beside it always the other regions' scoped buffers and the generator register. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ rest0 c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0_0 fullShare ((outsAt0 V c n hn).2) ∗ rest0 c) ∗ (∃ r, prngReg c r)) := rfl

theorem PhiS0_pos (c : Dev nD) (n : ℕ) (h : n ≤ cfg0.N) (hz : n ≠ 0) :
    PhiS0 V c n h = iprop(iprop(owns (c : Thread nD τ) scM0_0 fullShare ((outsAt0 V c (n - 1) (by omega)).2) ∗ rest0 c) ∗ (∃ r, prngReg c r)) := by
  cases n with
  | zero => exact absurd rfl hz
  | succ n => rfl

/-! ## The proof data -/

/-- The pipeline's proof data on core `c`: the arrays as the region finds them; after the body at a point each input's
    buffer at its block and the output's at `outsAt0`; the invariant above; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`: the invariant, the core's dues, and each window's current buffer. -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
/-- The body at any point: the inputs' buffers hold their blocks; the position decides the case; the invariant hands the
    body the accumulator (at anything before the first point, else at what the point before left) and takes it back
    at this point's contents; the other regions' buffers and the generator register ride along; the core owes nothing. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  have hN : t.val < 176 := lt_of_lt_of_eq t.isLt (show cfg0.N = 176 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  by_cases h0 : t.val % 4 = 0
  · by_cases h1 : t.val % 4 = 3
    · exfalso; omega
    · rw [Dat.leavesExact_idle (dat0 V c) 3 t (idleAt0_3 t (fun h => h1 ((hcond0_1 t).mp h))) (noFlush0_3 t (fun h => h1 ((hcond0_1 t).mp h)))]
      rw [outsAt0_A V c t h0 h1]
      unfold sout0_A_0; (try dsimp only)
      by_cases hz : t.val = 0
      · rw [PhiS0_castSucc V c t, PhiS0_zero V c _ _ hz, PhiA0_eq]
        iintro ⟨⟨⟨HS0, Hrest⟩, Hg⟩, Ho, ⟨%d0, H0⟩, ⟨%d1, H1⟩, ⟨%d2, H2⟩, ⟨%d3, H3⟩⟩
        iapply ((kernelRun0_A c (grid0.coords t) _ _ _ _ _ _ _ _ _ _ ((hcond0_0 t).mpr h0) (fun h => h1 ((hcond0_1 t).mp h)) (iblk0 V c 0 t) (iblk0 V c 1 t) (iblk0 V c 2 t)).2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover0_A_0 c _ _ _ _ _ _ _ _ _ _ _ _ _ _ _ _)
            iexact Hrest
          iexact Hg
        isplitl [Ho]; · iexact Ho
        isplitl [H0]; · iexact H0
        isplitl [H1]; · iexact H1
        isplitl [H2]; · iexact H2
        iexists _; iexact H3
      · rw [PhiS0_castSucc V c t, PhiS0_pos V c _ _ hz]
        iintro ⟨⟨⟨HS0, Hrest⟩, Hg⟩, Ho, ⟨%d0, H0⟩, ⟨%d1, H1⟩, ⟨%d2, H2⟩, ⟨%d3, H3⟩⟩
        iapply ((kernelRun0_A c (grid0.coords t) _ _ _ _ _ _ _ _ _ _ ((hcond0_0 t).mpr h0) (fun h => h1 ((hcond0_1 t).mp h)) (iblk0 V c 0 t) (iblk0 V c 1 t) (iblk0 V c 2 t)).2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover0_A_0 c _ _ _ _ _ _ _ _ _ _ _ _ _ _ _ _)
            iexact Hrest
          iexact Hg
        isplitl [Ho]; · iexact Ho
        isplitl [H0]; · iexact H0
        isplitl [H1]; · iexact H1
        isplitl [H2]; · iexact H2
        iexists _; iexact H3
  · by_cases h1 : t.val % 4 = 3
    · rw [show (dat0 V c).leavesExact 3 t = owns (c : Thread nD τ) (ms0_3 t) fullShare ((dat0 V c).after 3 t) from by
        unfold Dat.leavesExact; rw [liveAt0_3 t ((hcond0_1 t).mpr h1)], after0_3]
      rw [outsAt0_C V c t h0 h1]
      unfold out0_C_3 sout0_C_0; (try dsimp only)
      by_cases hz : t.val = 0
      · exfalso; omega
      · rw [PhiS0_castSucc V c t, PhiS0_pos V c _ _ hz]
        iintro ⟨⟨⟨HS0, Hrest⟩, Hg⟩, Ho, ⟨%d0, H0⟩, ⟨%d1, H1⟩, ⟨%d2, H2⟩, ⟨%d3, H3⟩⟩
        iapply ((kernelRun0_C c (grid0.coords t) _ _ _ _ _ _ _ _ _ _ (fun h => h0 ((hcond0_0 t).mp h)) ((hcond0_1 t).mpr h1) (iblk0 V c 0 t) (iblk0 V c 1 t) (iblk0 V c 2 t) _).2.2 Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover0_C_0 c _ _ _ _ _ _ _ _ _ _ _ _ _ _ _ _ _)
            iexact Hrest
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover0_C_3 c _ _ _ _ _ _ _ _ _ _ _ _ _ _ _ _ _)
    · rw [Dat.leavesExact_idle (dat0 V c) 3 t (idleAt0_3 t (fun h => h1 ((hcond0_1 t).mp h))) (noFlush0_3 t (fun h => h1 ((hcond0_1 t).mp h)))]
      rw [outsAt0_B V c t h0 h1]
      unfold sout0_B_0; (try dsimp only)
      by_cases hz : t.val = 0
      · exfalso; omega
      · rw [PhiS0_castSucc V c t, PhiS0_pos V c _ _ hz]
        iintro ⟨⟨⟨HS0, Hrest⟩, Hg⟩, Ho, ⟨%d0, H0⟩, ⟨%d1, H1⟩, ⟨%d2, H2⟩, ⟨%d3, H3⟩⟩
        iapply ((kernelRun0_B c (grid0.coords t) _ _ _ _ _ _ _ _ _ _ (fun h => h0 ((hcond0_0 t).mp h)) (fun h => h1 ((hcond0_1 t).mp h)) (iblk0 V c 0 t) (iblk0 V c 1 t) (iblk0 V c 2 t) _).2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover0_B_0 c _ _ _ _ _ _ _ _ _ _ _ _ _ _ _ _ _)
            iexact Hrest
          iexact Hg
        isplitl [Ho]; · iexact Ho
        isplitl [H0]; · iexact H0
        isplitl [H1]; · iexact H1
        isplitl [H2]; · iexact H2
        iexists _; iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the launch's back: the accumulator's named contents are forgotten. -/
theorem hout0 (c : Dev nD) : (dat0 V c).Φ (Fin.last cfg0.N) ⊢ Pipeline.ΦA spec0 c := by
  have hne : (Fin.last cfg0.N).val ≠ 0 := by rw [Fin.val_last]; have : cfg0.N = 176 := N_0; omega
  rw [show (dat0 V c).Φ (Fin.last cfg0.N) = PhiS0 V c (Fin.last cfg0.N).val (Nat.le_of_lt_succ (Fin.last cfg0.N).isLt) from rfl, PhiS0_pos V c _ _ hne, PhiA0_eq]
  iintro ⟨⟨HS0, Hrest⟩, Hg⟩
  isplitl [HS0 Hrest]
  · isplitl [HS0]
    · iexists _; iexact HS0
    iexact Hrest
  iexact Hg

end Cert.KernelIdeal.Fr

end
-- ==== Proof.KI1Base.lean ====
/-
  Region 1 of the kernel's program: one matrix product with bias, out = x · wᵀ + b, cut into 1024 × 1024 blocks
  and accumulated over the 4 blocks of the contracted axis in a scratch buffer the body keeps between grid points.
  This module fixes what the runs of the body are stated over: the two branch conditions of the body as conditions on
  the grid position (the first step of a contraction zeroes the accumulator, the last adds the bias and stores the
  output block), where the output window is idle (everywhere but at a last step), the staging and scratch buffers
  the body is called with, and the region's invariant before its first point split into the accumulator and the
  scoped buffers of the other regions, which the body never touches.
-/
import proofs.«117267_j43508018708617_1_alg».proof.Proof.Gen.KernelIdeal.Launch
import proofs.«117267_j43508018708617_1_alg».proof.Proof.Gen.KernelIdeal.Skeleton
import proofs.«117267_j43508018708617_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditions on the grid position -/

/-- The body's first `if`: the position along the contracted axis (grid axis 2) is 0. -/
abbrev cond1_0 (i : grid1.Coords) : Prop := (Scalar.cmpi .ne (Scalar.extui (Scalar.cmpi .eq (BitVec.ofNat 32 (i 2).val) 0#32)) 0#32) = 1#1
/-- Axis 2 is the fastest, of extent 4: the condition holds at the points ≡ 0 (mod 4). -/
theorem hcond1_0 : ∀ t : Fin cfg1.N, cond1_0 (grid1.coords t) ↔ t.val % 4 = 0 :=
  (by decide +kernel : ∀ t : Fin grid1.N, cond1_0 (grid1.coords t) ↔ t.val % 4 = 0)

/-- The body's second `if`: the position along the contracted axis is the last, 3. -/
abbrev cond1_1 (i : grid1.Coords) : Prop := k1_cond2 i = 1#1
/-- It holds at the points ≡ 3 (mod 4). -/
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

/-- The three inputs are never idle. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Away from a last step the output window is idle and its block is not written back. -/
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
/-- At a last step it is live. -/
theorem liveAt1_3 : ∀ t : Fin cfg1.N, cond1_1 (grid1.coords t) → cfg1.idle 3 (grid1.coords t) = false := by decide +kernel

/-! ## The buffers the body is called with -/

/-- One staging buffer of the output window, through which its contents are stated. -/
abbrev VO1_3 : View sig .tc .vmem S1024x1024 .f32 := (Memref.whole cc1_stg3_0 : Memref sig .tc .vmem S1024x1024 .f32).view
/-- Each window's current staging buffer at point `t`, as the pipeline passes it to the body, and its wholeness. -/
abbrev ms1_0 (t : Fin cfg1.N) : Memref sig .tc .vmem S1024x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x1024 .f32 := win1_3.stage (cfg1.slots t 3)
abbrev hs1_3 (t : Fin cfg1.N) : (ms1_3 t).IsWhole := hstage1_3 ((cfg1.slots t 3).cast nbuf1_3)
/-- The accumulator: a whole scoped buffer of the kernel's own. -/
abbrev scM1_0 : Memref sig .tc .vmem S1024x1024 .f32 := Memref.whole cc1_scratch0
/-- The accumulator as a view: what it holds is stated through it. -/
abbrev VS1_0 : View sig .tc .vmem S1024x1024 .f32 := scM1_0.view

/-! ## The invariant before the first point -/

/-- `∗` is commutative and associative as an equation on these propositions. -/
theorem sepc1 (P Q : sProp 𝕄) : (iprop(P ∗ Q) : sProp 𝕄) = iprop(Q ∗ P) := (Idealize.SL.BI.sep_comm (P := P) (Q := Q)).antisymm Idealize.SL.BI.sep_comm
theorem sepa1 (P Q R : sProp 𝕄) : (iprop((P ∗ Q) ∗ R) : sProp 𝕄) = iprop(P ∗ Q ∗ R) := (Idealize.SL.BI.sep_assoc (P := P) (Q := Q) (R := R)).antisymm Idealize.SL.BI.sep_assoc'

/-- The scoped buffers of the other two regions (their staging buffers and accumulators), each whole at some
    contents, in two parts: region 1 never touches them. -/
def rest1a (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f))
def rest1b (c : Dev nD) : sProp 𝕄 :=
  iprop((∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f) ∗ (∃ f : Buf (Elt F) ((c : Thread nD τ).loc cc2_scratch0), ((c : Thread nD τ).loc cc2_scratch0) ↦{fullShare} f))
def rest1 (c : Dev nD) : sProp 𝕄 := iprop(rest1a c ∗ rest1b c)

/-- Before the first point the region holds its accumulator at any contents, the other regions' scoped buffers, and
    the generator register at some state. -/
theorem PhiA1_eq (c : Dev nD) :
    (Pipeline.ΦA spec1 c : sProp 𝕄)
      = iprop(iprop((∃ d, owns (c : Thread nD τ) scM1_0 fullShare d) ∗ rest1 c) ∗ (∃ r, prngReg c r)) := by
  unfold Pipeline.ΦA; rw [scopedRest1_eq]
  have e : (iprop(∃ d, owns (c : Thread nD τ) scM1_0 fullShare d) : sProp 𝕄)
      = iprop(∃ f : Buf (Elt F) ((c : Thread nD τ).loc cc1_scratch0), ((c : Thread nD τ).loc cc1_scratch0) ↦{fullShare} f) := by
    simp only [scM1_0, owns_whole]; try rfl
  rw [e]; unfold rest1
  rw [← sepa1 _ (rest1a c) (rest1b c), sepc1 _ (rest1a c), sepa1]
  unfold rest1a rest1b; simp only [sepa1]

end Cert.KernelIdeal.Fr

end
-- ==== Proof.KI1RunA.lean ====
/-
  Region 1, the body's run in one of its three control cases (first, middle or last step of a contraction), on
  whole staging buffers: the inputs' at their contents come back as they were, and each buffer the body stores into
  ends with the stores' pieces written, which the symbolic run of the body finds.
-/
import proofs.«117267_j43508018708617_1_alg».proof.Proof.KI1Base

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a FIRST step of a contraction that is not also the last: the accumulator, at any contents, is zeroed and then holds the
    product of the two input blocks; the output buffer is handed back as found. -/
noncomputable def kernelRun1_A (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : cond1_0 i) (hc1 : ¬cond1_1 i)
    (x0 : Vec F S1024x1024 .bf16) (x1 : Vec F S1024x1024 .bf16) (x2 : Vec F S1024 .f32) :
    { LS0 : List (View.Piece (Elt F) S1024x1024 .f32) //
      ∀ (xi3 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc1__linear_kernel i arg3 harg3 arg4 harg4 arg5 harg5 arg6 harg6 arg7 harg7) K } := by
  refine ⟨?_, fun xi3 E K => ?run⟩
  case run =>
    simp only [cc1__linear_kernel_eq_skeleton]; unfold cc1__linear_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.KernelIdeal.Fr

end
-- ==== Proof.KI1RunB.lean ====
/-
  Region 1, the body's run in one of its three control cases (first, middle or last step of a contraction), on
  whole staging buffers: the inputs' at their contents come back as they were, and each buffer the body stores into
  ends with the stores' pieces written, which the symbolic run of the body finds.
-/
import proofs.«117267_j43508018708617_1_alg».proof.Proof.KI1RunA

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a MIDDLE step: the accumulator, at what the point before left, gains the product of the two input blocks;
    the output buffer is handed back as found. -/
noncomputable def kernelRun1_B (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : ¬cond1_1 i)
    (x0 : Vec F S1024x1024 .bf16) (x1 : Vec F S1024x1024 .bf16) (x2 : Vec F S1024 .f32) (xs0 : Vec F S1024x1024 .f32) :
    { LS0 : List (View.Piece (Elt F) S1024x1024 .f32) //
      ∀ (xi3 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc1__linear_kernel i arg3 harg3 arg4 harg4 arg5 harg5 arg6 harg6 arg7 harg7) K } := by
  refine ⟨?_, fun xi3 E K => ?run⟩
  case run =>
    simp only [cc1__linear_kernel_eq_skeleton]; unfold cc1__linear_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.KernelIdeal.Fr

end
-- ==== Proof.KI1RunC.lean ====
/-
  Region 1, the body's run in one of its three control cases (first, middle or last step of a contraction), on
  whole staging buffers: the inputs' at their contents come back as they were, and each buffer the body stores into
  ends with the stores' pieces written, which the symbolic run of the body finds.
-/
import proofs.«117267_j43508018708617_1_alg».proof.Proof.KI1RunB

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a LAST step: the accumulator, at what the point before left, gains the product of the two input blocks, and
    the output buffer, at any contents, is stored whole with the accumulator plus the bias row. -/
noncomputable def kernelRun1_C (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i)
    (x0 : Vec F S1024x1024 .bf16) (x1 : Vec F S1024x1024 .bf16) (x2 : Vec F S1024 .f32) (xs0 : Vec F S1024x1024 .f32) :
    Σ' (L3 : List (View.Piece (Elt F) S1024x1024 .f32)), { LS0 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc1__linear_kernel i arg3 harg3 arg4 harg4 arg5 harg5 arg6 harg6 arg7 harg7) K } := by
  refine ⟨?_, ?_, fun E K => ?run⟩
  case run =>
    simp only [cc1__linear_kernel_eq_skeleton]; unfold cc1__linear_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

end Cert.KernelIdeal.Fr

end
-- ==== Proof.KI1Dat.lean ====
/-
  Region 1: what the accumulator and the output's staging buffer hold after each grid point, and the region's proof
  data. The grid runs over (row block, column block, step) with the step fastest; within one (row block, column block)
  the 4 steps zero the accumulator at the first, add one block product x_blk · w_blkᵀ at each, and at the last store
  accumulator + bias into the output's buffer, which only then is written back. The contents are defined by recursion
  on the position (the case the position is in, run on the point's input blocks and on what the point before left in
  the accumulator); the invariant after a point is the accumulator at exactly those contents. From these the body's
  obligation at a generic point follows by the case's run.
-/
import proofs.«117267_j43508018708617_1_alg».proof.Proof.KI1RunC

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not (unfetched, the
    block index has not moved), for any proof data whose array is the entry contents and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not (unfetched, the
    block index has not moved), for any proof data whose array is the entry contents and whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not (unfetched, the
    block index has not moved), for any proof data whose array is the entry contents and whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## What each case leaves -/

/-- The first step's one store into the accumulator after the zeroing covers it. -/
theorem scover1_A_0 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : cond1_0 i) (hc1 : ¬cond1_1 i)
    (x0 : Vec F S1024x1024 .bf16) (x1 : Vec F S1024x1024 .bf16) (x2 : Vec F S1024 .f32) (y : S1024x1024.Idx) :
    ∃ pc ∈ (kernelRun1_A c i arg3 harg3 arg4 harg4 arg5 harg5 arg6 harg6 arg7 harg7 hc0 hc1 x0 x1 x2).1, y ∈ pc.1.set :=
  View.cover_of_tiledL (kernelRun1_A c i arg3 harg3 arg4 harg4 arg5 harg5 arg6 harg6 arg7 harg7 hc0 hc1 x0 x1 x2).1 S1024x1024.size (by sl_kernel_rfl) y

/-- What a first step leaves in the accumulator: its pieces read back. -/
def sout1_A_0 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : cond1_0 i) (hc1 : ¬cond1_1 i)
    (x0 : Vec F S1024x1024 .bf16) (x1 : Vec F S1024x1024 .bf16) (x2 : Vec F S1024 .f32) : Vec F S1024x1024 .f32 :=
  VS1_0.read (Elt F) (VS1_0.writes (Elt F) VS1_0.junk (kernelRun1_A c i arg3 harg3 arg4 harg4 arg5 harg5 arg6 harg6 arg7 harg7 hc0 hc1 x0 x1 x2).1)

/-- A middle step's store covers the accumulator. -/
theorem scover1_B_0 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : ¬cond1_1 i)
    (x0 : Vec F S1024x1024 .bf16) (x1 : Vec F S1024x1024 .bf16) (x2 : Vec F S1024 .f32) (xs0 : Vec F S1024x1024 .f32) (y : S1024x1024.Idx) :
    ∃ pc ∈ (kernelRun1_B c i arg3 harg3 arg4 harg4 arg5 harg5 arg6 harg6 arg7 harg7 hc0 hc1 x0 x1 x2 xs0).1, y ∈ pc.1.set :=
  View.cover_of_tiledL (kernelRun1_B c i arg3 harg3 arg4 harg4 arg5 harg5 arg6 harg6 arg7 harg7 hc0 hc1 x0 x1 x2 xs0).1 S1024x1024.size (by sl_kernel_rfl) y

/-- What a middle step leaves in the accumulator. -/
def sout1_B_0 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : ¬cond1_1 i)
    (x0 : Vec F S1024x1024 .bf16) (x1 : Vec F S1024x1024 .bf16) (x2 : Vec F S1024 .f32) (xs0 : Vec F S1024x1024 .f32) : Vec F S1024x1024 .f32 :=
  VS1_0.read (Elt F) (VS1_0.writes (Elt F) VS1_0.junk (kernelRun1_B c i arg3 harg3 arg4 harg4 arg5 harg5 arg6 harg6 arg7 harg7 hc0 hc1 x0 x1 x2 xs0).1)

/-- A last step's store covers the output's buffer. -/
theorem cover1_C_3 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i)
    (x0 : Vec F S1024x1024 .bf16) (x1 : Vec F S1024x1024 .bf16) (x2 : Vec F S1024 .f32) (xs0 : Vec F S1024x1024 .f32) (y : S1024x1024.Idx) :
    ∃ pc ∈ (kernelRun1_C c i arg3 harg3 arg4 harg4 arg5 harg5 arg6 harg6 arg7 harg7 hc0 hc1 x0 x1 x2 xs0).1, y ∈ pc.1.set :=
  View.cover_of_tiledL (kernelRun1_C c i arg3 harg3 arg4 harg4 arg5 harg5 arg6 harg6 arg7 harg7 hc0 hc1 x0 x1 x2 xs0).1 S1024x1024.size (by sl_kernel_rfl) y

/-- What a last step leaves in the output's buffer. -/
def out1_C_3 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i)
    (x0 : Vec F S1024x1024 .bf16) (x1 : Vec F S1024x1024 .bf16) (x2 : Vec F S1024 .f32) (xs0 : Vec F S1024x1024 .f32) : Vec F S1024x1024 .f32 :=
  VO1_3.read (Elt F) (VO1_3.writes (Elt F) VO1_3.junk (kernelRun1_C c i arg3 harg3 arg4 harg4 arg5 harg5 arg6 harg6 arg7 harg7 hc0 hc1 x0 x1 x2 xs0).1)

/-- A last step's store covers the accumulator. -/
theorem scover1_C_0 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i)
    (x0 : Vec F S1024x1024 .bf16) (x1 : Vec F S1024x1024 .bf16) (x2 : Vec F S1024 .f32) (xs0 : Vec F S1024x1024 .f32) (y : S1024x1024.Idx) :
    ∃ pc ∈ (kernelRun1_C c i arg3 harg3 arg4 harg4 arg5 harg5 arg6 harg6 arg7 harg7 hc0 hc1 x0 x1 x2 xs0).2.1, y ∈ pc.1.set :=
  View.cover_of_tiledL (kernelRun1_C c i arg3 harg3 arg4 harg4 arg5 harg5 arg6 harg6 arg7 harg7 hc0 hc1 x0 x1 x2 xs0).2.1 S1024x1024.size (by sl_kernel_rfl) y

/-- What a last step leaves in the accumulator. -/
def sout1_C_0 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i)
    (x0 : Vec F S1024x1024 .bf16) (x1 : Vec F S1024x1024 .bf16) (x2 : Vec F S1024 .f32) (xs0 : Vec F S1024x1024 .f32) : Vec F S1024x1024 .f32 :=
  VS1_0.read (Elt F) (VS1_0.writes (Elt F) VS1_0.junk (kernelRun1_C c i arg3 harg3 arg4 harg4 arg5 harg5 arg6 harg6 arg7 harg7 hc0 hc1 x0 x1 x2 xs0).2.1)

/-- Away from a last step nothing is stored into the output's buffer: a placeholder nothing consults, since there
    the buffer is neither written back nor read at the next point. -/
def idleOut1 : Vec F S1024x1024 .f32 := VO1_3.read (Elt F) VO1_3.junk

/-! ## What the buffers hold after each point -/

/-- THE ACCUMULATION: the output's staging buffer and the accumulator after the body at position `n`. -/
def outsAt1 (c : Dev nD) : (n : ℕ) → n < cfg1.N → Vec F S1024x1024 .f32 × Vec F S1024x1024 .f32
  | 0, hn => (idleOut1, sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 4 = 0 then
      if h1 : (n + 1) % 4 = 3 then
        False.elim (by omega)
      else
        (idleOut1, sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 4 = 3 then
        (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2)
      else
        (idleOut1, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2)

/-- At a first step. -/
theorem outsAt1_A (c : Dev nD) (t : Fin cfg1.N) (h0 : t.val % 4 = 0) (h1 : ¬t.val % 4 = 3) :
    outsAt1 V c t.val t.isLt = (idleOut1, sout1_A_0 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

/-- At a middle step, over what the point before left in the accumulator. -/
theorem outsAt1_B (c : Dev nD) (t : Fin cfg1.N) (h0 : ¬t.val % 4 = 0) (h1 : ¬t.val % 4 = 3) :
    outsAt1 V c t.val t.isLt = (idleOut1, sout1_B_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a last step, over what the point before left in the accumulator. -/
theorem outsAt1_C (c : Dev nD) (t : Fin cfg1.N) (h0 : ¬t.val % 4 = 0) (h1 : t.val % 4 = 3) :
    outsAt1 V c t.val t.isLt = (out1_C_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant -/

/-- The region's invariant before position `n`: before the first point the accumulator at anything; afterwards at what
    the point before left in it; beside it always the other regions' scoped buffers and the generator register. -/
def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2) ∗ rest1 c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1_0 fullShare ((outsAt1 V c n hn).2) ∗ rest1 c) ∗ (∃ r, prngReg c r)) := rfl

theorem PhiS1_pos (c : Dev nD) (n : ℕ) (h : n ≤ cfg1.N) (hz : n ≠ 0) :
    PhiS1 V c n h = iprop(iprop(owns (c : Thread nD τ) scM1_0 fullShare ((outsAt1 V c (n - 1) (by omega)).2) ∗ rest1 c) ∗ (∃ r, prngReg c r)) := by
  cases n with
  | zero => exact absurd rfl hz
  | succ n => rfl

/-! ## The proof data -/

/-- The pipeline's proof data on core `c`: the arrays as the region finds them; after the body at a point each input's
    buffer at its block and the output's at `outsAt1`; the invariant above; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`: the invariant, the core's dues, and each window's current buffer. -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the inputs' buffers hold their blocks; the position decides the case; the invariant hands the
    body the accumulator (at anything before the first point, else at what the point before left) and takes it back
    at this point's contents; the other regions' buffers and the generator register ride along; the core owes nothing. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 176 := lt_of_lt_of_eq t.isLt (show cfg1.N = 176 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  by_cases h0 : t.val % 4 = 0
  · by_cases h1 : t.val % 4 = 3
    · exfalso; omega
    · rw [Dat.leavesExact_idle (dat1 V c) 3 t (idleAt1_3 t (fun h => h1 ((hcond1_1 t).mp h))) (noFlush1_3 t (fun h => h1 ((hcond1_1 t).mp h)))]
      rw [outsAt1_A V c t h0 h1]
      unfold sout1_A_0; (try dsimp only)
      by_cases hz : t.val = 0
      · rw [PhiS1_castSucc V c t, PhiS1_zero V c _ _ hz, PhiA1_eq]
        iintro ⟨⟨⟨HS0, Hrest⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover1_A_0 c _ _ _ _ _ _ _ _ _ _ _ _ _ _ _ _)
            iexact Hrest
          iexact Hg
        isplitl [Ho]; · iexact Ho
        isplitl [H0]; · iexact H0
        isplitl [H1]; · iexact H1
        isplitl [H2]; · iexact H2
        iexists _; iexact H3
      · rw [PhiS1_castSucc V c t, PhiS1_pos V c _ _ hz]
        iintro ⟨⟨⟨HS0, Hrest⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover1_A_0 c _ _ _ _ _ _ _ _ _ _ _ _ _ _ _ _)
            iexact Hrest
          iexact Hg
        isplitl [Ho]; · iexact Ho
        isplitl [H0]; · iexact H0
        isplitl [H1]; · iexact H1
        isplitl [H2]; · iexact H2
        iexists _; iexact H3
  · by_cases h1 : t.val % 4 = 3
    · rw [show (dat1 V c).leavesExact 3 t = owns (c : Thread nD τ) (ms1_3 t) fullShare ((dat1 V c).after 3 t) from by
        unfold Dat.leavesExact; rw [liveAt1_3 t ((hcond1_1 t).mpr h1)], after1_3]
      rw [outsAt1_C V c t h0 h1]
      unfold out1_C_3 sout1_C_0; (try dsimp only)
      by_cases hz : t.val = 0
      · exfalso; omega
      · rw [PhiS1_castSucc V c t, PhiS1_pos V c _ _ hz]
        iintro ⟨⟨⟨HS0, Hrest⟩, Hg⟩, Ho, ⟨%d0, H0⟩, ⟨%d1, H1⟩, ⟨%d2, H2⟩, ⟨%d3, H3⟩⟩
        iapply ((kernelRun1_C c (grid1.coords t) _ _ _ _ _ _ _ _ _ _ (fun h => h0 ((hcond1_0 t).mp h)) ((hcond1_1 t).mpr h1) (iblk1 V c 0 t) (iblk1 V c 1 t) (iblk1 V c 2 t) _).2.2 Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover1_C_0 c _ _ _ _ _ _ _ _ _ _ _ _ _ _ _ _ _)
            iexact Hrest
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover1_C_3 c _ _ _ _ _ _ _ _ _ _ _ _ _ _ _ _ _)
    · rw [Dat.leavesExact_idle (dat1 V c) 3 t (idleAt1_3 t (fun h => h1 ((hcond1_1 t).mp h))) (noFlush1_3 t (fun h => h1 ((hcond1_1 t).mp h)))]
      rw [outsAt1_B V c t h0 h1]
      unfold sout1_B_0; (try dsimp only)
      by_cases hz : t.val = 0
      · exfalso; omega
      · rw [PhiS1_castSucc V c t, PhiS1_pos V c _ _ hz]
        iintro ⟨⟨⟨HS0, Hrest⟩, Hg⟩, Ho, ⟨%d0, H0⟩, ⟨%d1, H1⟩, ⟨%d2, H2⟩, ⟨%d3, H3⟩⟩
        iapply ((kernelRun1_B c (grid1.coords t) _ _ _ _ _ _ _ _ _ _ (fun h => h0 ((hcond1_0 t).mp h)) (fun h => h1 ((hcond1_1 t).mp h)) (iblk1 V c 0 t) (iblk1 V c 1 t) (iblk1 V c 2 t) _).2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover1_B_0 c _ _ _ _ _ _ _ _ _ _ _ _ _ _ _ _ _)
            iexact Hrest
          iexact Hg
        isplitl [Ho]; · iexact Ho
        isplitl [H0]; · iexact H0
        isplitl [H1]; · iexact H1
        isplitl [H2]; · iexact H2
        iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the launch's back: the accumulator's named contents are forgotten. -/
theorem hout1 (c : Dev nD) : (dat1 V c).Φ (Fin.last cfg1.N) ⊢ Pipeline.ΦA spec1 c := by
  have hne : (Fin.last cfg1.N).val ≠ 0 := by rw [Fin.val_last]; have : cfg1.N = 176 := N_1; omega
  rw [show (dat1 V c).Φ (Fin.last cfg1.N) = PhiS1 V c (Fin.last cfg1.N).val (Nat.le_of_lt_succ (Fin.last cfg1.N).isLt) from rfl, PhiS1_pos V c _ _ hne, PhiA1_eq]
  iintro ⟨⟨HS0, Hrest⟩, Hg⟩
  isplitl [HS0 Hrest]
  · isplitl [HS0]
    · iexists _; iexact HS0
    iexact Hrest
  iexact Hg

end Cert.KernelIdeal.Fr

end
-- ==== Proof.KI2Base.lean ====
/-
  Region 2 of the kernel's program: one matrix product with bias, out = x · wᵀ + b, cut into 1024 × 1024 blocks
  and accumulated over the 11 blocks of the contracted axis in a scratch buffer the body keeps between grid points.
  This module fixes what the runs of the body are stated over: the two branch conditions of the body as conditions on
  the grid position (the first step of a contraction zeroes the accumulator, the last adds the bias and stores the
  output block), where the output window is idle (everywhere but at a last step), the staging and scratch buffers
  the body is called with, and the region's invariant before its first point split into the accumulator and the
  scoped buffers of the other regions, which the body never touches.
-/
import proofs.«117267_j43508018708617_1_alg».proof.Proof.Gen.KernelIdeal.Launch
import proofs.«117267_j43508018708617_1_alg».proof.Proof.Gen.KernelIdeal.Skeleton
import proofs.«117267_j43508018708617_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditions on the grid position -/

/-- The body's first `if`: the position along the contracted axis (grid axis 2) is 0. -/
abbrev cond2_0 (i : grid2.Coords) : Prop := (Scalar.cmpi .ne (Scalar.extui (Scalar.cmpi .eq (BitVec.ofNat 32 (i 2).val) 0#32)) 0#32) = 1#1
/-- Axis 2 is the fastest, of extent 11: the condition holds at the points ≡ 0 (mod 11). -/
theorem hcond2_0 : ∀ t : Fin cfg2.N, cond2_0 (grid2.coords t) ↔ t.val % 11 = 0 :=
  (by decide +kernel : ∀ t : Fin grid2.N, cond2_0 (grid2.coords t) ↔ t.val % 11 = 0)

/-- The body's second `if`: the position along the contracted axis is the last, 10. -/
abbrev cond2_1 (i : grid2.Coords) : Prop := k2_cond2 i = 1#1
/-- It holds at the points ≡ 10 (mod 11). -/
theorem hcond2_1 : ∀ t : Fin cfg2.N, cond2_1 (grid2.coords t) ↔ t.val % 11 = 10 :=
  (by decide +kernel : ∀ t : Fin grid2.N, cond2_1 (grid2.coords t) ↔ t.val % 11 = 10)

/-! ## Where the windows are idle -/

/-- The three inputs are never idle. -/
theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
/-- Away from a last step the output window is idle and its block is not written back. -/
theorem idleAt2_3 : ∀ t : Fin cfg2.N, ¬cond2_1 (grid2.coords t) → cfg2.idle 3 (grid2.coords t) = true := by decide +kernel
theorem noFlush2_3 : ∀ t : Fin cfg2.N, ¬cond2_1 (grid2.coords t) → (cfg2.win 3).flush t = false := by decide +kernel
/-- At a last step it is live. -/
theorem liveAt2_3 : ∀ t : Fin cfg2.N, cond2_1 (grid2.coords t) → cfg2.idle 3 (grid2.coords t) = false := by decide +kernel

/-! ## The buffers the body is called with -/

/-- One staging buffer of the output window, through which its contents are stated. -/
abbrev VO2_3 : View sig .tc .vmem S1024x1024 .f32 := (Memref.whole cc2_stg3_0 : Memref sig .tc .vmem S1024x1024 .f32).view
/-- Each window's current staging buffer at point `t`, as the pipeline passes it to the body, and its wholeness. -/
abbrev ms2_0 (t : Fin cfg2.N) : Memref sig .tc .vmem S1024x1024 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x1024 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1024 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1024x1024 .f32 := win2_3.stage (cfg2.slots t 3)
abbrev hs2_3 (t : Fin cfg2.N) : (ms2_3 t).IsWhole := hstage2_3 ((cfg2.slots t 3).cast nbuf2_3)
/-- The accumulator: a whole scoped buffer of the kernel's own. -/
abbrev scM2_0 : Memref sig .tc .vmem S1024x1024 .f32 := Memref.whole cc2_scratch0
/-- The accumulator as a view: what it holds is stated through it. -/
abbrev VS2_0 : View sig .tc .vmem S1024x1024 .f32 := scM2_0.view

/-! ## The invariant before the first point -/

/-- `∗` is commutative and associative as an equation on these propositions. -/
theorem sepc2 (P Q : sProp 𝕄) : (iprop(P ∗ Q) : sProp 𝕄) = iprop(Q ∗ P) := (Idealize.SL.BI.sep_comm (P := P) (Q := Q)).antisymm Idealize.SL.BI.sep_comm
theorem sepa2 (P Q R : sProp 𝕄) : (iprop((P ∗ Q) ∗ R) : sProp 𝕄) = iprop(P ∗ Q ∗ R) := (Idealize.SL.BI.sep_assoc (P := P) (Q := Q) (R := R)).antisymm Idealize.SL.BI.sep_assoc'

/-- The scoped buffers of the other two regions (their staging buffers and accumulators), each whole at some
    contents: region 2 never touches them. -/
def rest2 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_scratch0), ((c : Thread nD τ).loc cc1_scratch0) ↦{fullShare} f))

/-- Before the first point the region holds its accumulator at any contents, the other regions' scoped buffers, and
    the generator register at some state. -/
theorem PhiA2_eq (c : Dev nD) :
    (Pipeline.ΦA spec2 c : sProp 𝕄)
      = iprop(iprop((∃ d, owns (c : Thread nD τ) scM2_0 fullShare d) ∗ rest2 c) ∗ (∃ r, prngReg c r)) := by
  unfold Pipeline.ΦA; rw [scopedRest2_eq]
  have e : (iprop(∃ d, owns (c : Thread nD τ) scM2_0 fullShare d) : sProp 𝕄)
      = iprop(∃ f : Buf (Elt F) ((c : Thread nD τ).loc cc2_scratch0), ((c : Thread nD τ).loc cc2_scratch0) ↦{fullShare} f) := by
    simp only [scM2_0, owns_whole]; try rfl
  rw [e, sepc2 _ (rest2 c)]; unfold rest2; simp only [sepa2]

end Cert.KernelIdeal.Fr

end
-- ==== Proof.KI2RunA.lean ====
/-
  Region 2, the body's run in one of its three control cases (first, middle or last step of a contraction), on
  whole staging buffers: the inputs' at their contents come back as they were, and each buffer the body stores into
  ends with the stores' pieces written, which the symbolic run of the body finds.
-/
import proofs.«117267_j43508018708617_1_alg».proof.Proof.KI2Base

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a FIRST step of a contraction that is not also the last: the accumulator, at any contents, is zeroed and then holds the
    product of the two input blocks; the output buffer is handed back as found. -/
noncomputable def kernelRun2_A (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : cond2_0 i) (hc1 : ¬cond2_1 i)
    (x0 : Vec F S1024x1024 .bf16) (x1 : Vec F S1024x1024 .bf16) (x2 : Vec F S1024 .f32) :
    { LS0 : List (View.Piece (Elt F) S1024x1024 .f32) //
      ∀ (xi3 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc2__linear_kernel i arg3 harg3 arg4 harg4 arg5 harg5 arg6 harg6 arg7 harg7) K } := by
  refine ⟨?_, fun xi3 E K => ?run⟩
  case run =>
    simp only [cc2__linear_kernel_eq_skeleton]; unfold cc2__linear_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.KernelIdeal.Fr

end
-- ==== Proof.KI2RunB.lean ====
/-
  Region 2, the body's run in one of its three control cases (first, middle or last step of a contraction), on
  whole staging buffers: the inputs' at their contents come back as they were, and each buffer the body stores into
  ends with the stores' pieces written, which the symbolic run of the body finds.
-/
import proofs.«117267_j43508018708617_1_alg».proof.Proof.KI2RunA

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a MIDDLE step: the accumulator, at what the point before left, gains the product of the two input blocks;
    the output buffer is handed back as found. -/
noncomputable def kernelRun2_B (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : ¬cond2_0 i) (hc1 : ¬cond2_1 i)
    (x0 : Vec F S1024x1024 .bf16) (x1 : Vec F S1024x1024 .bf16) (x2 : Vec F S1024 .f32) (xs0 : Vec F S1024x1024 .f32) :
    { LS0 : List (View.Piece (Elt F) S1024x1024 .f32) //
      ∀ (xi3 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc2__linear_kernel i arg3 harg3 arg4 harg4 arg5 harg5 arg6 harg6 arg7 harg7) K } := by
  refine ⟨?_, fun xi3 E K => ?run⟩
  case run =>
    simp only [cc2__linear_kernel_eq_skeleton]; unfold cc2__linear_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.KernelIdeal.Fr

end
-- ==== Proof.KI2RunC.lean ====
/-
  Region 2, the body's run in one of its three control cases (first, middle or last step of a contraction), on
  whole staging buffers: the inputs' at their contents come back as they were, and each buffer the body stores into
  ends with the stores' pieces written, which the symbolic run of the body finds.
-/
import proofs.«117267_j43508018708617_1_alg».proof.Proof.KI2RunB

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a LAST step: the accumulator, at what the point before left, gains the product of the two input blocks, and
    the output buffer, at any contents, is stored whole with the accumulator plus the bias row. -/
noncomputable def kernelRun2_C (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : ¬cond2_0 i) (hc1 : cond2_1 i)
    (x0 : Vec F S1024x1024 .bf16) (x1 : Vec F S1024x1024 .bf16) (x2 : Vec F S1024 .f32) (xs0 : Vec F S1024x1024 .f32) :
    Σ' (L3 : List (View.Piece (Elt F) S1024x1024 .f32)), { LS0 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc2__linear_kernel i arg3 harg3 arg4 harg4 arg5 harg5 arg6 harg6 arg7 harg7) K } := by
  refine ⟨?_, ?_, fun E K => ?run⟩
  case run =>
    simp only [cc2__linear_kernel_eq_skeleton]; unfold cc2__linear_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

end Cert.KernelIdeal.Fr

end
-- ==== Proof.KI2Dat.lean ====
/-
  Region 2: what the accumulator and the output's staging buffer hold after each grid point, and the region's proof
  data. The grid runs over (row block, column block, step) with the step fastest; within one (row block, column block)
  the 11 steps zero the accumulator at the first, add one block product x_blk · w_blkᵀ at each, and at the last store
  accumulator + bias into the output's buffer, which only then is written back. The contents are defined by recursion
  on the position (the case the position is in, run on the point's input blocks and on what the point before left in
  the accumulator); the invariant after a point is the accumulator at exactly those contents. From these the body's
  obligation at a generic point follows by the case's run.
-/
import proofs.«117267_j43508018708617_1_alg».proof.Proof.KI2RunC

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not (unfetched, the
    block index has not moved), for any proof data whose array is the entry contents and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not (unfetched, the
    block index has not moved), for any proof data whose array is the entry contents and whose body leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not (unfetched, the
    block index has not moved), for any proof data whose array is the entry contents and whose body leaves the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## What each case leaves -/

/-- The first step's one store into the accumulator after the zeroing covers it. -/
theorem scover2_A_0 (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : cond2_0 i) (hc1 : ¬cond2_1 i)
    (x0 : Vec F S1024x1024 .bf16) (x1 : Vec F S1024x1024 .bf16) (x2 : Vec F S1024 .f32) (y : S1024x1024.Idx) :
    ∃ pc ∈ (kernelRun2_A c i arg3 harg3 arg4 harg4 arg5 harg5 arg6 harg6 arg7 harg7 hc0 hc1 x0 x1 x2).1, y ∈ pc.1.set :=
  View.cover_of_tiledL (kernelRun2_A c i arg3 harg3 arg4 harg4 arg5 harg5 arg6 harg6 arg7 harg7 hc0 hc1 x0 x1 x2).1 S1024x1024.size (by sl_kernel_rfl) y

/-- What a first step leaves in the accumulator: its pieces read back. -/
def sout2_A_0 (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : cond2_0 i) (hc1 : ¬cond2_1 i)
    (x0 : Vec F S1024x1024 .bf16) (x1 : Vec F S1024x1024 .bf16) (x2 : Vec F S1024 .f32) : Vec F S1024x1024 .f32 :=
  VS2_0.read (Elt F) (VS2_0.writes (Elt F) VS2_0.junk (kernelRun2_A c i arg3 harg3 arg4 harg4 arg5 harg5 arg6 harg6 arg7 harg7 hc0 hc1 x0 x1 x2).1)

/-- A middle step's store covers the accumulator. -/
theorem scover2_B_0 (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : ¬cond2_0 i) (hc1 : ¬cond2_1 i)
    (x0 : Vec F S1024x1024 .bf16) (x1 : Vec F S1024x1024 .bf16) (x2 : Vec F S1024 .f32) (xs0 : Vec F S1024x1024 .f32) (y : S1024x1024.Idx) :
    ∃ pc ∈ (kernelRun2_B c i arg3 harg3 arg4 harg4 arg5 harg5 arg6 harg6 arg7 harg7 hc0 hc1 x0 x1 x2 xs0).1, y ∈ pc.1.set :=
  View.cover_of_tiledL (kernelRun2_B c i arg3 harg3 arg4 harg4 arg5 harg5 arg6 harg6 arg7 harg7 hc0 hc1 x0 x1 x2 xs0).1 S1024x1024.size (by sl_kernel_rfl) y

/-- What a middle step leaves in the accumulator. -/
def sout2_B_0 (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : ¬cond2_0 i) (hc1 : ¬cond2_1 i)
    (x0 : Vec F S1024x1024 .bf16) (x1 : Vec F S1024x1024 .bf16) (x2 : Vec F S1024 .f32) (xs0 : Vec F S1024x1024 .f32) : Vec F S1024x1024 .f32 :=
  VS2_0.read (Elt F) (VS2_0.writes (Elt F) VS2_0.junk (kernelRun2_B c i arg3 harg3 arg4 harg4 arg5 harg5 arg6 harg6 arg7 harg7 hc0 hc1 x0 x1 x2 xs0).1)

/-- A last step's store covers the output's buffer. -/
theorem cover2_C_3 (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : ¬cond2_0 i) (hc1 : cond2_1 i)
    (x0 : Vec F S1024x1024 .bf16) (x1 : Vec F S1024x1024 .bf16) (x2 : Vec F S1024 .f32) (xs0 : Vec F S1024x1024 .f32) (y : S1024x1024.Idx) :
    ∃ pc ∈ (kernelRun2_C c i arg3 harg3 arg4 harg4 arg5 harg5 arg6 harg6 arg7 harg7 hc0 hc1 x0 x1 x2 xs0).1, y ∈ pc.1.set :=
  View.cover_of_tiledL (kernelRun2_C c i arg3 harg3 arg4 harg4 arg5 harg5 arg6 harg6 arg7 harg7 hc0 hc1 x0 x1 x2 xs0).1 S1024x1024.size (by sl_kernel_rfl) y

/-- What a last step leaves in the output's buffer. -/
def out2_C_3 (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : ¬cond2_0 i) (hc1 : cond2_1 i)
    (x0 : Vec F S1024x1024 .bf16) (x1 : Vec F S1024x1024 .bf16) (x2 : Vec F S1024 .f32) (xs0 : Vec F S1024x1024 .f32) : Vec F S1024x1024 .f32 :=
  VO2_3.read (Elt F) (VO2_3.writes (Elt F) VO2_3.junk (kernelRun2_C c i arg3 harg3 arg4 harg4 arg5 harg5 arg6 harg6 arg7 harg7 hc0 hc1 x0 x1 x2 xs0).1)

/-- A last step's store covers the accumulator. -/
theorem scover2_C_0 (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : ¬cond2_0 i) (hc1 : cond2_1 i)
    (x0 : Vec F S1024x1024 .bf16) (x1 : Vec F S1024x1024 .bf16) (x2 : Vec F S1024 .f32) (xs0 : Vec F S1024x1024 .f32) (y : S1024x1024.Idx) :
    ∃ pc ∈ (kernelRun2_C c i arg3 harg3 arg4 harg4 arg5 harg5 arg6 harg6 arg7 harg7 hc0 hc1 x0 x1 x2 xs0).2.1, y ∈ pc.1.set :=
  View.cover_of_tiledL (kernelRun2_C c i arg3 harg3 arg4 harg4 arg5 harg5 arg6 harg6 arg7 harg7 hc0 hc1 x0 x1 x2 xs0).2.1 S1024x1024.size (by sl_kernel_rfl) y

/-- What a last step leaves in the accumulator. -/
def sout2_C_0 (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : ¬cond2_0 i) (hc1 : cond2_1 i)
    (x0 : Vec F S1024x1024 .bf16) (x1 : Vec F S1024x1024 .bf16) (x2 : Vec F S1024 .f32) (xs0 : Vec F S1024x1024 .f32) : Vec F S1024x1024 .f32 :=
  VS2_0.read (Elt F) (VS2_0.writes (Elt F) VS2_0.junk (kernelRun2_C c i arg3 harg3 arg4 harg4 arg5 harg5 arg6 harg6 arg7 harg7 hc0 hc1 x0 x1 x2 xs0).2.1)

/-- Away from a last step nothing is stored into the output's buffer: a placeholder nothing consults, since there
    the buffer is neither written back nor read at the next point. -/
def idleOut2 : Vec F S1024x1024 .f32 := VO2_3.read (Elt F) VO2_3.junk

/-! ## What the buffers hold after each point -/

/-- THE ACCUMULATION: the output's staging buffer and the accumulator after the body at position `n`. -/
def outsAt2 (c : Dev nD) : (n : ℕ) → n < cfg2.N → Vec F S1024x1024 .f32 × Vec F S1024x1024 .f32
  | 0, hn => (idleOut2, sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩))
  | n + 1, hn =>
    if h0 : (n + 1) % 11 = 0 then
      if h1 : (n + 1) % 11 = 10 then
        False.elim (by omega)
      else
        (idleOut2, sout2_A_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩))
    else
      if h1 : (n + 1) % 11 = 10 then
        (out2_C_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (outsAt2 c n (Nat.lt_of_succ_lt hn)).2, sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (outsAt2 c n (Nat.lt_of_succ_lt hn)).2)
      else
        (idleOut2, sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (outsAt2 c n (Nat.lt_of_succ_lt hn)).2)

/-- At a first step. -/
theorem outsAt2_A (c : Dev nD) (t : Fin cfg2.N) (h0 : t.val % 11 = 0) (h1 : ¬t.val % 11 = 10) :
    outsAt2 V c t.val t.isLt = (idleOut2, sout2_A_0 c (grid2.coords t) (ms2_0 t) (hs2_0 t) (ms2_1 t) (hs2_1 t) (ms2_2 t) (hs2_2 t) (ms2_3 t) (hs2_3 t) scM2_0 (Memref.isWhole_whole _) ((hcond2_0 t).mpr h0) (fun h => h1 ((hcond2_1 t).mp h)) (iblk2 V c 0 t) (iblk2 V c 1 t) (iblk2 V c 2 t)) := by
  obtain ⟨n, hn⟩ := t
  cases n with
  | zero => exact rfl
  | succ n => exact (dif_pos h0).trans ((dif_neg h1).trans rfl)

/-- At a middle step, over what the point before left in the accumulator. -/
theorem outsAt2_B (c : Dev nD) (t : Fin cfg2.N) (h0 : ¬t.val % 11 = 0) (h1 : ¬t.val % 11 = 10) :
    outsAt2 V c t.val t.isLt = (idleOut2, sout2_B_0 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) (fun h => h1 ((hcond2_1 t).mp h)) (iblk2 V c 0 t) (iblk2 V c 1 t) (iblk2 V c 2 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a last step, over what the point before left in the accumulator. -/
theorem outsAt2_C (c : Dev nD) (t : Fin cfg2.N) (h0 : ¬t.val % 11 = 0) (h1 : t.val % 11 = 10) :
    outsAt2 V c t.val t.isLt = (out2_C_3 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2, sout2_C_0 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant -/

/-- The region's invariant before position `n`: before the first point the accumulator at anything; afterwards at what
    the point before left in it; beside it always the other regions' scoped buffers and the generator register. -/
def PhiS2 (c : Dev nD) : (n : ℕ) → n ≤ cfg2.N → sProp 𝕄
  | 0, _ => Pipeline.ΦA spec2 c
  | n + 1, hn => iprop(iprop(owns (c : Thread nD τ) scM2_0 fullShare ((outsAt2 V c n hn).2) ∗ rest2 c) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(owns (c : Thread nD τ) scM2_0 fullShare ((outsAt2 V c n hn).2) ∗ rest2 c) ∗ (∃ r, prngReg c r)) := rfl

theorem PhiS2_pos (c : Dev nD) (n : ℕ) (h : n ≤ cfg2.N) (hz : n ≠ 0) :
    PhiS2 V c n h = iprop(iprop(owns (c : Thread nD τ) scM2_0 fullShare ((outsAt2 V c (n - 1) (by omega)).2) ∗ rest2 c) ∗ (∃ r, prngReg c r)) := by
  cases n with
  | zero => exact absurd rfl hz
  | succ n => rfl

/-! ## The proof data -/

/-- The pipeline's proof data on core `c`: the arrays as the region finds them; after the body at a point each input's
    buffer at its block and the output's at `outsAt2`; the invariant above; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = (outsAt2 V c t.val t.isLt).1 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point `t`: the invariant, the core's dues, and each window's current buffer. -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

set_option maxHeartbeats 4800000 in
/-- The body at any point: the inputs' buffers hold their blocks; the position decides the case; the invariant hands the
    body the accumulator (at anything before the first point, else at what the point before left) and takes it back
    at this point's contents; the other regions' buffers and the generator register ride along; the core owes nothing. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = PhiS2 V c (t.val + 1) t.isLt from rfl, PhiS2_succ]
  have hN : t.val < 176 := lt_of_lt_of_eq t.isLt (show cfg2.N = 176 from N_2)
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  by_cases h0 : t.val % 11 = 0
  · by_cases h1 : t.val % 11 = 10
    · exfalso; omega
    · rw [Dat.leavesExact_idle (dat2 V c) 3 t (idleAt2_3 t (fun h => h1 ((hcond2_1 t).mp h))) (noFlush2_3 t (fun h => h1 ((hcond2_1 t).mp h)))]
      rw [outsAt2_A V c t h0 h1]
      unfold sout2_A_0; (try dsimp only)
      by_cases hz : t.val = 0
      · rw [PhiS2_castSucc V c t, PhiS2_zero V c _ _ hz, PhiA2_eq]
        iintro ⟨⟨⟨HS0, Hrest⟩, Hg⟩, Ho, ⟨%d0, H0⟩, ⟨%d1, H1⟩, ⟨%d2, H2⟩, ⟨%d3, H3⟩⟩
        iapply ((kernelRun2_A c (grid2.coords t) _ _ _ _ _ _ _ _ _ _ ((hcond2_0 t).mpr h0) (fun h => h1 ((hcond2_1 t).mp h)) (iblk2 V c 0 t) (iblk2 V c 1 t) (iblk2 V c 2 t)).2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover2_A_0 c _ _ _ _ _ _ _ _ _ _ _ _ _ _ _ _)
            iexact Hrest
          iexact Hg
        isplitl [Ho]; · iexact Ho
        isplitl [H0]; · iexact H0
        isplitl [H1]; · iexact H1
        isplitl [H2]; · iexact H2
        iexists _; iexact H3
      · rw [PhiS2_castSucc V c t, PhiS2_pos V c _ _ hz]
        iintro ⟨⟨⟨HS0, Hrest⟩, Hg⟩, Ho, ⟨%d0, H0⟩, ⟨%d1, H1⟩, ⟨%d2, H2⟩, ⟨%d3, H3⟩⟩
        iapply ((kernelRun2_A c (grid2.coords t) _ _ _ _ _ _ _ _ _ _ ((hcond2_0 t).mpr h0) (fun h => h1 ((hcond2_1 t).mp h)) (iblk2 V c 0 t) (iblk2 V c 1 t) (iblk2 V c 2 t)).2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover2_A_0 c _ _ _ _ _ _ _ _ _ _ _ _ _ _ _ _)
            iexact Hrest
          iexact Hg
        isplitl [Ho]; · iexact Ho
        isplitl [H0]; · iexact H0
        isplitl [H1]; · iexact H1
        isplitl [H2]; · iexact H2
        iexists _; iexact H3
  · by_cases h1 : t.val % 11 = 10
    · rw [show (dat2 V c).leavesExact 3 t = owns (c : Thread nD τ) (ms2_3 t) fullShare ((dat2 V c).after 3 t) from by
        unfold Dat.leavesExact; rw [liveAt2_3 t ((hcond2_1 t).mpr h1)], after2_3]
      rw [outsAt2_C V c t h0 h1]
      unfold out2_C_3 sout2_C_0; (try dsimp only)
      by_cases hz : t.val = 0
      · exfalso; omega
      · rw [PhiS2_castSucc V c t, PhiS2_pos V c _ _ hz]
        iintro ⟨⟨⟨HS0, Hrest⟩, Hg⟩, Ho, ⟨%d0, H0⟩, ⟨%d1, H1⟩, ⟨%d2, H2⟩, ⟨%d3, H3⟩⟩
        iapply ((kernelRun2_C c (grid2.coords t) _ _ _ _ _ _ _ _ _ _ (fun h => h0 ((hcond2_0 t).mp h)) ((hcond2_1 t).mpr h1) (iblk2 V c 0 t) (iblk2 V c 1 t) (iblk2 V c 2 t) _).2.2 Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover2_C_0 c _ _ _ _ _ _ _ _ _ _ _ _ _ _ _ _ _)
            iexact Hrest
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover2_C_3 c _ _ _ _ _ _ _ _ _ _ _ _ _ _ _ _ _)
    · rw [Dat.leavesExact_idle (dat2 V c) 3 t (idleAt2_3 t (fun h => h1 ((hcond2_1 t).mp h))) (noFlush2_3 t (fun h => h1 ((hcond2_1 t).mp h)))]
      rw [outsAt2_B V c t h0 h1]
      unfold sout2_B_0; (try dsimp only)
      by_cases hz : t.val = 0
      · exfalso; omega
      · rw [PhiS2_castSucc V c t, PhiS2_pos V c _ _ hz]
        iintro ⟨⟨⟨HS0, Hrest⟩, Hg⟩, Ho, ⟨%d0, H0⟩, ⟨%d1, H1⟩, ⟨%d2, H2⟩, ⟨%d3, H3⟩⟩
        iapply ((kernelRun2_B c (grid2.coords t) _ _ _ _ _ _ _ _ _ _ (fun h => h0 ((hcond2_0 t).mp h)) (fun h => h1 ((hcond2_1 t).mp h)) (iblk2 V c 0 t) (iblk2 V c 1 t) (iblk2 V c 2 t) _).2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover2_B_0 c _ _ _ _ _ _ _ _ _ _ _ _ _ _ _ _ _)
            iexact Hrest
          iexact Hg
        isplitl [Ho]; · iexact Ho
        isplitl [H0]; · iexact H0
        isplitl [H1]; · iexact H1
        isplitl [H2]; · iexact H2
        iexists _; iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After the last point the invariant gives the launch's back: the accumulator's named contents are forgotten. -/
theorem hout2 (c : Dev nD) : (dat2 V c).Φ (Fin.last cfg2.N) ⊢ Pipeline.ΦA spec2 c := by
  have hne : (Fin.last cfg2.N).val ≠ 0 := by rw [Fin.val_last]; have : cfg2.N = 176 := N_2; omega
  rw [show (dat2 V c).Φ (Fin.last cfg2.N) = PhiS2 V c (Fin.last cfg2.N).val (Nat.le_of_lt_succ (Fin.last cfg2.N).isLt) from rfl, PhiS2_pos V c _ _ hne, PhiA2_eq]
  iintro ⟨⟨HS0, Hrest⟩, Hg⟩
  isplitl [HS0 Hrest]
  · isplitl [HS0]
    · iexists _; iexact HS0
    iexact Hrest
  iexact Hg

end Cert.KernelIdeal.Fr

end
-- ==== Proof.KIRegs.lean ====
/-
  The three regions as segments of the program's run, and the run itself. Between two items of the program every
  unscoped buffer of a core is held whole at a valuation: the launch contents, then each stretch of host operations
  applied, then, after a region, the region's output array at what its write-backs leave (each output block written
  back once, at the last step of its contraction) and everything else unchanged. The contents the three regions leave
  are defined in program order (each from the valuation the regions before it produce), the regions' records are
  entered from and left at these valuations, and the run ends with EVERY unscoped buffer at the last valuation: the
  arguments as launched, and the result array at what region 2 leaves.
-/
import proofs.«117267_j43508018708617_1_alg».proof.Proof.KI0Dat
import proofs.«117267_j43508018708617_1_alg».proof.Proof.KI1Dat
import proofs.«117267_j43508018708617_1_alg».proof.Proof.KI2Dat
import proofs.«117267_j43508018708617_1_alg».proof.Proof.RegionsKernelIdeal
import Idealize.ShloMosaic.Lib.Pipeline.RegionsLoop

set_option maxRecDepth 16384

noncomputable section

namespace Cert.KernelIdeal.Fr

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ)

/-! ## The contents the regions leave, in program order -/

/-- A valuation read at a TensorCore's references. -/
abbrev rd (W : Dev nD → Valuation τ sig (Elt F)) : (c : Dev nD) → (b : Ref sig .tc) → Buf (Elt F) ((c : Thread nD τ).loc b) := fun c b => W c b

/-- After region 0: its arrays at what the pipeline leaves, every other buffer as entered. -/
def W28 (c : Dev nD) : Valuation τ sig (Elt F) :=
  Pipeline.withArrays spec0 c (V27 m c) fun w => (dat0 (rd (V27 m)) c).arrAt w cfg0.N
/-- The regions' contents known after region 0. -/
def outsA : Outs (F := F) := fun _ r c => W28 m c r
/-- After region 1. -/
def W29 (c : Dev nD) : Valuation τ sig (Elt F) :=
  Pipeline.withArrays spec1 c (V28 m (outsA m) c) fun w => (dat1 (rd (V28 m (outsA m))) c).arrAt w cfg1.N
/-- The regions' contents known after region 1. -/
def outsB : Outs (F := F) := fun J r c => match J with
  | 28 => W28 m c r
  | _ => W29 m c r
/-- After region 2. -/
def W45 (c : Dev nD) : Valuation τ sig (Elt F) :=
  Pipeline.withArrays spec2 c (V44 m (outsB m) c) fun w => (dat2 (rd (V44 m (outsB m))) c).arrAt w cfg2.N
/-- The contents all three regions leave. -/
def outsC : Outs (F := F) := fun J r c => match J with
  | 28 => W28 m c r
  | 29 => W29 m c r
  | _ => W45 m c r

/-- The valuations between the items read the regions' contents only at the item that produced them. -/
theorem V28_C : V28 m (outsC m) = V28 m (outsA m) := rfl
theorem V29_C : V29 m (outsC m) = V29 m (outsB m) := rfl
theorem V28_B : V28 m (outsB m) = V28 m (outsA m) := rfl
theorem V44_C : V44 m (outsC m) = V44 m (outsB m) := rfl

/-! ## The proof data family and the thread state -/

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (rd (V27 m)) c
  | ⟨1, _⟩ => fun c => dat1 (rd (V28 m (outsA m))) c
  | ⟨2, _⟩ => fun c => dat2 (rd (V44 m (outsB m))) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, at nothing. -/
abbrev R (c : Dev nD) : sProp 𝕄 := iprop((∃ r, prngReg c r) ∗ ∃ W, owes (c : Thread nD τ) (0 : CellTallies nD τ sig Unit) W)

/-! ## The regions as segments -/

set_option maxHeartbeats 4000000 in
/-- Region 0's arrays at its exit are the next valuation's: the output's array at what the write-backs leave, the
    three inputs' as entered. -/
theorem hF0 (c : Dev nD) (w : Fin cfg0.W) : (pdats m 0 c).arrAt w cfg0.N = rd (V28 m (outsA m)) c (Pipeline.arrRef spec0 w) := by
  fin_cases w
  · exact ((dat0 (rd (V27 m)) c).arrAt_in 0 rfl _).trans ((V28_of m (outsA m) c (Pipeline.arrRef spec0 0) (by decide)).symm)
  · exact ((dat0 (rd (V27 m)) c).arrAt_in 1 rfl _).trans ((V28_of m (outsA m) c (Pipeline.arrRef spec0 1) (by decide)).symm)
  · exact ((dat0 (rd (V27 m)) c).arrAt_in 2 rfl _).trans ((V28_of m (outsA m) c (Pipeline.arrRef spec0 2) (by decide)).symm)
  · show _ = Function.update (V27 m c) main_v48 (W28 m c main_v48) main_v48
    rw [Function.update_self]
    exact (Pipeline.withArrays_arr spec0 launch0.win.arr_inj c (V27 m c) (fun w => (dat0 (rd (V27 m)) c).arrAt w cfg0.N) 3).symm
/-- Every other buffer is as entered. -/
theorem hrest0 (c : Dev nD) : ∀ b, b ∉ Finset.univ.image (Pipeline.arrRef spec0) → rd (V28 m (outsA m)) c b = rd (V27 m) c b :=
  fun b hb => V28_of m (outsA m) c b (by
    intro h
    have hb' : b = main_v48 := by simpa using h
    subst hb'
    exact hb (Finset.mem_image.mpr ⟨3, Finset.mem_univ _, rfl⟩))

/-- The contents region 0 leaves, read at its output buffer, are its output array after the run. -/
theorem Wout0 (c : Dev nD) : W28 m c main_v48 = (dat0 (rd (V27 m)) c).arrAt 3 cfg0.N := by
  unfold W28
  exact Pipeline.withArrays_arr spec0 launch0.win.arr_inj c (V27 m c) (fun w => (dat0 (rd (V27 m)) c).arrAt w cfg0.N) 3

set_option backward.isDefEq.respectTransparency.types false in
/-- REGION 0 over the thread state: entered from every unscoped buffer at the valuation before it, left at the one
    after it; its arrays split out of the unscoped buffers and put back at the exit contents; the generator register
    into the invariant and out; nothing owed; no semaphore of the kernel's own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (rd (V27 m)) c).loose
  hwaits := Pipeline.hwaits_of_owed_zero _ _ _ _ L lv 0 fun _ _ => rfl
  pre c := iprop(StableHlo.held (c : Thread nD τ) (Pipeline.ucRefs τ sig) (V27 m c) ∗ R c)
  post c := iprop(StableHlo.held (c : Thread nD τ) (Pipeline.ucRefs τ sig) (V28 m (outsA m) c) ∗ R c)
  X c := iprop(∃ r, prngReg c r)
  Y c := iprop(∃ r, prngReg c r)
  Z c := Pipeline.unscopedRest (Ix := Unit) (Name := ℕ) (U := UR sig nD τ) (Lvl := ℕ) spec0 c (rd (V27 m) c)
  hentry c := by
    rw [Pipeline.ownSems0_none]
    have hsplit := Pipeline.arrays_of_unscopedBufs (p := 0) (pcfgs (F := F)) adm (pdats m) launch0.win launch0.arr_whole c
      ((pdats m 0 c).share_full fun _ => rfl) (rd (V27 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin0 (rd (V27 m)) c)
    unfold Pipeline.ΦA
    iintro ⟨Hp, -, Hr⟩
    isplitl [Hr]; · iexact Hr
    iexact Hp
  hout c := by
    rw [Pipeline.ownSems0_none]
    refine (hout0 (rd (V27 m)) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (rd (V27 m) c) (rd (V28 m (outsA m)) c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option maxHeartbeats 4000000 in
/-- Region 1's arrays at its exit are the next valuation's: the output's array at what the write-backs leave, the
    three inputs' as entered. -/
theorem hF1 (c : Dev nD) (w : Fin cfg1.W) : (pdats m 1 c).arrAt w cfg1.N = rd (V29 m (outsB m)) c (Pipeline.arrRef spec1 w) := by
  fin_cases w
  · exact ((dat1 (rd (V28 m (outsA m))) c).arrAt_in 0 rfl _).trans ((V29_of m (outsB m) c (Pipeline.arrRef spec1 0) (by decide)).symm)
  · exact ((dat1 (rd (V28 m (outsA m))) c).arrAt_in 1 rfl _).trans ((V29_of m (outsB m) c (Pipeline.arrRef spec1 1) (by decide)).symm)
  · exact ((dat1 (rd (V28 m (outsA m))) c).arrAt_in 2 rfl _).trans ((V29_of m (outsB m) c (Pipeline.arrRef spec1 2) (by decide)).symm)
  · show _ = Function.update (V28 m (outsA m) c) main_v49 (W29 m c main_v49) main_v49
    rw [Function.update_self]
    exact (Pipeline.withArrays_arr spec1 launch1.win.arr_inj c (V28 m (outsA m) c) (fun w => (dat1 (rd (V28 m (outsA m))) c).arrAt w cfg1.N) 3).symm
/-- Every other buffer is as entered. -/
theorem hrest1 (c : Dev nD) : ∀ b, b ∉ Finset.univ.image (Pipeline.arrRef spec1) → rd (V29 m (outsB m)) c b = rd (V28 m (outsA m)) c b :=
  fun b hb => V29_of m (outsB m) c b (by
    intro h
    have hb' : b = main_v49 := by simpa using h
    subst hb'
    exact hb (Finset.mem_image.mpr ⟨3, Finset.mem_univ _, rfl⟩))

/-- The contents region 1 leaves, read at its output buffer, are its output array after the run. -/
theorem Wout1 (c : Dev nD) : W29 m c main_v49 = (dat1 (rd (V28 m (outsA m))) c).arrAt 3 cfg1.N := by
  unfold W29
  exact Pipeline.withArrays_arr spec1 launch1.win.arr_inj c (V28 m (outsA m) c) (fun w => (dat1 (rd (V28 m (outsA m))) c).arrAt w cfg1.N) 3

set_option backward.isDefEq.respectTransparency.types false in
/-- REGION 1 over the thread state: entered from every unscoped buffer at the valuation before it, left at the one
    after it; its arrays split out of the unscoped buffers and put back at the exit contents; the generator register
    into the invariant and out; nothing owed; no semaphore of the kernel's own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (rd (V28 m (outsA m))) c).loose
  hwaits := Pipeline.hwaits_of_owed_zero _ _ _ _ L lv 1 fun _ _ => rfl
  pre c := iprop(StableHlo.held (c : Thread nD τ) (Pipeline.ucRefs τ sig) (V28 m (outsA m) c) ∗ R c)
  post c := iprop(StableHlo.held (c : Thread nD τ) (Pipeline.ucRefs τ sig) (V29 m (outsB m) c) ∗ R c)
  X c := iprop(∃ r, prngReg c r)
  Y c := iprop(∃ r, prngReg c r)
  Z c := Pipeline.unscopedRest (Ix := Unit) (Name := ℕ) (U := UR sig nD τ) (Lvl := ℕ) spec1 c (rd (V28 m (outsA m)) c)
  hentry c := by
    rw [Pipeline.ownSems0_none]
    have hsplit := Pipeline.arrays_of_unscopedBufs (p := 1) (pcfgs (F := F)) adm (pdats m) launch1.win launch1.arr_whole c
      ((pdats m 1 c).share_full fun _ => rfl) (rd (V28 m (outsA m)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin1 (rd (V28 m (outsA m))) c)
    unfold Pipeline.ΦA
    iintro ⟨Hp, -, Hr⟩
    isplitl [Hr]; · iexact Hr
    iexact Hp
  hout c := by
    rw [Pipeline.ownSems0_none]
    refine (hout1 (rd (V28 m (outsA m))) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (rd (V28 m (outsA m)) c) (rd (V29 m (outsB m)) c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option maxHeartbeats 4000000 in
/-- Region 2's arrays at its exit are the next valuation's: the output's array at what the write-backs leave, the
    three inputs' as entered. -/
theorem hF2 (c : Dev nD) (w : Fin cfg2.W) : (pdats m 2 c).arrAt w cfg2.N = rd (V45 m (outsC m)) c (Pipeline.arrRef spec2 w) := by
  fin_cases w
  · exact ((dat2 (rd (V44 m (outsB m))) c).arrAt_in 0 rfl _).trans ((V45_of m (outsC m) c (Pipeline.arrRef spec2 0) (by decide)).symm)
  · exact ((dat2 (rd (V44 m (outsB m))) c).arrAt_in 1 rfl _).trans ((V45_of m (outsC m) c (Pipeline.arrRef spec2 1) (by decide)).symm)
  · exact ((dat2 (rd (V44 m (outsB m))) c).arrAt_in 2 rfl _).trans ((V45_of m (outsC m) c (Pipeline.arrRef spec2 2) (by decide)).symm)
  · show _ = Function.update (V44 m (outsB m) c) main_v84 (W45 m c main_v84) main_v84
    rw [Function.update_self]
    exact (Pipeline.withArrays_arr spec2 launch2.win.arr_inj c (V44 m (outsB m) c) (fun w => (dat2 (rd (V44 m (outsB m))) c).arrAt w cfg2.N) 3).symm
/-- Every other buffer is as entered. -/
theorem hrest2 (c : Dev nD) : ∀ b, b ∉ Finset.univ.image (Pipeline.arrRef spec2) → rd (V45 m (outsC m)) c b = rd (V44 m (outsB m)) c b :=
  fun b hb => V45_of m (outsC m) c b (by
    intro h
    have hb' : b = main_v84 := by simpa using h
    subst hb'
    exact hb (Finset.mem_image.mpr ⟨3, Finset.mem_univ _, rfl⟩))

/-- The contents region 2 leaves, read at its output buffer, are its output array after the run. -/
theorem Wout2 (c : Dev nD) : W45 m c main_v84 = (dat2 (rd (V44 m (outsB m))) c).arrAt 3 cfg2.N := by
  unfold W45
  exact Pipeline.withArrays_arr spec2 launch2.win.arr_inj c (V44 m (outsB m) c) (fun w => (dat2 (rd (V44 m (outsB m))) c).arrAt w cfg2.N) 3

set_option backward.isDefEq.respectTransparency.types false in
/-- REGION 2 over the thread state: entered from every unscoped buffer at the valuation before it, left at the one
    after it; its arrays split out of the unscoped buffers and put back at the exit contents; the generator register
    into the invariant and out; nothing owed; no semaphore of the kernel's own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (rd (V44 m (outsB m))) c).loose
  hwaits := Pipeline.hwaits_of_owed_zero _ _ _ _ L lv 2 fun _ _ => rfl
  pre c := iprop(StableHlo.held (c : Thread nD τ) (Pipeline.ucRefs τ sig) (V44 m (outsB m) c) ∗ R c)
  post c := iprop(StableHlo.held (c : Thread nD τ) (Pipeline.ucRefs τ sig) (V45 m (outsC m) c) ∗ R c)
  X c := iprop(∃ r, prngReg c r)
  Y c := iprop(∃ r, prngReg c r)
  Z c := Pipeline.unscopedRest (Ix := Unit) (Name := ℕ) (U := UR sig nD τ) (Lvl := ℕ) spec2 c (rd (V44 m (outsB m)) c)
  hentry c := by
    rw [Pipeline.ownSems0_none]
    have hsplit := Pipeline.arrays_of_unscopedBufs (p := 2) (pcfgs (F := F)) adm (pdats m) launch2.win launch2.arr_whole c
      ((pdats m 2 c).share_full fun _ => rfl) (rd (V44 m (outsB m)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin2 (rd (V44 m (outsB m))) c)
    unfold Pipeline.ΦA
    iintro ⟨Hp, -, Hr⟩
    isplitl [Hr]; · iexact Hr
    iexact Hp
  hout c := by
    rw [Pipeline.ownSems0_none]
    refine (hout2 (rd (V44 m (outsB m))) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (rd (V44 m (outsB m)) c) (rd (V45 m (outsC m)) c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

set_option backward.isDefEq.respectTransparency.types false in
/-- The run, given the regions' records: as the conditional frame of the program, but ending with every unscoped
    buffer at the last valuation. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 3) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 4 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE3 : ∀ c : Dev nD, E 3 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V27 m c) ∗ E 0 c) ⊢ R0.pre c)
    (hpost0 : ∀ c : Dev nD, R0.post c ⊢ iprop(StableHlo.held (c : Thread nD τ) (Pipeline.ucRefs τ sig) (V28 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V28 m outs c) ∗ E 1 c) ⊢ R1.pre c)
    (hpost1 : ∀ c : Dev nD, R1.post c ⊢ iprop(StableHlo.held (c : Thread nD τ) (Pipeline.ucRefs τ sig) (V29 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V44 m outs c) ∗ E 2 c) ⊢ R2.pre c)
    (hpost2 : ∀ c : Dev nD, R2.post c ⊢ iprop(StableHlo.held (c : Thread nD τ) (Pipeline.ucRefs τ sig) (V45 m outs c) ∗ E 3 c)) :
    θ_run defs (onTc (τ := τ) (main (F := F))) ⟨m, fun _ => 0, ρ⟩ (fun r => ∀ c : Dev nD,
      ∀ b ∈ Pipeline.ucRefs τ sig, r.2.mem ((c : Thread nD τ).1, b) = V45 m outs c b) := by
  refine Pipeline.θ_run_regions_kit_dev (pcfgs (F := F)) adm pdats ι cellOf_inj EP defs₀ 𝒱₀ L lv m ρ main
    (segs m outs 𝒱₀ L lv E ι pdats R0 R1 R2)
    (fun c Q => by
      rewrite [main_chain c, Seg.run_eq_chain,
        show (segs m outs 𝒱₀ L lv E ι pdats R0 R1 R2 c).map Seg.prog = [
          StableHlo.seq hostOps0,
          StableHlo.seq hostOps0_1,
          StableHlo.seq hostOps0_2,
          StableHlo.seq hostOps0_3,
          StableHlo.seq hostOps0_4,
          StableHlo.seq hostOps0_5,
          StableHlo.seq hostOps0_6,
          StableHlo.seq hostOps0_7,
          StableHlo.seq hostOps0_8,
          StableHlo.seq hostOps0_9,
          StableHlo.seq hostOps0_10,
          StableHlo.seq hostOps0_11,
          StableHlo.seq hostOps0_12,
          StableHlo.seq hostOps0_13,
          StableHlo.seq hostOps0_14,
          StableHlo.seq hostOps0_15,
          StableHlo.seq hostOps0_16,
          StableHlo.seq hostOps0_17,
          StableHlo.seq hostOps0_18,
          StableHlo.seq hostOps0_19,
          StableHlo.seq hostOps0_20,
          StableHlo.seq hostOps0_21,
          StableHlo.seq hostOps0_22,
          StableHlo.seq hostOps0_23,
          StableHlo.seq hostOps0_24,
          StableHlo.seq hostOps0_25,
          StableHlo.seq hostOps0_26,
          Prog.lift (.customCall (Pipeline.entry 0) ()),
          Prog.lift (.customCall (Pipeline.entry 1) ()),
          StableHlo.seq hostOps2,
          StableHlo.seq hostOps2_1,
          StableHlo.seq hostOps2_2,
          StableHlo.seq hostOps2_3,
          StableHlo.seq hostOps2_4,
          StableHlo.seq hostOps2_5,
          StableHlo.seq hostOps2_6,
          StableHlo.seq hostOps2_7,
          StableHlo.seq hostOps2_8,
          StableHlo.seq hostOps2_9,
          StableHlo.seq hostOps2_10,
          StableHlo.seq hostOps2_11,
          StableHlo.seq hostOps2_12,
          StableHlo.seq hostOps2_13,
          StableHlo.seq hostOps2_14,
          Prog.lift (.customCall (Pipeline.entry 2) ()) ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V45 m outs c))
    (hch := fun c => ⟨.rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, hpre0 c, (hpost0 c).trans (hpre1 c), hpost1 c, .rfl, .rfl, .rfl, .rfl, .rfl, .rfl, .rfl, .rfl, .rfl, .rfl, .rfl, .rfl, .rfl, .rfl, hpre2 c, (hpost2 c).trans (sep_mono .rfl (hE3 c))⟩)
    (hinit := ?_) (QY := fun c s => ∀ b ∈ Pipeline.ucRefs τ sig, s.mem ((c : Thread nD τ).1, b) = V45 m outs c b)
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: every unscoped buffer read off the last valuation
    unfold StableHlo.held
    iintro ⟨Hh, HSI⟩
    ihave Hr := (pointsTo_read_all (Pipeline.ucRefs τ sig) (fun b => ((c : Thread nD τ).1, b)) (V45 m outs c) s') $$ [Hh HSI]
    · isplitl [Hh] <;> iassumption
    icases Hr with ⟨%h, HSI⟩
    imodintro
    isplitr
    · ipureintro
      exact h
    · iexact HSI

end Cert.KernelIdeal.Fr

end
-- ==== Proof.KIFrame.lean ====
/-
  The program's run from the three regions' records, and what it gives: the frame claim (every argument array ends as
  launched: no host operation and no region writes one) and the result buffer's contents at the end, which are what
  region 2's write-backs leave in its output array.
-/
import proofs.«117267_j43508018708617_1_alg».proof.Proof.KIRegs

set_option maxRecDepth 16384

noncomputable section

namespace Cert.KernelIdeal.Fr

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- Every weakly fair execution of the program terminates, nothing faulting, with every unscoped buffer of every core at
    the last valuation. -/
theorem run_all : θ_run defs (onTc (τ := τ) (main (F := F))) ⟨m, fun _ => 0, ρ⟩ (fun r => ∀ c : Dev nD,
      ∀ b ∈ Pipeline.ucRefs τ sig, r.2.mem ((c : Thread nD τ).1, b) = V45 m (outsC m) c b) :=
  run_cond m emb₁ () 𝒱₀ L lv (fun _ _ => rfl) ρ (outsC m) (pdats m) (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => R c)
    (hE0 := by
      have hmono : (bigSep Finset.univ fun c : Dev nD => (iprop(unscopedSems0 c ∗ owes (c : Thread nD τ) ((0 : Dev nD → CellTallies nD τ sig Unit) c) ∅
            ∗ Pipeline.launchCred (0 : Dev nD → CellTallies nD τ sig Unit) c ∗ prngReg c (ρ c) ∗ emp) : sProp 𝕄))
          ⊢ (bigSep Finset.univ fun c : Dev nD => (R c : sProp 𝕄)) :=
        bigSep_mono fun c _ => (show (iprop(unscopedSems0 c ∗ owes (c : Thread nD τ) ((0 : Dev nD → CellTallies nD τ sig Unit) c) ∅
            ∗ Pipeline.launchCred (0 : Dev nD → CellTallies nD τ sig Unit) c ∗ prngReg c (ρ c) ∗ emp) : sProp 𝕄) ⊢ R c from by
          iintro ⟨-, HO, -, Hp, -⟩
          isplitl [Hp]; · iexists _; iexact Hp
          iexists ∅; iexact HO)
      iintro ⟨H, -⟩
      imodintro
      iapply hmono
      iexact H)
    (hE3 := fun c => by iintro ⟨-, HO⟩; iexact HO)
    (R0 := reg0 m) (hpre0 := fun c => .rfl) (hpost0 := fun c => .rfl)
    (R1 := reg1 m) (hpre1 := fun c => .rfl) (hpost1 := fun c => .rfl)
    (R2 := reg2 m) (hpre2 := fun c => .rfl) (hpost2 := fun c => .rfl)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_arg0 (by decide))).trans (V45_main_arg0 m (outsC m) c),
     (h c _ (mem_uc main_arg1 (by decide))).trans (V45_main_arg1 m (outsC m) c),
     (h c _ (mem_uc main_arg2 (by decide))).trans (V45_main_arg2 m (outsC m) c),
     (h c _ (mem_uc main_arg3 (by decide))).trans (V45_main_arg3 m (outsC m) c),
     (h c _ (mem_uc main_arg4 (by decide))).trans (V45_main_arg4 m (outsC m) c),
     (h c _ (mem_uc main_arg5 (by decide))).trans (V45_main_arg5 m (outsC m) c),
     (h c _ (mem_uc main_arg6 (by decide))).trans (V45_main_arg6 m (outsC m) c)⟩) (run_all m ρ)

/-- THE RESULT: the result buffer ends at what region 2's write-backs leave in its output array; the arguments as launched. -/
theorem run_result : θ_run defs (onTc (τ := τ) (main (F := F))) ⟨m, fun _ => 0, ρ⟩ (fun r => ∀ c : Dev nD,
      r.2.mem ((c.tc : Thread nD τ).loc main_v84) = (pdats m 2 c).arrAt 3 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_v84 (by decide))).trans (hF2 m c 3).symm,
     (h c _ (mem_uc main_arg0 (by decide))).trans (V45_main_arg0 m (outsC m) c),
     (h c _ (mem_uc main_arg1 (by decide))).trans (V45_main_arg1 m (outsC m) c),
     (h c _ (mem_uc main_arg2 (by decide))).trans (V45_main_arg2 m (outsC m) c),
     (h c _ (mem_uc main_arg3 (by decide))).trans (V45_main_arg3 m (outsC m) c),
     (h c _ (mem_uc main_arg4 (by decide))).trans (V45_main_arg4 m (outsC m) c),
     (h c _ (mem_uc main_arg5 (by decide))).trans (V45_main_arg5 m (outsC m) c),
     (h c _ (mem_uc main_arg6 (by decide))).trans (V45_main_arg6 m (outsC m) c)⟩) (run_all m ρ)

end Cert.KernelIdeal.Fr

end
-- ==== Proof.KerSpec.lean ====
/-
  The kernel's host-side arithmetic as pure functions of the argument arrays, one function per array a matrix
  product reads, and the three matrix products as index-wise sums.

  Symmetric per-tensor quantisation: for an array `t` the scale is `s = max (max |t| / 127) 1e-8` (the maximum
  over all entries, folded from −∞) and the quantised array is `min 127 (max (−127) (round (t / s))) * s`.
  The hidden axis (10922) is extended with zeros to 11264 before quantisation; a change of float format is the
  identity on extended reals.
-/
import proofs.«117267_j43508018708617_1_alg».proof.Proof.Gen.KernelIdeal
import Idealize.ShloMosaic.Lib.ValueIdx

noncomputable section

open scoped BigOperators

namespace Cert.KerSpec

open Idealize.ShloMosaic Idealize.ShloMosaic.ValueIdx Cert.KernelIdeal Cert.KernelIdeal.Gen

/-- The quantisation scale of `t`: `max (max |t| / 127) 1e-8`, a rank-zero array. -/
def scale {s : Shape} {axes : List (Fin s.rank)} (hr : s.ReducesTo axes S_) (t : FVec Ideal s .f32) : FVec Ideal S_ .f32 :=
  maximumf
    (Host.divf (Host.reduce FloatOps.maximumf (Host.absf t) (constant S_ .f32 0xFF800000#32) hr h_S_)
      (constant S_ .f32 0x42FE0000#32))
    (constant S_ .f32 0x322BCC77#32)

/-- `t / s` rounded to the nearest integer (ties to even) and clamped to [−127, 127]: the integer grid value. -/
def grid {s : Shape} {axes : List (Fin s.rank)} (hr : s.ReducesTo axes S_)
    (hb : S_.BroadcastsInDim s (![] : Fin 0 → Fin s.rank)) (t : FVec Ideal s .f32) : FVec Ideal s .f32 :=
  minimumf (broadcastInDim s ![] hb (id (constant S_ .f32 0x42FE0000#32)))
    (maximumf (broadcastInDim s ![] hb (id (constant S_ .f32 0xC2FE0000#32)))
      (Host.roundeven (Host.divf t (broadcastInDim s ![] hb (scale hr t)))))

/-- The quantised array: the grid value times the scale. -/
def fq {s : Shape} {axes : List (Fin s.rank)} (hr : s.ReducesTo axes S_)
    (hb : S_.BroadcastsInDim s (![] : Fin 0 → Fin s.rank)) (t : FVec Ideal s .f32) : FVec Ideal s .f32 :=
  mulf (grid hr hb t) (broadcastInDim s ![] hb (scale hr t))

/-- `x * (1 / (1 + exp (−x)))`, entry by entry. -/
def silu (x : FVec Ideal S4096x11264 .f32) : FVec Ideal S4096x11264 .f32 :=
  mulf x
    (Host.divf (broadcastInDim S4096x11264 ![] bcast_S_S4096x11264 (constant S_ .f32 0x3F800000#32))
      (addf (broadcastInDim S4096x11264 ![] bcast_S_S4096x11264 (constant S_ .f32 0x3F800000#32))
        (Host.exp (Host.negf x))))

/-- The padding value: the integer 0 converted to a float. -/
def padv : FVec Ideal S_ .f32 := sitofp .f32 (constantI S_ 32 0#32)

/-- A [10922, 4096] array with 342 rows of the padding value appended. -/
def padRows (w : FVec Ideal S10922x4096 .f32) : FVec Ideal S11264x4096 .f32 :=
  pad S11264x4096 ![0, 0] ![342, 0] ![0, 0] w padv pads_S10922x4096_S11264x4096_03420_000 h_S_

/-- A [4096, 10922] array with 342 columns of the padding value appended. -/
def padCols (w : FVec Ideal S4096x10922 .f32) : FVec Ideal S4096x11264 .f32 :=
  pad S4096x11264 ![0, 0] ![0, 342] ![0, 0] w padv pads_S4096x10922_S4096x11264_000_03420 h_S_

/-- A vector of 10922 entries with 342 entries of the padding value appended. -/
def padVec (b : FVec Ideal S10922 .f32) : FVec Ideal S11264 .f32 :=
  pad S11264 ![0] ![342] ![0] b padv pads_S10922_S11264_03420 h_S_

/-- The quantised input, in the narrow format: the first operand of the gate and up products. -/
def k_v45 (x0 : FVec Ideal S4096x4096 .f32) : FVec Ideal S4096x4096 .bf16 :=
  truncf .bf16 (fq reducesTo_S4096x4096_S_d0_1 bcast_S_S4096x4096 x0) bitsLt_bf16_f32

/-- The padded and quantised gate weights, in the narrow format. -/
def k_v46 (x1 : FVec Ideal S10922x4096 .f32) : FVec Ideal S11264x4096 .bf16 :=
  truncf .bf16 (fq reducesTo_S11264x4096_S_d0_1 bcast_S_S11264x4096 (padRows x1)) bitsLt_bf16_f32

/-- The padded and quantised up weights, in the narrow format. -/
def k_v47 (x2 : FVec Ideal S10922x4096 .f32) : FVec Ideal S11264x4096 .bf16 :=
  truncf .bf16 (fq reducesTo_S11264x4096_S_d0_1 bcast_S_S11264x4096 (padRows x2)) bitsLt_bf16_f32

/-- The padded gate bias. -/
def k_v3 (x4 : FVec Ideal S10922 .f32) : FVec Ideal S11264 .f32 := padVec x4

/-- The padded up bias. -/
def k_v4 (x5 : FVec Ideal S10922 .f32) : FVec Ideal S11264 .f32 := padVec x5

/-- From the gate product `g` and the up product `u`: quantise both, multiply `silu` of the first by the second,
    quantise again; in the narrow format: the first operand of the down product. -/
def k_v82 (g u : FVec Ideal S4096x11264 .f32) : FVec Ideal S4096x11264 .bf16 :=
  truncf .bf16
    (fq reducesTo_S4096x11264_S_d0_1 bcast_S_S4096x11264
      (mulf (silu (fq reducesTo_S4096x11264_S_d0_1 bcast_S_S4096x11264 g))
        (fq reducesTo_S4096x11264_S_d0_1 bcast_S_S4096x11264 u)))
    bitsLt_bf16_f32

/-- The padded and quantised down weights, in the narrow format. -/
def k_v83 (x3 : FVec Ideal S4096x10922 .f32) : FVec Ideal S4096x11264 .bf16 :=
  truncf .bf16 (fq reducesTo_S4096x11264_S_d0_1 bcast_S_S4096x11264 (padCols x3)) bitsLt_bf16_f32

/-- The gate and up products: entry (t, n) is `∑ k, x (t, k) * w (n, k)` plus `b n`. -/
def Lin01 (x : FVec Ideal S4096x4096 .bf16) (w : FVec Ideal S11264x4096 .bf16) (b : FVec Ideal S11264 .f32) :
    FVec Ideal S4096x11264 .f32 :=
  fun j => (∑ k : Fin 4096, x (ix2 (⟨(j 0).val, idx2_lt0 j⟩ : Fin 4096) k) * w (ix2 (⟨(j 1).val, idx2_lt1 j⟩ : Fin 11264) k))
    + b (ix1 (⟨(j 1).val, idx2_lt1 j⟩ : Fin 11264))

/-- The down product: entry (t, d) is `∑ h, x (t, h) * w (d, h)` plus `b d`. -/
def Lin2 (x : FVec Ideal S4096x11264 .bf16) (w : FVec Ideal S4096x11264 .bf16) (b : FVec Ideal S4096 .f32) :
    FVec Ideal S4096x4096 .f32 :=
  fun j => (∑ k : Fin 11264, x (ix2 (⟨(j 0).val, idx2_lt0 j⟩ : Fin 4096) k) * w (ix2 (⟨(j 1).val, idx2_lt1 j⟩ : Fin 4096) k))
    + b (ix1 (⟨(j 1).val, idx2_lt1 j⟩ : Fin 4096))

theorem Lin01_apply (x : FVec Ideal S4096x4096 .bf16) (w : FVec Ideal S11264x4096 .bf16) (b : FVec Ideal S11264 .f32)
    (t : Fin 4096) (n : Fin 11264) :
    Lin01 x w b (ix2 t n) = (∑ k : Fin 4096, x (ix2 t k) * w (ix2 n k)) + b (ix1 n) := rfl

theorem Lin2_apply (x : FVec Ideal S4096x11264 .bf16) (w : FVec Ideal S4096x11264 .bf16) (b : FVec Ideal S4096 .f32)
    (t : Fin 4096) (d : Fin 4096) :
    Lin2 x w b (ix2 t d) = (∑ k : Fin 11264, x (ix2 t k) * w (ix2 d k)) + b (ix1 d) := rfl

/-- The kernel's result as a function of its seven arguments. -/
def ker (x0 : FVec Ideal S4096x4096 .f32) (x1 x2 : FVec Ideal S10922x4096 .f32) (x3 : FVec Ideal S4096x10922 .f32)
    (x4 x5 : FVec Ideal S10922 .f32) (x6 : FVec Ideal S4096 .f32) : FVec Ideal S4096x4096 .f32 :=
  Lin2 (k_v82 (Lin01 (k_v45 x0) (k_v46 x1) (k_v3 x4)) (Lin01 (k_v45 x0) (k_v47 x2) (k_v4 x5))) (k_v83 x3) x6

end Cert.KerSpec

end
-- ==== Proof.KerHostA.lean ====
/-
  What the arrays the gate and up products read hold when the products start, as functions of the arguments: each
  stretch of host operations read as one step from the contents before it, then composed. Padding, the scale, the
  quotient, the rounding, the clamp and the product with the scale give the quantised arrays of KerSpec.
-/
import proofs.«117267_j43508018708617_1_alg».proof.Proof.RegionsKernelIdeal
import proofs.«117267_j43508018708617_1_alg».proof.Proof.KerSpec

noncomputable section

namespace Cert.KernelIdeal.FrH

open Cert.KernelIdeal Cert.KernelIdeal.Gen Cert.KernelIdeal.GenP Cert.KerSpec
open Idealize.ShloMosaic Idealize.ShloMosaic.TcCoe Idealize.ShloMosaic.StableHlo Idealize.SL.Sem

variable (m : (ℓ : Loc nD τ sig) → Buf (Elt Ideal) ℓ) (outs : Outs (F := Ideal)) (c : Dev nD)

theorem st_main_c (W : Valuation τ sig (Elt Ideal)) :
    @Eq (IVec S_ 32) (StableHlo.after hostOps0 W main_c) (constantI S_ 32 0#32) := by
  dsimp only [hostOps0]; after_results <;> rfl

theorem val_main_c : @Eq (IVec S_ 32) (V1 m c main_c) (constantI S_ 32 0#32) :=
  st_main_c (V0 m c)

theorem st_main_v0 (W : Valuation τ sig (Elt Ideal)) :
    @Eq (FVec Ideal S11264x4096 .f32) (StableHlo.after hostOps0_1 W main_v0) (pad S11264x4096 ![0, 0] ![342, 0] ![0, 0] (W main_arg1 : FVec Ideal S10922x4096 .f32) (sitofp (F := Ideal) .f32 (W main_c : IVec S_ 32)) pads_S10922x4096_S11264x4096_03420_000 h_S_) := by
  dsimp only [hostOps0_1]; after_results <;> rfl

theorem at1_main_arg1 : @Eq (FVec Ideal S10922x4096 .f32) (V1 m c main_arg1) (m ((c : Thread nD τ).loc main_arg1) : FVec Ideal S10922x4096 .f32) :=
  (V1_of m c main_arg1 (by decide)).trans <| rfl

theorem at1_main_c : @Eq (IVec S_ 32) (V1 m c main_c) (constantI S_ 32 0#32) := val_main_c m c

theorem val_main_v0 : @Eq (FVec Ideal S11264x4096 .f32) (V2 m c main_v0) (padRows (m ((c : Thread nD τ).loc main_arg1) : FVec Ideal S10922x4096 .f32)) :=
  (st_main_v0 (V1 m c)).trans (by rw [at1_main_arg1, at1_main_c] <;> rfl)

theorem st_main_c_0 (W : Valuation τ sig (Elt Ideal)) :
    @Eq (IVec S_ 32) (StableHlo.after hostOps0_2 W main_c_0) (constantI S_ 32 0#32) := by
  dsimp only [hostOps0_2]; after_results <;> rfl

theorem val_main_c_0 : @Eq (IVec S_ 32) (V3 m c main_c_0) (constantI S_ 32 0#32) :=
  st_main_c_0 (V2 m c)

theorem st_main_v1 (W : Valuation τ sig (Elt Ideal)) :
    @Eq (FVec Ideal S11264x4096 .f32) (StableHlo.after hostOps0_3 W main_v1) (pad S11264x4096 ![0, 0] ![342, 0] ![0, 0] (W main_arg2 : FVec Ideal S10922x4096 .f32) (sitofp (F := Ideal) .f32 (W main_c_0 : IVec S_ 32)) pads_S10922x4096_S11264x4096_03420_000 h_S_) := by
  dsimp only [hostOps0_3]; after_results <;> rfl

theorem at3_main_arg2 : @Eq (FVec Ideal S10922x4096 .f32) (V3 m c main_arg2) (m ((c : Thread nD τ).loc main_arg2) : FVec Ideal S10922x4096 .f32) :=
  (V3_of m c main_arg2 (by decide)).trans <| (V2_of m c main_arg2 (by decide)).trans <| (V1_of m c main_arg2 (by decide)).trans <| rfl

theorem at3_main_c_0 : @Eq (IVec S_ 32) (V3 m c main_c_0) (constantI S_ 32 0#32) := val_main_c_0 m c

theorem val_main_v1 : @Eq (FVec Ideal S11264x4096 .f32) (V4 m c main_v1) (padRows (m ((c : Thread nD τ).loc main_arg2) : FVec Ideal S10922x4096 .f32)) :=
  (st_main_v1 (V3 m c)).trans (by rw [at3_main_arg2, at3_main_c_0] <;> rfl)

theorem st_main_c_1 (W : Valuation τ sig (Elt Ideal)) :
    @Eq (IVec S_ 32) (StableHlo.after hostOps0_4 W main_c_1) (constantI S_ 32 0#32) := by
  dsimp only [hostOps0_4]; after_results <;> rfl

theorem val_main_c_1 : @Eq (IVec S_ 32) (V5 m c main_c_1) (constantI S_ 32 0#32) :=
  st_main_c_1 (V4 m c)

theorem st_main_v2 (W : Valuation τ sig (Elt Ideal)) :
    @Eq (FVec Ideal S4096x11264 .f32) (StableHlo.after hostOps0_5 W main_v2) (pad S4096x11264 ![0, 0] ![0, 342] ![0, 0] (W main_arg3 : FVec Ideal S4096x10922 .f32) (sitofp (F := Ideal) .f32 (W main_c_1 : IVec S_ 32)) pads_S4096x10922_S4096x11264_000_03420 h_S_) := by
  dsimp only [hostOps0_5]; after_results <;> rfl

theorem at5_main_arg3 : @Eq (FVec Ideal S4096x10922 .f32) (V5 m c main_arg3) (m ((c : Thread nD τ).loc main_arg3) : FVec Ideal S4096x10922 .f32) :=
  (V5_of m c main_arg3 (by decide)).trans <| (V4_of m c main_arg3 (by decide)).trans <| (V3_of m c main_arg3 (by decide)).trans <| (V2_of m c main_arg3 (by decide)).trans <| (V1_of m c main_arg3 (by decide)).trans <| rfl

theorem at5_main_c_1 : @Eq (IVec S_ 32) (V5 m c main_c_1) (constantI S_ 32 0#32) := val_main_c_1 m c

theorem val_main_v2 : @Eq (FVec Ideal S4096x11264 .f32) (V6 m c main_v2) (padCols (m ((c : Thread nD τ).loc main_arg3) : FVec Ideal S4096x10922 .f32)) :=
  (st_main_v2 (V5 m c)).trans (by rw [at5_main_arg3, at5_main_c_1] <;> rfl)

theorem st_main_c_2 (W : Valuation τ sig (Elt Ideal)) :
    @Eq (IVec S_ 32) (StableHlo.after hostOps0_6 W main_c_2) (constantI S_ 32 0#32) := by
  dsimp only [hostOps0_6]; after_results <;> rfl

theorem val_main_c_2 : @Eq (IVec S_ 32) (V7 m c main_c_2) (constantI S_ 32 0#32) :=
  st_main_c_2 (V6 m c)

theorem st_main_v3 (W : Valuation τ sig (Elt Ideal)) :
    @Eq (FVec Ideal S11264 .f32) (StableHlo.after hostOps0_7 W main_v3) (pad S11264 ![0] ![342] ![0] (W main_arg4 : FVec Ideal S10922 .f32) (sitofp (F := Ideal) .f32 (W main_c_2 : IVec S_ 32)) pads_S10922_S11264_03420 h_S_) := by
  dsimp only [hostOps0_7]; after_results <;> rfl

theorem at7_main_arg4 : @Eq (FVec Ideal S10922 .f32) (V7 m c main_arg4) (m ((c : Thread nD τ).loc main_arg4) : FVec Ideal S10922 .f32) :=
  (V7_of m c main_arg4 (by decide)).trans <| (V6_of m c main_arg4 (by decide)).trans <| (V5_of m c main_arg4 (by decide)).trans <| (V4_of m c main_arg4 (by decide)).trans <| (V3_of m c main_arg4 (by decide)).trans <| (V2_of m c main_arg4 (by decide)).trans <| (V1_of m c main_arg4 (by decide)).trans <| rfl

theorem at7_main_c_2 : @Eq (IVec S_ 32) (V7 m c main_c_2) (constantI S_ 32 0#32) := val_main_c_2 m c

theorem val_main_v3 : @Eq (FVec Ideal S11264 .f32) (V8 m c main_v3) (padVec (m ((c : Thread nD τ).loc main_arg4) : FVec Ideal S10922 .f32)) :=
  (st_main_v3 (V7 m c)).trans (by rw [at7_main_arg4, at7_main_c_2] <;> rfl)

theorem st_main_c_3 (W : Valuation τ sig (Elt Ideal)) :
    @Eq (IVec S_ 32) (StableHlo.after hostOps0_8 W main_c_3) (constantI S_ 32 0#32) := by
  dsimp only [hostOps0_8]; after_results <;> rfl

theorem val_main_c_3 : @Eq (IVec S_ 32) (V9 m c main_c_3) (constantI S_ 32 0#32) :=
  st_main_c_3 (V8 m c)

theorem st_main_v4 (W : Valuation τ sig (Elt Ideal)) :
    @Eq (FVec Ideal S11264 .f32) (StableHlo.after hostOps0_9 W main_v4) (pad S11264 ![0] ![342] ![0] (W main_arg5 : FVec Ideal S10922 .f32) (sitofp (F := Ideal) .f32 (W main_c_3 : IVec S_ 32)) pads_S10922_S11264_03420 h_S_) := by
  dsimp only [hostOps0_9]; after_results <;> rfl

theorem at9_main_arg5 : @Eq (FVec Ideal S10922 .f32) (V9 m c main_arg5) (m ((c : Thread nD τ).loc main_arg5) : FVec Ideal S10922 .f32) :=
  (V9_of m c main_arg5 (by decide)).trans <| (V8_of m c main_arg5 (by decide)).trans <| (V7_of m c main_arg5 (by decide)).trans <| (V6_of m c main_arg5 (by decide)).trans <| (V5_of m c main_arg5 (by decide)).trans <| (V4_of m c main_arg5 (by decide)).trans <| (V3_of m c main_arg5 (by decide)).trans <| (V2_of m c main_arg5 (by decide)).trans <| (V1_of m c main_arg5 (by decide)).trans <| rfl

theorem at9_main_c_3 : @Eq (IVec S_ 32) (V9 m c main_c_3) (constantI S_ 32 0#32) := val_main_c_3 m c

theorem val_main_v4 : @Eq (FVec Ideal S11264 .f32) (V10 m c main_v4) (padVec (m ((c : Thread nD τ).loc main_arg5) : FVec Ideal S10922 .f32)) :=
  (st_main_v4 (V9 m c)).trans (by rw [at9_main_arg5, at9_main_c_3] <;> rfl)

theorem st_main_v8 (W : Valuation τ sig (Elt Ideal)) :
    @Eq (FVec Ideal S_ .f32) (StableHlo.after hostOps0_10 W main_v8) (scale reducesTo_S4096x4096_S_d0_1 (W main_arg0 : FVec Ideal S4096x4096 .f32)) := by
  dsimp only [hostOps0_10]; after_results <;> rfl

theorem at10_main_arg0 : @Eq (FVec Ideal S4096x4096 .f32) (V10 m c main_arg0) (m ((c : Thread nD τ).loc main_arg0) : FVec Ideal S4096x4096 .f32) :=
  (V10_of m c main_arg0 (by decide)).trans <| (V9_of m c main_arg0 (by decide)).trans <| (V8_of m c main_arg0 (by decide)).trans <| (V7_of m c main_arg0 (by decide)).trans <| (V6_of m c main_arg0 (by decide)).trans <| (V5_of m c main_arg0 (by decide)).trans <| (V4_of m c main_arg0 (by decide)).trans <| (V3_of m c main_arg0 (by decide)).trans <| (V2_of m c main_arg0 (by decide)).trans <| (V1_of m c main_arg0 (by decide)).trans <| rfl

theorem val_main_v8 : @Eq (FVec Ideal S_ .f32) (V11 m c main_v8) (scale reducesTo_S4096x4096_S_d0_1 (m ((c : Thread nD τ).loc main_arg0) : FVec Ideal S4096x4096 .f32)) :=
  (st_main_v8 (V10 m c)).trans (by rw [at10_main_arg0] <;> rfl)

theorem st_main_v10 (W : Valuation τ sig (Elt Ideal)) :
    @Eq (FVec Ideal S4096x4096 .f32) (StableHlo.after hostOps0_10 W main_v10) (Host.divf (W main_arg0 : FVec Ideal S4096x4096 .f32) (broadcastInDim S4096x4096 ![] bcast_S_S4096x4096 (scale reducesTo_S4096x4096_S_d0_1 (W main_arg0 : FVec Ideal S4096x4096 .f32)))) := by
  dsimp only [hostOps0_10]; after_results <;> rfl

theorem val_main_v10 : @Eq (FVec Ideal S4096x4096 .f32) (V11 m c main_v10) (Host.divf (m ((c : Thread nD τ).loc main_arg0) : FVec Ideal S4096x4096 .f32) (broadcastInDim S4096x4096 ![] bcast_S_S4096x4096 (scale reducesTo_S4096x4096_S_d0_1 (m ((c : Thread nD τ).loc main_arg0) : FVec Ideal S4096x4096 .f32)))) :=
  (st_main_v10 (V10 m c)).trans (by rw [at10_main_arg0] <;> rfl)

theorem st_main_v11 (W : Valuation τ sig (Elt Ideal)) :
    @Eq (FVec Ideal S4096x4096 .f32) (StableHlo.after hostOps0_11 W main_v11) (Host.roundeven (W main_v10 : FVec Ideal S4096x4096 .f32)) := by
  dsimp only [hostOps0_11]; after_results <;> rfl

theorem at11_main_v10 : @Eq (FVec Ideal S4096x4096 .f32) (V11 m c main_v10) (Host.divf (m ((c : Thread nD τ).loc main_arg0) : FVec Ideal S4096x4096 .f32) (broadcastInDim S4096x4096 ![] bcast_S_S4096x4096 (scale reducesTo_S4096x4096_S_d0_1 (m ((c : Thread nD τ).loc main_arg0) : FVec Ideal S4096x4096 .f32)))) := val_main_v10 m c

theorem val_main_v11 : @Eq (FVec Ideal S4096x4096 .f32) (V12 m c main_v11) (Host.roundeven (Host.divf (m ((c : Thread nD τ).loc main_arg0) : FVec Ideal S4096x4096 .f32) (broadcastInDim S4096x4096 ![] bcast_S_S4096x4096 (scale reducesTo_S4096x4096_S_d0_1 (m ((c : Thread nD τ).loc main_arg0) : FVec Ideal S4096x4096 .f32))))) :=
  (st_main_v11 (V11 m c)).trans (by rw [at11_main_v10] <;> rfl)

theorem st_main_cst_6 (W : Valuation τ sig (Elt Ideal)) :
    @Eq (FVec Ideal S_ .f32) (StableHlo.after hostOps0_12 W main_cst_6) (constant (F := Ideal) S_ .f32 0xC2FE0000#32) := by
  dsimp only [hostOps0_12]; after_results <;> rfl

theorem val_main_cst_6 : @Eq (FVec Ideal S_ .f32) (V13 m c main_cst_6) (constant (F := Ideal) S_ .f32 0xC2FE0000#32) :=
  st_main_cst_6 (V12 m c)

theorem st_main_cst_7 (W : Valuation τ sig (Elt Ideal)) :
    @Eq (FVec Ideal S_ .f32) (StableHlo.after hostOps0_12 W main_cst_7) (constant (F := Ideal) S_ .f32 0x42FE0000#32) := by
  dsimp only [hostOps0_12]; after_results <;> rfl

theorem val_main_cst_7 : @Eq (FVec Ideal S_ .f32) (V13 m c main_cst_7) (constant (F := Ideal) S_ .f32 0x42FE0000#32) :=
  st_main_cst_7 (V12 m c)

theorem st_main_v12 (W : Valuation τ sig (Elt Ideal)) :
    @Eq (FVec Ideal S4096x4096 .f32) (StableHlo.after hostOps0_13 W main_v12) (minimumf (broadcastInDim S4096x4096 ![] bcast_S_S4096x4096 (id (W main_cst_7 : FVec Ideal S_ .f32))) (maximumf (broadcastInDim S4096x4096 ![] bcast_S_S4096x4096 (id (W main_cst_6 : FVec Ideal S_ .f32))) (W main_v11 : FVec Ideal S4096x4096 .f32))) := by
  dsimp only [hostOps0_13]; after_results <;> rfl

theorem at13_main_cst_7 : @Eq (FVec Ideal S_ .f32) (V13 m c main_cst_7) (constant (F := Ideal) S_ .f32 0x42FE0000#32) := val_main_cst_7 m c

theorem at13_main_cst_6 : @Eq (FVec Ideal S_ .f32) (V13 m c main_cst_6) (constant (F := Ideal) S_ .f32 0xC2FE0000#32) := val_main_cst_6 m c

theorem at13_main_v11 : @Eq (FVec Ideal S4096x4096 .f32) (V13 m c main_v11) (Host.roundeven (Host.divf (m ((c : Thread nD τ).loc main_arg0) : FVec Ideal S4096x4096 .f32) (broadcastInDim S4096x4096 ![] bcast_S_S4096x4096 (scale reducesTo_S4096x4096_S_d0_1 (m ((c : Thread nD τ).loc main_arg0) : FVec Ideal S4096x4096 .f32))))) :=
  (V13_of m c main_v11 (by decide)).trans <| val_main_v11 m c

theorem val_main_v12 : @Eq (FVec Ideal S4096x4096 .f32) (V14 m c main_v12) (grid reducesTo_S4096x4096_S_d0_1 bcast_S_S4096x4096 (m ((c : Thread nD τ).loc main_arg0) : FVec Ideal S4096x4096 .f32)) :=
  (st_main_v12 (V13 m c)).trans (by rw [at13_main_cst_7, at13_main_cst_6, at13_main_v11] <;> rfl)

theorem st_main_v14 (W : Valuation τ sig (Elt Ideal)) :
    @Eq (FVec Ideal S4096x4096 .f32) (StableHlo.after hostOps0_14 W main_v14) (mulf (W main_v12 : FVec Ideal S4096x4096 .f32) (broadcastInDim S4096x4096 ![] bcast_S_S4096x4096 (W main_v8 : FVec Ideal S_ .f32))) := by
  dsimp only [hostOps0_14]; after_results <;> rfl

theorem at14_main_v12 : @Eq (FVec Ideal S4096x4096 .f32) (V14 m c main_v12) (grid reducesTo_S4096x4096_S_d0_1 bcast_S_S4096x4096 (m ((c : Thread nD τ).loc main_arg0) : FVec Ideal S4096x4096 .f32)) := val_main_v12 m c

theorem at14_main_v8 : @Eq (FVec Ideal S_ .f32) (V14 m c main_v8) (scale reducesTo_S4096x4096_S_d0_1 (m ((c : Thread nD τ).loc main_arg0) : FVec Ideal S4096x4096 .f32)) :=
  (V14_of m c main_v8 (by decide)).trans <| (V13_of m c main_v8 (by decide)).trans <| (V12_of m c main_v8 (by decide)).trans <| val_main_v8 m c

theorem val_main_v14 : @Eq (FVec Ideal S4096x4096 .f32) (V15 m c main_v14) (fq reducesTo_S4096x4096_S_d0_1 bcast_S_S4096x4096 (m ((c : Thread nD τ).loc main_arg0) : FVec Ideal S4096x4096 .f32)) :=
  (st_main_v14 (V14 m c)).trans (by rw [at14_main_v12, at14_main_v8] <;> rfl)

theorem st_main_v18 (W : Valuation τ sig (Elt Ideal)) :
    @Eq (FVec Ideal S_ .f32) (StableHlo.after hostOps0_14 W main_v18) (scale reducesTo_S11264x4096_S_d0_1 (W main_v0 : FVec Ideal S11264x4096 .f32)) := by
  dsimp only [hostOps0_14]; after_results <;> rfl

theorem at14_main_v0 : @Eq (FVec Ideal S11264x4096 .f32) (V14 m c main_v0) (padRows (m ((c : Thread nD τ).loc main_arg1) : FVec Ideal S10922x4096 .f32)) :=
  (V14_of m c main_v0 (by decide)).trans <| (V13_of m c main_v0 (by decide)).trans <| (V12_of m c main_v0 (by decide)).trans <| (V11_of m c main_v0 (by decide)).trans <| (V10_of m c main_v0 (by decide)).trans <| (V9_of m c main_v0 (by decide)).trans <| (V8_of m c main_v0 (by decide)).trans <| (V7_of m c main_v0 (by decide)).trans <| (V6_of m c main_v0 (by decide)).trans <| (V5_of m c main_v0 (by decide)).trans <| (V4_of m c main_v0 (by decide)).trans <| (V3_of m c main_v0 (by decide)).trans <| val_main_v0 m c

theorem val_main_v18 : @Eq (FVec Ideal S_ .f32) (V15 m c main_v18) (scale reducesTo_S11264x4096_S_d0_1 (padRows (m ((c : Thread nD τ).loc main_arg1) : FVec Ideal S10922x4096 .f32))) :=
  (st_main_v18 (V14 m c)).trans (by rw [at14_main_v0] <;> rfl)

theorem st_main_v20 (W : Valuation τ sig (Elt Ideal)) :
    @Eq (FVec Ideal S11264x4096 .f32) (StableHlo.after hostOps0_14 W main_v20) (Host.divf (W main_v0 : FVec Ideal S11264x4096 .f32) (broadcastInDim S11264x4096 ![] bcast_S_S11264x4096 (scale reducesTo_S11264x4096_S_d0_1 (W main_v0 : FVec Ideal S11264x4096 .f32)))) := by
  dsimp only [hostOps0_14]; after_results <;> rfl

theorem val_main_v20 : @Eq (FVec Ideal S11264x4096 .f32) (V15 m c main_v20) (Host.divf (padRows (m ((c : Thread nD τ).loc main_arg1) : FVec Ideal S10922x4096 .f32)) (broadcastInDim S11264x4096 ![] bcast_S_S11264x4096 (scale reducesTo_S11264x4096_S_d0_1 (padRows (m ((c : Thread nD τ).loc main_arg1) : FVec Ideal S10922x4096 .f32))))) :=
  (st_main_v20 (V14 m c)).trans (by rw [at14_main_v0] <;> rfl)

theorem st_main_v21 (W : Valuation τ sig (Elt Ideal)) :
    @Eq (FVec Ideal S11264x4096 .f32) (StableHlo.after hostOps0_15 W main_v21) (Host.roundeven (W main_v20 : FVec Ideal S11264x4096 .f32)) := by
  dsimp only [hostOps0_15]; after_results <;> rfl

theorem at15_main_v20 : @Eq (FVec Ideal S11264x4096 .f32) (V15 m c main_v20) (Host.divf (padRows (m ((c : Thread nD τ).loc main_arg1) : FVec Ideal S10922x4096 .f32)) (broadcastInDim S11264x4096 ![] bcast_S_S11264x4096 (scale reducesTo_S11264x4096_S_d0_1 (padRows (m ((c : Thread nD τ).loc main_arg1) : FVec Ideal S10922x4096 .f32))))) := val_main_v20 m c

theorem val_main_v21 : @Eq (FVec Ideal S11264x4096 .f32) (V16 m c main_v21) (Host.roundeven (Host.divf (padRows (m ((c : Thread nD τ).loc main_arg1) : FVec Ideal S10922x4096 .f32)) (broadcastInDim S11264x4096 ![] bcast_S_S11264x4096 (scale reducesTo_S11264x4096_S_d0_1 (padRows (m ((c : Thread nD τ).loc main_arg1) : FVec Ideal S10922x4096 .f32)))))) :=
  (st_main_v21 (V15 m c)).trans (by rw [at15_main_v20] <;> rfl)

theorem st_main_cst_11 (W : Valuation τ sig (Elt Ideal)) :
    @Eq (FVec Ideal S_ .f32) (StableHlo.after hostOps0_16 W main_cst_11) (constant (F := Ideal) S_ .f32 0xC2FE0000#32) := by
  dsimp only [hostOps0_16]; after_results <;> rfl

theorem val_main_cst_11 : @Eq (FVec Ideal S_ .f32) (V17 m c main_cst_11) (constant (F := Ideal) S_ .f32 0xC2FE0000#32) :=
  st_main_cst_11 (V16 m c)

theorem st_main_cst_12 (W : Valuation τ sig (Elt Ideal)) :
    @Eq (FVec Ideal S_ .f32) (StableHlo.after hostOps0_16 W main_cst_12) (constant (F := Ideal) S_ .f32 0x42FE0000#32) := by
  dsimp only [hostOps0_16]; after_results <;> rfl

theorem val_main_cst_12 : @Eq (FVec Ideal S_ .f32) (V17 m c main_cst_12) (constant (F := Ideal) S_ .f32 0x42FE0000#32) :=
  st_main_cst_12 (V16 m c)

theorem st_main_v22 (W : Valuation τ sig (Elt Ideal)) :
    @Eq (FVec Ideal S11264x4096 .f32) (StableHlo.after hostOps0_17 W main_v22) (minimumf (broadcastInDim S11264x4096 ![] bcast_S_S11264x4096 (id (W main_cst_12 : FVec Ideal S_ .f32))) (maximumf (broadcastInDim S11264x4096 ![] bcast_S_S11264x4096 (id (W main_cst_11 : FVec Ideal S_ .f32))) (W main_v21 : FVec Ideal S11264x4096 .f32))) := by
  dsimp only [hostOps0_17]; after_results <;> rfl

theorem at17_main_cst_12 : @Eq (FVec Ideal S_ .f32) (V17 m c main_cst_12) (constant (F := Ideal) S_ .f32 0x42FE0000#32) := val_main_cst_12 m c

theorem at17_main_cst_11 : @Eq (FVec Ideal S_ .f32) (V17 m c main_cst_11) (constant (F := Ideal) S_ .f32 0xC2FE0000#32) := val_main_cst_11 m c

theorem at17_main_v21 : @Eq (FVec Ideal S11264x4096 .f32) (V17 m c main_v21) (Host.roundeven (Host.divf (padRows (m ((c : Thread nD τ).loc main_arg1) : FVec Ideal S10922x4096 .f32)) (broadcastInDim S11264x4096 ![] bcast_S_S11264x4096 (scale reducesTo_S11264x4096_S_d0_1 (padRows (m ((c : Thread nD τ).loc main_arg1) : FVec Ideal S10922x4096 .f32)))))) :=
  (V17_of m c main_v21 (by decide)).trans <| val_main_v21 m c

theorem val_main_v22 : @Eq (FVec Ideal S11264x4096 .f32) (V18 m c main_v22) (grid reducesTo_S11264x4096_S_d0_1 bcast_S_S11264x4096 (padRows (m ((c : Thread nD τ).loc main_arg1) : FVec Ideal S10922x4096 .f32))) :=
  (st_main_v22 (V17 m c)).trans (by rw [at17_main_cst_12, at17_main_cst_11, at17_main_v21] <;> rfl)

theorem st_main_v24 (W : Valuation τ sig (Elt Ideal)) :
    @Eq (FVec Ideal S11264x4096 .f32) (StableHlo.after hostOps0_18 W main_v24) (mulf (W main_v22 : FVec Ideal S11264x4096 .f32) (broadcastInDim S11264x4096 ![] bcast_S_S11264x4096 (W main_v18 : FVec Ideal S_ .f32))) := by
  dsimp only [hostOps0_18]; after_results <;> rfl

theorem at18_main_v22 : @Eq (FVec Ideal S11264x4096 .f32) (V18 m c main_v22) (grid reducesTo_S11264x4096_S_d0_1 bcast_S_S11264x4096 (padRows (m ((c : Thread nD τ).loc main_arg1) : FVec Ideal S10922x4096 .f32))) := val_main_v22 m c

theorem at18_main_v18 : @Eq (FVec Ideal S_ .f32) (V18 m c main_v18) (scale reducesTo_S11264x4096_S_d0_1 (padRows (m ((c : Thread nD τ).loc main_arg1) : FVec Ideal S10922x4096 .f32))) :=
  (V18_of m c main_v18 (by decide)).trans <| (V17_of m c main_v18 (by decide)).trans <| (V16_of m c main_v18 (by decide)).trans <| val_main_v18 m c

theorem val_main_v24 : @Eq (FVec Ideal S11264x4096 .f32) (V19 m c main_v24) (fq reducesTo_S11264x4096_S_d0_1 bcast_S_S11264x4096 (padRows (m ((c : Thread nD τ).loc main_arg1) : FVec Ideal S10922x4096 .f32))) :=
  (st_main_v24 (V18 m c)).trans (by rw [at18_main_v22, at18_main_v18] <;> rfl)

theorem st_main_v28 (W : Valuation τ sig (Elt Ideal)) :
    @Eq (FVec Ideal S_ .f32) (StableHlo.after hostOps0_18 W main_v28) (scale reducesTo_S11264x4096_S_d0_1 (W main_v1 : FVec Ideal S11264x4096 .f32)) := by
  dsimp only [hostOps0_18]; after_results <;> rfl

theorem at18_main_v1 : @Eq (FVec Ideal S11264x4096 .f32) (V18 m c main_v1) (padRows (m ((c : Thread nD τ).loc main_arg2) : FVec Ideal S10922x4096 .f32)) :=
  (V18_of m c main_v1 (by decide)).trans <| (V17_of m c main_v1 (by decide)).trans <| (V16_of m c main_v1 (by decide)).trans <| (V15_of m c main_v1 (by decide)).trans <| (V14_of m c main_v1 (by decide)).trans <| (V13_of m c main_v1 (by decide)).trans <| (V12_of m c main_v1 (by decide)).trans <| (V11_of m c main_v1 (by decide)).trans <| (V10_of m c main_v1 (by decide)).trans <| (V9_of m c main_v1 (by decide)).trans <| (V8_of m c main_v1 (by decide)).trans <| (V7_of m c main_v1 (by decide)).trans <| (V6_of m c main_v1 (by decide)).trans <| (V5_of m c main_v1 (by decide)).trans <| val_main_v1 m c

theorem val_main_v28 : @Eq (FVec Ideal S_ .f32) (V19 m c main_v28) (scale reducesTo_S11264x4096_S_d0_1 (padRows (m ((c : Thread nD τ).loc main_arg2) : FVec Ideal S10922x4096 .f32))) :=
  (st_main_v28 (V18 m c)).trans (by rw [at18_main_v1] <;> rfl)

theorem st_main_v30 (W : Valuation τ sig (Elt Ideal)) :
    @Eq (FVec Ideal S11264x4096 .f32) (StableHlo.after hostOps0_18 W main_v30) (Host.divf (W main_v1 : FVec Ideal S11264x4096 .f32) (broadcastInDim S11264x4096 ![] bcast_S_S11264x4096 (scale reducesTo_S11264x4096_S_d0_1 (W main_v1 : FVec Ideal S11264x4096 .f32)))) := by
  dsimp only [hostOps0_18]; after_results <;> rfl

theorem val_main_v30 : @Eq (FVec Ideal S11264x4096 .f32) (V19 m c main_v30) (Host.divf (padRows (m ((c : Thread nD τ).loc main_arg2) : FVec Ideal S10922x4096 .f32)) (broadcastInDim S11264x4096 ![] bcast_S_S11264x4096 (scale reducesTo_S11264x4096_S_d0_1 (padRows (m ((c : Thread nD τ).loc main_arg2) : FVec Ideal S10922x4096 .f32))))) :=
  (st_main_v30 (V18 m c)).trans (by rw [at18_main_v1] <;> rfl)

theorem st_main_v31 (W : Valuation τ sig (Elt Ideal)) :
    @Eq (FVec Ideal S11264x4096 .f32) (StableHlo.after hostOps0_19 W main_v31) (Host.roundeven (W main_v30 : FVec Ideal S11264x4096 .f32)) := by
  dsimp only [hostOps0_19]; after_results <;> rfl

theorem at19_main_v30 : @Eq (FVec Ideal S11264x4096 .f32) (V19 m c main_v30) (Host.divf (padRows (m ((c : Thread nD τ).loc main_arg2) : FVec Ideal S10922x4096 .f32)) (broadcastInDim S11264x4096 ![] bcast_S_S11264x4096 (scale reducesTo_S11264x4096_S_d0_1 (padRows (m ((c : Thread nD τ).loc main_arg2) : FVec Ideal S10922x4096 .f32))))) := val_main_v30 m c

theorem val_main_v31 : @Eq (FVec Ideal S11264x4096 .f32) (V20 m c main_v31) (Host.roundeven (Host.divf (padRows (m ((c : Thread nD τ).loc main_arg2) : FVec Ideal S10922x4096 .f32)) (broadcastInDim S11264x4096 ![] bcast_S_S11264x4096 (scale reducesTo_S11264x4096_S_d0_1 (padRows (m ((c : Thread nD τ).loc main_arg2) : FVec Ideal S10922x4096 .f32)))))) :=
  (st_main_v31 (V19 m c)).trans (by rw [at19_main_v30] <;> rfl)

theorem st_main_cst_16 (W : Valuation τ sig (Elt Ideal)) :
    @Eq (FVec Ideal S_ .f32) (StableHlo.after hostOps0_20 W main_cst_16) (constant (F := Ideal) S_ .f32 0xC2FE0000#32) := by
  dsimp only [hostOps0_20]; after_results <;> rfl

theorem val_main_cst_16 : @Eq (FVec Ideal S_ .f32) (V21 m c main_cst_16) (constant (F := Ideal) S_ .f32 0xC2FE0000#32) :=
  st_main_cst_16 (V20 m c)

theorem st_main_cst_17 (W : Valuation τ sig (Elt Ideal)) :
    @Eq (FVec Ideal S_ .f32) (StableHlo.after hostOps0_20 W main_cst_17) (constant (F := Ideal) S_ .f32 0x42FE0000#32) := by
  dsimp only [hostOps0_20]; after_results <;> rfl

theorem val_main_cst_17 : @Eq (FVec Ideal S_ .f32) (V21 m c main_cst_17) (constant (F := Ideal) S_ .f32 0x42FE0000#32) :=
  st_main_cst_17 (V20 m c)

theorem st_main_v32 (W : Valuation τ sig (Elt Ideal)) :
    @Eq (FVec Ideal S11264x4096 .f32) (StableHlo.after hostOps0_21 W main_v32) (minimumf (broadcastInDim S11264x4096 ![] bcast_S_S11264x4096 (id (W main_cst_17 : FVec Ideal S_ .f32))) (maximumf (broadcastInDim S11264x4096 ![] bcast_S_S11264x4096 (id (W main_cst_16 : FVec Ideal S_ .f32))) (W main_v31 : FVec Ideal S11264x4096 .f32))) := by
  dsimp only [hostOps0_21]; after_results <;> rfl

theorem at21_main_cst_17 : @Eq (FVec Ideal S_ .f32) (V21 m c main_cst_17) (constant (F := Ideal) S_ .f32 0x42FE0000#32) := val_main_cst_17 m c

theorem at21_main_cst_16 : @Eq (FVec Ideal S_ .f32) (V21 m c main_cst_16) (constant (F := Ideal) S_ .f32 0xC2FE0000#32) := val_main_cst_16 m c

theorem at21_main_v31 : @Eq (FVec Ideal S11264x4096 .f32) (V21 m c main_v31) (Host.roundeven (Host.divf (padRows (m ((c : Thread nD τ).loc main_arg2) : FVec Ideal S10922x4096 .f32)) (broadcastInDim S11264x4096 ![] bcast_S_S11264x4096 (scale reducesTo_S11264x4096_S_d0_1 (padRows (m ((c : Thread nD τ).loc main_arg2) : FVec Ideal S10922x4096 .f32)))))) :=
  (V21_of m c main_v31 (by decide)).trans <| val_main_v31 m c

theorem val_main_v32 : @Eq (FVec Ideal S11264x4096 .f32) (V22 m c main_v32) (grid reducesTo_S11264x4096_S_d0_1 bcast_S_S11264x4096 (padRows (m ((c : Thread nD τ).loc main_arg2) : FVec Ideal S10922x4096 .f32))) :=
  (st_main_v32 (V21 m c)).trans (by rw [at21_main_cst_17, at21_main_cst_16, at21_main_v31] <;> rfl)

theorem st_main_v34 (W : Valuation τ sig (Elt Ideal)) :
    @Eq (FVec Ideal S11264x4096 .f32) (StableHlo.after hostOps0_22 W main_v34) (mulf (W main_v32 : FVec Ideal S11264x4096 .f32) (broadcastInDim S11264x4096 ![] bcast_S_S11264x4096 (W main_v28 : FVec Ideal S_ .f32))) := by
  dsimp only [hostOps0_22]; after_results <;> rfl

theorem at22_main_v32 : @Eq (FVec Ideal S11264x4096 .f32) (V22 m c main_v32) (grid reducesTo_S11264x4096_S_d0_1 bcast_S_S11264x4096 (padRows (m ((c : Thread nD τ).loc main_arg2) : FVec Ideal S10922x4096 .f32))) := val_main_v32 m c

theorem at22_main_v28 : @Eq (FVec Ideal S_ .f32) (V22 m c main_v28) (scale reducesTo_S11264x4096_S_d0_1 (padRows (m ((c : Thread nD τ).loc main_arg2) : FVec Ideal S10922x4096 .f32))) :=
  (V22_of m c main_v28 (by decide)).trans <| (V21_of m c main_v28 (by decide)).trans <| (V20_of m c main_v28 (by decide)).trans <| val_main_v28 m c

theorem val_main_v34 : @Eq (FVec Ideal S11264x4096 .f32) (V23 m c main_v34) (fq reducesTo_S11264x4096_S_d0_1 bcast_S_S11264x4096 (padRows (m ((c : Thread nD τ).loc main_arg2) : FVec Ideal S10922x4096 .f32))) :=
  (st_main_v34 (V22 m c)).trans (by rw [at22_main_v32, at22_main_v28] <;> rfl)

theorem st_main_v38 (W : Valuation τ sig (Elt Ideal)) :
    @Eq (FVec Ideal S_ .f32) (StableHlo.after hostOps0_22 W main_v38) (scale reducesTo_S4096x11264_S_d0_1 (W main_v2 : FVec Ideal S4096x11264 .f32)) := by
  dsimp only [hostOps0_22]; after_results <;> rfl

theorem at22_main_v2 : @Eq (FVec Ideal S4096x11264 .f32) (V22 m c main_v2) (padCols (m ((c : Thread nD τ).loc main_arg3) : FVec Ideal S4096x10922 .f32)) :=
  (V22_of m c main_v2 (by decide)).trans <| (V21_of m c main_v2 (by decide)).trans <| (V20_of m c main_v2 (by decide)).trans <| (V19_of m c main_v2 (by decide)).trans <| (V18_of m c main_v2 (by decide)).trans <| (V17_of m c main_v2 (by decide)).trans <| (V16_of m c main_v2 (by decide)).trans <| (V15_of m c main_v2 (by decide)).trans <| (V14_of m c main_v2 (by decide)).trans <| (V13_of m c main_v2 (by decide)).trans <| (V12_of m c main_v2 (by decide)).trans <| (V11_of m c main_v2 (by decide)).trans <| (V10_of m c main_v2 (by decide)).trans <| (V9_of m c main_v2 (by decide)).trans <| (V8_of m c main_v2 (by decide)).trans <| (V7_of m c main_v2 (by decide)).trans <| val_main_v2 m c

theorem val_main_v38 : @Eq (FVec Ideal S_ .f32) (V23 m c main_v38) (scale reducesTo_S4096x11264_S_d0_1 (padCols (m ((c : Thread nD τ).loc main_arg3) : FVec Ideal S4096x10922 .f32))) :=
  (st_main_v38 (V22 m c)).trans (by rw [at22_main_v2] <;> rfl)

theorem st_main_v40 (W : Valuation τ sig (Elt Ideal)) :
    @Eq (FVec Ideal S4096x11264 .f32) (StableHlo.after hostOps0_22 W main_v40) (Host.divf (W main_v2 : FVec Ideal S4096x11264 .f32) (broadcastInDim S4096x11264 ![] bcast_S_S4096x11264 (scale reducesTo_S4096x11264_S_d0_1 (W main_v2 : FVec Ideal S4096x11264 .f32)))) := by
  dsimp only [hostOps0_22]; after_results <;> rfl

theorem val_main_v40 : @Eq (FVec Ideal S4096x11264 .f32) (V23 m c main_v40) (Host.divf (padCols (m ((c : Thread nD τ).loc main_arg3) : FVec Ideal S4096x10922 .f32)) (broadcastInDim S4096x11264 ![] bcast_S_S4096x11264 (scale reducesTo_S4096x11264_S_d0_1 (padCols (m ((c : Thread nD τ).loc main_arg3) : FVec Ideal S4096x10922 .f32))))) :=
  (st_main_v40 (V22 m c)).trans (by rw [at22_main_v2] <;> rfl)

theorem st_main_v41 (W : Valuation τ sig (Elt Ideal)) :
    @Eq (FVec Ideal S4096x11264 .f32) (StableHlo.after hostOps0_23 W main_v41) (Host.roundeven (W main_v40 : FVec Ideal S4096x11264 .f32)) := by
  dsimp only [hostOps0_23]; after_results <;> rfl

theorem at23_main_v40 : @Eq (FVec Ideal S4096x11264 .f32) (V23 m c main_v40) (Host.divf (padCols (m ((c : Thread nD τ).loc main_arg3) : FVec Ideal S4096x10922 .f32)) (broadcastInDim S4096x11264 ![] bcast_S_S4096x11264 (scale reducesTo_S4096x11264_S_d0_1 (padCols (m ((c : Thread nD τ).loc main_arg3) : FVec Ideal S4096x10922 .f32))))) := val_main_v40 m c

theorem val_main_v41 : @Eq (FVec Ideal S4096x11264 .f32) (V24 m c main_v41) (Host.roundeven (Host.divf (padCols (m ((c : Thread nD τ).loc main_arg3) : FVec Ideal S4096x10922 .f32)) (broadcastInDim S4096x11264 ![] bcast_S_S4096x11264 (scale reducesTo_S4096x11264_S_d0_1 (padCols (m ((c : Thread nD τ).loc main_arg3) : FVec Ideal S4096x10922 .f32)))))) :=
  (st_main_v41 (V23 m c)).trans (by rw [at23_main_v40] <;> rfl)

theorem st_main_cst_21 (W : Valuation τ sig (Elt Ideal)) :
    @Eq (FVec Ideal S_ .f32) (StableHlo.after hostOps0_24 W main_cst_21) (constant (F := Ideal) S_ .f32 0xC2FE0000#32) := by
  dsimp only [hostOps0_24]; after_results <;> rfl

theorem val_main_cst_21 : @Eq (FVec Ideal S_ .f32) (V25 m c main_cst_21) (constant (F := Ideal) S_ .f32 0xC2FE0000#32) :=
  st_main_cst_21 (V24 m c)

theorem st_main_cst_22 (W : Valuation τ sig (Elt Ideal)) :
    @Eq (FVec Ideal S_ .f32) (StableHlo.after hostOps0_24 W main_cst_22) (constant (F := Ideal) S_ .f32 0x42FE0000#32) := by
  dsimp only [hostOps0_24]; after_results <;> rfl

theorem val_main_cst_22 : @Eq (FVec Ideal S_ .f32) (V25 m c main_cst_22) (constant (F := Ideal) S_ .f32 0x42FE0000#32) :=
  st_main_cst_22 (V24 m c)

theorem st_main_v42 (W : Valuation τ sig (Elt Ideal)) :
    @Eq (FVec Ideal S4096x11264 .f32) (StableHlo.after hostOps0_25 W main_v42) (minimumf (broadcastInDim S4096x11264 ![] bcast_S_S4096x11264 (id (W main_cst_22 : FVec Ideal S_ .f32))) (maximumf (broadcastInDim S4096x11264 ![] bcast_S_S4096x11264 (id (W main_cst_21 : FVec Ideal S_ .f32))) (W main_v41 : FVec Ideal S4096x11264 .f32))) := by
  dsimp only [hostOps0_25]; after_results <;> rfl

theorem at25_main_cst_22 : @Eq (FVec Ideal S_ .f32) (V25 m c main_cst_22) (constant (F := Ideal) S_ .f32 0x42FE0000#32) := val_main_cst_22 m c

theorem at25_main_cst_21 : @Eq (FVec Ideal S_ .f32) (V25 m c main_cst_21) (constant (F := Ideal) S_ .f32 0xC2FE0000#32) := val_main_cst_21 m c

theorem at25_main_v41 : @Eq (FVec Ideal S4096x11264 .f32) (V25 m c main_v41) (Host.roundeven (Host.divf (padCols (m ((c : Thread nD τ).loc main_arg3) : FVec Ideal S4096x10922 .f32)) (broadcastInDim S4096x11264 ![] bcast_S_S4096x11264 (scale reducesTo_S4096x11264_S_d0_1 (padCols (m ((c : Thread nD τ).loc main_arg3) : FVec Ideal S4096x10922 .f32)))))) :=
  (V25_of m c main_v41 (by decide)).trans <| val_main_v41 m c

theorem val_main_v42 : @Eq (FVec Ideal S4096x11264 .f32) (V26 m c main_v42) (grid reducesTo_S4096x11264_S_d0_1 bcast_S_S4096x11264 (padCols (m ((c : Thread nD τ).loc main_arg3) : FVec Ideal S4096x10922 .f32))) :=
  (st_main_v42 (V25 m c)).trans (by rw [at25_main_cst_22, at25_main_cst_21, at25_main_v41] <;> rfl)

theorem st_main_v44 (W : Valuation τ sig (Elt Ideal)) :
    @Eq (FVec Ideal S4096x11264 .f32) (StableHlo.after hostOps0_26 W main_v44) (mulf (W main_v42 : FVec Ideal S4096x11264 .f32) (broadcastInDim S4096x11264 ![] bcast_S_S4096x11264 (W main_v38 : FVec Ideal S_ .f32))) := by
  dsimp only [hostOps0_26]; after_results <;> rfl

theorem at26_main_v42 : @Eq (FVec Ideal S4096x11264 .f32) (V26 m c main_v42) (grid reducesTo_S4096x11264_S_d0_1 bcast_S_S4096x11264 (padCols (m ((c : Thread nD τ).loc main_arg3) : FVec Ideal S4096x10922 .f32))) := val_main_v42 m c

theorem at26_main_v38 : @Eq (FVec Ideal S_ .f32) (V26 m c main_v38) (scale reducesTo_S4096x11264_S_d0_1 (padCols (m ((c : Thread nD τ).loc main_arg3) : FVec Ideal S4096x10922 .f32))) :=
  (V26_of m c main_v38 (by decide)).trans <| (V25_of m c main_v38 (by decide)).trans <| (V24_of m c main_v38 (by decide)).trans <| val_main_v38 m c

theorem val_main_v44 : @Eq (FVec Ideal S4096x11264 .f32) (V27 m c main_v44) (fq reducesTo_S4096x11264_S_d0_1 bcast_S_S4096x11264 (padCols (m ((c : Thread nD τ).loc main_arg3) : FVec Ideal S4096x10922 .f32))) :=
  (st_main_v44 (V26 m c)).trans (by rw [at26_main_v42, at26_main_v38] <;> rfl)

theorem st_main_v45 (W : Valuation τ sig (Elt Ideal)) :
    @Eq (FVec Ideal S4096x4096 .bf16) (StableHlo.after hostOps0_26 W main_v45) (truncf .bf16 (W main_v14 : FVec Ideal S4096x4096 .f32) bitsLt_bf16_f32) := by
  dsimp only [hostOps0_26]; after_results <;> rfl

theorem at26_main_v14 : @Eq (FVec Ideal S4096x4096 .f32) (V26 m c main_v14) (fq reducesTo_S4096x4096_S_d0_1 bcast_S_S4096x4096 (m ((c : Thread nD τ).loc main_arg0) : FVec Ideal S4096x4096 .f32)) :=
  (V26_of m c main_v14 (by decide)).trans <| (V25_of m c main_v14 (by decide)).trans <| (V24_of m c main_v14 (by decide)).trans <| (V23_of m c main_v14 (by decide)).trans <| (V22_of m c main_v14 (by decide)).trans <| (V21_of m c main_v14 (by decide)).trans <| (V20_of m c main_v14 (by decide)).trans <| (V19_of m c main_v14 (by decide)).trans <| (V18_of m c main_v14 (by decide)).trans <| (V17_of m c main_v14 (by decide)).trans <| (V16_of m c main_v14 (by decide)).trans <| val_main_v14 m c

theorem val_main_v45 : @Eq (FVec Ideal S4096x4096 .bf16) (V27 m c main_v45) (k_v45 (m ((c : Thread nD τ).loc main_arg0) : FVec Ideal S4096x4096 .f32)) :=
  (st_main_v45 (V26 m c)).trans (by rw [at26_main_v14] <;> rfl)

theorem st_main_v46 (W : Valuation τ sig (Elt Ideal)) :
    @Eq (FVec Ideal S11264x4096 .bf16) (StableHlo.after hostOps0_26 W main_v46) (truncf .bf16 (W main_v24 : FVec Ideal S11264x4096 .f32) bitsLt_bf16_f32) := by
  dsimp only [hostOps0_26]; after_results <;> rfl

theorem at26_main_v24 : @Eq (FVec Ideal S11264x4096 .f32) (V26 m c main_v24) (fq reducesTo_S11264x4096_S_d0_1 bcast_S_S11264x4096 (padRows (m ((c : Thread nD τ).loc main_arg1) : FVec Ideal S10922x4096 .f32))) :=
  (V26_of m c main_v24 (by decide)).trans <| (V25_of m c main_v24 (by decide)).trans <| (V24_of m c main_v24 (by decide)).trans <| (V23_of m c main_v24 (by decide)).trans <| (V22_of m c main_v24 (by decide)).trans <| (V21_of m c main_v24 (by decide)).trans <| (V20_of m c main_v24 (by decide)).trans <| val_main_v24 m c

theorem val_main_v46 : @Eq (FVec Ideal S11264x4096 .bf16) (V27 m c main_v46) (k_v46 (m ((c : Thread nD τ).loc main_arg1) : FVec Ideal S10922x4096 .f32)) :=
  (st_main_v46 (V26 m c)).trans (by rw [at26_main_v24] <;> rfl)

theorem st_main_v47 (W : Valuation τ sig (Elt Ideal)) :
    @Eq (FVec Ideal S11264x4096 .bf16) (StableHlo.after hostOps0_26 W main_v47) (truncf .bf16 (W main_v34 : FVec Ideal S11264x4096 .f32) bitsLt_bf16_f32) := by
  dsimp only [hostOps0_26]; after_results <;> rfl

theorem at26_main_v34 : @Eq (FVec Ideal S11264x4096 .f32) (V26 m c main_v34) (fq reducesTo_S11264x4096_S_d0_1 bcast_S_S11264x4096 (padRows (m ((c : Thread nD τ).loc main_arg2) : FVec Ideal S10922x4096 .f32))) :=
  (V26_of m c main_v34 (by decide)).trans <| (V25_of m c main_v34 (by decide)).trans <| (V24_of m c main_v34 (by decide)).trans <| val_main_v34 m c

theorem val_main_v47 : @Eq (FVec Ideal S11264x4096 .bf16) (V27 m c main_v47) (k_v47 (m ((c : Thread nD τ).loc main_arg2) : FVec Ideal S10922x4096 .f32)) :=
  (st_main_v47 (V26 m c)).trans (by rw [at26_main_v34] <;> rfl)

theorem at27_main_v3 : @Eq (FVec Ideal S11264 .f32) (V27 m c main_v3) (padVec (m ((c : Thread nD τ).loc main_arg4) : FVec Ideal S10922 .f32)) :=
  (V27_of m c main_v3 (by decide)).trans <| (V26_of m c main_v3 (by decide)).trans <| (V25_of m c main_v3 (by decide)).trans <| (V24_of m c main_v3 (by decide)).trans <| (V23_of m c main_v3 (by decide)).trans <| (V22_of m c main_v3 (by decide)).trans <| (V21_of m c main_v3 (by decide)).trans <| (V20_of m c main_v3 (by decide)).trans <| (V19_of m c main_v3 (by decide)).trans <| (V18_of m c main_v3 (by decide)).trans <| (V17_of m c main_v3 (by decide)).trans <| (V16_of m c main_v3 (by decide)).trans <| (V15_of m c main_v3 (by decide)).trans <| (V14_of m c main_v3 (by decide)).trans <| (V13_of m c main_v3 (by decide)).trans <| (V12_of m c main_v3 (by decide)).trans <| (V11_of m c main_v3 (by decide)).trans <| (V10_of m c main_v3 (by decide)).trans <| (V9_of m c main_v3 (by decide)).trans <| val_main_v3 m c

/-- The first operand of the gate product is the quantised input. -/
theorem r0_x : @Eq (FVec Ideal S4096x4096 .bf16) (V27 m c main_v45) (k_v45 (m ((c : Thread nD τ).loc main_arg0) : FVec Ideal S4096x4096 .f32)) := val_main_v45 m c

/-- Its second operand is the padded quantised gate weights. -/
theorem r0_w : @Eq (FVec Ideal S11264x4096 .bf16) (V27 m c main_v46) (k_v46 (m ((c : Thread nD τ).loc main_arg1) : FVec Ideal S10922x4096 .f32)) := val_main_v46 m c

/-- Its third operand is the padded gate bias. -/
theorem r0_b : @Eq (FVec Ideal S11264 .f32) (V27 m c main_v3) (k_v3 (m ((c : Thread nD τ).loc main_arg4) : FVec Ideal S10922 .f32)) := at27_main_v3 m c

theorem arr0_0 : Pipeline.arrRef spec0 0 = main_v45 := rfl
theorem arr0_1 : Pipeline.arrRef spec0 1 = main_v46 := rfl
theorem arr0_2 : Pipeline.arrRef spec0 2 = main_v3 := rfl
theorem arr0_3 : Pipeline.arrRef spec0 3 = main_v48 := rfl
theorem arr1_0 : Pipeline.arrRef spec1 0 = main_v45 := rfl
theorem arr1_1 : Pipeline.arrRef spec1 1 = main_v47 := rfl
theorem arr1_2 : Pipeline.arrRef spec1 2 = main_v4 := rfl
theorem arr1_3 : Pipeline.arrRef spec1 3 = main_v49 := rfl
theorem arr2_0 : Pipeline.arrRef spec2 0 = main_v82 := rfl
theorem arr2_1 : Pipeline.arrRef spec2 1 = main_v83 := rfl
theorem arr2_2 : Pipeline.arrRef spec2 2 = main_arg6 := rfl
theorem arr2_3 : Pipeline.arrRef spec2 3 = main_v84 := rfl

end Cert.KernelIdeal.FrH

end
-- ==== Proof.KerHostB.lean ====
/-
  What the arrays the up product and the down product read hold when those products start: the up product's operands
  are untouched by the gate product; after both products the host quantises their results, applies the activation,
  multiplies, quantises again, and the down weights were padded and quantised before the first product.
-/
import proofs.«117267_j43508018708617_1_alg».proof.Proof.RegionsKernelIdeal
import proofs.«117267_j43508018708617_1_alg».proof.Proof.KerSpec
import proofs.«117267_j43508018708617_1_alg».proof.Proof.KerHostA

noncomputable section

namespace Cert.KernelIdeal.FrH

open Cert.KernelIdeal Cert.KernelIdeal.Gen Cert.KernelIdeal.GenP Cert.KerSpec
open Idealize.ShloMosaic Idealize.ShloMosaic.TcCoe Idealize.ShloMosaic.StableHlo Idealize.SL.Sem

variable (m : (ℓ : Loc nD τ sig) → Buf (Elt Ideal) ℓ) (outs : Outs (F := Ideal)) (c : Dev nD)

theorem val_main_v48 : @Eq (FVec Ideal S4096x11264 .f32) (V28 m outs c main_v48) (outs 28 main_v48 c : FVec Ideal S4096x11264 .f32) := by
  simp only [V28, Function.update_self]

theorem val_main_v49 : @Eq (FVec Ideal S4096x11264 .f32) (V29 m outs c main_v49) (outs 29 main_v49 c : FVec Ideal S4096x11264 .f32) := by
  simp only [V29, Function.update_self]

theorem st_main_v53 (W : Valuation τ sig (Elt Ideal)) :
    @Eq (FVec Ideal S_ .f32) (StableHlo.after hostOps2 W main_v53) (scale reducesTo_S4096x11264_S_d0_1 (W main_v48 : FVec Ideal S4096x11264 .f32)) := by
  dsimp only [hostOps2]; after_results <;> rfl

theorem at29_main_v48 : @Eq (FVec Ideal S4096x11264 .f32) (V29 m outs c main_v48) (outs 28 main_v48 c : FVec Ideal S4096x11264 .f32) :=
  (V29_of m outs c main_v48 (by decide)).trans <| val_main_v48 m outs c

theorem val_main_v53 : @Eq (FVec Ideal S_ .f32) (V30 m outs c main_v53) (scale reducesTo_S4096x11264_S_d0_1 (outs 28 main_v48 c : FVec Ideal S4096x11264 .f32)) :=
  (st_main_v53 (V29 m outs c)).trans (by rw [at29_main_v48] <;> rfl)

theorem st_main_v55 (W : Valuation τ sig (Elt Ideal)) :
    @Eq (FVec Ideal S4096x11264 .f32) (StableHlo.after hostOps2 W main_v55) (Host.divf (W main_v48 : FVec Ideal S4096x11264 .f32) (broadcastInDim S4096x11264 ![] bcast_S_S4096x11264 (scale reducesTo_S4096x11264_S_d0_1 (W main_v48 : FVec Ideal S4096x11264 .f32)))) := by
  dsimp only [hostOps2]; after_results <;> rfl

theorem val_main_v55 : @Eq (FVec Ideal S4096x11264 .f32) (V30 m outs c main_v55) (Host.divf (outs 28 main_v48 c : FVec Ideal S4096x11264 .f32) (broadcastInDim S4096x11264 ![] bcast_S_S4096x11264 (scale reducesTo_S4096x11264_S_d0_1 (outs 28 main_v48 c : FVec Ideal S4096x11264 .f32)))) :=
  (st_main_v55 (V29 m outs c)).trans (by rw [at29_main_v48] <;> rfl)

theorem st_main_v56 (W : Valuation τ sig (Elt Ideal)) :
    @Eq (FVec Ideal S4096x11264 .f32) (StableHlo.after hostOps2_1 W main_v56) (Host.roundeven (W main_v55 : FVec Ideal S4096x11264 .f32)) := by
  dsimp only [hostOps2_1]; after_results <;> rfl

theorem at30_main_v55 : @Eq (FVec Ideal S4096x11264 .f32) (V30 m outs c main_v55) (Host.divf (outs 28 main_v48 c : FVec Ideal S4096x11264 .f32) (broadcastInDim S4096x11264 ![] bcast_S_S4096x11264 (scale reducesTo_S4096x11264_S_d0_1 (outs 28 main_v48 c : FVec Ideal S4096x11264 .f32)))) := val_main_v55 m outs c

theorem val_main_v56 : @Eq (FVec Ideal S4096x11264 .f32) (V31 m outs c main_v56) (Host.roundeven (Host.divf (outs 28 main_v48 c : FVec Ideal S4096x11264 .f32) (broadcastInDim S4096x11264 ![] bcast_S_S4096x11264 (scale reducesTo_S4096x11264_S_d0_1 (outs 28 main_v48 c : FVec Ideal S4096x11264 .f32))))) :=
  (st_main_v56 (V30 m outs c)).trans (by rw [at30_main_v55] <;> rfl)

theorem st_main_cst_26 (W : Valuation τ sig (Elt Ideal)) :
    @Eq (FVec Ideal S_ .f32) (StableHlo.after hostOps2_2 W main_cst_26) (constant (F := Ideal) S_ .f32 0xC2FE0000#32) := by
  dsimp only [hostOps2_2]; after_results <;> rfl

theorem val_main_cst_26 : @Eq (FVec Ideal S_ .f32) (V32 m outs c main_cst_26) (constant (F := Ideal) S_ .f32 0xC2FE0000#32) :=
  st_main_cst_26 (V31 m outs c)

theorem st_main_cst_27 (W : Valuation τ sig (Elt Ideal)) :
    @Eq (FVec Ideal S_ .f32) (StableHlo.after hostOps2_2 W main_cst_27) (constant (F := Ideal) S_ .f32 0x42FE0000#32) := by
  dsimp only [hostOps2_2]; after_results <;> rfl

theorem val_main_cst_27 : @Eq (FVec Ideal S_ .f32) (V32 m outs c main_cst_27) (constant (F := Ideal) S_ .f32 0x42FE0000#32) :=
  st_main_cst_27 (V31 m outs c)

theorem st_main_v57 (W : Valuation τ sig (Elt Ideal)) :
    @Eq (FVec Ideal S4096x11264 .f32) (StableHlo.after hostOps2_3 W main_v57) (minimumf (broadcastInDim S4096x11264 ![] bcast_S_S4096x11264 (id (W main_cst_27 : FVec Ideal S_ .f32))) (maximumf (broadcastInDim S4096x11264 ![] bcast_S_S4096x11264 (id (W main_cst_26 : FVec Ideal S_ .f32))) (W main_v56 : FVec Ideal S4096x11264 .f32))) := by
  dsimp only [hostOps2_3]; after_results <;> rfl

theorem at32_main_cst_27 : @Eq (FVec Ideal S_ .f32) (V32 m outs c main_cst_27) (constant (F := Ideal) S_ .f32 0x42FE0000#32) := val_main_cst_27 m outs c

theorem at32_main_cst_26 : @Eq (FVec Ideal S_ .f32) (V32 m outs c main_cst_26) (constant (F := Ideal) S_ .f32 0xC2FE0000#32) := val_main_cst_26 m outs c

theorem at32_main_v56 : @Eq (FVec Ideal S4096x11264 .f32) (V32 m outs c main_v56) (Host.roundeven (Host.divf (outs 28 main_v48 c : FVec Ideal S4096x11264 .f32) (broadcastInDim S4096x11264 ![] bcast_S_S4096x11264 (scale reducesTo_S4096x11264_S_d0_1 (outs 28 main_v48 c : FVec Ideal S4096x11264 .f32))))) :=
  (V32_of m outs c main_v56 (by decide)).trans <| val_main_v56 m outs c

theorem val_main_v57 : @Eq (FVec Ideal S4096x11264 .f32) (V33 m outs c main_v57) (grid reducesTo_S4096x11264_S_d0_1 bcast_S_S4096x11264 (outs 28 main_v48 c : FVec Ideal S4096x11264 .f32)) :=
  (st_main_v57 (V32 m outs c)).trans (by rw [at32_main_cst_27, at32_main_cst_26, at32_main_v56] <;> rfl)

theorem st_main_v59 (W : Valuation τ sig (Elt Ideal)) :
    @Eq (FVec Ideal S4096x11264 .f32) (StableHlo.after hostOps2_4 W main_v59) (mulf (W main_v57 : FVec Ideal S4096x11264 .f32) (broadcastInDim S4096x11264 ![] bcast_S_S4096x11264 (W main_v53 : FVec Ideal S_ .f32))) := by
  dsimp only [hostOps2_4]; after_results <;> rfl

theorem at33_main_v57 : @Eq (FVec Ideal S4096x11264 .f32) (V33 m outs c main_v57) (grid reducesTo_S4096x11264_S_d0_1 bcast_S_S4096x11264 (outs 28 main_v48 c : FVec Ideal S4096x11264 .f32)) := val_main_v57 m outs c

theorem at33_main_v53 : @Eq (FVec Ideal S_ .f32) (V33 m outs c main_v53) (scale reducesTo_S4096x11264_S_d0_1 (outs 28 main_v48 c : FVec Ideal S4096x11264 .f32)) :=
  (V33_of m outs c main_v53 (by decide)).trans <| (V32_of m outs c main_v53 (by decide)).trans <| (V31_of m outs c main_v53 (by decide)).trans <| val_main_v53 m outs c

theorem val_main_v59 : @Eq (FVec Ideal S4096x11264 .f32) (V34 m outs c main_v59) (fq reducesTo_S4096x11264_S_d0_1 bcast_S_S4096x11264 (outs 28 main_v48 c : FVec Ideal S4096x11264 .f32)) :=
  (st_main_v59 (V33 m outs c)).trans (by rw [at33_main_v57, at33_main_v53] <;> rfl)

theorem st_main_v63 (W : Valuation τ sig (Elt Ideal)) :
    @Eq (FVec Ideal S_ .f32) (StableHlo.after hostOps2_4 W main_v63) (scale reducesTo_S4096x11264_S_d0_1 (W main_v49 : FVec Ideal S4096x11264 .f32)) := by
  dsimp only [hostOps2_4]; after_results <;> rfl

theorem at33_main_v49 : @Eq (FVec Ideal S4096x11264 .f32) (V33 m outs c main_v49) (outs 29 main_v49 c : FVec Ideal S4096x11264 .f32) :=
  (V33_of m outs c main_v49 (by decide)).trans <| (V32_of m outs c main_v49 (by decide)).trans <| (V31_of m outs c main_v49 (by decide)).trans <| (V30_of m outs c main_v49 (by decide)).trans <| val_main_v49 m outs c

theorem val_main_v63 : @Eq (FVec Ideal S_ .f32) (V34 m outs c main_v63) (scale reducesTo_S4096x11264_S_d0_1 (outs 29 main_v49 c : FVec Ideal S4096x11264 .f32)) :=
  (st_main_v63 (V33 m outs c)).trans (by rw [at33_main_v49] <;> rfl)

theorem st_main_v65 (W : Valuation τ sig (Elt Ideal)) :
    @Eq (FVec Ideal S4096x11264 .f32) (StableHlo.after hostOps2_4 W main_v65) (Host.divf (W main_v49 : FVec Ideal S4096x11264 .f32) (broadcastInDim S4096x11264 ![] bcast_S_S4096x11264 (scale reducesTo_S4096x11264_S_d0_1 (W main_v49 : FVec Ideal S4096x11264 .f32)))) := by
  dsimp only [hostOps2_4]; after_results <;> rfl

theorem val_main_v65 : @Eq (FVec Ideal S4096x11264 .f32) (V34 m outs c main_v65) (Host.divf (outs 29 main_v49 c : FVec Ideal S4096x11264 .f32) (broadcastInDim S4096x11264 ![] bcast_S_S4096x11264 (scale reducesTo_S4096x11264_S_d0_1 (outs 29 main_v49 c : FVec Ideal S4096x11264 .f32)))) :=
  (st_main_v65 (V33 m outs c)).trans (by rw [at33_main_v49] <;> rfl)

theorem st_main_v66 (W : Valuation τ sig (Elt Ideal)) :
    @Eq (FVec Ideal S4096x11264 .f32) (StableHlo.after hostOps2_5 W main_v66) (Host.roundeven (W main_v65 : FVec Ideal S4096x11264 .f32)) := by
  dsimp only [hostOps2_5]; after_results <;> rfl

theorem at34_main_v65 : @Eq (FVec Ideal S4096x11264 .f32) (V34 m outs c main_v65) (Host.divf (outs 29 main_v49 c : FVec Ideal S4096x11264 .f32) (broadcastInDim S4096x11264 ![] bcast_S_S4096x11264 (scale reducesTo_S4096x11264_S_d0_1 (outs 29 main_v49 c : FVec Ideal S4096x11264 .f32)))) := val_main_v65 m outs c

theorem val_main_v66 : @Eq (FVec Ideal S4096x11264 .f32) (V35 m outs c main_v66) (Host.roundeven (Host.divf (outs 29 main_v49 c : FVec Ideal S4096x11264 .f32) (broadcastInDim S4096x11264 ![] bcast_S_S4096x11264 (scale reducesTo_S4096x11264_S_d0_1 (outs 29 main_v49 c : FVec Ideal S4096x11264 .f32))))) :=
  (st_main_v66 (V34 m outs c)).trans (by rw [at34_main_v65] <;> rfl)

theorem st_main_cst_31 (W : Valuation τ sig (Elt Ideal)) :
    @Eq (FVec Ideal S_ .f32) (StableHlo.after hostOps2_6 W main_cst_31) (constant (F := Ideal) S_ .f32 0xC2FE0000#32) := by
  dsimp only [hostOps2_6]; after_results <;> rfl

theorem val_main_cst_31 : @Eq (FVec Ideal S_ .f32) (V36 m outs c main_cst_31) (constant (F := Ideal) S_ .f32 0xC2FE0000#32) :=
  st_main_cst_31 (V35 m outs c)

theorem st_main_cst_32 (W : Valuation τ sig (Elt Ideal)) :
    @Eq (FVec Ideal S_ .f32) (StableHlo.after hostOps2_6 W main_cst_32) (constant (F := Ideal) S_ .f32 0x42FE0000#32) := by
  dsimp only [hostOps2_6]; after_results <;> rfl

theorem val_main_cst_32 : @Eq (FVec Ideal S_ .f32) (V36 m outs c main_cst_32) (constant (F := Ideal) S_ .f32 0x42FE0000#32) :=
  st_main_cst_32 (V35 m outs c)

theorem st_main_v67 (W : Valuation τ sig (Elt Ideal)) :
    @Eq (FVec Ideal S4096x11264 .f32) (StableHlo.after hostOps2_7 W main_v67) (minimumf (broadcastInDim S4096x11264 ![] bcast_S_S4096x11264 (id (W main_cst_32 : FVec Ideal S_ .f32))) (maximumf (broadcastInDim S4096x11264 ![] bcast_S_S4096x11264 (id (W main_cst_31 : FVec Ideal S_ .f32))) (W main_v66 : FVec Ideal S4096x11264 .f32))) := by
  dsimp only [hostOps2_7]; after_results <;> rfl

theorem at36_main_cst_32 : @Eq (FVec Ideal S_ .f32) (V36 m outs c main_cst_32) (constant (F := Ideal) S_ .f32 0x42FE0000#32) := val_main_cst_32 m outs c

theorem at36_main_cst_31 : @Eq (FVec Ideal S_ .f32) (V36 m outs c main_cst_31) (constant (F := Ideal) S_ .f32 0xC2FE0000#32) := val_main_cst_31 m outs c

theorem at36_main_v66 : @Eq (FVec Ideal S4096x11264 .f32) (V36 m outs c main_v66) (Host.roundeven (Host.divf (outs 29 main_v49 c : FVec Ideal S4096x11264 .f32) (broadcastInDim S4096x11264 ![] bcast_S_S4096x11264 (scale reducesTo_S4096x11264_S_d0_1 (outs 29 main_v49 c : FVec Ideal S4096x11264 .f32))))) :=
  (V36_of m outs c main_v66 (by decide)).trans <| val_main_v66 m outs c

theorem val_main_v67 : @Eq (FVec Ideal S4096x11264 .f32) (V37 m outs c main_v67) (grid reducesTo_S4096x11264_S_d0_1 bcast_S_S4096x11264 (outs 29 main_v49 c : FVec Ideal S4096x11264 .f32)) :=
  (st_main_v67 (V36 m outs c)).trans (by rw [at36_main_cst_32, at36_main_cst_31, at36_main_v66] <;> rfl)

theorem st_main_v69 (W : Valuation τ sig (Elt Ideal)) :
    @Eq (FVec Ideal S4096x11264 .f32) (StableHlo.after hostOps2_8 W main_v69) (mulf (W main_v67 : FVec Ideal S4096x11264 .f32) (broadcastInDim S4096x11264 ![] bcast_S_S4096x11264 (W main_v63 : FVec Ideal S_ .f32))) := by
  dsimp only [hostOps2_8]; after_results <;> rfl

theorem at37_main_v67 : @Eq (FVec Ideal S4096x11264 .f32) (V37 m outs c main_v67) (grid reducesTo_S4096x11264_S_d0_1 bcast_S_S4096x11264 (outs 29 main_v49 c : FVec Ideal S4096x11264 .f32)) := val_main_v67 m outs c

theorem at37_main_v63 : @Eq (FVec Ideal S_ .f32) (V37 m outs c main_v63) (scale reducesTo_S4096x11264_S_d0_1 (outs 29 main_v49 c : FVec Ideal S4096x11264 .f32)) :=
  (V37_of m outs c main_v63 (by decide)).trans <| (V36_of m outs c main_v63 (by decide)).trans <| (V35_of m outs c main_v63 (by decide)).trans <| val_main_v63 m outs c

theorem val_main_v69 : @Eq (FVec Ideal S4096x11264 .f32) (V38 m outs c main_v69) (fq reducesTo_S4096x11264_S_d0_1 bcast_S_S4096x11264 (outs 29 main_v49 c : FVec Ideal S4096x11264 .f32)) :=
  (st_main_v69 (V37 m outs c)).trans (by rw [at37_main_v67, at37_main_v63] <;> rfl)

theorem st_main_v70 (W : Valuation τ sig (Elt Ideal)) :
    @Eq (FVec Ideal S4096x11264 .f32) (StableHlo.after hostOps2_9 W main_v70) (silu (W main_v59 : FVec Ideal S4096x11264 .f32)) := by
  dsimp only [hostOps2_9]; after_results <;> rfl

theorem at38_main_v59 : @Eq (FVec Ideal S4096x11264 .f32) (V38 m outs c main_v59) (fq reducesTo_S4096x11264_S_d0_1 bcast_S_S4096x11264 (outs 28 main_v48 c : FVec Ideal S4096x11264 .f32)) :=
  (V38_of m outs c main_v59 (by decide)).trans <| (V37_of m outs c main_v59 (by decide)).trans <| (V36_of m outs c main_v59 (by decide)).trans <| (V35_of m outs c main_v59 (by decide)).trans <| val_main_v59 m outs c

theorem val_main_v70 : @Eq (FVec Ideal S4096x11264 .f32) (V39 m outs c main_v70) (silu (fq reducesTo_S4096x11264_S_d0_1 bcast_S_S4096x11264 (outs 28 main_v48 c : FVec Ideal S4096x11264 .f32))) :=
  (st_main_v70 (V38 m outs c)).trans (by rw [at38_main_v59] <;> rfl)

theorem st_main_v75 (W : Valuation τ sig (Elt Ideal)) :
    @Eq (FVec Ideal S_ .f32) (StableHlo.after hostOps2_10 W main_v75) (scale reducesTo_S4096x11264_S_d0_1 (mulf (W main_v70 : FVec Ideal S4096x11264 .f32) (W main_v69 : FVec Ideal S4096x11264 .f32))) := by
  dsimp only [hostOps2_10]; after_results <;> rfl

theorem at39_main_v70 : @Eq (FVec Ideal S4096x11264 .f32) (V39 m outs c main_v70) (silu (fq reducesTo_S4096x11264_S_d0_1 bcast_S_S4096x11264 (outs 28 main_v48 c : FVec Ideal S4096x11264 .f32))) := val_main_v70 m outs c

theorem at39_main_v69 : @Eq (FVec Ideal S4096x11264 .f32) (V39 m outs c main_v69) (fq reducesTo_S4096x11264_S_d0_1 bcast_S_S4096x11264 (outs 29 main_v49 c : FVec Ideal S4096x11264 .f32)) :=
  (V39_of m outs c main_v69 (by decide)).trans <| val_main_v69 m outs c

theorem val_main_v75 : @Eq (FVec Ideal S_ .f32) (V40 m outs c main_v75) (scale reducesTo_S4096x11264_S_d0_1 (mulf (silu (fq reducesTo_S4096x11264_S_d0_1 bcast_S_S4096x11264 (outs 28 main_v48 c : FVec Ideal S4096x11264 .f32))) (fq reducesTo_S4096x11264_S_d0_1 bcast_S_S4096x11264 (outs 29 main_v49 c : FVec Ideal S4096x11264 .f32)))) :=
  (st_main_v75 (V39 m outs c)).trans (by rw [at39_main_v70, at39_main_v69] <;> rfl)

theorem st_main_v77 (W : Valuation τ sig (Elt Ideal)) :
    @Eq (FVec Ideal S4096x11264 .f32) (StableHlo.after hostOps2_10 W main_v77) (Host.divf (mulf (W main_v70 : FVec Ideal S4096x11264 .f32) (W main_v69 : FVec Ideal S4096x11264 .f32)) (broadcastInDim S4096x11264 ![] bcast_S_S4096x11264 (scale reducesTo_S4096x11264_S_d0_1 (mulf (W main_v70 : FVec Ideal S4096x11264 .f32) (W main_v69 : FVec Ideal S4096x11264 .f32))))) := by
  dsimp only [hostOps2_10]; after_results <;> rfl

theorem val_main_v77 : @Eq (FVec Ideal S4096x11264 .f32) (V40 m outs c main_v77) (Host.divf (mulf (silu (fq reducesTo_S4096x11264_S_d0_1 bcast_S_S4096x11264 (outs 28 main_v48 c : FVec Ideal S4096x11264 .f32))) (fq reducesTo_S4096x11264_S_d0_1 bcast_S_S4096x11264 (outs 29 main_v49 c : FVec Ideal S4096x11264 .f32))) (broadcastInDim S4096x11264 ![] bcast_S_S4096x11264 (scale reducesTo_S4096x11264_S_d0_1 (mulf (silu (fq reducesTo_S4096x11264_S_d0_1 bcast_S_S4096x11264 (outs 28 main_v48 c : FVec Ideal S4096x11264 .f32))) (fq reducesTo_S4096x11264_S_d0_1 bcast_S_S4096x11264 (outs 29 main_v49 c : FVec Ideal S4096x11264 .f32)))))) :=
  (st_main_v77 (V39 m outs c)).trans (by rw [at39_main_v70, at39_main_v69] <;> rfl)

theorem st_main_v78 (W : Valuation τ sig (Elt Ideal)) :
    @Eq (FVec Ideal S4096x11264 .f32) (StableHlo.after hostOps2_11 W main_v78) (Host.roundeven (W main_v77 : FVec Ideal S4096x11264 .f32)) := by
  dsimp only [hostOps2_11]; after_results <;> rfl

theorem at40_main_v77 : @Eq (FVec Ideal S4096x11264 .f32) (V40 m outs c main_v77) (Host.divf (mulf (silu (fq reducesTo_S4096x11264_S_d0_1 bcast_S_S4096x11264 (outs 28 main_v48 c : FVec Ideal S4096x11264 .f32))) (fq reducesTo_S4096x11264_S_d0_1 bcast_S_S4096x11264 (outs 29 main_v49 c : FVec Ideal S4096x11264 .f32))) (broadcastInDim S4096x11264 ![] bcast_S_S4096x11264 (scale reducesTo_S4096x11264_S_d0_1 (mulf (silu (fq reducesTo_S4096x11264_S_d0_1 bcast_S_S4096x11264 (outs 28 main_v48 c : FVec Ideal S4096x11264 .f32))) (fq reducesTo_S4096x11264_S_d0_1 bcast_S_S4096x11264 (outs 29 main_v49 c : FVec Ideal S4096x11264 .f32)))))) := val_main_v77 m outs c

theorem val_main_v78 : @Eq (FVec Ideal S4096x11264 .f32) (V41 m outs c main_v78) (Host.roundeven (Host.divf (mulf (silu (fq reducesTo_S4096x11264_S_d0_1 bcast_S_S4096x11264 (outs 28 main_v48 c : FVec Ideal S4096x11264 .f32))) (fq reducesTo_S4096x11264_S_d0_1 bcast_S_S4096x11264 (outs 29 main_v49 c : FVec Ideal S4096x11264 .f32))) (broadcastInDim S4096x11264 ![] bcast_S_S4096x11264 (scale reducesTo_S4096x11264_S_d0_1 (mulf (silu (fq reducesTo_S4096x11264_S_d0_1 bcast_S_S4096x11264 (outs 28 main_v48 c : FVec Ideal S4096x11264 .f32))) (fq reducesTo_S4096x11264_S_d0_1 bcast_S_S4096x11264 (outs 29 main_v49 c : FVec Ideal S4096x11264 .f32))))))) :=
  (st_main_v78 (V40 m outs c)).trans (by rw [at40_main_v77] <;> rfl)

theorem st_main_cst_36 (W : Valuation τ sig (Elt Ideal)) :
    @Eq (FVec Ideal S_ .f32) (StableHlo.after hostOps2_12 W main_cst_36) (constant (F := Ideal) S_ .f32 0xC2FE0000#32) := by
  dsimp only [hostOps2_12]; after_results <;> rfl

theorem val_main_cst_36 : @Eq (FVec Ideal S_ .f32) (V42 m outs c main_cst_36) (constant (F := Ideal) S_ .f32 0xC2FE0000#32) :=
  st_main_cst_36 (V41 m outs c)

theorem st_main_cst_37 (W : Valuation τ sig (Elt Ideal)) :
    @Eq (FVec Ideal S_ .f32) (StableHlo.after hostOps2_12 W main_cst_37) (constant (F := Ideal) S_ .f32 0x42FE0000#32) := by
  dsimp only [hostOps2_12]; after_results <;> rfl

theorem val_main_cst_37 : @Eq (FVec Ideal S_ .f32) (V42 m outs c main_cst_37) (constant (F := Ideal) S_ .f32 0x42FE0000#32) :=
  st_main_cst_37 (V41 m outs c)

theorem st_main_v79 (W : Valuation τ sig (Elt Ideal)) :
    @Eq (FVec Ideal S4096x11264 .f32) (StableHlo.after hostOps2_13 W main_v79) (minimumf (broadcastInDim S4096x11264 ![] bcast_S_S4096x11264 (id (W main_cst_37 : FVec Ideal S_ .f32))) (maximumf (broadcastInDim S4096x11264 ![] bcast_S_S4096x11264 (id (W main_cst_36 : FVec Ideal S_ .f32))) (W main_v78 : FVec Ideal S4096x11264 .f32))) := by
  dsimp only [hostOps2_13]; after_results <;> rfl

theorem at42_main_cst_37 : @Eq (FVec Ideal S_ .f32) (V42 m outs c main_cst_37) (constant (F := Ideal) S_ .f32 0x42FE0000#32) := val_main_cst_37 m outs c

theorem at42_main_cst_36 : @Eq (FVec Ideal S_ .f32) (V42 m outs c main_cst_36) (constant (F := Ideal) S_ .f32 0xC2FE0000#32) := val_main_cst_36 m outs c

theorem at42_main_v78 : @Eq (FVec Ideal S4096x11264 .f32) (V42 m outs c main_v78) (Host.roundeven (Host.divf (mulf (silu (fq reducesTo_S4096x11264_S_d0_1 bcast_S_S4096x11264 (outs 28 main_v48 c : FVec Ideal S4096x11264 .f32))) (fq reducesTo_S4096x11264_S_d0_1 bcast_S_S4096x11264 (outs 29 main_v49 c : FVec Ideal S4096x11264 .f32))) (broadcastInDim S4096x11264 ![] bcast_S_S4096x11264 (scale reducesTo_S4096x11264_S_d0_1 (mulf (silu (fq reducesTo_S4096x11264_S_d0_1 bcast_S_S4096x11264 (outs 28 main_v48 c : FVec Ideal S4096x11264 .f32))) (fq reducesTo_S4096x11264_S_d0_1 bcast_S_S4096x11264 (outs 29 main_v49 c : FVec Ideal S4096x11264 .f32))))))) :=
  (V42_of m outs c main_v78 (by decide)).trans <| val_main_v78 m outs c

theorem val_main_v79 : @Eq (FVec Ideal S4096x11264 .f32) (V43 m outs c main_v79) (grid reducesTo_S4096x11264_S_d0_1 bcast_S_S4096x11264 (mulf (silu (fq reducesTo_S4096x11264_S_d0_1 bcast_S_S4096x11264 (outs 28 main_v48 c : FVec Ideal S4096x11264 .f32))) (fq reducesTo_S4096x11264_S_d0_1 bcast_S_S4096x11264 (outs 29 main_v49 c : FVec Ideal S4096x11264 .f32)))) :=
  (st_main_v79 (V42 m outs c)).trans (by rw [at42_main_cst_37, at42_main_cst_36, at42_main_v78] <;> rfl)

theorem st_main_v82 (W : Valuation τ sig (Elt Ideal)) :
    @Eq (FVec Ideal S4096x11264 .bf16) (StableHlo.after hostOps2_14 W main_v82) (truncf .bf16 (mulf (W main_v79 : FVec Ideal S4096x11264 .f32) (broadcastInDim S4096x11264 ![] bcast_S_S4096x11264 (W main_v75 : FVec Ideal S_ .f32))) bitsLt_bf16_f32) := by
  dsimp only [hostOps2_14]; after_results <;> rfl

theorem at43_main_v79 : @Eq (FVec Ideal S4096x11264 .f32) (V43 m outs c main_v79) (grid reducesTo_S4096x11264_S_d0_1 bcast_S_S4096x11264 (mulf (silu (fq reducesTo_S4096x11264_S_d0_1 bcast_S_S4096x11264 (outs 28 main_v48 c : FVec Ideal S4096x11264 .f32))) (fq reducesTo_S4096x11264_S_d0_1 bcast_S_S4096x11264 (outs 29 main_v49 c : FVec Ideal S4096x11264 .f32)))) := val_main_v79 m outs c

theorem at43_main_v75 : @Eq (FVec Ideal S_ .f32) (V43 m outs c main_v75) (scale reducesTo_S4096x11264_S_d0_1 (mulf (silu (fq reducesTo_S4096x11264_S_d0_1 bcast_S_S4096x11264 (outs 28 main_v48 c : FVec Ideal S4096x11264 .f32))) (fq reducesTo_S4096x11264_S_d0_1 bcast_S_S4096x11264 (outs 29 main_v49 c : FVec Ideal S4096x11264 .f32)))) :=
  (V43_of m outs c main_v75 (by decide)).trans <| (V42_of m outs c main_v75 (by decide)).trans <| (V41_of m outs c main_v75 (by decide)).trans <| val_main_v75 m outs c

theorem val_main_v82 : @Eq (FVec Ideal S4096x11264 .bf16) (V44 m outs c main_v82) (k_v82 (outs 28 main_v48 c : FVec Ideal S4096x11264 .f32) (outs 29 main_v49 c : FVec Ideal S4096x11264 .f32)) :=
  (st_main_v82 (V43 m outs c)).trans (by rw [at43_main_v79, at43_main_v75] <;> rfl)

theorem st_main_v83 (W : Valuation τ sig (Elt Ideal)) :
    @Eq (FVec Ideal S4096x11264 .bf16) (StableHlo.after hostOps2_14 W main_v83) (truncf .bf16 (W main_v44 : FVec Ideal S4096x11264 .f32) bitsLt_bf16_f32) := by
  dsimp only [hostOps2_14]; after_results <;> rfl

theorem at43_main_v44 : @Eq (FVec Ideal S4096x11264 .f32) (V43 m outs c main_v44) (fq reducesTo_S4096x11264_S_d0_1 bcast_S_S4096x11264 (padCols (m ((c : Thread nD τ).loc main_arg3) : FVec Ideal S4096x10922 .f32))) :=
  (V43_of m outs c main_v44 (by decide)).trans <| (V42_of m outs c main_v44 (by decide)).trans <| (V41_of m outs c main_v44 (by decide)).trans <| (V40_of m outs c main_v44 (by decide)).trans <| (V39_of m outs c main_v44 (by decide)).trans <| (V38_of m outs c main_v44 (by decide)).trans <| (V37_of m outs c main_v44 (by decide)).trans <| (V36_of m outs c main_v44 (by decide)).trans <| (V35_of m outs c main_v44 (by decide)).trans <| (V34_of m outs c main_v44 (by decide)).trans <| (V33_of m outs c main_v44 (by decide)).trans <| (V32_of m outs c main_v44 (by decide)).trans <| (V31_of m outs c main_v44 (by decide)).trans <| (V30_of m outs c main_v44 (by decide)).trans <| (V29_of m outs c main_v44 (by decide)).trans <| (V28_of m outs c main_v44 (by decide)).trans <| val_main_v44 m c

theorem val_main_v83 : @Eq (FVec Ideal S4096x11264 .bf16) (V44 m outs c main_v83) (k_v83 (m ((c : Thread nD τ).loc main_arg3) : FVec Ideal S4096x10922 .f32)) :=
  (st_main_v83 (V43 m outs c)).trans (by rw [at43_main_v44] <;> rfl)

theorem at28_main_v45 : @Eq (FVec Ideal S4096x4096 .bf16) (V28 m outs c main_v45) (k_v45 (m ((c : Thread nD τ).loc main_arg0) : FVec Ideal S4096x4096 .f32)) :=
  (V28_of m outs c main_v45 (by decide)).trans <| val_main_v45 m c

theorem at28_main_v47 : @Eq (FVec Ideal S11264x4096 .bf16) (V28 m outs c main_v47) (k_v47 (m ((c : Thread nD τ).loc main_arg2) : FVec Ideal S10922x4096 .f32)) :=
  (V28_of m outs c main_v47 (by decide)).trans <| val_main_v47 m c

theorem at28_main_v4 : @Eq (FVec Ideal S11264 .f32) (V28 m outs c main_v4) (padVec (m ((c : Thread nD τ).loc main_arg5) : FVec Ideal S10922 .f32)) :=
  (V28_of m outs c main_v4 (by decide)).trans <| (V27_of m c main_v4 (by decide)).trans <| (V26_of m c main_v4 (by decide)).trans <| (V25_of m c main_v4 (by decide)).trans <| (V24_of m c main_v4 (by decide)).trans <| (V23_of m c main_v4 (by decide)).trans <| (V22_of m c main_v4 (by decide)).trans <| (V21_of m c main_v4 (by decide)).trans <| (V20_of m c main_v4 (by decide)).trans <| (V19_of m c main_v4 (by decide)).trans <| (V18_of m c main_v4 (by decide)).trans <| (V17_of m c main_v4 (by decide)).trans <| (V16_of m c main_v4 (by decide)).trans <| (V15_of m c main_v4 (by decide)).trans <| (V14_of m c main_v4 (by decide)).trans <| (V13_of m c main_v4 (by decide)).trans <| (V12_of m c main_v4 (by decide)).trans <| (V11_of m c main_v4 (by decide)).trans <| val_main_v4 m c

theorem at44_main_arg6 : @Eq (FVec Ideal S4096 .f32) (V44 m outs c main_arg6) (m ((c : Thread nD τ).loc main_arg6) : FVec Ideal S4096 .f32) :=
  (V44_of m outs c main_arg6 (by decide)).trans <| (V43_of m outs c main_arg6 (by decide)).trans <| (V42_of m outs c main_arg6 (by decide)).trans <| (V41_of m outs c main_arg6 (by decide)).trans <| (V40_of m outs c main_arg6 (by decide)).trans <| (V39_of m outs c main_arg6 (by decide)).trans <| (V38_of m outs c main_arg6 (by decide)).trans <| (V37_of m outs c main_arg6 (by decide)).trans <| (V36_of m outs c main_arg6 (by decide)).trans <| (V35_of m outs c main_arg6 (by decide)).trans <| (V34_of m outs c main_arg6 (by decide)).trans <| (V33_of m outs c main_arg6 (by decide)).trans <| (V32_of m outs c main_arg6 (by decide)).trans <| (V31_of m outs c main_arg6 (by decide)).trans <| (V30_of m outs c main_arg6 (by decide)).trans <| (V29_of m outs c main_arg6 (by decide)).trans <| (V28_of m outs c main_arg6 (by decide)).trans <| (V27_of m c main_arg6 (by decide)).trans <| (V26_of m c main_arg6 (by decide)).trans <| (V25_of m c main_arg6 (by decide)).trans <| (V24_of m c main_arg6 (by decide)).trans <| (V23_of m c main_arg6 (by decide)).trans <| (V22_of m c main_arg6 (by decide)).trans <| (V21_of m c main_arg6 (by decide)).trans <| (V20_of m c main_arg6 (by decide)).trans <| (V19_of m c main_arg6 (by decide)).trans <| (V18_of m c main_arg6 (by decide)).trans <| (V17_of m c main_arg6 (by decide)).trans <| (V16_of m c main_arg6 (by decide)).trans <| (V15_of m c main_arg6 (by decide)).trans <| (V14_of m c main_arg6 (by decide)).trans <| (V13_of m c main_arg6 (by decide)).trans <| (V12_of m c main_arg6 (by decide)).trans <| (V11_of m c main_arg6 (by decide)).trans <| (V10_of m c main_arg6 (by decide)).trans <| (V9_of m c main_arg6 (by decide)).trans <| (V8_of m c main_arg6 (by decide)).trans <| (V7_of m c main_arg6 (by decide)).trans <| (V6_of m c main_arg6 (by decide)).trans <| (V5_of m c main_arg6 (by decide)).trans <| (V4_of m c main_arg6 (by decide)).trans <| (V3_of m c main_arg6 (by decide)).trans <| (V2_of m c main_arg6 (by decide)).trans <| (V1_of m c main_arg6 (by decide)).trans <| rfl

/-- The first operand of the up product is the quantised input. -/
theorem r1_x : @Eq (FVec Ideal S4096x4096 .bf16) (V28 m outs c main_v45) (k_v45 (m ((c : Thread nD τ).loc main_arg0) : FVec Ideal S4096x4096 .f32)) := at28_main_v45 m outs c

/-- Its second operand is the padded quantised up weights. -/
theorem r1_w : @Eq (FVec Ideal S11264x4096 .bf16) (V28 m outs c main_v47) (k_v47 (m ((c : Thread nD τ).loc main_arg2) : FVec Ideal S10922x4096 .f32)) := at28_main_v47 m outs c

/-- Its third operand is the padded up bias. -/
theorem r1_b : @Eq (FVec Ideal S11264 .f32) (V28 m outs c main_v4) (k_v4 (m ((c : Thread nD τ).loc main_arg5) : FVec Ideal S10922 .f32)) := at28_main_v4 m outs c

/-- The first operand of the down product is the activation stage of the gate and up products' results. -/
theorem r2_x : @Eq (FVec Ideal S4096x11264 .bf16) (V44 m outs c main_v82) (k_v82 (outs 28 main_v48 c : FVec Ideal S4096x11264 .f32) (outs 29 main_v49 c : FVec Ideal S4096x11264 .f32)) := val_main_v82 m outs c

/-- Its second operand is the padded quantised down weights. -/
theorem r2_w : @Eq (FVec Ideal S4096x11264 .bf16) (V44 m outs c main_v83) (k_v83 (m ((c : Thread nD τ).loc main_arg3) : FVec Ideal S4096x10922 .f32)) := val_main_v83 m outs c

/-- Its third operand is the down bias argument, unchanged. -/
theorem r2_b : @Eq (FVec Ideal S4096 .f32) (V44 m outs c main_arg6) (m ((c : Thread nD τ).loc main_arg6) : FVec Ideal S4096 .f32) := at44_main_arg6 m outs c

end Cert.KernelIdeal.FrH

end
-- ==== Proof.KV0Piece.lean ====
/-
  Region 0: what each control case of the body leaves in the accumulator and in the output's buffer, as the body's
  pure values of the point's input blocks and of what the accumulator held. A first step stores the zero block, reads
  it back and adds the block product; a middle or last step adds the block product onto what was there; a last step
  then stores accumulator + bias into the output's buffer. Every store covers its whole buffer and every load reads a
  whole buffer, so the stores' pieces read back are the values themselves.
-/
import proofs.«117267_j43508018708617_1_alg».proof.Proof.KI0Dat
import Idealize.ShloMosaic.Lib.Pipeline.Value

set_option maxRecDepth 16384

noncomputable section

namespace Cert.KernelIdeal.FrV

open Cert.KernelIdeal Cert.KernelIdeal.Gen Cert.KernelIdeal.Fr
open Idealize.ShloMosaic Idealize.ShloMosaic.TcCoe Idealize.ShloMosaic.Tactic
open Idealize.SL.Sem

variable {F : FTy → Type} [FloatOps F]

theorem hz2_0 : (![0, 0] : Fin 2 → Nat) = fun _ => 0 := funext fun a => by fin_cases a <;> rfl
theorem hz1_0 : (![0] : Fin 1 → Nat) = fun _ => 0 := funext fun a => by fin_cases a <;> rfl

/-- A first step leaves the zero block plus the block product. -/
theorem soutA_eq0 (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : cond0_0 i) (hc1 : ¬cond0_1 i)
    (x0 : Vec F S1024x1024 .bf16) (x1 : Vec F S1024x1024 .bf16) (x2 : Vec F S1024 .f32) :
    sout0_A_0 c i arg3 harg3 arg4 harg4 arg5 harg5 arg6 harg6 arg7 harg7 hc0 hc1 x0 x1 x2 = k0_pay2 k0_pay1 x0 x1 := by
  unfold sout0_A_0
  rw [View.read_writes_eq_canon _ _ _ (scover0_A_0 c i arg3 harg3 arg4 harg4 arg5 harg5 arg6 harg6 arg7 harg7 hc0 hc1 x0 x1 x2)]
  unfold kernelRun0_A
  dsimp only
  sl_unfold_words
  rw [View.canon_cons_unit_zero (S := S1024x1024) hz2_0, View.readCov_unit_zero (S := S1024x1024) _ hz2_0]
  simp only [View.readAt_eq_ld, harg3.read_unread, harg4.read_unread, View.ld_unit_zero (S := S1024x1024) hz2_0]

/-- A middle step leaves what the accumulator held plus the block product. -/
theorem soutB_eq0 (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : ¬cond0_1 i)
    (x0 : Vec F S1024x1024 .bf16) (x1 : Vec F S1024x1024 .bf16) (x2 : Vec F S1024 .f32) (xs0 : Vec F S1024x1024 .f32) :
    sout0_B_0 c i arg3 harg3 arg4 harg4 arg5 harg5 arg6 harg6 arg7 harg7 hc0 hc1 x0 x1 x2 xs0 = k0_pay2 xs0 x0 x1 := by
  unfold sout0_B_0
  rw [View.read_writes_eq_canon _ _ _ (scover0_B_0 c i arg3 harg3 arg4 harg4 arg5 harg5 arg6 harg6 arg7 harg7 hc0 hc1 x0 x1 x2 xs0)]
  unfold kernelRun0_B
  dsimp only
  (try sl_unfold_words)
  rw [View.canon_unit_zero hz2_0]
  simp only [View.readAt_eq_ld, harg3.read_unread, harg4.read_unread, harg7.read_unread, View.ld_unit_zero (S := S1024x1024) hz2_0]

/-- A last step leaves the same in the accumulator, -/
theorem soutC_eq0 (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : cond0_1 i)
    (x0 : Vec F S1024x1024 .bf16) (x1 : Vec F S1024x1024 .bf16) (x2 : Vec F S1024 .f32) (xs0 : Vec F S1024x1024 .f32) :
    sout0_C_0 c i arg3 harg3 arg4 harg4 arg5 harg5 arg6 harg6 arg7 harg7 hc0 hc1 x0 x1 x2 xs0 = k0_pay2 xs0 x0 x1 := by
  unfold sout0_C_0
  rw [View.read_writes_eq_canon _ _ _ (scover0_C_0 c i arg3 harg3 arg4 harg4 arg5 harg5 arg6 harg6 arg7 harg7 hc0 hc1 x0 x1 x2 xs0)]
  unfold kernelRun0_C
  dsimp only
  (try sl_unfold_words)
  rw [View.canon_unit_zero hz2_0]
  simp only [View.readAt_eq_ld, harg3.read_unread, harg4.read_unread, harg7.read_unread, View.ld_unit_zero (S := S1024x1024) hz2_0]

/-- and that plus the bias row in the output's buffer. -/
theorem outC_eq0 (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : cond0_1 i)
    (x0 : Vec F S1024x1024 .bf16) (x1 : Vec F S1024x1024 .bf16) (x2 : Vec F S1024 .f32) (xs0 : Vec F S1024x1024 .f32) :
    out0_C_3 c i arg3 harg3 arg4 harg4 arg5 harg5 arg6 harg6 arg7 harg7 hc0 hc1 x0 x1 x2 xs0 = k0_pay3 (k0_pay2 xs0 x0 x1) x2 := by
  unfold out0_C_3
  rw [View.read_writes_eq_canon _ _ _ (cover0_C_3 c i arg3 harg3 arg4 harg4 arg5 harg5 arg6 harg6 arg7 harg7 hc0 hc1 x0 x1 x2 xs0)]
  unfold kernelRun0_C
  dsimp only
  (try sl_unfold_words)
  rw [View.canon_unit_zero hz2_0, View.readCov_unit_zero (S := S1024x1024) _ hz2_0]
  simp only [View.readAt_eq_ld, harg3.read_unread, harg4.read_unread, harg5.read_unread, harg7.read_unread,
    View.ld_unit_zero (S := S1024x1024) hz2_0, View.ld_unit_zero (S := S1024) hz1_0]

end Cert.KernelIdeal.FrV

end
-- ==== Proof.KV0Blk.lean ====
/-
  Region 0: where the windows' blocks lie in their arrays. Grid point t is step t % 4 of the contraction for row
  block t / 44 and column block t / 4 % 11; x's block there is rows (t / 44) · 1024 … and contracted positions
  (t % 4) · 1024 …, w's block is rows (t / 4 % 11) · 1024 … and the same contracted positions, the bias block is entries
  (t / 4 % 11) · 1024 …, and the output's block is rows (t / 44) · 1024 …, columns (t / 4 % 11) · 1024 ….
-/
import proofs.«117267_j43508018708617_1_alg».proof.Proof.KI0Dat
import Idealize.ShloMosaic.Lib.Pipeline.Value
import Idealize.ShloMosaic.Lib.ValueIdx

set_option maxRecDepth 16384

noncomputable section

namespace Cert.KernelIdeal.FrV

open Cert.KernelIdeal Cert.KernelIdeal.Gen Cert.KernelIdeal.Fr
open Idealize.ShloMosaic Idealize.ShloMosaic.TcCoe Idealize.ShloMosaic.ValueIdx
open Idealize.SL.Sem
open Idealize.ShloMosaic.Pipeline (Dat)

variable {F : FTy → Type} [FloatOps F]
variable (V : (c : Dev nD) → (b : Ref sig .tc) → Buf (Elt F) ((c : Thread nD τ).loc b))

/-- The windows' block indices, decided over the grid. -/
theorem idx_facts0 : ∀ t : Fin cfg0.N,
    win0_0.index t (0 : Fin 2) = t.val / 44 ∧ win0_0.index t (1 : Fin 2) = t.val % 4
    ∧ win0_1.index t (0 : Fin 2) = t.val / 4 % 11 ∧ win0_1.index t (1 : Fin 2) = t.val % 4
    ∧ win0_2.index t (0 : Fin 1) = t.val / 4 % 11
    ∧ win0_3.index t (0 : Fin 2) = t.val / 44 ∧ win0_3.index t (1 : Fin 2) = t.val / 4 % 11 :=
  (by decide +kernel : ∀ t : Fin grid0.N,
    win0_0.index t (0 : Fin 2) = t.val / 44 ∧ win0_0.index t (1 : Fin 2) = t.val % 4
    ∧ win0_1.index t (0 : Fin 2) = t.val / 4 % 11 ∧ win0_1.index t (1 : Fin 2) = t.val % 4
    ∧ win0_2.index t (0 : Fin 1) = t.val / 4 % 11
    ∧ win0_3.index t (0 : Fin 2) = t.val / 44 ∧ win0_3.index t (1 : Fin 2) = t.val / 4 % 11)

/-- x's block at point `t`, entry (p, k), is x at row (t / 44) · 1024 + p and contracted position (t % 4) · 1024 + k. -/
theorem iblk0_0_apply (c : Dev nD) (t : Fin cfg0.N) (p k : Fin 1024) (r : Fin 4096) (kk : Fin 4096)
    (hr : r.val = t.val / 44 * 1024 + p.val) (hk : kk.val = t.val % 4 * 1024 + k.val) :
    (iblk0 V c 0 t : Vec F S1024x1024 .bf16) (ix2 p k) = (V c (Pipeline.arrRef spec0 0) : S4096x4096.Idx → Elt F .bf16) (ix2 r kk) := by
  obtain ⟨e0, e1, -⟩ := idx_facts0 t
  unfold iblk0
  rw [View.read_apply]
  show V c (Pipeline.arrRef spec0 0) _ = V c (Pipeline.arrRef spec0 0) _
  refine congrArg _ (funext fun a => Fin.ext ?_)
  match a with
  | ⟨0, _⟩ => show win0_0.index t 0 * 1024 + 1 * p.val = r.val; rw [e0, hr]; omega
  | ⟨1, _⟩ => show win0_0.index t 1 * 1024 + 1 * k.val = kk.val; rw [e1, hk]; omega

/-- w's block at point `t`, entry (q, k), is w at row (t / 4 % 11) · 1024 + q and contracted position (t % 4) · 1024 + k. -/
theorem iblk0_1_apply (c : Dev nD) (t : Fin cfg0.N) (q k : Fin 1024) (s : Fin 11264) (kk : Fin 4096)
    (hs : s.val = t.val / 4 % 11 * 1024 + q.val) (hk : kk.val = t.val % 4 * 1024 + k.val) :
    (iblk0 V c 1 t : Vec F S1024x1024 .bf16) (ix2 q k) = (V c (Pipeline.arrRef spec0 1) : S11264x4096.Idx → Elt F .bf16) (ix2 s kk) := by
  obtain ⟨-, -, e0, e1, -⟩ := idx_facts0 t
  unfold iblk0
  rw [View.read_apply]
  show V c (Pipeline.arrRef spec0 1) _ = V c (Pipeline.arrRef spec0 1) _
  refine congrArg _ (funext fun a => Fin.ext ?_)
  match a with
  | ⟨0, _⟩ => show win0_1.index t 0 * 1024 + 1 * q.val = s.val; rw [e0, hs]; omega
  | ⟨1, _⟩ => show win0_1.index t 1 * 1024 + 1 * k.val = kk.val; rw [e1, hk]; omega

/-- The bias block at point `t`, entry q, is the bias at (t / 4 % 11) · 1024 + q. -/
theorem iblk0_2_apply (c : Dev nD) (t : Fin cfg0.N) (q : Fin 1024) (s : Fin 11264)
    (hs : s.val = t.val / 4 % 11 * 1024 + q.val) :
    (iblk0 V c 2 t : Vec F S1024 .f32) (ix1 q) = (V c (Pipeline.arrRef spec0 2) : S11264.Idx → Elt F .f32) (ix1 s) := by
  obtain ⟨-, -, -, -, e0, -⟩ := idx_facts0 t
  unfold iblk0
  rw [View.read_apply]
  show V c (Pipeline.arrRef spec0 2) _ = V c (Pipeline.arrRef spec0 2) _
  refine congrArg _ (funext fun a => Fin.ext ?_)
  match a with
  | ⟨0, _⟩ => show win0_2.index t 0 * 1024 + 1 * q.val = s.val; rw [e0, hs]; omega

end Cert.KernelIdeal.FrV

end
-- ==== Proof.KVPay.lean ====
/-
  The three regions' bodies compute the same three pure values (the regions differ in grids and arrays only): each read at an index, over the extended reals. The zero block is zero; the
  accumulation step at (p, q) is the old value plus the sum over the 1024 contracted positions k of x (p, k) · w (q, k)
  (both operands are contracted along their second axis); the bias step at (p, q) adds entry q of the bias row.
-/
import proofs.«117267_j43508018708617_1_alg».proof.Proof.Gen.KernelIdeal.Skeleton
import Idealize.ShloMosaic.Lib.ValueLayout
import Idealize.ShloMosaic.Lib.ValueIdx
import Idealize.ShloMosaic.PureOps.Ideal.Laws

set_option maxRecDepth 16384

noncomputable section

open scoped BigOperators

namespace Cert.KernelIdeal.FrV

open Cert.KernelIdeal Cert.KernelIdeal.Gen
open Idealize.ShloMosaic Idealize.ShloMosaic.ValueIdx

/-- The block product's dimension numbers: both operands contracted along axis 1. -/
abbrev D1k : DotDims S1024x1024 S1024x1024 S1024x1024 := dot_S1024x1024_S1024x1024_S1024x1024_1_1_0_0_n_n

theorem lhsD_0 (j : S1024x1024.Idx) (q : D1k.contr.Idx) : (D1k.lhsIdx j q 0).val = (j 0).val := by
  unfold DotDims.lhsIdx
  rw [dif_neg (show ¬(0 : Fin S1024x1024.rank) ∈ D1k.lhsBatch by decide), dif_pos (show (0 : Fin S1024x1024.rank) ∈ D1k.lhsNonContracting by decide)]
  rfl
theorem lhsD_1 (j : S1024x1024.Idx) (q : D1k.contr.Idx) : (D1k.lhsIdx j q 1).val = (q ⟨0, by decide⟩).val :=
  D1k.lhsIdx_val_of_single rfl j q
theorem rhsD_0 (j : S1024x1024.Idx) (q : D1k.contr.Idx) : (D1k.rhsIdx j q 0).val = (j 1).val := by
  unfold DotDims.rhsIdx
  rw [dif_neg (show ¬(0 : Fin S1024x1024.rank) ∈ D1k.rhsBatch by decide), dif_pos (show (0 : Fin S1024x1024.rank) ∈ D1k.rhsNonContracting by decide)]
  rfl
theorem rhsD_1 (j : S1024x1024.Idx) (q : D1k.contr.Idx) : (D1k.rhsIdx j q 1).val = (q ⟨0, by decide⟩).val :=
  D1k.rhsIdx_val_of_single rfl j q

/-- The block product into the zero block, at (p, q): the sum over k of x (p, k) · w (q, k). -/
theorem matmul1k_apply (x w : FVec Ideal S1024x1024 .bf16) (p q : Fin 1024) :
    FloatOps.matmul D1k none x w (constant S1024x1024 .f32 0x00000000#32) (ix2 p q)
      = ∑ k : Fin 1024, x (ix2 p k) * w (ix2 q k) := by
  rw [Ideal.matmul_constant_zero_apply, ← Equiv.sum_comp (contrEquiv1 D1k 1024 rfl rfl).symm]
  refine Finset.sum_congr rfl fun k _ => ?_
  have hk := contrEquiv1_symm_val D1k 1024 rfl rfl k
  have el : D1k.lhsIdx (ix2 p q) ((contrEquiv1 D1k 1024 rfl rfl).symm k) = ix2 p k := funext fun a => Fin.ext (by
    match a with
    | ⟨0, _⟩ => exact lhsD_0 _ _
    | ⟨1, _⟩ => exact (lhsD_1 _ _).trans hk)
  have er : D1k.rhsIdx (ix2 p q) ((contrEquiv1 D1k 1024 rfl rfl).symm k) = ix2 q k := funext fun a => Fin.ext (by
    match a with
    | ⟨0, _⟩ => exact rhsD_0 _ _
    | ⟨1, _⟩ => exact (rhsD_1 _ _).trans hk)
  rw [el, er]

/-! ## Region 0 -/

/-- The zero block is zero everywhere. -/
theorem pay1_apply0 (p q : Fin 1024) : k0_pay1 (F := Ideal) (ix2 p q) = 0 := by
  unfold k0_pay1
  rw [shapeCast_self]
  exact Ideal.ofBits_zero_f32

/-- The accumulation step at (p, q). -/
theorem pay2_apply0 (v3 : FVec Ideal S1024x1024 .f32) (v4 v6 : FVec Ideal S1024x1024 .bf16) (p q : Fin 1024) :
    k0_pay2 v3 v4 v6 (ix2 p q) = v3 (ix2 p q) + ∑ k : Fin 1024, v4 (ix2 p k) * v6 (ix2 q k) := by
  unfold k0_pay2
  simp only [shapeCast_self]
  exact congrArg (v3 (ix2 p q) + ·) (matmul1k_apply v4 v6 p q)

/-- The bias step at (p, q). -/
theorem pay3_apply0 (v16 : FVec Ideal S1024x1024 .f32) (v17 : FVec Ideal S1024 .f32) (p q : Fin 1024) :
    k0_pay3 v16 v17 (ix2 p q) = v16 (ix2 p q) + v17 (ix1 q) := by
  unfold k0_pay3
  (try simp only [shapeCast_self])
  refine congrArg (v16 (ix2 p q) + ·) ?_
  exact (broadcastTo_1b_ab_apply _ broadcasts_S1x1024_S1024x1024 p q).trans (shapeCast_a_1a_apply v17 shapeCasts_S1024_S1x1024 0 q)

/-! ## Region 1 -/

/-- The zero block is zero everywhere. -/
theorem pay1_apply1 (p q : Fin 1024) : k1_pay1 (F := Ideal) (ix2 p q) = 0 := by
  unfold k1_pay1
  rw [shapeCast_self]
  exact Ideal.ofBits_zero_f32

/-- The accumulation step at (p, q). -/
theorem pay2_apply1 (v3 : FVec Ideal S1024x1024 .f32) (v4 v6 : FVec Ideal S1024x1024 .bf16) (p q : Fin 1024) :
    k1_pay2 v3 v4 v6 (ix2 p q) = v3 (ix2 p q) + ∑ k : Fin 1024, v4 (ix2 p k) * v6 (ix2 q k) := by
  unfold k1_pay2
  simp only [shapeCast_self]
  exact congrArg (v3 (ix2 p q) + ·) (matmul1k_apply v4 v6 p q)

/-- The bias step at (p, q). -/
theorem pay3_apply1 (v16 : FVec Ideal S1024x1024 .f32) (v17 : FVec Ideal S1024 .f32) (p q : Fin 1024) :
    k1_pay3 v16 v17 (ix2 p q) = v16 (ix2 p q) + v17 (ix1 q) := by
  unfold k1_pay3
  (try simp only [shapeCast_self])
  refine congrArg (v16 (ix2 p q) + ·) ?_
  exact (broadcastTo_1b_ab_apply _ broadcasts_S1x1024_S1024x1024 p q).trans (shapeCast_a_1a_apply v17 shapeCasts_S1024_S1x1024 0 q)

/-! ## Region 2 -/

/-- The zero block is zero everywhere. -/
theorem pay1_apply2 (p q : Fin 1024) : k2_pay1 (F := Ideal) (ix2 p q) = 0 := by
  unfold k2_pay1
  rw [shapeCast_self]
  exact Ideal.ofBits_zero_f32

/-- The accumulation step at (p, q). -/
theorem pay2_apply2 (v3 : FVec Ideal S1024x1024 .f32) (v4 v6 : FVec Ideal S1024x1024 .bf16) (p q : Fin 1024) :
    k2_pay2 v3 v4 v6 (ix2 p q) = v3 (ix2 p q) + ∑ k : Fin 1024, v4 (ix2 p k) * v6 (ix2 q k) := by
  unfold k2_pay2
  simp only [shapeCast_self]
  exact congrArg (v3 (ix2 p q) + ·) (matmul1k_apply v4 v6 p q)

/-- The bias step at (p, q). -/
theorem pay3_apply2 (v16 : FVec Ideal S1024x1024 .f32) (v17 : FVec Ideal S1024 .f32) (p q : Fin 1024) :
    k2_pay3 v16 v17 (ix2 p q) = v16 (ix2 p q) + v17 (ix1 q) := by
  unfold k2_pay3
  (try simp only [shapeCast_self])
  refine congrArg (v16 (ix2 p q) + ·) ?_
  exact (broadcastTo_1b_ab_apply _ broadcasts_S1x1024_S1024x1024 p q).trans (shapeCast_a_1a_apply v17 shapeCasts_S1024_S1x1024 0 q)

end Cert.KernelIdeal.FrV

end
-- ==== Proof.KVSum.lean ====
/-
  Sums over a contracted axis cut into consecutive blocks, over the extended reals. The terms of a product
  x · wᵀ at entry (r, s) are listed along the naturals (zero past the contracted extent), and their partial sums
  over an initial segment grow by one block's sum when the segment is extended by a block. Only commutative-monoid
  facts of addition are used: no finiteness.
-/
import Idealize.ShloMosaic.Lib.ValueIdx

noncomputable section

open scoped BigOperators

namespace Cert.KernelIdeal.FrV

open Idealize.ShloMosaic Idealize.ShloMosaic.ValueIdx

/-- The sum of the first `n` terms of a sequence. -/
def psum (f : ℕ → EReal) (n : ℕ) : EReal := ∑ k ∈ Finset.range n, f k

theorem psum_zero (f : ℕ → EReal) : psum f 0 = 0 := Finset.sum_range_zero _

/-- Extending the segment by a block of `m` terms adds the block's sum. -/
theorem psum_add_block (f : ℕ → EReal) (n m : ℕ) : psum f (n + m) = psum f n + ∑ k : Fin m, f (n + k.val) := by
  unfold psum
  rw [Finset.sum_range_add]
  exact congrArg _ (Finset.sum_range fun k => f (n + k))

/-- The first block alone. -/
theorem psum_block (f : ℕ → EReal) (m : ℕ) : psum f m = ∑ k : Fin m, f k.val := by
  unfold psum
  rw [Finset.sum_range]

/-- Term `k` of entry (r, s) of x · wᵀ, for `x` of shape [M, K] and `w` of shape [N, K]: x (r, k) · w (s, k), and
    zero past the contracted extent. -/
def dotTerm {M N K : ℕ} (x : (⟨2, ![M, K]⟩ : Shape).Idx → EReal) (w : (⟨2, ![N, K]⟩ : Shape).Idx → EReal)
    (r : Fin M) (s : Fin N) (k : ℕ) : EReal :=
  if h : k < K then x (ix2 r ⟨k, h⟩) * w (ix2 s ⟨k, h⟩) else 0

theorem dotTerm_of_lt {M N K : ℕ} (x : (⟨2, ![M, K]⟩ : Shape).Idx → EReal) (w : (⟨2, ![N, K]⟩ : Shape).Idx → EReal)
    (r : Fin M) (s : Fin N) (k : ℕ) (h : k < K) : dotTerm x w r s k = x (ix2 r ⟨k, h⟩) * w (ix2 s ⟨k, h⟩) := dif_pos h

/-- All `K` terms: the whole entry of the product. -/
theorem psum_dotTerm_all {M N K : ℕ} (x : (⟨2, ![M, K]⟩ : Shape).Idx → EReal) (w : (⟨2, ![N, K]⟩ : Shape).Idx → EReal)
    (r : Fin M) (s : Fin N) : psum (dotTerm x w r s) K = ∑ k : Fin K, x (ix2 r k) * w (ix2 s k) := by
  rw [psum_block]
  exact Finset.sum_congr rfl fun k _ => dotTerm_of_lt x w r s k.val k.isLt

end Cert.KernelIdeal.FrV

end
-- ==== Proof.KV0Val.lean ====
/-
  Region 0: the array the region leaves is x · wᵀ + b of the three arrays it finds. After the point at step k of
  the contraction for block (I, J), entry (p, q) of the accumulator is the sum of the first (k + 1) · 1024 terms
  x (I · 1024 + p, ·) · w (J · 1024 + q, ·): the first step starts from the zero block, every later step adds its
  block's 1024 terms to what the step before left (addition of extended reals is associative: the partial sums
  over an initial segment grow block by block). At the last step all 4096 terms are there, the bias entry is added,
  and the block is written back to rows I · 1024 …, columns J · 1024 … of the output; these blocks tile the output.
-/
import proofs.«117267_j43508018708617_1_alg».proof.Proof.KV0Piece
import proofs.«117267_j43508018708617_1_alg».proof.Proof.KV0Blk
import proofs.«117267_j43508018708617_1_alg».proof.Proof.KVPay
import proofs.«117267_j43508018708617_1_alg».proof.Proof.KVSum
import proofs.«117267_j43508018708617_1_alg».proof.Proof.KerSpec
import Idealize.ShloMosaic.Lib.Pipeline.Value

set_option maxRecDepth 16384

noncomputable section

open scoped BigOperators

namespace Cert.KernelIdeal.FrV

open Cert.KernelIdeal Cert.KernelIdeal.Gen Cert.KernelIdeal.Fr Cert.KerSpec
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

/-- The three arrays as the region finds them: x, w and the bias. -/
abbrev X0 (c : Dev nD) : FVec Ideal S4096x4096 .bf16 := V c (Pipeline.arrRef spec0 0)
abbrev W0 (c : Dev nD) : FVec Ideal S11264x4096 .bf16 := V c (Pipeline.arrRef spec0 1)
abbrev B0 (c : Dev nD) : FVec Ideal S11264 .f32 := V c (Pipeline.arrRef spec0 2)

/-- The three input blocks at point `t`, at their vector types. -/
abbrev xblk0 (c : Dev nD) (t : Fin cfg0.N) : FVec Ideal S1024x1024 .bf16 := iblk0 V c 0 t
abbrev wblk0 (c : Dev nD) (t : Fin cfg0.N) : FVec Ideal S1024x1024 .bf16 := iblk0 V c 1 t
abbrev bblk0 (c : Dev nD) (t : Fin cfg0.N) : FVec Ideal S1024 .f32 := iblk0 V c 2 t

/-- The block product at point `t`, entry (p, q), is the block of 1024 terms of entry (r, s) of x · wᵀ that starts at
    term (t % 4) · 1024, for r = (t / 44) · 1024 + p and s = (t / 4 % 11) · 1024 + q. -/
theorem blockSum0 (c : Dev nD) (t : Fin cfg0.N) (p q : Fin 1024) (r : Fin 4096) (s : Fin 11264)
    (hr : r.val = t.val / 44 * 1024 + p.val) (hs : s.val = t.val / 4 % 11 * 1024 + q.val) :
    (∑ k : Fin 1024, xblk0 V c t (ix2 p k) * wblk0 V c t (ix2 q k))
      = ∑ k : Fin 1024, dotTerm (X0 V c) (W0 V c) r s (t.val % 4 * 1024 + k.val) := by
  refine Finset.sum_congr rfl fun k _ => ?_
  have hk : t.val % 4 * 1024 + k.val < 4096 := by have := k.isLt; omega
  rw [dotTerm_of_lt _ _ _ _ _ hk]
  exact congrArg₂ (· * ·) (iblk0_0_apply V c t p k r ⟨_, hk⟩ hr rfl) (iblk0_1_apply V c t q k s ⟨_, hk⟩ hs rfl)

/-- After a first step the accumulator holds the first block of terms. -/
theorem acc0_first (c : Dev nD) (t : Fin cfg0.N) (h0 : t.val % 4 = 0) (p q : Fin 1024) (r : Fin 4096) (s : Fin 11264)
    (hr : r.val = t.val / 44 * 1024 + p.val) (hs : s.val = t.val / 4 % 11 * 1024 + q.val) :
    (outsAt0 V c t.val t.isLt).2 (ix2 p q) = psum (dotTerm (X0 V c) (W0 V c) r s) ((t.val % 4 + 1) * 1024) := by
  have h1 : ¬t.val % 4 = 3 := by omega
  rw [outsAt0_A V c t h0 h1]
  dsimp only
  refine (congrFun (soutA_eq0 (F := Ideal) c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk0 V c 0 t) (iblk0 V c 1 t) (iblk0 V c 2 t)) (ix2 p q)).trans ?_
  refine (pay2_apply0 k0_pay1 (xblk0 V c t) (wblk0 V c t) p q).trans ?_
  rw [pay1_apply0, zero_add, blockSum0 V c t p q r s hr hs, h0, psum_block]
  exact Finset.sum_congr rfl fun k _ => by rw [Nat.zero_mul, Nat.zero_add]

/-- A later step adds its block of terms to what the step before left. -/
theorem acc0_next (c : Dev nD) (t : Fin cfg0.N) (h0 : ¬t.val % 4 = 0) (p q : Fin 1024) (r : Fin 4096) (s : Fin 11264)
    (hr : r.val = t.val / 44 * 1024 + p.val) (hs : s.val = t.val / 4 % 11 * 1024 + q.val)
    (hprev : (outsAt0 V c (t.val - 1) (Nat.lt_of_le_of_lt (Nat.sub_le _ _) t.isLt)).2 (ix2 p q) = psum (dotTerm (X0 V c) (W0 V c) r s) (t.val % 4 * 1024)) :
    k0_pay2 (outsAt0 V c (t.val - 1) (Nat.lt_of_le_of_lt (Nat.sub_le _ _) t.isLt)).2 (iblk0 V c 0 t) (iblk0 V c 1 t) (ix2 p q)
      = psum (dotTerm (X0 V c) (W0 V c) r s) ((t.val % 4 + 1) * 1024) := by
  refine (pay2_apply0 (outsAt0 V c (t.val - 1) (Nat.lt_of_le_of_lt (Nat.sub_le _ _) t.isLt)).2 (xblk0 V c t) (wblk0 V c t) p q).trans ?_
  rw [hprev, blockSum0 V c t p q r s hr hs, Nat.add_mul, Nat.one_mul, psum_add_block]

/-- THE ACCUMULATOR after position `n`: the first (n % 4 + 1) · 1024 terms of the entries of its block. -/
theorem acc0_eq (c : Dev nD) : ∀ (n : ℕ) (hn : n < cfg0.N) (p q : Fin 1024) (r : Fin 4096) (s : Fin 11264),
    r.val = n / 44 * 1024 + p.val → s.val = n / 4 % 11 * 1024 + q.val →
    (outsAt0 V c n hn).2 (ix2 p q) = psum (dotTerm (X0 V c) (W0 V c) r s) ((n % 4 + 1) * 1024)
  | 0, hn, p, q, r, s, hr, hs => acc0_first V c ⟨0, hn⟩ rfl p q r s hr hs
  | n + 1, hn, p, q, r, s, hr, hs => by
    by_cases h0 : (n + 1) % 4 = 0
    · exact acc0_first V c ⟨n + 1, hn⟩ h0 p q r s hr hs
    · have ih := acc0_eq c n (Nat.lt_of_succ_lt hn) p q r s (by omega) (by omega)
      have hprev : (outsAt0 V c ((⟨n + 1, hn⟩ : Fin cfg0.N).val - 1) (Nat.lt_of_le_of_lt (Nat.sub_le _ _) (⟨n + 1, hn⟩ : Fin cfg0.N).isLt)).2 (ix2 p q)
          = psum (dotTerm (X0 V c) (W0 V c) r s) ((⟨n + 1, hn⟩ : Fin cfg0.N).val % 4 * 1024) := by
        show (outsAt0 V c n _).2 (ix2 p q) = psum (dotTerm (X0 V c) (W0 V c) r s) ((n + 1) % 4 * 1024)
        rw [ih]
        exact congrArg _ (by omega)
      by_cases h1 : (n + 1) % 4 = 3
      · rw [outsAt0_C V c ⟨n + 1, hn⟩ h0 h1]
        dsimp only
        refine (congrFun (soutC_eq0 (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 V c ((⟨n + 1, hn⟩ : Fin cfg0.N).val - 1) (Nat.lt_of_le_of_lt (Nat.sub_le _ _) (⟨n + 1, hn⟩ : Fin cfg0.N).isLt)).2) (ix2 p q)).trans ?_
        exact acc0_next V c ⟨n + 1, hn⟩ h0 p q r s hr hs hprev
      · rw [outsAt0_B V c ⟨n + 1, hn⟩ h0 h1]
        dsimp only
        refine (congrFun (soutB_eq0 (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 V c ((⟨n + 1, hn⟩ : Fin cfg0.N).val - 1) (Nat.lt_of_le_of_lt (Nat.sub_le _ _) (⟨n + 1, hn⟩ : Fin cfg0.N).isLt)).2) (ix2 p q)).trans ?_
        exact acc0_next V c ⟨n + 1, hn⟩ h0 p q r s hr hs hprev

/-- THE OUTPUT BLOCK after a last step: entry (p, q) is entry (r, s) of x · wᵀ + b. -/
theorem out0_last (c : Dev nD) (t : Fin cfg0.N) (h1 : t.val % 4 = 3) (p q : Fin 1024) (r : Fin 4096) (s : Fin 11264)
    (hr : r.val = t.val / 44 * 1024 + p.val) (hs : s.val = t.val / 4 % 11 * 1024 + q.val) :
    (outsAt0 V c t.val t.isLt).1 (ix2 p q) = Lin01 (X0 V c) (W0 V c) (B0 V c) (ix2 r s) := by
  have h0 : ¬t.val % 4 = 0 := by omega
  have hN : t.val < 176 := lt_of_lt_of_eq t.isLt (show cfg0.N = 176 from N_0)
  rw [outsAt0_C V c t h0 h1]
  dsimp only
  refine (congrFun (outC_eq0 (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2) (ix2 p q)).trans ?_
  refine (pay3_apply0 (k0_pay2 (outsAt0 V c (t.val - 1) (Nat.lt_of_le_of_lt (Nat.sub_le _ _) t.isLt)).2 (xblk0 V c t) (wblk0 V c t)) (bblk0 V c t) p q).trans ?_
  rw [Lin01_apply, ← psum_dotTerm_all]
  have hacc := acc0_next V c t h0 p q r s hr hs
    ((acc0_eq V c (t.val - 1) (Nat.lt_of_le_of_lt (Nat.sub_le _ _) t.isLt) p q r s (by omega) (by omega)).trans
      (congrArg _ (by omega)))
  rw [hacc]
  exact congrArg₂ (· + ·) (congrArg (psum (dotTerm (X0 V c) (W0 V c) r s)) (by omega)) (iblk0_2_apply V c t q s hs)

/-- The index the output's block at point `t` puts entry (p, q) at. -/
theorem emb0_3 (t : Fin cfg0.N) (p q : Fin 1024) (r : Fin 4096) (s : Fin 11264)
    (hr : r.val = t.val / 44 * 1024 + p.val) (hs : s.val = t.val / 4 % 11 * 1024 + q.val) :
    ((cfg0.win 3).blk t).view.emb (ix2 p q) = (ix2 r s : S4096x11264.Idx) := by
  obtain ⟨-, -, -, -, -, e0, e1⟩ := idx_facts0 t
  refine funext fun a => Fin.ext ?_
  match a with
  | ⟨0, _⟩ => show win0_3.index t 0 * 1024 + 1 * p.val = r.val; rw [e0, hr]; omega
  | ⟨1, _⟩ => show win0_3.index t 1 * 1024 + 1 * q.val = s.val; rw [e1, hs]; omega

/-- WHAT A LAST STEP WRITES BACK is its block of x · wᵀ + b. -/
theorem flushed0_eq (c : Dev nD) (t : Fin cfg0.N) (hf : (cfg0.win 3).flush t = true) :
    (dat0 (F := Ideal) V c).flushed 3 t = ((cfg0.win 3).blk t).view.read (Elt Ideal) (Lin01 (X0 V c) (W0 V c) (B0 V c)) := by
  have h1 : t.val % 4 = 3 := (flush0_3 t).mp hf
  have hN : t.val < 176 := lt_of_lt_of_eq t.isLt (show cfg0.N = 176 from N_0)
  show (cfg0.win 3).cut (grid0.coords t) ((dat0 V c).after 3 t) = _
  rw [after0_3]
  funext y
  obtain ⟨p, q, rfl⟩ : ∃ (p q : Fin 1024), y = ix2 p q := ⟨y 0, y 1, eq_ix2 y⟩
  have hr : t.val / 44 * 1024 + p.val < 4096 := by have := p.isLt; omega
  have hs : t.val / 4 % 11 * 1024 + q.val < 11264 := by have := q.isLt; omega
  rw [View.read_apply, emb0_3 t p q ⟨_, hr⟩ ⟨_, hs⟩ rfl rfl]
  exact out0_last V c t h1 p q ⟨_, hr⟩ ⟨_, hs⟩ rfl rfl

/-- An index of the output is in point `t`'s block iff each coordinate is in the block's range on its axis. -/
theorem mem_blk0 (t : Fin cfg0.N) (i : S4096x11264.Idx) :
    i ∈ ((cfg0.win 3).blk t).view.set ↔ ∀ a : Fin 2, win0_3.index t a * S1024x1024.size a ≤ (i a).val ∧ (i a).val < win0_3.index t a * S1024x1024.size a + S1024x1024.size a := by
  show i ∈ ((View.whole main_v48).slice (win0_3.rect t)).set ↔ _
  rw [View.set_slice_whole, Rect.mem_set_unit]
  exact Iff.rfl

/-- Every entry (r, s) of the output is written back by the last step of block (r / 1024, s / 1024). -/
theorem cover0 (i : S4096x11264.Idx) : ∃ t : Fin cfg0.N, (cfg0.win 3).flush t = true ∧ i ∈ ((cfg0.win 3).blk t).view.set := by
  have hi0 : (i 0).val < 4096 := idx2_lt0 i
  have hi1 : (i 1).val < 11264 := idx2_lt1 i
  have hN : cfg0.N = 176 := N_0
  have ht : (i 0).val / 1024 * 44 + (i 1).val / 1024 * 4 + 3 < cfg0.N := by rw [hN]; omega
  refine ⟨⟨_, ht⟩, (flush0_3 _).mpr (by dsimp only; omega), ?_⟩
  obtain ⟨-, -, -, -, -, e0, e1⟩ := idx_facts0 ⟨_, ht⟩
  rw [mem_blk0]
  intro a
  match a with
  | ⟨0, _⟩ =>
    show win0_3.index ⟨_, ht⟩ 0 * 1024 ≤ (i 0).val ∧ (i 0).val < win0_3.index ⟨_, ht⟩ 0 * 1024 + 1024
    rw [e0]; dsimp only; omega
  | ⟨1, _⟩ =>
    show win0_3.index ⟨_, ht⟩ 1 * 1024 ≤ (i 1).val ∧ (i 1).val < win0_3.index ⟨_, ht⟩ 1 * 1024 + 1024
    rw [e1]; dsimp only; omega

/-- THE REGION'S RESULT: the output array ends holding x · wᵀ + b of the arrays the region finds. -/
theorem region0_value (c : Dev nD) :
    (dat0 (F := Ideal) V c).arrAt 3 cfg0.N = Lin01 (X0 V c) (W0 V c) (B0 V c) :=
  (dat0 (F := Ideal) V c).arrAt_eq_of_cover 3 (Lin01 (X0 V c) (W0 V c) (B0 V c)) (flushed0_eq V c) cover0

end Cert.KernelIdeal.FrV

end
-- ==== Proof.KV1Piece.lean ====
/-
  Region 1: what each control case of the body leaves in the accumulator and in the output's buffer, as the body's
  pure values of the point's input blocks and of what the accumulator held. A first step stores the zero block, reads
  it back and adds the block product; a middle or last step adds the block product onto what was there; a last step
  then stores accumulator + bias into the output's buffer. Every store covers its whole buffer and every load reads a
  whole buffer, so the stores' pieces read back are the values themselves.
-/
import proofs.«117267_j43508018708617_1_alg».proof.Proof.KI1Dat
import Idealize.ShloMosaic.Lib.Pipeline.Value

set_option maxRecDepth 16384

noncomputable section

namespace Cert.KernelIdeal.FrV

open Cert.KernelIdeal Cert.KernelIdeal.Gen Cert.KernelIdeal.Fr
open Idealize.ShloMosaic Idealize.ShloMosaic.TcCoe Idealize.ShloMosaic.Tactic
open Idealize.SL.Sem

variable {F : FTy → Type} [FloatOps F]

theorem hz2_1 : (![0, 0] : Fin 2 → Nat) = fun _ => 0 := funext fun a => by fin_cases a <;> rfl
theorem hz1_1 : (![0] : Fin 1 → Nat) = fun _ => 0 := funext fun a => by fin_cases a <;> rfl

/-- A first step leaves the zero block plus the block product. -/
theorem soutA_eq1 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : cond1_0 i) (hc1 : ¬cond1_1 i)
    (x0 : Vec F S1024x1024 .bf16) (x1 : Vec F S1024x1024 .bf16) (x2 : Vec F S1024 .f32) :
    sout1_A_0 c i arg3 harg3 arg4 harg4 arg5 harg5 arg6 harg6 arg7 harg7 hc0 hc1 x0 x1 x2 = k1_pay2 k1_pay1 x0 x1 := by
  unfold sout1_A_0
  rw [View.read_writes_eq_canon _ _ _ (scover1_A_0 c i arg3 harg3 arg4 harg4 arg5 harg5 arg6 harg6 arg7 harg7 hc0 hc1 x0 x1 x2)]
  unfold kernelRun1_A
  dsimp only
  sl_unfold_words
  rw [View.canon_cons_unit_zero (S := S1024x1024) hz2_1, View.readCov_unit_zero (S := S1024x1024) _ hz2_1]
  simp only [View.readAt_eq_ld, harg3.read_unread, harg4.read_unread, View.ld_unit_zero (S := S1024x1024) hz2_1]

/-- A middle step leaves what the accumulator held plus the block product. -/
theorem soutB_eq1 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : ¬cond1_1 i)
    (x0 : Vec F S1024x1024 .bf16) (x1 : Vec F S1024x1024 .bf16) (x2 : Vec F S1024 .f32) (xs0 : Vec F S1024x1024 .f32) :
    sout1_B_0 c i arg3 harg3 arg4 harg4 arg5 harg5 arg6 harg6 arg7 harg7 hc0 hc1 x0 x1 x2 xs0 = k1_pay2 xs0 x0 x1 := by
  unfold sout1_B_0
  rw [View.read_writes_eq_canon _ _ _ (scover1_B_0 c i arg3 harg3 arg4 harg4 arg5 harg5 arg6 harg6 arg7 harg7 hc0 hc1 x0 x1 x2 xs0)]
  unfold kernelRun1_B
  dsimp only
  (try sl_unfold_words)
  rw [View.canon_unit_zero hz2_1]
  simp only [View.readAt_eq_ld, harg3.read_unread, harg4.read_unread, harg7.read_unread, View.ld_unit_zero (S := S1024x1024) hz2_1]

/-- A last step leaves the same in the accumulator, -/
theorem soutC_eq1 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i)
    (x0 : Vec F S1024x1024 .bf16) (x1 : Vec F S1024x1024 .bf16) (x2 : Vec F S1024 .f32) (xs0 : Vec F S1024x1024 .f32) :
    sout1_C_0 c i arg3 harg3 arg4 harg4 arg5 harg5 arg6 harg6 arg7 harg7 hc0 hc1 x0 x1 x2 xs0 = k1_pay2 xs0 x0 x1 := by
  unfold sout1_C_0
  rw [View.read_writes_eq_canon _ _ _ (scover1_C_0 c i arg3 harg3 arg4 harg4 arg5 harg5 arg6 harg6 arg7 harg7 hc0 hc1 x0 x1 x2 xs0)]
  unfold kernelRun1_C
  dsimp only
  (try sl_unfold_words)
  rw [View.canon_unit_zero hz2_1]
  simp only [View.readAt_eq_ld, harg3.read_unread, harg4.read_unread, harg7.read_unread, View.ld_unit_zero (S := S1024x1024) hz2_1]

/-- and that plus the bias row in the output's buffer. -/
theorem outC_eq1 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i)
    (x0 : Vec F S1024x1024 .bf16) (x1 : Vec F S1024x1024 .bf16) (x2 : Vec F S1024 .f32) (xs0 : Vec F S1024x1024 .f32) :
    out1_C_3 c i arg3 harg3 arg4 harg4 arg5 harg5 arg6 harg6 arg7 harg7 hc0 hc1 x0 x1 x2 xs0 = k1_pay3 (k1_pay2 xs0 x0 x1) x2 := by
  unfold out1_C_3
  rw [View.read_writes_eq_canon _ _ _ (cover1_C_3 c i arg3 harg3 arg4 harg4 arg5 harg5 arg6 harg6 arg7 harg7 hc0 hc1 x0 x1 x2 xs0)]
  unfold kernelRun1_C
  dsimp only
  (try sl_unfold_words)
  rw [View.canon_unit_zero hz2_1, View.readCov_unit_zero (S := S1024x1024) _ hz2_1]
  simp only [View.readAt_eq_ld, harg3.read_unread, harg4.read_unread, harg5.read_unread, harg7.read_unread,
    View.ld_unit_zero (S := S1024x1024) hz2_1, View.ld_unit_zero (S := S1024) hz1_1]

end Cert.KernelIdeal.FrV

end
-- ==== Proof.KV1Blk.lean ====
/-
  Region 1: where the windows' blocks lie in their arrays. Grid point t is step t % 4 of the contraction for row
  block t / 44 and column block t / 4 % 11; x's block there is rows (t / 44) · 1024 … and contracted positions
  (t % 4) · 1024 …, w's block is rows (t / 4 % 11) · 1024 … and the same contracted positions, the bias block is entries
  (t / 4 % 11) · 1024 …, and the output's block is rows (t / 44) · 1024 …, columns (t / 4 % 11) · 1024 ….
-/
import proofs.«117267_j43508018708617_1_alg».proof.Proof.KI1Dat
import Idealize.ShloMosaic.Lib.Pipeline.Value
import Idealize.ShloMosaic.Lib.ValueIdx

set_option maxRecDepth 16384

noncomputable section

namespace Cert.KernelIdeal.FrV

open Cert.KernelIdeal Cert.KernelIdeal.Gen Cert.KernelIdeal.Fr
open Idealize.ShloMosaic Idealize.ShloMosaic.TcCoe Idealize.ShloMosaic.ValueIdx
open Idealize.SL.Sem
open Idealize.ShloMosaic.Pipeline (Dat)

variable {F : FTy → Type} [FloatOps F]
variable (V : (c : Dev nD) → (b : Ref sig .tc) → Buf (Elt F) ((c : Thread nD τ).loc b))

/-- The windows' block indices, decided over the grid. -/
theorem idx_facts1 : ∀ t : Fin cfg1.N,
    win1_0.index t (0 : Fin 2) = t.val / 44 ∧ win1_0.index t (1 : Fin 2) = t.val % 4
    ∧ win1_1.index t (0 : Fin 2) = t.val / 4 % 11 ∧ win1_1.index t (1 : Fin 2) = t.val % 4
    ∧ win1_2.index t (0 : Fin 1) = t.val / 4 % 11
    ∧ win1_3.index t (0 : Fin 2) = t.val / 44 ∧ win1_3.index t (1 : Fin 2) = t.val / 4 % 11 :=
  (by decide +kernel : ∀ t : Fin grid1.N,
    win1_0.index t (0 : Fin 2) = t.val / 44 ∧ win1_0.index t (1 : Fin 2) = t.val % 4
    ∧ win1_1.index t (0 : Fin 2) = t.val / 4 % 11 ∧ win1_1.index t (1 : Fin 2) = t.val % 4
    ∧ win1_2.index t (0 : Fin 1) = t.val / 4 % 11
    ∧ win1_3.index t (0 : Fin 2) = t.val / 44 ∧ win1_3.index t (1 : Fin 2) = t.val / 4 % 11)

/-- x's block at point `t`, entry (p, k), is x at row (t / 44) · 1024 + p and contracted position (t % 4) · 1024 + k. -/
theorem iblk1_0_apply (c : Dev nD) (t : Fin cfg1.N) (p k : Fin 1024) (r : Fin 4096) (kk : Fin 4096)
    (hr : r.val = t.val / 44 * 1024 + p.val) (hk : kk.val = t.val % 4 * 1024 + k.val) :
    (iblk1 V c 0 t : Vec F S1024x1024 .bf16) (ix2 p k) = (V c (Pipeline.arrRef spec1 0) : S4096x4096.Idx → Elt F .bf16) (ix2 r kk) := by
  obtain ⟨e0, e1, -⟩ := idx_facts1 t
  unfold iblk1
  rw [View.read_apply]
  show V c (Pipeline.arrRef spec1 0) _ = V c (Pipeline.arrRef spec1 0) _
  refine congrArg _ (funext fun a => Fin.ext ?_)
  match a with
  | ⟨0, _⟩ => show win1_0.index t 0 * 1024 + 1 * p.val = r.val; rw [e0, hr]; omega
  | ⟨1, _⟩ => show win1_0.index t 1 * 1024 + 1 * k.val = kk.val; rw [e1, hk]; omega

/-- w's block at point `t`, entry (q, k), is w at row (t / 4 % 11) · 1024 + q and contracted position (t % 4) · 1024 + k. -/
theorem iblk1_1_apply (c : Dev nD) (t : Fin cfg1.N) (q k : Fin 1024) (s : Fin 11264) (kk : Fin 4096)
    (hs : s.val = t.val / 4 % 11 * 1024 + q.val) (hk : kk.val = t.val % 4 * 1024 + k.val) :
    (iblk1 V c 1 t : Vec F S1024x1024 .bf16) (ix2 q k) = (V c (Pipeline.arrRef spec1 1) : S11264x4096.Idx → Elt F .bf16) (ix2 s kk) := by
  obtain ⟨-, -, e0, e1, -⟩ := idx_facts1 t
  unfold iblk1
  rw [View.read_apply]
  show V c (Pipeline.arrRef spec1 1) _ = V c (Pipeline.arrRef spec1 1) _
  refine congrArg _ (funext fun a => Fin.ext ?_)
  match a with
  | ⟨0, _⟩ => show win1_1.index t 0 * 1024 + 1 * q.val = s.val; rw [e0, hs]; omega
  | ⟨1, _⟩ => show win1_1.index t 1 * 1024 + 1 * k.val = kk.val; rw [e1, hk]; omega

/-- The bias block at point `t`, entry q, is the bias at (t / 4 % 11) · 1024 + q. -/
theorem iblk1_2_apply (c : Dev nD) (t : Fin cfg1.N) (q : Fin 1024) (s : Fin 11264)
    (hs : s.val = t.val / 4 % 11 * 1024 + q.val) :
    (iblk1 V c 2 t : Vec F S1024 .f32) (ix1 q) = (V c (Pipeline.arrRef spec1 2) : S11264.Idx → Elt F .f32) (ix1 s) := by
  obtain ⟨-, -, -, -, e0, -⟩ := idx_facts1 t
  unfold iblk1
  rw [View.read_apply]
  show V c (Pipeline.arrRef spec1 2) _ = V c (Pipeline.arrRef spec1 2) _
  refine congrArg _ (funext fun a => Fin.ext ?_)
  match a with
  | ⟨0, _⟩ => show win1_2.index t 0 * 1024 + 1 * q.val = s.val; rw [e0, hs]; omega

end Cert.KernelIdeal.FrV

end
-- ==== Proof.KV1Val.lean ====
/-
  Region 1: the array the region leaves is x · wᵀ + b of the three arrays it finds. After the point at step k of
  the contraction for block (I, J), entry (p, q) of the accumulator is the sum of the first (k + 1) · 1024 terms
  x (I · 1024 + p, ·) · w (J · 1024 + q, ·): the first step starts from the zero block, every later step adds its
  block's 1024 terms to what the step before left (addition of extended reals is associative: the partial sums
  over an initial segment grow block by block). At the last step all 4096 terms are there, the bias entry is added,
  and the block is written back to rows I · 1024 …, columns J · 1024 … of the output; these blocks tile the output.
-/
import proofs.«117267_j43508018708617_1_alg».proof.Proof.KV1Piece
import proofs.«117267_j43508018708617_1_alg».proof.Proof.KV1Blk
import proofs.«117267_j43508018708617_1_alg».proof.Proof.KVPay
import proofs.«117267_j43508018708617_1_alg».proof.Proof.KVSum
import proofs.«117267_j43508018708617_1_alg».proof.Proof.KerSpec
import Idealize.ShloMosaic.Lib.Pipeline.Value

set_option maxRecDepth 16384

noncomputable section

open scoped BigOperators

namespace Cert.KernelIdeal.FrV

open Cert.KernelIdeal Cert.KernelIdeal.Gen Cert.KernelIdeal.Fr Cert.KerSpec
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

/-- The three arrays as the region finds them: x, w and the bias. -/
abbrev X1 (c : Dev nD) : FVec Ideal S4096x4096 .bf16 := V c (Pipeline.arrRef spec1 0)
abbrev W1 (c : Dev nD) : FVec Ideal S11264x4096 .bf16 := V c (Pipeline.arrRef spec1 1)
abbrev B1 (c : Dev nD) : FVec Ideal S11264 .f32 := V c (Pipeline.arrRef spec1 2)

/-- The three input blocks at point `t`, at their vector types. -/
abbrev xblk1 (c : Dev nD) (t : Fin cfg1.N) : FVec Ideal S1024x1024 .bf16 := iblk1 V c 0 t
abbrev wblk1 (c : Dev nD) (t : Fin cfg1.N) : FVec Ideal S1024x1024 .bf16 := iblk1 V c 1 t
abbrev bblk1 (c : Dev nD) (t : Fin cfg1.N) : FVec Ideal S1024 .f32 := iblk1 V c 2 t

/-- The block product at point `t`, entry (p, q), is the block of 1024 terms of entry (r, s) of x · wᵀ that starts at
    term (t % 4) · 1024, for r = (t / 44) · 1024 + p and s = (t / 4 % 11) · 1024 + q. -/
theorem blockSum1 (c : Dev nD) (t : Fin cfg1.N) (p q : Fin 1024) (r : Fin 4096) (s : Fin 11264)
    (hr : r.val = t.val / 44 * 1024 + p.val) (hs : s.val = t.val / 4 % 11 * 1024 + q.val) :
    (∑ k : Fin 1024, xblk1 V c t (ix2 p k) * wblk1 V c t (ix2 q k))
      = ∑ k : Fin 1024, dotTerm (X1 V c) (W1 V c) r s (t.val % 4 * 1024 + k.val) := by
  refine Finset.sum_congr rfl fun k _ => ?_
  have hk : t.val % 4 * 1024 + k.val < 4096 := by have := k.isLt; omega
  rw [dotTerm_of_lt _ _ _ _ _ hk]
  exact congrArg₂ (· * ·) (iblk1_0_apply V c t p k r ⟨_, hk⟩ hr rfl) (iblk1_1_apply V c t q k s ⟨_, hk⟩ hs rfl)

/-- After a first step the accumulator holds the first block of terms. -/
theorem acc1_first (c : Dev nD) (t : Fin cfg1.N) (h0 : t.val % 4 = 0) (p q : Fin 1024) (r : Fin 4096) (s : Fin 11264)
    (hr : r.val = t.val / 44 * 1024 + p.val) (hs : s.val = t.val / 4 % 11 * 1024 + q.val) :
    (outsAt1 V c t.val t.isLt).2 (ix2 p q) = psum (dotTerm (X1 V c) (W1 V c) r s) ((t.val % 4 + 1) * 1024) := by
  have h1 : ¬t.val % 4 = 3 := by omega
  rw [outsAt1_A V c t h0 h1]
  dsimp only
  refine (congrFun (soutA_eq1 (F := Ideal) c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t)) (ix2 p q)).trans ?_
  refine (pay2_apply1 k1_pay1 (xblk1 V c t) (wblk1 V c t) p q).trans ?_
  rw [pay1_apply1, zero_add, blockSum1 V c t p q r s hr hs, h0, psum_block]
  exact Finset.sum_congr rfl fun k _ => by rw [Nat.zero_mul, Nat.zero_add]

/-- A later step adds its block of terms to what the step before left. -/
theorem acc1_next (c : Dev nD) (t : Fin cfg1.N) (h0 : ¬t.val % 4 = 0) (p q : Fin 1024) (r : Fin 4096) (s : Fin 11264)
    (hr : r.val = t.val / 44 * 1024 + p.val) (hs : s.val = t.val / 4 % 11 * 1024 + q.val)
    (hprev : (outsAt1 V c (t.val - 1) (Nat.lt_of_le_of_lt (Nat.sub_le _ _) t.isLt)).2 (ix2 p q) = psum (dotTerm (X1 V c) (W1 V c) r s) (t.val % 4 * 1024)) :
    k1_pay2 (outsAt1 V c (t.val - 1) (Nat.lt_of_le_of_lt (Nat.sub_le _ _) t.isLt)).2 (iblk1 V c 0 t) (iblk1 V c 1 t) (ix2 p q)
      = psum (dotTerm (X1 V c) (W1 V c) r s) ((t.val % 4 + 1) * 1024) := by
  refine (pay2_apply1 (outsAt1 V c (t.val - 1) (Nat.lt_of_le_of_lt (Nat.sub_le _ _) t.isLt)).2 (xblk1 V c t) (wblk1 V c t) p q).trans ?_
  rw [hprev, blockSum1 V c t p q r s hr hs, Nat.add_mul, Nat.one_mul, psum_add_block]

/-- THE ACCUMULATOR after position `n`: the first (n % 4 + 1) · 1024 terms of the entries of its block. -/
theorem acc1_eq (c : Dev nD) : ∀ (n : ℕ) (hn : n < cfg1.N) (p q : Fin 1024) (r : Fin 4096) (s : Fin 11264),
    r.val = n / 44 * 1024 + p.val → s.val = n / 4 % 11 * 1024 + q.val →
    (outsAt1 V c n hn).2 (ix2 p q) = psum (dotTerm (X1 V c) (W1 V c) r s) ((n % 4 + 1) * 1024)
  | 0, hn, p, q, r, s, hr, hs => acc1_first V c ⟨0, hn⟩ rfl p q r s hr hs
  | n + 1, hn, p, q, r, s, hr, hs => by
    by_cases h0 : (n + 1) % 4 = 0
    · exact acc1_first V c ⟨n + 1, hn⟩ h0 p q r s hr hs
    · have ih := acc1_eq c n (Nat.lt_of_succ_lt hn) p q r s (by omega) (by omega)
      have hprev : (outsAt1 V c ((⟨n + 1, hn⟩ : Fin cfg1.N).val - 1) (Nat.lt_of_le_of_lt (Nat.sub_le _ _) (⟨n + 1, hn⟩ : Fin cfg1.N).isLt)).2 (ix2 p q)
          = psum (dotTerm (X1 V c) (W1 V c) r s) ((⟨n + 1, hn⟩ : Fin cfg1.N).val % 4 * 1024) := by
        show (outsAt1 V c n _).2 (ix2 p q) = psum (dotTerm (X1 V c) (W1 V c) r s) ((n + 1) % 4 * 1024)
        rw [ih]
        exact congrArg _ (by omega)
      by_cases h1 : (n + 1) % 4 = 3
      · rw [outsAt1_C V c ⟨n + 1, hn⟩ h0 h1]
        dsimp only
        refine (congrFun (soutC_eq1 (F := Ideal) c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 V c ((⟨n + 1, hn⟩ : Fin cfg1.N).val - 1) (Nat.lt_of_le_of_lt (Nat.sub_le _ _) (⟨n + 1, hn⟩ : Fin cfg1.N).isLt)).2) (ix2 p q)).trans ?_
        exact acc1_next V c ⟨n + 1, hn⟩ h0 p q r s hr hs hprev
      · rw [outsAt1_B V c ⟨n + 1, hn⟩ h0 h1]
        dsimp only
        refine (congrFun (soutB_eq1 (F := Ideal) c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 V c ((⟨n + 1, hn⟩ : Fin cfg1.N).val - 1) (Nat.lt_of_le_of_lt (Nat.sub_le _ _) (⟨n + 1, hn⟩ : Fin cfg1.N).isLt)).2) (ix2 p q)).trans ?_
        exact acc1_next V c ⟨n + 1, hn⟩ h0 p q r s hr hs hprev

/-- THE OUTPUT BLOCK after a last step: entry (p, q) is entry (r, s) of x · wᵀ + b. -/
theorem out1_last (c : Dev nD) (t : Fin cfg1.N) (h1 : t.val % 4 = 3) (p q : Fin 1024) (r : Fin 4096) (s : Fin 11264)
    (hr : r.val = t.val / 44 * 1024 + p.val) (hs : s.val = t.val / 4 % 11 * 1024 + q.val) :
    (outsAt1 V c t.val t.isLt).1 (ix2 p q) = Lin01 (X1 V c) (W1 V c) (B1 V c) (ix2 r s) := by
  have h0 : ¬t.val % 4 = 0 := by omega
  have hN : t.val < 176 := lt_of_lt_of_eq t.isLt (show cfg1.N = 176 from N_1)
  rw [outsAt1_C V c t h0 h1]
  dsimp only
  refine (congrFun (outC_eq1 (F := Ideal) c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) (ix2 p q)).trans ?_
  refine (pay3_apply1 (k1_pay2 (outsAt1 V c (t.val - 1) (Nat.lt_of_le_of_lt (Nat.sub_le _ _) t.isLt)).2 (xblk1 V c t) (wblk1 V c t)) (bblk1 V c t) p q).trans ?_
  rw [Lin01_apply, ← psum_dotTerm_all]
  have hacc := acc1_next V c t h0 p q r s hr hs
    ((acc1_eq V c (t.val - 1) (Nat.lt_of_le_of_lt (Nat.sub_le _ _) t.isLt) p q r s (by omega) (by omega)).trans
      (congrArg _ (by omega)))
  rw [hacc]
  exact congrArg₂ (· + ·) (congrArg (psum (dotTerm (X1 V c) (W1 V c) r s)) (by omega)) (iblk1_2_apply V c t q s hs)

/-- The index the output's block at point `t` puts entry (p, q) at. -/
theorem emb1_3 (t : Fin cfg1.N) (p q : Fin 1024) (r : Fin 4096) (s : Fin 11264)
    (hr : r.val = t.val / 44 * 1024 + p.val) (hs : s.val = t.val / 4 % 11 * 1024 + q.val) :
    ((cfg1.win 3).blk t).view.emb (ix2 p q) = (ix2 r s : S4096x11264.Idx) := by
  obtain ⟨-, -, -, -, -, e0, e1⟩ := idx_facts1 t
  refine funext fun a => Fin.ext ?_
  match a with
  | ⟨0, _⟩ => show win1_3.index t 0 * 1024 + 1 * p.val = r.val; rw [e0, hr]; omega
  | ⟨1, _⟩ => show win1_3.index t 1 * 1024 + 1 * q.val = s.val; rw [e1, hs]; omega

/-- WHAT A LAST STEP WRITES BACK is its block of x · wᵀ + b. -/
theorem flushed1_eq (c : Dev nD) (t : Fin cfg1.N) (hf : (cfg1.win 3).flush t = true) :
    (dat1 (F := Ideal) V c).flushed 3 t = ((cfg1.win 3).blk t).view.read (Elt Ideal) (Lin01 (X1 V c) (W1 V c) (B1 V c)) := by
  have h1 : t.val % 4 = 3 := (flush1_3 t).mp hf
  have hN : t.val < 176 := lt_of_lt_of_eq t.isLt (show cfg1.N = 176 from N_1)
  show (cfg1.win 3).cut (grid1.coords t) ((dat1 V c).after 3 t) = _
  rw [after1_3]
  funext y
  obtain ⟨p, q, rfl⟩ : ∃ (p q : Fin 1024), y = ix2 p q := ⟨y 0, y 1, eq_ix2 y⟩
  have hr : t.val / 44 * 1024 + p.val < 4096 := by have := p.isLt; omega
  have hs : t.val / 4 % 11 * 1024 + q.val < 11264 := by have := q.isLt; omega
  rw [View.read_apply, emb1_3 t p q ⟨_, hr⟩ ⟨_, hs⟩ rfl rfl]
  exact out1_last V c t h1 p q ⟨_, hr⟩ ⟨_, hs⟩ rfl rfl

/-- An index of the output is in point `t`'s block iff each coordinate is in the block's range on its axis. -/
theorem mem_blk1 (t : Fin cfg1.N) (i : S4096x11264.Idx) :
    i ∈ ((cfg1.win 3).blk t).view.set ↔ ∀ a : Fin 2, win1_3.index t a * S1024x1024.size a ≤ (i a).val ∧ (i a).val < win1_3.index t a * S1024x1024.size a + S1024x1024.size a := by
  show i ∈ ((View.whole main_v49).slice (win1_3.rect t)).set ↔ _
  rw [View.set_slice_whole, Rect.mem_set_unit]
  exact Iff.rfl

/-- Every entry (r, s) of the output is written back by the last step of block (r / 1024, s / 1024). -/
theorem cover1 (i : S4096x11264.Idx) : ∃ t : Fin cfg1.N, (cfg1.win 3).flush t = true ∧ i ∈ ((cfg1.win 3).blk t).view.set := by
  have hi0 : (i 0).val < 4096 := idx2_lt0 i
  have hi1 : (i 1).val < 11264 := idx2_lt1 i
  have hN : cfg1.N = 176 := N_1
  have ht : (i 0).val / 1024 * 44 + (i 1).val / 1024 * 4 + 3 < cfg1.N := by rw [hN]; omega
  refine ⟨⟨_, ht⟩, (flush1_3 _).mpr (by dsimp only; omega), ?_⟩
  obtain ⟨-, -, -, -, -, e0, e1⟩ := idx_facts1 ⟨_, ht⟩
  rw [mem_blk1]
  intro a
  match a with
  | ⟨0, _⟩ =>
    show win1_3.index ⟨_, ht⟩ 0 * 1024 ≤ (i 0).val ∧ (i 0).val < win1_3.index ⟨_, ht⟩ 0 * 1024 + 1024
    rw [e0]; dsimp only; omega
  | ⟨1, _⟩ =>
    show win1_3.index ⟨_, ht⟩ 1 * 1024 ≤ (i 1).val ∧ (i 1).val < win1_3.index ⟨_, ht⟩ 1 * 1024 + 1024
    rw [e1]; dsimp only; omega

/-- THE REGION'S RESULT: the output array ends holding x · wᵀ + b of the arrays the region finds. -/
theorem region1_value (c : Dev nD) :
    (dat1 (F := Ideal) V c).arrAt 3 cfg1.N = Lin01 (X1 V c) (W1 V c) (B1 V c) :=
  (dat1 (F := Ideal) V c).arrAt_eq_of_cover 3 (Lin01 (X1 V c) (W1 V c) (B1 V c)) (flushed1_eq V c) cover1

end Cert.KernelIdeal.FrV

end
-- ==== Proof.KV2Piece.lean ====
/-
  Region 2: what each control case of the body leaves in the accumulator and in the output's buffer, as the body's
  pure values of the point's input blocks and of what the accumulator held. A first step stores the zero block, reads
  it back and adds the block product; a middle or last step adds the block product onto what was there; a last step
  then stores accumulator + bias into the output's buffer. Every store covers its whole buffer and every load reads a
  whole buffer, so the stores' pieces read back are the values themselves.
-/
import proofs.«117267_j43508018708617_1_alg».proof.Proof.KI2Dat
import Idealize.ShloMosaic.Lib.Pipeline.Value

set_option maxRecDepth 16384

noncomputable section

namespace Cert.KernelIdeal.FrV

open Cert.KernelIdeal Cert.KernelIdeal.Gen Cert.KernelIdeal.Fr
open Idealize.ShloMosaic Idealize.ShloMosaic.TcCoe Idealize.ShloMosaic.Tactic
open Idealize.SL.Sem

variable {F : FTy → Type} [FloatOps F]

theorem hz2_2 : (![0, 0] : Fin 2 → Nat) = fun _ => 0 := funext fun a => by fin_cases a <;> rfl
theorem hz1_2 : (![0] : Fin 1 → Nat) = fun _ => 0 := funext fun a => by fin_cases a <;> rfl

/-- A first step leaves the zero block plus the block product. -/
theorem soutA_eq2 (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : cond2_0 i) (hc1 : ¬cond2_1 i)
    (x0 : Vec F S1024x1024 .bf16) (x1 : Vec F S1024x1024 .bf16) (x2 : Vec F S1024 .f32) :
    sout2_A_0 c i arg3 harg3 arg4 harg4 arg5 harg5 arg6 harg6 arg7 harg7 hc0 hc1 x0 x1 x2 = k2_pay2 k2_pay1 x0 x1 := by
  unfold sout2_A_0
  rw [View.read_writes_eq_canon _ _ _ (scover2_A_0 c i arg3 harg3 arg4 harg4 arg5 harg5 arg6 harg6 arg7 harg7 hc0 hc1 x0 x1 x2)]
  unfold kernelRun2_A
  dsimp only
  sl_unfold_words
  rw [View.canon_cons_unit_zero (S := S1024x1024) hz2_2, View.readCov_unit_zero (S := S1024x1024) _ hz2_2]
  simp only [View.readAt_eq_ld, harg3.read_unread, harg4.read_unread, View.ld_unit_zero (S := S1024x1024) hz2_2]

/-- A middle step leaves what the accumulator held plus the block product. -/
theorem soutB_eq2 (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : ¬cond2_0 i) (hc1 : ¬cond2_1 i)
    (x0 : Vec F S1024x1024 .bf16) (x1 : Vec F S1024x1024 .bf16) (x2 : Vec F S1024 .f32) (xs0 : Vec F S1024x1024 .f32) :
    sout2_B_0 c i arg3 harg3 arg4 harg4 arg5 harg5 arg6 harg6 arg7 harg7 hc0 hc1 x0 x1 x2 xs0 = k2_pay2 xs0 x0 x1 := by
  unfold sout2_B_0
  rw [View.read_writes_eq_canon _ _ _ (scover2_B_0 c i arg3 harg3 arg4 harg4 arg5 harg5 arg6 harg6 arg7 harg7 hc0 hc1 x0 x1 x2 xs0)]
  unfold kernelRun2_B
  dsimp only
  (try sl_unfold_words)
  rw [View.canon_unit_zero hz2_2]
  simp only [View.readAt_eq_ld, harg3.read_unread, harg4.read_unread, harg7.read_unread, View.ld_unit_zero (S := S1024x1024) hz2_2]

/-- A last step leaves the same in the accumulator, -/
theorem soutC_eq2 (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : ¬cond2_0 i) (hc1 : cond2_1 i)
    (x0 : Vec F S1024x1024 .bf16) (x1 : Vec F S1024x1024 .bf16) (x2 : Vec F S1024 .f32) (xs0 : Vec F S1024x1024 .f32) :
    sout2_C_0 c i arg3 harg3 arg4 harg4 arg5 harg5 arg6 harg6 arg7 harg7 hc0 hc1 x0 x1 x2 xs0 = k2_pay2 xs0 x0 x1 := by
  unfold sout2_C_0
  rw [View.read_writes_eq_canon _ _ _ (scover2_C_0 c i arg3 harg3 arg4 harg4 arg5 harg5 arg6 harg6 arg7 harg7 hc0 hc1 x0 x1 x2 xs0)]
  unfold kernelRun2_C
  dsimp only
  (try sl_unfold_words)
  rw [View.canon_unit_zero hz2_2]
  simp only [View.readAt_eq_ld, harg3.read_unread, harg4.read_unread, harg7.read_unread, View.ld_unit_zero (S := S1024x1024) hz2_2]

/-- and that plus the bias row in the output's buffer. -/
theorem outC_eq2 (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : ¬cond2_0 i) (hc1 : cond2_1 i)
    (x0 : Vec F S1024x1024 .bf16) (x1 : Vec F S1024x1024 .bf16) (x2 : Vec F S1024 .f32) (xs0 : Vec F S1024x1024 .f32) :
    out2_C_3 c i arg3 harg3 arg4 harg4 arg5 harg5 arg6 harg6 arg7 harg7 hc0 hc1 x0 x1 x2 xs0 = k2_pay3 (k2_pay2 xs0 x0 x1) x2 := by
  unfold out2_C_3
  rw [View.read_writes_eq_canon _ _ _ (cover2_C_3 c i arg3 harg3 arg4 harg4 arg5 harg5 arg6 harg6 arg7 harg7 hc0 hc1 x0 x1 x2 xs0)]
  unfold kernelRun2_C
  dsimp only
  (try sl_unfold_words)
  rw [View.canon_unit_zero hz2_2, View.readCov_unit_zero (S := S1024x1024) _ hz2_2]
  simp only [View.readAt_eq_ld, harg3.read_unread, harg4.read_unread, harg5.read_unread, harg7.read_unread,
    View.ld_unit_zero (S := S1024x1024) hz2_2, View.ld_unit_zero (S := S1024) hz1_2]

end Cert.KernelIdeal.FrV

end
-- ==== Proof.KV2Blk.lean ====
/-
  Region 2: where the windows' blocks lie in their arrays. Grid point t is step t % 11 of the contraction for row
  block t / 44 and column block t / 11 % 4; x's block there is rows (t / 44) · 1024 … and contracted positions
  (t % 11) · 1024 …, w's block is rows (t / 11 % 4) · 1024 … and the same contracted positions, the bias block is entries
  (t / 11 % 4) · 1024 …, and the output's block is rows (t / 44) · 1024 …, columns (t / 11 % 4) · 1024 ….
-/
import proofs.«117267_j43508018708617_1_alg».proof.Proof.KI2Dat
import Idealize.ShloMosaic.Lib.Pipeline.Value
import Idealize.ShloMosaic.Lib.ValueIdx

set_option maxRecDepth 16384

noncomputable section

namespace Cert.KernelIdeal.FrV

open Cert.KernelIdeal Cert.KernelIdeal.Gen Cert.KernelIdeal.Fr
open Idealize.ShloMosaic Idealize.ShloMosaic.TcCoe Idealize.ShloMosaic.ValueIdx
open Idealize.SL.Sem
open Idealize.ShloMosaic.Pipeline (Dat)

variable {F : FTy → Type} [FloatOps F]
variable (V : (c : Dev nD) → (b : Ref sig .tc) → Buf (Elt F) ((c : Thread nD τ).loc b))

/-- The windows' block indices, decided over the grid. -/
theorem idx_facts2 : ∀ t : Fin cfg2.N,
    win2_0.index t (0 : Fin 2) = t.val / 44 ∧ win2_0.index t (1 : Fin 2) = t.val % 11
    ∧ win2_1.index t (0 : Fin 2) = t.val / 11 % 4 ∧ win2_1.index t (1 : Fin 2) = t.val % 11
    ∧ win2_2.index t (0 : Fin 1) = t.val / 11 % 4
    ∧ win2_3.index t (0 : Fin 2) = t.val / 44 ∧ win2_3.index t (1 : Fin 2) = t.val / 11 % 4 :=
  (by decide +kernel : ∀ t : Fin grid2.N,
    win2_0.index t (0 : Fin 2) = t.val / 44 ∧ win2_0.index t (1 : Fin 2) = t.val % 11
    ∧ win2_1.index t (0 : Fin 2) = t.val / 11 % 4 ∧ win2_1.index t (1 : Fin 2) = t.val % 11
    ∧ win2_2.index t (0 : Fin 1) = t.val / 11 % 4
    ∧ win2_3.index t (0 : Fin 2) = t.val / 44 ∧ win2_3.index t (1 : Fin 2) = t.val / 11 % 4)

/-- x's block at point `t`, entry (p, k), is x at row (t / 44) · 1024 + p and contracted position (t % 11) · 1024 + k. -/
theorem iblk2_0_apply (c : Dev nD) (t : Fin cfg2.N) (p k : Fin 1024) (r : Fin 4096) (kk : Fin 11264)
    (hr : r.val = t.val / 44 * 1024 + p.val) (hk : kk.val = t.val % 11 * 1024 + k.val) :
    (iblk2 V c 0 t : Vec F S1024x1024 .bf16) (ix2 p k) = (V c (Pipeline.arrRef spec2 0) : S4096x11264.Idx → Elt F .bf16) (ix2 r kk) := by
  obtain ⟨e0, e1, -⟩ := idx_facts2 t
  unfold iblk2
  rw [View.read_apply]
  show V c (Pipeline.arrRef spec2 0) _ = V c (Pipeline.arrRef spec2 0) _
  refine congrArg _ (funext fun a => Fin.ext ?_)
  match a with
  | ⟨0, _⟩ => show win2_0.index t 0 * 1024 + 1 * p.val = r.val; rw [e0, hr]; omega
  | ⟨1, _⟩ => show win2_0.index t 1 * 1024 + 1 * k.val = kk.val; rw [e1, hk]; omega

/-- w's block at point `t`, entry (q, k), is w at row (t / 11 % 4) · 1024 + q and contracted position (t % 11) · 1024 + k. -/
theorem iblk2_1_apply (c : Dev nD) (t : Fin cfg2.N) (q k : Fin 1024) (s : Fin 4096) (kk : Fin 11264)
    (hs : s.val = t.val / 11 % 4 * 1024 + q.val) (hk : kk.val = t.val % 11 * 1024 + k.val) :
    (iblk2 V c 1 t : Vec F S1024x1024 .bf16) (ix2 q k) = (V c (Pipeline.arrRef spec2 1) : S4096x11264.Idx → Elt F .bf16) (ix2 s kk) := by
  obtain ⟨-, -, e0, e1, -⟩ := idx_facts2 t
  unfold iblk2
  rw [View.read_apply]
  show V c (Pipeline.arrRef spec2 1) _ = V c (Pipeline.arrRef spec2 1) _
  refine congrArg _ (funext fun a => Fin.ext ?_)
  match a with
  | ⟨0, _⟩ => show win2_1.index t 0 * 1024 + 1 * q.val = s.val; rw [e0, hs]; omega
  | ⟨1, _⟩ => show win2_1.index t 1 * 1024 + 1 * k.val = kk.val; rw [e1, hk]; omega

/-- The bias block at point `t`, entry q, is the bias at (t / 11 % 4) · 1024 + q. -/
theorem iblk2_2_apply (c : Dev nD) (t : Fin cfg2.N) (q : Fin 1024) (s : Fin 4096)
    (hs : s.val = t.val / 11 % 4 * 1024 + q.val) :
    (iblk2 V c 2 t : Vec F S1024 .f32) (ix1 q) = (V c (Pipeline.arrRef spec2 2) : S4096.Idx → Elt F .f32) (ix1 s) := by
  obtain ⟨-, -, -, -, e0, -⟩ := idx_facts2 t
  unfold iblk2
  rw [View.read_apply]
  show V c (Pipeline.arrRef spec2 2) _ = V c (Pipeline.arrRef spec2 2) _
  refine congrArg _ (funext fun a => Fin.ext ?_)
  match a with
  | ⟨0, _⟩ => show win2_2.index t 0 * 1024 + 1 * q.val = s.val; rw [e0, hs]; omega

end Cert.KernelIdeal.FrV

end
-- ==== Proof.KV2Val.lean ====
/-
  Region 2: the array the region leaves is x · wᵀ + b of the three arrays it finds. After the point at step k of
  the contraction for block (I, J), entry (p, q) of the accumulator is the sum of the first (k + 1) · 1024 terms
  x (I · 1024 + p, ·) · w (J · 1024 + q, ·): the first step starts from the zero block, every later step adds its
  block's 1024 terms to what the step before left (addition of extended reals is associative: the partial sums
  over an initial segment grow block by block). At the last step all 11264 terms are there, the bias entry is added,
  and the block is written back to rows I · 1024 …, columns J · 1024 … of the output; these blocks tile the output.
-/
import proofs.«117267_j43508018708617_1_alg».proof.Proof.KV2Piece
import proofs.«117267_j43508018708617_1_alg».proof.Proof.KV2Blk
import proofs.«117267_j43508018708617_1_alg».proof.Proof.KVPay
import proofs.«117267_j43508018708617_1_alg».proof.Proof.KVSum
import proofs.«117267_j43508018708617_1_alg».proof.Proof.KerSpec
import Idealize.ShloMosaic.Lib.Pipeline.Value

set_option maxRecDepth 16384

noncomputable section

open scoped BigOperators

namespace Cert.KernelIdeal.FrV

open Cert.KernelIdeal Cert.KernelIdeal.Gen Cert.KernelIdeal.Fr Cert.KerSpec
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

/-- The three arrays as the region finds them: x, w and the bias. -/
abbrev X2 (c : Dev nD) : FVec Ideal S4096x11264 .bf16 := V c (Pipeline.arrRef spec2 0)
abbrev W2 (c : Dev nD) : FVec Ideal S4096x11264 .bf16 := V c (Pipeline.arrRef spec2 1)
abbrev B2 (c : Dev nD) : FVec Ideal S4096 .f32 := V c (Pipeline.arrRef spec2 2)

/-- The three input blocks at point `t`, at their vector types. -/
abbrev xblk2 (c : Dev nD) (t : Fin cfg2.N) : FVec Ideal S1024x1024 .bf16 := iblk2 V c 0 t
abbrev wblk2 (c : Dev nD) (t : Fin cfg2.N) : FVec Ideal S1024x1024 .bf16 := iblk2 V c 1 t
abbrev bblk2 (c : Dev nD) (t : Fin cfg2.N) : FVec Ideal S1024 .f32 := iblk2 V c 2 t

/-- The block product at point `t`, entry (p, q), is the block of 1024 terms of entry (r, s) of x · wᵀ that starts at
    term (t % 11) · 1024, for r = (t / 44) · 1024 + p and s = (t / 11 % 4) · 1024 + q. -/
theorem blockSum2 (c : Dev nD) (t : Fin cfg2.N) (p q : Fin 1024) (r : Fin 4096) (s : Fin 4096)
    (hr : r.val = t.val / 44 * 1024 + p.val) (hs : s.val = t.val / 11 % 4 * 1024 + q.val) :
    (∑ k : Fin 1024, xblk2 V c t (ix2 p k) * wblk2 V c t (ix2 q k))
      = ∑ k : Fin 1024, dotTerm (X2 V c) (W2 V c) r s (t.val % 11 * 1024 + k.val) := by
  refine Finset.sum_congr rfl fun k _ => ?_
  have hk : t.val % 11 * 1024 + k.val < 11264 := by have := k.isLt; omega
  rw [dotTerm_of_lt _ _ _ _ _ hk]
  exact congrArg₂ (· * ·) (iblk2_0_apply V c t p k r ⟨_, hk⟩ hr rfl) (iblk2_1_apply V c t q k s ⟨_, hk⟩ hs rfl)

/-- After a first step the accumulator holds the first block of terms. -/
theorem acc2_first (c : Dev nD) (t : Fin cfg2.N) (h0 : t.val % 11 = 0) (p q : Fin 1024) (r : Fin 4096) (s : Fin 4096)
    (hr : r.val = t.val / 44 * 1024 + p.val) (hs : s.val = t.val / 11 % 4 * 1024 + q.val) :
    (outsAt2 V c t.val t.isLt).2 (ix2 p q) = psum (dotTerm (X2 V c) (W2 V c) r s) ((t.val % 11 + 1) * 1024) := by
  have h1 : ¬t.val % 11 = 10 := by omega
  rw [outsAt2_A V c t h0 h1]
  dsimp only
  refine (congrFun (soutA_eq2 (F := Ideal) c (grid2.coords t) (ms2_0 t) (hs2_0 t) (ms2_1 t) (hs2_1 t) (ms2_2 t) (hs2_2 t) (ms2_3 t) (hs2_3 t) scM2_0 (Memref.isWhole_whole _) ((hcond2_0 t).mpr h0) (fun h => h1 ((hcond2_1 t).mp h)) (iblk2 V c 0 t) (iblk2 V c 1 t) (iblk2 V c 2 t)) (ix2 p q)).trans ?_
  refine (pay2_apply2 k2_pay1 (xblk2 V c t) (wblk2 V c t) p q).trans ?_
  rw [pay1_apply2, zero_add, blockSum2 V c t p q r s hr hs, h0, psum_block]
  exact Finset.sum_congr rfl fun k _ => by rw [Nat.zero_mul, Nat.zero_add]

/-- A later step adds its block of terms to what the step before left. -/
theorem acc2_next (c : Dev nD) (t : Fin cfg2.N) (h0 : ¬t.val % 11 = 0) (p q : Fin 1024) (r : Fin 4096) (s : Fin 4096)
    (hr : r.val = t.val / 44 * 1024 + p.val) (hs : s.val = t.val / 11 % 4 * 1024 + q.val)
    (hprev : (outsAt2 V c (t.val - 1) (Nat.lt_of_le_of_lt (Nat.sub_le _ _) t.isLt)).2 (ix2 p q) = psum (dotTerm (X2 V c) (W2 V c) r s) (t.val % 11 * 1024)) :
    k2_pay2 (outsAt2 V c (t.val - 1) (Nat.lt_of_le_of_lt (Nat.sub_le _ _) t.isLt)).2 (iblk2 V c 0 t) (iblk2 V c 1 t) (ix2 p q)
      = psum (dotTerm (X2 V c) (W2 V c) r s) ((t.val % 11 + 1) * 1024) := by
  refine (pay2_apply2 (outsAt2 V c (t.val - 1) (Nat.lt_of_le_of_lt (Nat.sub_le _ _) t.isLt)).2 (xblk2 V c t) (wblk2 V c t) p q).trans ?_
  rw [hprev, blockSum2 V c t p q r s hr hs, Nat.add_mul, Nat.one_mul, psum_add_block]

/-- THE ACCUMULATOR after position `n`: the first (n % 11 + 1) · 1024 terms of the entries of its block. -/
theorem acc2_eq (c : Dev nD) : ∀ (n : ℕ) (hn : n < cfg2.N) (p q : Fin 1024) (r : Fin 4096) (s : Fin 4096),
    r.val = n / 44 * 1024 + p.val → s.val = n / 11 % 4 * 1024 + q.val →
    (outsAt2 V c n hn).2 (ix2 p q) = psum (dotTerm (X2 V c) (W2 V c) r s) ((n % 11 + 1) * 1024)
  | 0, hn, p, q, r, s, hr, hs => acc2_first V c ⟨0, hn⟩ rfl p q r s hr hs
  | n + 1, hn, p, q, r, s, hr, hs => by
    by_cases h0 : (n + 1) % 11 = 0
    · exact acc2_first V c ⟨n + 1, hn⟩ h0 p q r s hr hs
    · have ih := acc2_eq c n (Nat.lt_of_succ_lt hn) p q r s (by omega) (by omega)
      have hprev : (outsAt2 V c ((⟨n + 1, hn⟩ : Fin cfg2.N).val - 1) (Nat.lt_of_le_of_lt (Nat.sub_le _ _) (⟨n + 1, hn⟩ : Fin cfg2.N).isLt)).2 (ix2 p q)
          = psum (dotTerm (X2 V c) (W2 V c) r s) ((⟨n + 1, hn⟩ : Fin cfg2.N).val % 11 * 1024) := by
        show (outsAt2 V c n _).2 (ix2 p q) = psum (dotTerm (X2 V c) (W2 V c) r s) ((n + 1) % 11 * 1024)
        rw [ih]
        exact congrArg _ (by omega)
      by_cases h1 : (n + 1) % 11 = 10
      · rw [outsAt2_C V c ⟨n + 1, hn⟩ h0 h1]
        dsimp only
        refine (congrFun (soutC_eq2 (F := Ideal) c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (outsAt2 V c ((⟨n + 1, hn⟩ : Fin cfg2.N).val - 1) (Nat.lt_of_le_of_lt (Nat.sub_le _ _) (⟨n + 1, hn⟩ : Fin cfg2.N).isLt)).2) (ix2 p q)).trans ?_
        exact acc2_next V c ⟨n + 1, hn⟩ h0 p q r s hr hs hprev
      · rw [outsAt2_B V c ⟨n + 1, hn⟩ h0 h1]
        dsimp only
        refine (congrFun (soutB_eq2 (F := Ideal) c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (outsAt2 V c ((⟨n + 1, hn⟩ : Fin cfg2.N).val - 1) (Nat.lt_of_le_of_lt (Nat.sub_le _ _) (⟨n + 1, hn⟩ : Fin cfg2.N).isLt)).2) (ix2 p q)).trans ?_
        exact acc2_next V c ⟨n + 1, hn⟩ h0 p q r s hr hs hprev

/-- THE OUTPUT BLOCK after a last step: entry (p, q) is entry (r, s) of x · wᵀ + b. -/
theorem out2_last (c : Dev nD) (t : Fin cfg2.N) (h1 : t.val % 11 = 10) (p q : Fin 1024) (r : Fin 4096) (s : Fin 4096)
    (hr : r.val = t.val / 44 * 1024 + p.val) (hs : s.val = t.val / 11 % 4 * 1024 + q.val) :
    (outsAt2 V c t.val t.isLt).1 (ix2 p q) = Lin2 (X2 V c) (W2 V c) (B2 V c) (ix2 r s) := by
  have h0 : ¬t.val % 11 = 0 := by omega
  have hN : t.val < 176 := lt_of_lt_of_eq t.isLt (show cfg2.N = 176 from N_2)
  rw [outsAt2_C V c t h0 h1]
  dsimp only
  refine (congrFun (outC_eq2 (F := Ideal) c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2) (ix2 p q)).trans ?_
  refine (pay3_apply2 (k2_pay2 (outsAt2 V c (t.val - 1) (Nat.lt_of_le_of_lt (Nat.sub_le _ _) t.isLt)).2 (xblk2 V c t) (wblk2 V c t)) (bblk2 V c t) p q).trans ?_
  rw [Lin2_apply, ← psum_dotTerm_all]
  have hacc := acc2_next V c t h0 p q r s hr hs
    ((acc2_eq V c (t.val - 1) (Nat.lt_of_le_of_lt (Nat.sub_le _ _) t.isLt) p q r s (by omega) (by omega)).trans
      (congrArg _ (by omega)))
  rw [hacc]
  exact congrArg₂ (· + ·) (congrArg (psum (dotTerm (X2 V c) (W2 V c) r s)) (by omega)) (iblk2_2_apply V c t q s hs)

/-- The index the output's block at point `t` puts entry (p, q) at. -/
theorem emb2_3 (t : Fin cfg2.N) (p q : Fin 1024) (r : Fin 4096) (s : Fin 4096)
    (hr : r.val = t.val / 44 * 1024 + p.val) (hs : s.val = t.val / 11 % 4 * 1024 + q.val) :
    ((cfg2.win 3).blk t).view.emb (ix2 p q) = (ix2 r s : S4096x4096.Idx) := by
  obtain ⟨-, -, -, -, -, e0, e1⟩ := idx_facts2 t
  refine funext fun a => Fin.ext ?_
  match a with
  | ⟨0, _⟩ => show win2_3.index t 0 * 1024 + 1 * p.val = r.val; rw [e0, hr]; omega
  | ⟨1, _⟩ => show win2_3.index t 1 * 1024 + 1 * q.val = s.val; rw [e1, hs]; omega

/-- WHAT A LAST STEP WRITES BACK is its block of x · wᵀ + b. -/
theorem flushed2_eq (c : Dev nD) (t : Fin cfg2.N) (hf : (cfg2.win 3).flush t = true) :
    (dat2 (F := Ideal) V c).flushed 3 t = ((cfg2.win 3).blk t).view.read (Elt Ideal) (Lin2 (X2 V c) (W2 V c) (B2 V c)) := by
  have h1 : t.val % 11 = 10 := (flush2_3 t).mp hf
  have hN : t.val < 176 := lt_of_lt_of_eq t.isLt (show cfg2.N = 176 from N_2)
  show (cfg2.win 3).cut (grid2.coords t) ((dat2 V c).after 3 t) = _
  rw [after2_3]
  funext y
  obtain ⟨p, q, rfl⟩ : ∃ (p q : Fin 1024), y = ix2 p q := ⟨y 0, y 1, eq_ix2 y⟩
  have hr : t.val / 44 * 1024 + p.val < 4096 := by have := p.isLt; omega
  have hs : t.val / 11 % 4 * 1024 + q.val < 4096 := by have := q.isLt; omega
  rw [View.read_apply, emb2_3 t p q ⟨_, hr⟩ ⟨_, hs⟩ rfl rfl]
  exact out2_last V c t h1 p q ⟨_, hr⟩ ⟨_, hs⟩ rfl rfl

/-- An index of the output is in point `t`'s block iff each coordinate is in the block's range on its axis. -/
theorem mem_blk2 (t : Fin cfg2.N) (i : S4096x4096.Idx) :
    i ∈ ((cfg2.win 3).blk t).view.set ↔ ∀ a : Fin 2, win2_3.index t a * S1024x1024.size a ≤ (i a).val ∧ (i a).val < win2_3.index t a * S1024x1024.size a + S1024x1024.size a := by
  show i ∈ ((View.whole main_v84).slice (win2_3.rect t)).set ↔ _
  rw [View.set_slice_whole, Rect.mem_set_unit]
  exact Iff.rfl

/-- Every entry (r, s) of the output is written back by the last step of block (r / 1024, s / 1024). -/
theorem cover2 (i : S4096x4096.Idx) : ∃ t : Fin cfg2.N, (cfg2.win 3).flush t = true ∧ i ∈ ((cfg2.win 3).blk t).view.set := by
  have hi0 : (i 0).val < 4096 := idx2_lt0 i
  have hi1 : (i 1).val < 4096 := idx2_lt1 i
  have hN : cfg2.N = 176 := N_2
  have ht : (i 0).val / 1024 * 44 + (i 1).val / 1024 * 11 + 10 < cfg2.N := by rw [hN]; omega
  refine ⟨⟨_, ht⟩, (flush2_3 _).mpr (by dsimp only; omega), ?_⟩
  obtain ⟨-, -, -, -, -, e0, e1⟩ := idx_facts2 ⟨_, ht⟩
  rw [mem_blk2]
  intro a
  match a with
  | ⟨0, _⟩ =>
    show win2_3.index ⟨_, ht⟩ 0 * 1024 ≤ (i 0).val ∧ (i 0).val < win2_3.index ⟨_, ht⟩ 0 * 1024 + 1024
    rw [e0]; dsimp only; omega
  | ⟨1, _⟩ =>
    show win2_3.index ⟨_, ht⟩ 1 * 1024 ≤ (i 1).val ∧ (i 1).val < win2_3.index ⟨_, ht⟩ 1 * 1024 + 1024
    rw [e1]; dsimp only; omega

/-- THE REGION'S RESULT: the output array ends holding x · wᵀ + b of the arrays the region finds. -/
theorem region2_value (c : Dev nD) :
    (dat2 (F := Ideal) V c).arrAt 3 cfg2.N = Lin2 (X2 V c) (W2 V c) (B2 V c) :=
  (dat2 (F := Ideal) V c).arrAt_eq_of_cover 3 (Lin2 (X2 V c) (W2 V c) (B2 V c)) (flushed2_eq V c) cover2

end Cert.KernelIdeal.FrV

end
-- ==== Proof.KIValue.lean ====
/-
  The idealized kernel's result as one function of its seven arguments.  Region 0 leaves the gate projection before
  quantisation, region 1 the up projection: each is x̂ · ŵᵀ + b̂ of the quantised input, the quantised zero-padded
  weights and the zero-padded bias, because a block product accumulated over the blocks of the contracted axis is the
  whole product.  The host steps between the regions turn the two into the quantised activation, and region 2 leaves
  its product with the quantised zero-padded down-projection weights, plus the bias: the function `KerSpec.ker`.
-/
import proofs.«117267_j43508018708617_1_alg».proof.Proof.KIFrame
import proofs.«117267_j43508018708617_1_alg».proof.Proof.KerHostB
import proofs.«117267_j43508018708617_1_alg».proof.Proof.KV0Val
import proofs.«117267_j43508018708617_1_alg».proof.Proof.KV1Val
import proofs.«117267_j43508018708617_1_alg».proof.Proof.KV2Val
import proofs.«117267_j43508018708617_1_alg».proof.Proof.KerSpec

noncomputable section

namespace Cert.KernelIdeal.FrW

open Cert.KernelIdeal Cert.KernelIdeal.Gen Cert.KernelIdeal.GenP Cert.KernelIdeal.Fr Cert.KernelIdeal.FrH Cert.KernelIdeal.FrV Cert.KerSpec
open Idealize.ShloMosaic Idealize.ShloMosaic.TcCoe Idealize.SL.Sem

variable (m : (ℓ : Loc nD τ sig) → Buf (Elt Ideal) ℓ) (c : Dev nD)

/-- The argument arrays on core `c`. -/
abbrev A0 : FVec Ideal S4096x4096 .f32 := m ((c : Thread nD τ).loc main_arg0)
abbrev A1 : FVec Ideal S10922x4096 .f32 := m ((c : Thread nD τ).loc main_arg1)
abbrev A2 : FVec Ideal S10922x4096 .f32 := m ((c : Thread nD τ).loc main_arg2)
abbrev A3 : FVec Ideal S4096x10922 .f32 := m ((c : Thread nD τ).loc main_arg3)
abbrev A4 : FVec Ideal S10922 .f32 := m ((c : Thread nD τ).loc main_arg4)
abbrev A5 : FVec Ideal S10922 .f32 := m ((c : Thread nD τ).loc main_arg5)
abbrev A6 : FVec Ideal S4096 .f32 := m ((c : Thread nD τ).loc main_arg6)

/-- Region 0 leaves the gate projection before quantisation. -/
theorem gateRaw_eq : @Eq (FVec Ideal S4096x11264 .f32) (W28 (F := Ideal) m c main_v48)
    (Lin01 (k_v45 (A0 m c)) (k_v46 (A1 m c)) (k_v3 (A4 m c))) :=
  (Wout0 m c).trans <| (region0_value (rd (V27 m)) c).trans <| by
    show Lin01 (V27 m c main_v45) (V27 m c main_v46) (V27 m c main_v3) = _
    rw [r0_x m c, r0_w m c, r0_b m c]

/-- Region 1 leaves the up projection before quantisation. -/
theorem upRaw_eq : @Eq (FVec Ideal S4096x11264 .f32) (W29 (F := Ideal) m c main_v49)
    (Lin01 (k_v45 (A0 m c)) (k_v47 (A2 m c)) (k_v4 (A5 m c))) :=
  (Wout1 m c).trans <| (region1_value (rd (V28 m (outsA m))) c).trans <| by
    show Lin01 (V28 m (outsA m) c main_v45) (V28 m (outsA m) c main_v47) (V28 m (outsA m) c main_v4) = _
    rw [r1_x m (outsA m) c, r1_w m (outsA m) c, r1_b m (outsA m) c]

/-- Region 2's output array after the run is the kernel's function of the seven arguments. -/
theorem kernel_value : @Eq (FVec Ideal S4096x4096 .f32) ((pdats (F := Ideal) m 2 c).arrAt 3 cfg2.N)
    (ker (A0 m c) (A1 m c) (A2 m c) (A3 m c) (A4 m c) (A5 m c) (A6 m c)) := by
  show (dat2 (F := Ideal) (rd (V44 m (outsB m))) c).arrAt 3 cfg2.N = _
  refine (region2_value (rd (V44 m (outsB m))) c).trans ?_
  show Lin2 (V44 m (outsB m) c main_v82) (V44 m (outsB m) c main_v83) (V44 m (outsB m) c main_arg6) = _
  rw [r2_x m (outsB m) c, r2_w m (outsB m) c, r2_b m (outsB m) c]
  show Lin2 (k_v82 (W28 m c main_v48) (W29 m c main_v49)) (k_v83 (A3 m c)) (A6 m c) = _
  rw [gateRaw_eq m c, upRaw_eq m c]
  rfl

end Cert.KernelIdeal.FrW

end
-- ==== Proof.LibFakeQuant.lean ====
/-
  Symmetric per-tensor quantisation on the extended reals, and arrays extended by zeros.

  For a finite family `t` of extended reals: `amax t` is the largest absolute value, `sc M = max (M / 127) ε` the
  scale that belongs to a largest absolute value `M` (ε the float nearest 1e-8), `q s v = clamp (round (v / s)) * s`
  one quantised entry and `FQ t i = q (sc (amax t)) (t i)` the quantised family.

  A family `y` on a larger index set EXTENDS `x` BY ZEROS along a map `e` of the index sets when `y ∘ e = x` and
  `y` is zero off the image of `e`. Absolute values are never negative, so appending zeros to a non-empty family
  does not change its largest absolute value; and zero is quantised to zero at every scale that is not zero
  (`0 / s = 0`, `round 0 = 0`, `−127 ≤ 0 ≤ 127`, `0 * s = 0` — on the extended reals `0 * ⊤ = 0` too). So
  quantisation commutes with extension by zeros, with no finiteness assumption on the entries.
-/
import Idealize.ShloMosaic.PureOps.Ideal.Laws
import Idealize.ShloMosaic.Lib.IdealHost

noncomputable section

open scoped BigOperators

namespace Cert.FakeQuant

open Idealize.ShloMosaic

/-- 127, as the float word the programs spell. -/
abbrev c127 : EReal := Ideal.ofBits .f32 0x42FE0000#32
/-- −127. -/
abbrev cm127 : EReal := Ideal.ofBits .f32 0xC2FE0000#32
/-- The float nearest 1e-8. -/
abbrev ceps : EReal := Ideal.ofBits .f32 0x322BCC77#32

theorem c127_eq : c127 = ((127 : ℝ) : EReal) := by
  simp [c127, Ideal.ofBits, Ideal.ieee, -EReal.coe_mul]; norm_num
theorem cm127_eq : cm127 = ((-127 : ℝ) : EReal) := by
  simp [cm127, Ideal.ofBits, Ideal.ieee, -EReal.coe_mul, -EReal.coe_neg]; norm_num
theorem c127_nonneg : 0 ≤ c127 := by rw [c127_eq]; exact EReal.coe_nonneg.mpr (by norm_num)
theorem cm127_nonpos : cm127 ≤ 0 := by rw [cm127_eq]; exact EReal.coe_nonpos.mpr (by norm_num)
theorem ceps_pos : 0 < ceps := by
  have : ceps = (((2 ^ 23 + 2870391 : ℕ) : ℝ) * (2 : ℝ) ^ (-50 : ℤ) : ℝ) := by
    simp [ceps, Ideal.ofBits, Ideal.ieee, -EReal.coe_mul]
  rw [this]; exact EReal.coe_pos.mpr (by positivity)

/-- The absolute value of an extended real is not negative. -/
theorem abs_nonneg (v : EReal) : 0 ≤ max v (-v) := by
  rcases le_total 0 v with h | h
  · exact le_max_of_le_left h
  · exact le_max_of_le_right (by simpa using EReal.neg_le_neg_iff.mpr h)

/-- The largest absolute value of a finite family (−∞ for the empty family). -/
def amax {ι : Type} [Fintype ι] (t : ι → EReal) : EReal := Finset.univ.sup fun i => max (t i) (-(t i))

/-- The scale for a largest absolute value `M`. -/
def sc (M : EReal) : EReal := max (Ideal.div M c127) ceps

/-- One entry quantised at scale `s`. -/
def q (s v : EReal) : EReal :=
  min c127 (max cm127 (Ideal.liftRound Ideal.roundHalfEven (Ideal.div v s))) * s

/-- The quantised family. -/
def FQ {ι : Type} [Fintype ι] (t : ι → EReal) : ι → EReal := fun i => q (sc (amax t)) (t i)

/-- `v * (1 / (1 + exp (−v)))`. -/
def silu1 (v : EReal) : EReal := v * Ideal.div (Ideal.ofBits .f32 0x3F800000#32) (Ideal.ofBits .f32 0x3F800000#32 + Ideal.exp (-v))

/-- The activation stage: quantise `g` and `u`, multiply `silu1` of the first by the second, quantise the product. -/
def actOf {ι : Type} [Fintype ι] (g u : ι → EReal) : ι → EReal := FQ fun j => silu1 (FQ g j) * FQ u j

theorem sc_pos (M : EReal) : 0 < sc M := lt_of_lt_of_le ceps_pos (le_max_right _ _)
theorem sc_ne_zero (M : EReal) : sc M ≠ 0 := (sc_pos M).ne'

theorem roundHalfEven_zero : Ideal.roundHalfEven 0 = 0 := by
  simp [Ideal.roundHalfEven]

/-- Zero is quantised to zero at every scale that is not zero. -/
theorem q_zero {s : EReal} (hs : s ≠ 0) : q s 0 = 0 := by
  unfold q
  rw [Ideal.zero_div hs]
  have h0 : Ideal.liftRound Ideal.roundHalfEven (0 : EReal) = 0 := by
    rw [show (0 : EReal) = ((0 : ℝ) : EReal) from rfl, Ideal.liftRound_coe, roundHalfEven_zero]; simp
  rw [h0, max_eq_right cm127_nonpos, min_eq_right c127_nonneg, zero_mul]

theorem silu1_zero : silu1 0 = 0 := by unfold silu1; rw [zero_mul]

/-! ## Extension by zeros -/

/-- `y` extends `x` by zeros along `e`. -/
def ZExt {ι κ : Type} (e : ι → κ) (x : ι → EReal) (y : κ → EReal) : Prop :=
  (∀ i, y (e i) = x i) ∧ ∀ j, j ∉ Set.range e → y j = 0

variable {ι κ : Type} [Fintype ι] [Fintype κ] {e : ι → κ} {x x' : ι → EReal} {y y' : κ → EReal}

/-- Appending zeros to a non-empty family does not change its largest absolute value. -/
theorem amax_zext [Nonempty ι] (h : ZExt e x y) : amax y = amax x := by
  unfold amax
  apply le_antisymm
  · refine Finset.sup_le fun j _ => ?_
    by_cases hj : j ∈ Set.range e
    · obtain ⟨i, rfl⟩ := hj
      rw [h.1 i]
      exact Finset.le_sup (f := fun i => max (x i) (-(x i))) (Finset.mem_univ i)
    · rw [h.2 j hj]
      obtain ⟨i0⟩ := ‹Nonempty ι›
      refine le_trans ?_ (Finset.le_sup (f := fun i => max (x i) (-(x i))) (Finset.mem_univ i0))
      simpa using abs_nonneg (x i0)
  · refine Finset.sup_le fun i _ => ?_
    rw [← h.1 i]
    exact Finset.le_sup (f := fun j => max (y j) (-(y j))) (Finset.mem_univ (e i))

/-- Quantisation commutes with extension by zeros. -/
theorem FQ_zext [Nonempty ι] (h : ZExt e x y) : ZExt e (FQ x) (FQ y) := by
  refine ⟨fun i => ?_, fun j hj => ?_⟩
  · show q (sc (amax y)) (y (e i)) = q (sc (amax x)) (x i)
    rw [amax_zext h, h.1 i]
  · show q (sc (amax y)) (y j) = 0
    rw [h.2 j hj]; exact q_zero (sc_ne_zero _)

/-- An entrywise operation that sends a pair of zeros to zero commutes with extension by zeros. -/
theorem map2_zext (f : EReal → EReal → EReal) (hf : f 0 0 = 0) (h : ZExt e x y) (h' : ZExt e x' y') :
    ZExt e (fun i => f (x i) (x' i)) (fun j => f (y j) (y' j)) :=
  ⟨fun i => by show f (y (e i)) (y' (e i)) = f (x i) (x' i); rw [h.1 i, h'.1 i],
    fun j hj => by show f (y j) (y' j) = 0; rw [h.2 j hj, h'.2 j hj, hf]⟩

/-- The activation stage commutes with extension by zeros. -/
theorem actOf_zext [Nonempty ι] (h : ZExt e x y) (h' : ZExt e x' y') : ZExt e (actOf x x') (actOf y y') :=
  FQ_zext (map2_zext (fun a b => silu1 a * b) (by rw [silu1_zero, zero_mul]) (FQ_zext h) (FQ_zext h'))

/-- Two families that extend the same family by zeros along the same map are equal. -/
theorem ZExt.unique (h : ZExt e x y) (h' : ZExt e x y') : y = y' := by
  funext j
  by_cases hj : j ∈ Set.range e
  · obtain ⟨i, rfl⟩ := hj; rw [h.1 i, h'.1 i]
  · rw [h.2 j hj, h'.2 j hj]

/-- Replacing the smaller family by an equal one. -/
theorem ZExt.congr_left (h : ZExt e x y) (hx : x = x') : ZExt e x' y := hx ▸ h

/-- A sum whose terms past the first `m` are zero is the sum of its first `m` terms. -/
theorem sum_zext_fin {m n : ℕ} (hmn : m ≤ n) (f : Fin m → EReal) (g : Fin n → EReal)
    (h : ∀ k, g (Fin.castLE hmn k) = f k) (h0 : ∀ k : Fin n, m ≤ k.val → g k = 0) : ∑ k, g k = ∑ k, f k := by
  refine (Fintype.sum_of_injective (Fin.castLE hmn) (Fin.castLE_injective hmn) f g (fun k hk => h0 k ?_)
    (fun k => (h k).symm)).symm
  by_contra hlt
  exact hk ⟨⟨k.val, Nat.lt_of_not_le hlt⟩, Fin.ext rfl⟩

end Cert.FakeQuant

end
-- ==== Proof.KerRead.lean ====
/-
  The quantisation, the zero padding and the activation of the kernel's arithmetic read at an index, in the
  vocabulary of extended reals: the folded maximum of absolute values is the largest absolute value, a broadcast
  scalar is that scalar everywhere, a padded array is the array inside and zero outside.
-/
import proofs.«117267_j43508018708617_1_alg».proof.Proof.KerSpec
import proofs.«117267_j43508018708617_1_alg».proof.Proof.LibFakeQuant
import Idealize.ShloMosaic.Lib.KernelVsHost
import Idealize.ShloMosaic.PureOps.Reduce

noncomputable section

open scoped BigOperators

namespace Cert.KerRead

open Idealize.ShloMosaic Idealize.ShloMosaic.ValueIdx Cert.KernelIdeal Cert.KernelIdeal.Gen Cert.KerSpec Cert.FakeQuant

instance : Subsingleton S_.Idx := ⟨fun a b => funext fun d => d.elim0⟩

theorem ofBits_neg_inf : Ideal.ofBits .f32 0xFF800000#32 = ⊥ := by simp [Ideal.ofBits, Ideal.ieee]

/-- The maximum of absolute values folded over every entry, from −∞, is the largest absolute value. -/
theorem reduce_absf {s : Shape} {axes : List (Fin s.rank)} (hr : s.ReducesTo axes S_) (t : FVec Ideal s .f32) (j : S_.Idx) :
    Host.reduce (FloatOps.maximumf (F := Ideal) (φ := .f32)) (Host.absf t) (constant (F := Ideal) S_ .f32 0xFF800000#32) hr h_S_ j = amax t := by
  rw [Host.reduce_eq_fold]
  have hf : (Finset.univ.filter fun i : s.Idx => hr.drop i = j) = Finset.univ :=
    Finset.filter_true_of_mem fun i _ => Subsingleton.elim _ _
  rw [hf]
  show Finset.fold (FloatOps.maximumf (F := Ideal) (φ := .f32)) (Ideal.ofBits .f32 0xFF800000#32) (Host.absf t) Finset.univ = amax t
  rw [ofBits_neg_inf]
  rfl

/-- The scale read at its one index. -/
theorem scale_apply {s : Shape} {axes : List (Fin s.rank)} (hr : s.ReducesTo axes S_) (t : FVec Ideal s .f32) (j : S_.Idx) :
    scale hr t j = sc (amax t) := by
  show max (Ideal.div (Host.reduce (FloatOps.maximumf (F := Ideal) (φ := .f32)) (Host.absf t) (constant (F := Ideal) S_ .f32 0xFF800000#32) hr h_S_ j) c127) ceps = _
  rw [reduce_absf]; rfl

/-- The quantised array read at an index. -/
theorem fq_apply {s : Shape} {axes : List (Fin s.rank)} (hr : s.ReducesTo axes S_)
    (hb : S_.BroadcastsInDim s (![] : Fin 0 → Fin s.rank)) (t : FVec Ideal s .f32) (i : s.Idx) :
    fq hr hb t i = FQ t i := by
  show min (broadcastInDim s ![] hb (id (constant (F := Ideal) S_ .f32 0x42FE0000#32)) i)
      (max (broadcastInDim s ![] hb (id (constant (F := Ideal) S_ .f32 0xC2FE0000#32)) i)
        (Ideal.liftRound Ideal.roundHalfEven (Ideal.div (t i) (broadcastInDim s ![] hb (scale hr t) i))))
      * broadcastInDim s ![] hb (scale hr t) i = _
  rw [broadcastInDim_scalar_apply, broadcastInDim_scalar_apply, broadcastInDim_scalar_apply, scale_apply]
  rfl

theorem fq_eq {s : Shape} {axes : List (Fin s.rank)} (hr : s.ReducesTo axes S_)
    (hb : S_.BroadcastsInDim s (![] : Fin 0 → Fin s.rank)) (t : FVec Ideal s .f32) : fq hr hb t = FQ t :=
  funext (fq_apply hr hb t)

/-- The activation read at an index. -/
theorem silu_apply (x : FVec Ideal S4096x11264 .f32) (i : S4096x11264.Idx) : silu x i = silu1 (x i) := by
  show x i * Ideal.div (broadcastInDim S4096x11264 ![] bcast_S_S4096x11264 (constant (F := Ideal) S_ .f32 0x3F800000#32) i)
    (broadcastInDim S4096x11264 ![] bcast_S_S4096x11264 (constant (F := Ideal) S_ .f32 0x3F800000#32) i + Ideal.exp (-(x i))) = _
  rw [broadcastInDim_scalar_apply]
  rfl

/-- The padding value is zero. -/
theorem padv_apply (j : S_.Idx) : padv j = 0 := by
  show FloatOps.sitofp (F := Ideal) .f32 (0#32) = 0
  simp [FloatOps.sitofp]

end Cert.KerRead

end
-- ==== Proof.RefValue.lean ====
/-
  The reference's result read back as one index-wise function of its seven arguments: every quantisation is `FQ`
  (the largest absolute value, the scale, the clamped rounded quotient times the scale), the gate and up products
  are `∑ k, xq (t, k) * wq (n, k) + b n` over the 10922 hidden units, the activation stage is `actOf`, and the
  down product sums over the 10922 hidden units.
-/
import proofs.«117267_j43508018708617_1_alg».proof.Proof.Gen.ReferenceIdeal.Read
import proofs.«117267_j43508018708617_1_alg».proof.Proof.KerRead

noncomputable section

open scoped BigOperators

namespace Cert.RefValue

open Idealize.ShloMosaic Idealize.ShloMosaic.ValueIdx Cert.FakeQuant
open Cert.ReferenceIdeal Cert.ReferenceIdeal.Gen Cert.ReferenceIdeal.Read

/-- A product of a quantised input with quantised weights plus a bias: entry (t, n) is `∑ k, X (t, k) * w (n, k) + b n`. -/
def gateRaw (X : S4096x4096.Idx → EReal) (w : S10922x4096.Idx → EReal) (b : S10922.Idx → EReal) : S4096x10922.Idx → EReal :=
  fun j => (∑ k : Fin 4096, X (ix2 (⟨(j 0).val, idx2_lt0 j⟩ : Fin 4096) k) * w (ix2 (⟨(j 1).val, idx2_lt1 j⟩ : Fin 10922) k))
    + b (ix1 (⟨(j 1).val, idx2_lt1 j⟩ : Fin 10922))

/-- The reference's result: entry (t, d) is `∑ h, act (t, h) * wdq (d, h) + bd d` over the 10922 hidden units. -/
def ref (x0 : S4096x4096.Idx → EReal) (x1 x2 : S10922x4096.Idx → EReal) (x3 : S4096x10922.Idx → EReal)
    (x4 x5 : S10922.Idx → EReal) (x6 : S4096.Idx → EReal) : S4096x4096.Idx → EReal :=
  fun j => (∑ h : Fin 10922, actOf (gateRaw (FQ x0) (FQ x1) x4) (gateRaw (FQ x0) (FQ x2) x5) (ix2 (⟨(j 0).val, idx2_lt0 j⟩ : Fin 4096) h)
      * FQ x3 (ix2 (⟨(j 1).val, idx2_lt1 j⟩ : Fin 4096) h))
    + x6 (ix1 (⟨(j 1).val, idx2_lt1 j⟩ : Fin 4096))

variable (x0 : S4096x4096.Idx → EReal) (x1 x2 : S10922x4096.Idx → EReal) (x3 : S4096x10922.Idx → EReal)
  (x4 x5 : S10922.Idx → EReal) (x6 : S4096.Idx → EReal)

theorem v9_eq : val_main_v9 (F := Ideal) x0 = FQ x0 :=
  (show val_main_v9 (F := Ideal) x0 = Cert.KerSpec.fq reducesTo_S4096x4096_S_d0_1 bcast_S_S4096x4096 x0 from rfl).trans
    (Cert.KerRead.fq_eq _ _ _)

theorem v19_eq : val_main_v19 (F := Ideal) x1 = FQ x1 :=
  (show val_main_v19 (F := Ideal) x1 = Cert.KerSpec.fq reducesTo_S10922x4096_S_d0_1 bcast_S_S10922x4096 x1 from rfl).trans
    (Cert.KerRead.fq_eq _ _ _)

theorem v43_eq : val_main_v43 (F := Ideal) x2 = FQ x2 :=
  (show val_main_v43 (F := Ideal) x2 = Cert.KerSpec.fq reducesTo_S10922x4096_S_d0_1 bcast_S_S10922x4096 x2 from rfl).trans
    (Cert.KerRead.fq_eq _ _ _)

theorem v79_eq : val_main_v79 (F := Ideal) x3 = FQ x3 :=
  (show val_main_v79 (F := Ideal) x3 = Cert.KerSpec.fq reducesTo_S4096x10922_S_d0_1 bcast_S_S4096x10922 x3 from rfl).trans
    (Cert.KerRead.fq_eq _ _ _)

/-! ## The two index maps of a product are the coordinates -/

theorem lidx20 (j : S4096x10922.Idx) (k : Fin 4096) : lidx_main_v20 j k = ix2 (⟨(j 0).val, idx2_lt0 j⟩ : Fin 4096) k := by
  funext a; match a with | ⟨0, _⟩ => rfl | ⟨1, _⟩ => rfl
theorem ridx20 (j : S4096x10922.Idx) (k : Fin 4096) : ridx_main_v20 j k = ix2 (⟨(j 1).val, idx2_lt1 j⟩ : Fin 10922) k := by
  funext a; match a with | ⟨0, _⟩ => rfl | ⟨1, _⟩ => rfl
theorem lidx44 (j : S4096x10922.Idx) (k : Fin 4096) : lidx_main_v44 j k = ix2 (⟨(j 0).val, idx2_lt0 j⟩ : Fin 4096) k := by
  funext a; match a with | ⟨0, _⟩ => rfl | ⟨1, _⟩ => rfl
theorem ridx44 (j : S4096x10922.Idx) (k : Fin 4096) : ridx_main_v44 j k = ix2 (⟨(j 1).val, idx2_lt1 j⟩ : Fin 10922) k := by
  funext a; match a with | ⟨0, _⟩ => rfl | ⟨1, _⟩ => rfl
theorem lidx80 (j : S4096x4096.Idx) (h : Fin 10922) : lidx_main_v80 j h = ix2 (⟨(j 0).val, idx2_lt0 j⟩ : Fin 4096) h := by
  funext a; match a with | ⟨0, _⟩ => rfl | ⟨1, _⟩ => rfl
theorem ridx80 (j : S4096x4096.Idx) (h : Fin 10922) : ridx_main_v80 j h = ix2 (⟨(j 1).val, idx2_lt1 j⟩ : Fin 4096) h := by
  funext a; match a with | ⟨0, _⟩ => rfl | ⟨1, _⟩ => rfl
theorem bidx22 (j : S4096x10922.Idx) : idx_main_v21 (idx_main_v22 j) = ix1 (⟨(j 1).val, idx2_lt1 j⟩ : Fin 10922) := by
  funext a; match a with | ⟨0, _⟩ => rfl
theorem bidx46 (j : S4096x10922.Idx) : idx_main_v45 (idx_main_v46 j) = ix1 (⟨(j 1).val, idx2_lt1 j⟩ : Fin 10922) := by
  funext a; match a with | ⟨0, _⟩ => rfl
theorem bidx82 (j : S4096x4096.Idx) : idx_main_v81 (idx_main_v82 j) = ix1 (⟨(j 1).val, idx2_lt1 j⟩ : Fin 4096) := by
  funext a; match a with | ⟨0, _⟩ => rfl

/-! ## The stages -/

/-- The gate product before its quantisation. -/
theorem v23_eq : val_main_v23 (F := Ideal) x0 x1 x4 = gateRaw (FQ x0) (FQ x1) x4 := by
  funext j
  rw [val_main_v23_apply, val_main_v20_apply, val_main_v22_apply, val_main_v21_apply, v9_eq, v19_eq]
  unfold gateRaw
  show (∑ k : Fin 4096, FQ x0 (lidx_main_v20 j k) * FQ x1 (ridx_main_v20 j k)) + x4 (idx_main_v21 (idx_main_v22 j)) = _
  simp only [lidx20, ridx20, bidx22]

/-- The up product before its quantisation. -/
theorem v47_eq : val_main_v47 (F := Ideal) x0 x2 x5 = gateRaw (FQ x0) (FQ x2) x5 := by
  funext j
  rw [val_main_v47_apply, val_main_v44_apply, val_main_v46_apply, val_main_v45_apply, v9_eq, v43_eq]
  unfold gateRaw
  show (∑ k : Fin 4096, FQ x0 (lidx_main_v44 j k) * FQ x2 (ridx_main_v44 j k)) + x5 (idx_main_v45 (idx_main_v46 j)) = _
  simp only [lidx44, ridx44, bidx46]

theorem v33_eq : val_main_v33 (F := Ideal) x0 x1 x4 = FQ (val_main_v23 (F := Ideal) x0 x1 x4) :=
  (show val_main_v33 (F := Ideal) x0 x1 x4
      = Cert.KerSpec.fq reducesTo_S4096x10922_S_d0_1 bcast_S_S4096x10922 (val_main_v23 (F := Ideal) x0 x1 x4) from rfl).trans
    (Cert.KerRead.fq_eq _ _ _)

theorem v57_eq : val_main_v57 (F := Ideal) x0 x2 x5 = FQ (val_main_v47 (F := Ideal) x0 x2 x5) :=
  (show val_main_v57 (F := Ideal) x0 x2 x5
      = Cert.KerSpec.fq reducesTo_S4096x10922_S_d0_1 bcast_S_S4096x10922 (val_main_v47 (F := Ideal) x0 x2 x5) from rfl).trans
    (Cert.KerRead.fq_eq _ _ _)

/-- The activation at an index. -/
theorem v58_apply (j : S4096x10922.Idx) :
    val_main_v58 (F := Ideal) x0 x1 x4 j = silu1 (val_main_v33 (F := Ideal) x0 x1 x4 j) := by
  show val_main_v33 (F := Ideal) x0 x1 x4 j * Ideal.div (val_main_call10_v4 (F := Ideal) j)
    (val_main_call10_v2 (F := Ideal) j + Ideal.exp (-(val_main_v33 (F := Ideal) x0 x1 x4 j))) = _
  rw [val_main_call10_v4_apply, val_main_call10_v2_apply]
  rfl

theorem v69_eq : val_main_v69 (F := Ideal) x0 x1 x2 x4 x5
    = actOf (gateRaw (FQ x0) (FQ x1) x4) (gateRaw (FQ x0) (FQ x2) x5) := by
  have h1 : val_main_v69 (F := Ideal) x0 x1 x2 x4 x5 = FQ (val_main_v59 (F := Ideal) x0 x1 x2 x4 x5) :=
    (show val_main_v69 (F := Ideal) x0 x1 x2 x4 x5
        = Cert.KerSpec.fq reducesTo_S4096x10922_S_d0_1 bcast_S_S4096x10922 (val_main_v59 (F := Ideal) x0 x1 x2 x4 x5) from rfl).trans
      (Cert.KerRead.fq_eq _ _ _)
  have h2 : val_main_v59 (F := Ideal) x0 x1 x2 x4 x5
      = fun j => silu1 (FQ (gateRaw (FQ x0) (FQ x1) x4) j) * FQ (gateRaw (FQ x0) (FQ x2) x5) j := by
    funext j
    rw [val_main_v59_apply, v58_apply, v33_eq, v57_eq, v23_eq, v47_eq]
    rfl
  rw [h1, h2]; rfl

/-- The reference's result is `ref` of its arguments. -/
theorem val_main_v83_eq_ref : val_main_v83 (F := Ideal) x0 x1 x2 x3 x4 x5 x6 = ref x0 x1 x2 x3 x4 x5 x6 := by
  funext j
  rw [val_main_v83_apply, val_main_v80_apply, val_main_v82_apply, val_main_v81_apply, v69_eq, v79_eq]
  unfold ref
  show (∑ h : Fin 10922, actOf (gateRaw (FQ x0) (FQ x1) x4) (gateRaw (FQ x0) (FQ x2) x5) (lidx_main_v80 j h)
      * FQ x3 (ridx_main_v80 j h)) + x6 (idx_main_v81 (idx_main_v82 j)) = _
  simp only [lidx80, ridx80, bidx82]

end Cert.RefValue

end
-- ==== Proof.KerPad.lean ====
/-
  The three zero paddings of the hidden axis as extensions by zeros: appended rows, appended columns, appended
  entries; and the gate / up product of zero-extended weights and bias as the zero extension of the product.
-/
import proofs.«117267_j43508018708617_1_alg».proof.Proof.KerRead

noncomputable section

open scoped BigOperators

namespace Cert.KerPad

open Idealize.ShloMosaic Idealize.ShloMosaic.ValueIdx Cert.KernelIdeal Cert.KernelIdeal.Gen Cert.KerSpec Cert.FakeQuant Cert.KerRead

/-- Row `n` of the short array is row `n` of the long one. -/
def eRows (i : S10922x4096.Idx) : S11264x4096.Idx :=
  ix2 (⟨(i 0).val, Nat.lt_of_lt_of_le (idx2_lt0 i) (by decide)⟩ : Fin 11264) (⟨(i 1).val, idx2_lt1 i⟩ : Fin 4096)
/-- Column `h` of the short array is column `h` of the long one. -/
def eCols (i : S4096x10922.Idx) : S4096x11264.Idx :=
  ix2 (⟨(i 0).val, idx2_lt0 i⟩ : Fin 4096) (⟨(i 1).val, Nat.lt_of_lt_of_le (idx2_lt1 i) (by decide)⟩ : Fin 11264)
/-- Entry `n` of the short vector is entry `n` of the long one. -/
def eVec (i : S10922.Idx) : S11264.Idx :=
  ix1 (⟨(i 0).val, Nat.lt_of_lt_of_le (i 0).isLt (by decide)⟩ : Fin 11264)

instance : Nonempty S10922x4096.Idx := ⟨ix2 (0 : Fin 10922) (0 : Fin 4096)⟩
instance : Nonempty S4096x10922.Idx := ⟨ix2 (0 : Fin 4096) (0 : Fin 10922)⟩

theorem eRows_ix2 (n : Fin 10922) (k : Fin 4096) : eRows (ix2 n k) = ix2 (Fin.castLE (by decide) n : Fin 11264) k := rfl
theorem eCols_ix2 (t : Fin 4096) (h : Fin 10922) : eCols (ix2 t h) = ix2 t (Fin.castLE (by decide) h : Fin 11264) := rfl
theorem eVec_ix1 (n : Fin 10922) : eVec (ix1 n) = ix1 (Fin.castLE (by decide) n : Fin 11264) := rfl

/-- An index of the long array past the short one's rows is no image. -/
theorem not_range_eRows (n : Fin 11264) (k : Fin 4096) (hn : 10922 ≤ n.val) : ix2 n k ∉ Set.range eRows := by
  rintro ⟨i, hi⟩
  have h1 : (i 0).val = n.val := congrArg (fun j : S11264x4096.Idx => (j 0).val) hi
  have h0 := idx2_lt0 i
  omega
theorem not_range_eCols (t : Fin 4096) (h : Fin 11264) (hh : 10922 ≤ h.val) : ix2 t h ∉ Set.range eCols := by
  rintro ⟨i, hi⟩
  have h1 : (i 1).val = h.val := congrArg (fun j : S4096x11264.Idx => (j 1).val) hi
  have h0 := idx2_lt1 i
  omega
theorem not_range_eVec (n : Fin 11264) (hn : 10922 ≤ n.val) : ix1 n ∉ Set.range eVec := by
  rintro ⟨i, hi⟩
  have h1 : (i 0).val = n.val := congrArg (fun j : S11264.Idx => (j 0).val) hi
  have h0 : (i 0).val < 10922 := (i 0).isLt
  omega

/-- An index of the long array that is no image lies past the short one's rows. -/
theorem ge_of_not_range_eRows (j : S11264x4096.Idx) (hj : j ∉ Set.range eRows) : 10922 ≤ (j 0).val := by
  by_contra hlt
  refine hj ⟨ix2 (⟨(j 0).val, Nat.lt_of_not_le hlt⟩ : Fin 10922) (⟨(j 1).val, idx2_lt1 j⟩ : Fin 4096), ?_⟩
  funext a; match a with | ⟨0, _⟩ => rfl | ⟨1, _⟩ => rfl
theorem ge_of_not_range_eCols (j : S4096x11264.Idx) (hj : j ∉ Set.range eCols) : 10922 ≤ (j 1).val := by
  by_contra hlt
  refine hj ⟨ix2 (⟨(j 0).val, idx2_lt0 j⟩ : Fin 4096) (⟨(j 1).val, Nat.lt_of_not_le hlt⟩ : Fin 10922), ?_⟩
  funext a; match a with | ⟨0, _⟩ => rfl | ⟨1, _⟩ => rfl
theorem ge_of_not_range_eVec (j : S11264.Idx) (hj : j ∉ Set.range eVec) : 10922 ≤ (j 0).val := by
  by_contra hlt
  refine hj ⟨ix1 (⟨(j 0).val, Nat.lt_of_not_le hlt⟩ : Fin 10922), ?_⟩
  funext a; match a with | ⟨0, _⟩ => rfl

/-- Appending rows of the padding value extends by zeros. -/
theorem padRows_zext (w : FVec Ideal S10922x4096 .f32) : ZExt eRows w (padRows w) := by
  refine ⟨fun i => ?_, fun j hj => ?_⟩
  · refine pad_apply_of_inside _ _ _ w padv pads_S10922x4096_S11264x4096_03420_000 h_S_ (eRows i) i fun a => ?_
    match a with
    | ⟨0, _⟩ => show (i 0).val = 0 + (i 0).val * (0 + 1); omega
    | ⟨1, _⟩ => show (i 1).val = 0 + (i 1).val * (0 + 1); omega
  · have hge := ge_of_not_range_eRows j hj
    refine (pad_apply_of_not_inside _ _ _ w padv pads_S10922x4096_S11264x4096_03420_000 h_S_ j (0 : Fin 2) ?_).trans (padv_apply _)
    show ¬(0 ≤ (j 0).val ∧ ((j 0).val - 0) % (0 + 1) = 0 ∧ ((j 0).val - 0) / (0 + 1) < 10922)
    omega

/-- Appending columns of the padding value extends by zeros. -/
theorem padCols_zext (w : FVec Ideal S4096x10922 .f32) : ZExt eCols w (padCols w) := by
  refine ⟨fun i => ?_, fun j hj => ?_⟩
  · refine pad_apply_of_inside _ _ _ w padv pads_S4096x10922_S4096x11264_000_03420 h_S_ (eCols i) i fun a => ?_
    match a with
    | ⟨0, _⟩ => show (i 0).val = 0 + (i 0).val * (0 + 1); omega
    | ⟨1, _⟩ => show (i 1).val = 0 + (i 1).val * (0 + 1); omega
  · have hge := ge_of_not_range_eCols j hj
    refine (pad_apply_of_not_inside _ _ _ w padv pads_S4096x10922_S4096x11264_000_03420 h_S_ j (1 : Fin 2) ?_).trans (padv_apply _)
    show ¬(0 ≤ (j 1).val ∧ ((j 1).val - 0) % (0 + 1) = 0 ∧ ((j 1).val - 0) / (0 + 1) < 10922)
    omega

/-- Appending entries of the padding value extends by zeros. -/
theorem padVec_zext (b : FVec Ideal S10922 .f32) : ZExt eVec b (padVec b) := by
  refine ⟨fun i => ?_, fun j hj => ?_⟩
  · refine pad_apply_of_inside _ _ _ b padv pads_S10922_S11264_03420 h_S_ (eVec i) i fun a => ?_
    match a with
    | ⟨0, _⟩ => show (i 0).val = 0 + (i 0).val * (0 + 1); omega
  · have hge := ge_of_not_range_eVec j hj
    refine (pad_apply_of_not_inside _ _ _ b padv pads_S10922_S11264_03420 h_S_ j (0 : Fin 1) ?_).trans (padv_apply _)
    show ¬(0 ≤ (j 0).val ∧ ((j 0).val - 0) % (0 + 1) = 0 ∧ ((j 0).val - 0) / (0 + 1) < 10922)
    omega

end Cert.KerPad

end
-- ==== Proof.Bridge.lean ====
/-
  The kernel's function of its arguments is the reference's. The hidden axis is extended from 10922 to 11264 by
  zeros; every stage keeps the extension exact: quantisation commutes with extension by zeros, a product against
  zero rows plus a zero bias is zero, the activation sends zero to zero, and in the last product the appended
  columns contribute zero terms to the sum.
-/
import proofs.«117267_j43508018708617_1_alg».proof.Proof.RefValue
import proofs.«117267_j43508018708617_1_alg».proof.Proof.KerPad

noncomputable section

open scoped BigOperators

namespace Cert.Bridge

open Idealize.ShloMosaic Idealize.ShloMosaic.ValueIdx Cert.KernelIdeal Cert.KernelIdeal.Gen Cert.KerSpec Cert.FakeQuant
  Cert.KerRead Cert.KerPad

/-- A product against weights extended by zero rows, plus a bias extended by zeros, is the product against the short
    weights plus the short bias, extended by zero columns. -/
theorem Lin01_zext (X : FVec Ideal S4096x4096 .bf16) (W : FVec Ideal S11264x4096 .bf16) (B : FVec Ideal S11264 .f32)
    (w : S10922x4096.Idx → EReal) (b : S10922.Idx → EReal) (hW : ZExt eRows w W) (hB : ZExt eVec b B) :
    ZExt eCols (Cert.RefValue.gateRaw X w b) (Lin01 X W B) := by
  refine ⟨fun i => ?_, fun j hj => ?_⟩
  · obtain ⟨t, n, rfl⟩ : ∃ (t : Fin 4096) (n : Fin 10922), i = ix2 t n := ⟨i 0, i 1, eq_ix2 i⟩
    rw [eCols_ix2, Lin01_apply]
    have hw : ∀ k : Fin 4096, W (ix2 (Fin.castLE (by decide) n : Fin 11264) k) = w (ix2 n k) := fun k => by
      rw [← eRows_ix2]; exact hW.1 _
    have hb : B (ix1 (Fin.castLE (by decide) n : Fin 11264)) = b (ix1 n) := by
      rw [← eVec_ix1]; exact hB.1 _
    simp only [hw, hb]
    rfl
  · have hge := ge_of_not_range_eCols j hj
    obtain ⟨t, n, rfl⟩ : ∃ (t : Fin 4096) (n : Fin 11264), j = ix2 t n := ⟨j 0, j 1, eq_ix2 j⟩
    rw [Lin01_apply]
    have hw : ∀ k : Fin 4096, W (ix2 n k) = 0 := fun k => hW.2 _ (not_range_eRows n k hge)
    have hb : B (ix1 n) = 0 := hB.2 _ (not_range_eVec n hge)
    simp only [hw, hb, mul_zero, Finset.sum_const_zero, add_zero]

/-- The first operand of the down product is the activation stage of the two products. -/
theorem k_v82_eq (g u : FVec Ideal S4096x11264 .f32) : k_v82 g u = actOf g u := by
  show fq reducesTo_S4096x11264_S_d0_1 bcast_S_S4096x11264
    (mulf (silu (fq reducesTo_S4096x11264_S_d0_1 bcast_S_S4096x11264 g)) (fq reducesTo_S4096x11264_S_d0_1 bcast_S_S4096x11264 u)) = _
  rw [fq_eq]
  unfold actOf
  refine congrArg FQ (funext fun j => ?_)
  show silu (fq reducesTo_S4096x11264_S_d0_1 bcast_S_S4096x11264 g) j * fq reducesTo_S4096x11264_S_d0_1 bcast_S_S4096x11264 u j = _
  rw [silu_apply, fq_apply, fq_apply]

/-- The kernel's function of its seven arguments is the reference's. -/
theorem ker_eq_ref (x0 : FVec Ideal S4096x4096 .f32) (x1 x2 : FVec Ideal S10922x4096 .f32) (x3 : FVec Ideal S4096x10922 .f32)
    (x4 x5 : FVec Ideal S10922 .f32) (x6 : FVec Ideal S4096 .f32) :
    ker x0 x1 x2 x3 x4 x5 x6 = Cert.ReferenceIdeal.Read.val_main_v83 (F := Ideal) x0 x1 x2 x3 x4 x5 x6 := by
  rw [Cert.RefValue.val_main_v83_eq_ref]
  have hX : k_v45 x0 = FQ x0 :=
    (show k_v45 x0 = fq reducesTo_S4096x4096_S_d0_1 bcast_S_S4096x4096 x0 from rfl).trans (fq_eq _ _ _)
  have hW1 : ZExt eRows (FQ x1) (k_v46 x1) := by
    have e : k_v46 x1 = FQ (padRows x1) :=
      (show k_v46 x1 = fq reducesTo_S11264x4096_S_d0_1 bcast_S_S11264x4096 (padRows x1) from rfl).trans (fq_eq _ _ _)
    rw [e]; exact FQ_zext (padRows_zext x1)
  have hW2 : ZExt eRows (FQ x2) (k_v47 x2) := by
    have e : k_v47 x2 = FQ (padRows x2) :=
      (show k_v47 x2 = fq reducesTo_S11264x4096_S_d0_1 bcast_S_S11264x4096 (padRows x2) from rfl).trans (fq_eq _ _ _)
    rw [e]; exact FQ_zext (padRows_zext x2)
  have hWd : ZExt eCols (FQ x3) (k_v83 x3) := by
    have e : k_v83 x3 = FQ (padCols x3) :=
      (show k_v83 x3 = fq reducesTo_S4096x11264_S_d0_1 bcast_S_S4096x11264 (padCols x3) from rfl).trans (fq_eq _ _ _)
    rw [e]; exact FQ_zext (padCols_zext x3)
  have hG : ZExt eCols (Cert.RefValue.gateRaw (FQ x0) (FQ x1) x4) (Lin01 (k_v45 x0) (k_v46 x1) (k_v3 x4)) :=
    (Lin01_zext (k_v45 x0) (k_v46 x1) (k_v3 x4) (FQ x1) x4 hW1 (padVec_zext x4)).congr_left (by rw [hX])
  have hU : ZExt eCols (Cert.RefValue.gateRaw (FQ x0) (FQ x2) x5) (Lin01 (k_v45 x0) (k_v47 x2) (k_v4 x5)) :=
    (Lin01_zext (k_v45 x0) (k_v47 x2) (k_v4 x5) (FQ x2) x5 hW2 (padVec_zext x5)).congr_left (by rw [hX])
  have hA := actOf_zext hG hU
  funext j
  obtain ⟨t, d, rfl⟩ : ∃ (t : Fin 4096) (d : Fin 4096), j = ix2 t d := ⟨j 0, j 1, eq_ix2 j⟩
  unfold ker
  rw [Lin2_apply, k_v82_eq]
  unfold Cert.RefValue.ref
  refine congrArg (· + x6 (ix1 d)) ?_
  refine sum_zext_fin (by decide : 10922 ≤ 11264) _ _ (fun h => ?_) (fun h hh => ?_)
  · show actOf _ _ (ix2 t (Fin.castLE (by decide) h : Fin 11264)) * k_v83 x3 (ix2 d (Fin.castLE (by decide) h : Fin 11264)) = _
    rw [← eCols_ix2, ← eCols_ix2, hA.1, hWd.1]
  · show actOf _ _ (ix2 t h) * k_v83 x3 (ix2 d h) = 0
    rw [hA.2 _ (not_range_eCols t h hh), zero_mul]

end Cert.Bridge

end
-- ==== Proof.lean ====
/-
  An int8 fake-quantised SwiGLU feed-forward block, kernel against reference, over the extended reals.

  fake_quant(t) = clip(round(t / s), −127, 127) · s with s = max(max|t| / 127, 1e-8), one scale per array.  The reference
  computes  out = act · fq(wd)ᵀ + bd  with  act = fq(silu(gate) · up),  gate = fq(xq · fq(wg)ᵀ + bg),
  up = fq(xq · fq(wu)ᵀ + bu),  xq = fq(x),  over a hidden axis of 10922.  The kernel pads the hidden axis with zeros to
  11264, applies the same steps to the padded arrays, and computes each of the three products  x · wᵀ + b  in a region of
  1024 × 1024 blocks, accumulating over the blocks of the contracted axis in a buffer kept between grid points and
  adding the bias at the last step.

  Why the two agree, index by index:  a block-wise accumulated product is the whole product (addition of extended reals
  is commutative and associative);  zero padding does not change the largest absolute value of a non-empty array, and
  0 / s, round 0, clip 0 and 0 · s are 0, so quantisation commutes with the padding;  a padded row of a weight matrix
  gives the product 0 and the padded bias adds 0;  silu(0) · u = 0;  and the padded columns contribute nothing to the
  last contraction.  No input needs to be finite for any of these steps.

  The frames:  each kernel program's run is assembled from one record per region (the body's run in its three control
  cases, the accumulator's contents after each grid point as the region's invariant) over the host stretches between
  them;  the reference's run is its generated one.  The ideal pass rewrote nothing, so there is nothing to preserve.
-/
import proofs.«117267_j43508018708617_1_alg».proof.Defs
import proofs.«117267_j43508018708617_1_alg».proof.Proof.Gen.Kernel
import proofs.«117267_j43508018708617_1_alg».proof.Proof.Gen.KernelIdeal
import proofs.«117267_j43508018708617_1_alg».proof.Proof.Gen.ReferenceIdeal
import proofs.«117267_j43508018708617_1_alg».proof.Proof.Gen.Pre_finite_inputs
import proofs.«117267_j43508018708617_1_alg».proof.Proof.Gen.ReferenceIdeal.Run
import proofs.«117267_j43508018708617_1_alg».proof.Proof.Gen.ReferenceIdeal.Read
import proofs.«117267_j43508018708617_1_alg».proof.Proof.KFrame
import proofs.«117267_j43508018708617_1_alg».proof.Proof.KIFrame
import proofs.«117267_j43508018708617_1_alg».proof.Proof.KIValue
import proofs.«117267_j43508018708617_1_alg».proof.Proof.Bridge
import Idealize.ShloMosaic.Adequacy
import Idealize.ShloMosaic.Init

noncomputable section

namespace Cert.Proof

open Idealize.ShloMosaic Idealize.ShloMosaic.TcCoe Idealize.SL.Sem

/-- The word-level kernel runs to the end, faults nowhere, and leaves its arguments as launched. -/
theorem frame_kernel : Cert.frame_Kernel := fun m ρ _ => Cert.Kernel.Fr.frame m ρ

/-- So does the idealized kernel. -/
theorem frame_kernelIdeal : Cert.frame_KernelIdeal := fun m ρ _ => Cert.KernelIdeal.Fr.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- At the extended reals the kernel's result array is `ker` of the arguments and the reference's its own composed term
    of arguments that agree; the two are one function. -/
theorem algebraic : Cert.algebraic_KernelIdeal_ReferenceIdeal := by
  intro m ρ m' ρ' _ hagree
  refine ⟨fun c => Cert.KerSpec.ker (Cert.KernelIdeal.FrW.A0 m c) (Cert.KernelIdeal.FrW.A1 m c) (Cert.KernelIdeal.FrW.A2 m c)
    (Cert.KernelIdeal.FrW.A3 m c) (Cert.KernelIdeal.FrW.A4 m c) (Cert.KernelIdeal.FrW.A5 m c) (Cert.KernelIdeal.FrW.A6 m c), ?_, ?_⟩
  · exact (θ_run Cert.KernelIdeal.defs _ _).mono
      (fun r h c => ⟨(h c).1.trans (Cert.KernelIdeal.FrW.kernel_value m c), (h c).2⟩)
      (Cert.KernelIdeal.Fr.run_result (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v83_eq, (hagree c).1, (hagree c).2.1, (hagree c).2.2.1, (hagree c).2.2.2.1,
      (hagree c).2.2.2.2.1, (hagree c).2.2.2.2.2.1, (hagree c).2.2.2.2.2.2]
    exact (Cert.Bridge.ker_eq_ref _ _ _ _ _ _ _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
